-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x50x512 : Shape := ⟨3, ![1024, 50, 512]⟩
abbrev S50000x512 : Shape := ⟨2, ![50000, 512]⟩
abbrev S500000x512 : Shape := ⟨2, ![500000, 512]⟩
abbrev S_ : Shape := ⟨0, ![]⟩

class Facts : Prop where
  bcast_S_S1024x50x512 : S_.BroadcastsInDim S1024x50x512 (![] : Fin 0 → Fin S1024x50x512.rank)
  reducesTo_S1024x50x512_S_d0_1_2 : S1024x50x512.ReducesTo [0, 1, 2] S_
  h_S_ : 0 < S_.numel
  bcast_S_S50000x512 : S_.BroadcastsInDim S50000x512 (![] : Fin 0 → Fin S50000x512.rank)
  reducesTo_S50000x512_S_d0_1 : S50000x512.ReducesTo [0, 1] S_
  bcast_S_S500000x512 : S_.BroadcastsInDim S500000x512 (![] : Fin 0 → Fin S500000x512.rank)
  reducesTo_S500000x512_S_d0_1 : S500000x512.ReducesTo [0, 1] S_

variable [Facts]

def fn {F : FTy → Type} [FloatOps F] (main_arg0 : FVec F S1024x50x512 .f32) (main_arg1 : FVec F S50000x512 .f32) (main_arg2 : FVec F S500000x512 .f32) : IVec S_ 1 :=
  let main_v0 : FVec F S1024x50x512 .f32 := Host.absf main_arg0
  let main_cst : FVec F S_ .f32 := constant S_ .f32 0x7F800000#32
  let main_v1 : FVec F S1024x50x512 .f32 := broadcastInDim S1024x50x512 ![] bcast_S_S1024x50x512 main_cst
  let main_v2 : IVec S1024x50x512 1 := cmpf .olt main_v0 main_v1
  let main_c : IVec S_ 1 := constantI S_ 1 1#1
  let main_v3 : IVec S_ 1 := (fun x v => Host.reduce IntOp.andi x v reducesTo_S1024x50x512_S_d0_1_2 h_S_) main_v2 main_c
  let main_v4 : FVec F S50000x512 .f32 := Host.absf main_arg1
  let main_cst_0 : FVec F S_ .f32 := constant S_ .f32 0x7F800000#32
  let main_v5 : FVec F S50000x512 .f32 := broadcastInDim S50000x512 ![] bcast_S_S50000x512 main_cst_0
  let main_v6 : IVec S50000x512 1 := cmpf .olt main_v4 main_v5
  let main_c_1 : IVec S_ 1 := constantI S_ 1 1#1
  let main_v7 : IVec S_ 1 := (fun x v => Host.reduce IntOp.andi x v reducesTo_S50000x512_S_d0_1 h_S_) main_v6 main_c_1
  let main_v8 : IVec S_ 1 := andi main_v3 main_v7
  let main_v9 : FVec F S500000x512 .f32 := Host.absf main_arg2
  let main_cst_2 : FVec F S_ .f32 := constant S_ .f32 0x7F800000#32
  let main_v10 : FVec F S500000x512 .f32 := broadcastInDim S500000x512 ![] bcast_S_S500000x512 main_cst_2
  let main_v11 : IVec S500000x512 1 := cmpf .olt main_v9 main_v10
  let main_c_3 : IVec S_ 1 := constantI S_ 1 1#1
  let main_v12 : IVec S_ 1 := (fun x v => Host.reduce IntOp.andi x v reducesTo_S500000x512_S_d0_1 h_S_) main_v11 main_c_3
  let main_v13 : IVec S_ 1 := andi main_v8 main_v12
  main_v13
-- ==== Kernel.lean ====
abbrev S1024x50x512 : Shape := ⟨3, ![1024, 50, 512]⟩
abbrev S50000x512 : Shape := ⟨2, ![50000, 512]⟩
abbrev S500000x512 : Shape := ⟨2, ![500000, 512]⟩
abbrev S384x50x512 : Shape := ⟨3, ![384, 50, 512]⟩
abbrev S1x50x512 : Shape := ⟨3, ![1, 50, 512]⟩
abbrev S_ : Shape := ⟨0, ![]⟩
abbrev S640x50x512 : Shape := ⟨3, ![640, 50, 512]⟩
abbrev S8x64x50x512 : Shape := ⟨4, ![8, 64, 50, 512]⟩
abbrev S8 : Shape := ⟨1, ![8]⟩
abbrev S1 : Shape := ⟨1, ![1]⟩
abbrev S1x64x50x512 : Shape := ⟨4, ![1, 64, 50, 512]⟩
abbrev S64x50x512 : Shape := ⟨3, ![64, 50, 512]⟩

abbrev nBuf : Table → Nat
  | .hbm => 6
  | .local .tc .vmem => 1
  | .local .scVector .vmem => 4
  | _ => 0

abbrev bufTy : (tb : Table) → Fin (nBuf tb) → BufTy
  | .hbm, ⟨0, _⟩ => ⟨S1024x50x512, .f32⟩
  | .hbm, ⟨1, _⟩ => ⟨S50000x512, .f32⟩
  | .hbm, ⟨2, _⟩ => ⟨S500000x512, .f32⟩
  | .hbm, ⟨3, _⟩ => ⟨S384x50x512, .f32⟩
  | .hbm, ⟨4, _⟩ => ⟨S640x50x512, .f32⟩
  | .hbm, ⟨5, _⟩ => ⟨S1024x50x512, .f32⟩
  | .local .tc .vmem, ⟨0, _⟩ => ⟨S8x64x50x512, .f32⟩
  | .local .scVector .vmem, ⟨0, _⟩ => ⟨S1x50x512, .f32⟩
  | .local .scVector .vmem, ⟨1, _⟩ => ⟨S1x50x512, .f32⟩
  | .local .scVector .vmem, ⟨2, _⟩ => ⟨S1x50x512, .f32⟩
  | .local .scVector .vmem, ⟨3, _⟩ => ⟨S1x50x512, .f32⟩
  | _, _ => ⟨S1024x50x512, .f32⟩

abbrev bufScoped : (cs : CoreSpace) → Fin (nBuf (.local .tc cs)) → Bool
  | .vmem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 24 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTables nBuf rfl bufTy 4 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg0_scv : Ref sig .scVector := ⟨.hbm, 0, rfl⟩
abbrev main_v0_scv : Ref sig .scVector := ⟨.hbm, 3, rfl⟩
abbrev cc1_scratch0 : Ref sig .tc := ⟨.vmem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let v3 : BitVec 32 := Scalar.addi v2 c0_i32
  let c0_i32_0 : BitVec 32 := 0#32
  let c0_i32_1 : BitVec 32 := 0#32
  ![v3.toNat, 0, 0]
def k0_off2 (i : grid0.Coords) (c0_i32_18 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32 : BitVec 32 := 12#32
  let v2 : BitVec 32 := Scalar.muli v1 c12_i32
  let v15 : BitVec 32 := Scalar.addi v2 c0_i32_18
  let c0_i32_19 : BitVec 32 := 0#32
  let c0_i32_20 : BitVec 32 := 0#32
  ![v15.toNat, 0, 0]
abbrev grid1 : Pipeline.Grid := .none

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S8_S1_0 : ∀ a, (![0] : Fin 1 → Nat) a + S1.size a ≤ S8.size a
  squeezes_S1_S_ : S1.Squeezes S_
  inb_S8x64x50x512_S1x64x50x512_0_0_0_0 : ∀ a, (![0, 0, 0, 0] : Fin 4 → Nat) a + S1x64x50x512.size a ≤ S8x64x50x512.size a
  squeezes_S1x64x50x512_S64x50x512 : S1x64x50x512.Squeezes S64x50x512
  inb_S1024x50x512_S64x50x512_384_0_0 : ∀ a, (![384, 0, 0] : Fin 3 → Nat) a + S64x50x512.size a ≤ S1024x50x512.size a
  inb_S8_S1_1 : ∀ a, (![1] : Fin 1 → Nat) a + S1.size a ≤ S8.size a
  inb_S8x64x50x512_S1x64x50x512_1_0_0_0 : ∀ a, (![1, 0, 0, 0] : Fin 4 → Nat) a + S1x64x50x512.size a ≤ S8x64x50x512.size a
  inb_S1024x50x512_S64x50x512_448_0_0 : ∀ a, (![448, 0, 0] : Fin 3 → Nat) a + S64x50x512.size a ≤ S1024x50x512.size a
  inb_S8_S1_2 : ∀ a, (![2] : Fin 1 → Nat) a + S1.size a ≤ S8.size a
  inb_S8x64x50x512_S1x64x50x512_2_0_0_0 : ∀ a, (![2, 0, 0, 0] : Fin 4 → Nat) a + S1x64x50x512.size a ≤ S8x64x50x512.size a
  inb_S1024x50x512_S64x50x512_512_0_0 : ∀ a, (![512, 0, 0] : Fin 3 → Nat) a + S64x50x512.size a ≤ S1024x50x512.size a
  inb_S8_S1_3 : ∀ a, (![3] : Fin 1 → Nat) a + S1.size a ≤ S8.size a
  inb_S8x64x50x512_S1x64x50x512_3_0_0_0 : ∀ a, (![3, 0, 0, 0] : Fin 4 → Nat) a + S1x64x50x512.size a ≤ S8x64x50x512.size a
  inb_S1024x50x512_S64x50x512_576_0_0 : ∀ a, (![576, 0, 0] : Fin 3 → Nat) a + S64x50x512.size a ≤ S1024x50x512.size a
  inb_S8_S1_4 : ∀ a, (![4] : Fin 1 → Nat) a + S1.size a ≤ S8.size a
  inb_S8x64x50x512_S1x64x50x512_4_0_0_0 : ∀ a, (![4, 0, 0, 0] : Fin 4 → Nat) a + S1x64x50x512.size a ≤ S8x64x50x512.size a
  inb_S1024x50x512_S64x50x512_640_0_0 : ∀ a, (![640, 0, 0] : Fin 3 → Nat) a + S64x50x512.size a ≤ S1024x50x512.size a
  inb_S640x50x512_S64x50x512_0_0_0 : ∀ a, (![0, 0, 0] : Fin 3 → Nat) a + S64x50x512.size a ≤ S640x50x512.size a
  inb_S8_S1_5 : ∀ a, (![5] : Fin 1 → Nat) a + S1.size a ≤ S8.size a
  inb_S8x64x50x512_S1x64x50x512_5_0_0_0 : ∀ a, (![5, 0, 0, 0] : Fin 4 → Nat) a + S1x64x50x512.size a ≤ S8x64x50x512.size a
  inb_S1024x50x512_S64x50x512_704_0_0 : ∀ a, (![704, 0, 0] : Fin 3 → Nat) a + S64x50x512.size a ≤ S1024x50x512.size a
  inb_S640x50x512_S64x50x512_64_0_0 : ∀ a, (![64, 0, 0] : Fin 3 → Nat) a + S64x50x512.size a ≤ S640x50x512.size a
  inb_S8_S1_6 : ∀ a, (![6] : Fin 1 → Nat) a + S1.size a ≤ S8.size a
  inb_S8x64x50x512_S1x64x50x512_6_0_0_0 : ∀ a, (![6, 0, 0, 0] : Fin 4 → Nat) a + S1x64x50x512.size a ≤ S8x64x50x512.size a
  inb_S1024x50x512_S64x50x512_768_0_0 : ∀ a, (![768, 0, 0] : Fin 3 → Nat) a + S64x50x512.size a ≤ S1024x50x512.size a
  inb_S640x50x512_S64x50x512_128_0_0 : ∀ a, (![128, 0, 0] : Fin 3 → Nat) a + S64x50x512.size a ≤ S640x50x512.size a
  inb_S8_S1_7 : ∀ a, (![7] : Fin 1 → Nat) a + S1.size a ≤ S8.size a
  inb_S8x64x50x512_S1x64x50x512_7_0_0_0 : ∀ a, (![7, 0, 0, 0] : Fin 4 → Nat) a + S1x64x50x512.size a ≤ S8x64x50x512.size a
  inb_S1024x50x512_S64x50x512_832_0_0 : ∀ a, (![832, 0, 0] : Fin 3 → Nat) a + S64x50x512.size a ≤ S1024x50x512.size a
  inb_S640x50x512_S64x50x512_192_0_0 : ∀ a, (![192, 0, 0] : Fin 3 → Nat) a + S64x50x512.size a ≤ S640x50x512.size a
  inb_S1024x50x512_S64x50x512_896_0_0 : ∀ a, (![896, 0, 0] : Fin 3 → Nat) a + S64x50x512.size a ≤ S1024x50x512.size a
  inb_S640x50x512_S64x50x512_256_0_0 : ∀ a, (![256, 0, 0] : Fin 3 → Nat) a + S64x50x512.size a ≤ S640x50x512.size a
  inb_S1024x50x512_S64x50x512_960_0_0 : ∀ a, (![960, 0, 0] : Fin 3 → Nat) a + S64x50x512.size a ≤ S1024x50x512.size a
  inb_S640x50x512_S64x50x512_320_0_0 : ∀ a, (![320, 0, 0] : Fin 3 → Nat) a + S64x50x512.size a ≤ S640x50x512.size a
  inb_S640x50x512_S64x50x512_384_0_0 : ∀ a, (![384, 0, 0] : Fin 3 → Nat) a + S64x50x512.size a ≤ S640x50x512.size a
  inb_S640x50x512_S64x50x512_448_0_0 : ∀ a, (![448, 0, 0] : Fin 3 → Nat) a + S64x50x512.size a ≤ S640x50x512.size a
  inb_S640x50x512_S64x50x512_512_0_0 : ∀ a, (![512, 0, 0] : Fin 3 → Nat) a + S64x50x512.size a ≤ S640x50x512.size a
  inb_S640x50x512_S64x50x512_576_0_0 : ∀ a, (![576, 0, 0] : Fin 3 → Nat) a + S64x50x512.size a ≤ S640x50x512.size a
  concatenates_S384x50x512_S640x50x512_S1024x50x512_d0 : Shape.Concatenates [S384x50x512, S640x50x512] S1024x50x512 0
  hcc0_scratch4 : 0 + S_.numel ≤ 24
  hcc0_scratch5 : 1 + S_.numel ≤ 24
  hcc0_scratch6 : 2 + S_.numel ≤ 24
  hcc0_scratch7 : 3 + S_.numel ≤ 24
  hcc0_scratch8 : 4 + S_.numel ≤ 24
  hcc0_scratch9 : 5 + S_.numel ≤ 24
  hcc0_scratch10 : 6 + S_.numel ≤ 24
  hcc0_scratch11 : 7 + S_.numel ≤ 24
  hcc1_scratch1 : 8 + S8.numel ≤ 24
  hcc1_scratch2 : 16 + S8.numel ≤ 24
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 12), ∀ a, (k0_off1 i (BitVec.ofNat 32 r.val)) a + S1x50x512.size a ≤ S1024x50x512.size a
  k0_off2_inb : ∀ i : grid0.Coords, ∀ (r : Fin 12), ∀ a, (k0_off2 i (BitVec.ofNat 32 r.val)) a + S1x50x512.size a ≤ S384x50x512.size a

variable [Facts₀]

abbrev cc0_scratch4 : DmaSems sig S_ := SemArray.consecutive 0 S_ hcc0_scratch4
abbrev cc0_scratch5 : DmaSems sig S_ := SemArray.consecutive 1 S_ hcc0_scratch5
abbrev cc0_scratch6 : DmaSems sig S_ := SemArray.consecutive 2 S_ hcc0_scratch6
abbrev cc0_scratch7 : DmaSems sig S_ := SemArray.consecutive 3 S_ hcc0_scratch7
abbrev cc0_scratch8 : DmaSems sig S_ := SemArray.consecutive 4 S_ hcc0_scratch8
abbrev cc0_scratch9 : DmaSems sig S_ := SemArray.consecutive 5 S_ hcc0_scratch9
abbrev cc0_scratch10 : DmaSems sig S_ := SemArray.consecutive 6 S_ hcc0_scratch10
abbrev cc0_scratch11 : DmaSems sig S_ := SemArray.consecutive 7 S_ hcc0_scratch11
abbrev cc1_scratch1 : DmaSems sig S8 := SemArray.consecutive 8 S8 hcc1_scratch1
abbrev cc1_scratch2 : DmaSems sig S8 := SemArray.consecutive 16 S8 hcc1_scratch2

abbrev win1 : Fin 0 → Pipeline.Window sig grid1 := Fin.elim0
abbrev spec1 : Fin 0 → Pipeline.WinSpec sig grid1.rank := Fin.elim0

class Facts : Prop extends Facts₀ where

variable [Facts]
-- ==== ReferenceIdeal.lean ====
abbrev S1024x50x512 : Shape := ⟨3, ![1024, 50, 512]⟩
abbrev S50000x512 : Shape := ⟨2, ![50000, 512]⟩
abbrev S500000x512 : Shape := ⟨2, ![500000, 512]⟩

abbrev nBuf : Space → Nat
  | .hbm => 3
  | .vmem => 0
  | .smem => 0
  | _ => 0

abbrev bufTy : (tb : Table) → Fin (tcTables nBuf tb) → BufTy
  | .hbm, ⟨0, _⟩ => ⟨S1024x50x512, .f32⟩
  | .hbm, ⟨1, _⟩ => ⟨S50000x512, .f32⟩
  | .hbm, ⟨2, _⟩ => ⟨S500000x512, .f32⟩
  | _, _ => ⟨S1024x50x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩

abbrev nD : Nat := 1
abbrev τ : Topo := Topo.v7x

variable {F : FTy → Type} [FloatOps F]

class Facts₀ : Prop where

variable [Facts₀]

class Facts : Prop extends Facts₀ where

variable [Facts]
-- ==== Proof.KI.Base.lean ====
/-
  The idealized kernel as the SparseCore launch theorem sees it: the program's label signature with its one
  TensorCore pallas_call, the SparseCore configuration, the body table below the SparseCore dispatch, the
  termination measures, and the ghost state — the launch handshakes' rounds beside the counters that the
  kernels' own local copies are tracked with (every copy of this program is issued and awaited by one thread
  on a semaphore of its own, one copy at a time per semaphore, so no schedule is needed).
-/
import proofs.«212309_g71296457113957_cont_9to1_m_186_18_alg».proof.Defs
import Idealize.ShloMosaic.Lib.SparseCore.Launch
import Idealize.ShloMosaic.Lib.StableHlo.Run
import Idealize.ShloMosaic.Lib.Pipeline.Kit
import Idealize.ShloMosaic.Lib.Tactic
import proofs.«212309_g71296457113957_cont_9to1_m_186_18_alg».proof.Proof.Gen.KernelIdeal
import proofs.«212309_g71296457113957_cont_9to1_m_186_18_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

/-- The handshakes' rounds: the left factor; the counters are found by instance in the right. -/
abbrev EH : Emb UH (MT nD τ sig (HIx 1) (Elt F) ℕ UU ℕ) := embL

/-- The argument `x`, the SparseCore's part of the result, the TensorCore's part, and the result, as locations of device `d`. -/
abbrev xLoc (d : Dev nD) : Loc nD τ sig := (SparseCore.T d).loc main_arg0
abbrev aLoc (d : Dev nD) : Loc nD τ sig := (SparseCore.T d).loc main_v0
abbrev bLoc (d : Dev nD) : Loc nD τ sig := (SparseCore.T d).loc main_v1
abbrev rLoc (d : Dev nD) : Loc nD τ sig := (SparseCore.T d).loc main_v2

/-- An index into the first 384 rows, as an index of the whole array: the same coordinates. -/
def upA (i : S384x50x512.Idx) : S1024x50x512.Idx := fun a =>
  ⟨(i a).val, by
    have h := (i a).isLt
    match a with
    | 0 => exact Nat.lt_of_lt_of_le h (by decide)
    | 1 => exact h
    | 2 => exact h⟩

/-- An index into the last 640 rows, as an index of the whole array: the row 384 further down. -/
def upB (i : S640x50x512.Idx) : S1024x50x512.Idx := fun a =>
  match a with
  | 0 => ⟨(i 0).val + 384, by have h := (i 0).isLt; have : S640x50x512.size 0 = 640 := rfl; have : S1024x50x512.size 0 = 1024 := rfl; omega⟩
  | 1 => ⟨(i 1).val, (i 1).isLt⟩
  | 2 => ⟨(i 2).val, (i 2).isLt⟩

/-- Rows 0 … 383 of an array of 1024 rows: what the SparseCore's tiles copy. -/
def headRows (d : Dev nD) (fx : Buf (Elt F) (xLoc d)) : Buf (Elt F) (aLoc d) := fun i => fx (upA i)

/-- Rows 384 … 1023: what the TensorCore's kernel copies. -/
def tailRows (d : Dev nD) (fx : Buf (Elt F) (xLoc d)) : Buf (Elt F) (bLoc d) := fun i => fx (upB i)

end Cert.Proof.KI

end
-- ==== Proof.KI.Tile.lean ====
/-
  One vector subcore's task: twelve rows of `x` — rows 24·s + 12·c + r of the array, for subcore `s` of SparseCore `c` —
  are copied into the same rows of the 384-row result array, each through one of four row-sized scratch buffers:
  row r is fetched into scratch r mod 4 and written out from there, every copy issued and awaited by the subcore
  itself on a semaphore that carries no other copy at that time, and a scratch is refilled only after its
  write-out has been awaited. So what the task leaves in its rows of the result is `x`'s rows, element by element.
-/
import proofs.«212309_g71296457113957_cont_9to1_m_186_18_alg».proof.Proof.KI.Base

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

/-! ## The memrefs, spelt as the body table passes them and as the body slices them -/

abbrev xV : Memref sig .scVector .hbm S1024x50x512 .f32 := Memref.whole main_arg0_scv
abbrev aV : Memref sig .scVector .hbm S384x50x512 .f32 := Memref.whole main_v0_scv
abbrev s0 : Memref sig .scVector .vmem S1x50x512 .f32 := Memref.whole cc0_scratch0
abbrev s1 : Memref sig .scVector .vmem S1x50x512 .f32 := Memref.whole cc0_scratch1
abbrev s2 : Memref sig .scVector .vmem S1x50x512 .f32 := Memref.whole cc0_scratch2
abbrev s3 : Memref sig .scVector .vmem S1x50x512 .f32 := Memref.whole cc0_scratch3

/-- Row `r` of the task at grid point `L`, in `x` and in the result: the slice the body makes. -/
abbrev xRow (L : grid0.Coords) (r : Fin 12) : Memref sig .scVector .hbm S1x50x512 .f32 :=
  (xV).slice (Rect.unit (s := S1024x50x512) (k0_off1 L (BitVec.ofNat 32 r.val)) S1x50x512.size (k0_off1_inb L r)) (fun _ => rfl)
abbrev aRow (L : grid0.Coords) (r : Fin 12) : Memref sig .scVector .hbm S1x50x512 .f32 :=
  (aV).slice (Rect.unit (s := S384x50x512) (k0_off2 L (BitVec.ofNat 32 r.val)) S1x50x512.size (k0_off2_inb L r)) (fun _ => rfl)
abbrev xRow0 (L : grid0.Coords) : Memref sig .scVector .hbm S1x50x512 .f32 := (xV).slice (Rect.unit (s := S1024x50x512) (k0_off1 L 0#32) S1x50x512.size (k0_off1_inb L 0)) (fun _ => rfl)
abbrev aRow0 (L : grid0.Coords) : Memref sig .scVector .hbm S1x50x512 .f32 := (aV).slice (Rect.unit (s := S384x50x512) (k0_off2 L 0#32) S1x50x512.size (k0_off2_inb L 0)) (fun _ => rfl)
abbrev xRow1 (L : grid0.Coords) : Memref sig .scVector .hbm S1x50x512 .f32 := (xV).slice (Rect.unit (s := S1024x50x512) (k0_off1 L 1#32) S1x50x512.size (k0_off1_inb L 1)) (fun _ => rfl)
abbrev aRow1 (L : grid0.Coords) : Memref sig .scVector .hbm S1x50x512 .f32 := (aV).slice (Rect.unit (s := S384x50x512) (k0_off2 L 1#32) S1x50x512.size (k0_off2_inb L 1)) (fun _ => rfl)
abbrev xRow2 (L : grid0.Coords) : Memref sig .scVector .hbm S1x50x512 .f32 := (xV).slice (Rect.unit (s := S1024x50x512) (k0_off1 L 2#32) S1x50x512.size (k0_off1_inb L 2)) (fun _ => rfl)
abbrev aRow2 (L : grid0.Coords) : Memref sig .scVector .hbm S1x50x512 .f32 := (aV).slice (Rect.unit (s := S384x50x512) (k0_off2 L 2#32) S1x50x512.size (k0_off2_inb L 2)) (fun _ => rfl)
abbrev xRow3 (L : grid0.Coords) : Memref sig .scVector .hbm S1x50x512 .f32 := (xV).slice (Rect.unit (s := S1024x50x512) (k0_off1 L 3#32) S1x50x512.size (k0_off1_inb L 3)) (fun _ => rfl)
abbrev aRow3 (L : grid0.Coords) : Memref sig .scVector .hbm S1x50x512 .f32 := (aV).slice (Rect.unit (s := S384x50x512) (k0_off2 L 3#32) S1x50x512.size (k0_off2_inb L 3)) (fun _ => rfl)
abbrev xRow4 (L : grid0.Coords) : Memref sig .scVector .hbm S1x50x512 .f32 := (xV).slice (Rect.unit (s := S1024x50x512) (k0_off1 L 4#32) S1x50x512.size (k0_off1_inb L 4)) (fun _ => rfl)
abbrev aRow4 (L : grid0.Coords) : Memref sig .scVector .hbm S1x50x512 .f32 := (aV).slice (Rect.unit (s := S384x50x512) (k0_off2 L 4#32) S1x50x512.size (k0_off2_inb L 4)) (fun _ => rfl)
abbrev xRow5 (L : grid0.Coords) : Memref sig .scVector .hbm S1x50x512 .f32 := (xV).slice (Rect.unit (s := S1024x50x512) (k0_off1 L 5#32) S1x50x512.size (k0_off1_inb L 5)) (fun _ => rfl)
abbrev aRow5 (L : grid0.Coords) : Memref sig .scVector .hbm S1x50x512 .f32 := (aV).slice (Rect.unit (s := S384x50x512) (k0_off2 L 5#32) S1x50x512.size (k0_off2_inb L 5)) (fun _ => rfl)
abbrev xRow6 (L : grid0.Coords) : Memref sig .scVector .hbm S1x50x512 .f32 := (xV).slice (Rect.unit (s := S1024x50x512) (k0_off1 L 6#32) S1x50x512.size (k0_off1_inb L 6)) (fun _ => rfl)
abbrev aRow6 (L : grid0.Coords) : Memref sig .scVector .hbm S1x50x512 .f32 := (aV).slice (Rect.unit (s := S384x50x512) (k0_off2 L 6#32) S1x50x512.size (k0_off2_inb L 6)) (fun _ => rfl)
abbrev xRow7 (L : grid0.Coords) : Memref sig .scVector .hbm S1x50x512 .f32 := (xV).slice (Rect.unit (s := S1024x50x512) (k0_off1 L 7#32) S1x50x512.size (k0_off1_inb L 7)) (fun _ => rfl)
abbrev aRow7 (L : grid0.Coords) : Memref sig .scVector .hbm S1x50x512 .f32 := (aV).slice (Rect.unit (s := S384x50x512) (k0_off2 L 7#32) S1x50x512.size (k0_off2_inb L 7)) (fun _ => rfl)
abbrev xRow8 (L : grid0.Coords) : Memref sig .scVector .hbm S1x50x512 .f32 := (xV).slice (Rect.unit (s := S1024x50x512) (k0_off1 L 8#32) S1x50x512.size (k0_off1_inb L 8)) (fun _ => rfl)
abbrev aRow8 (L : grid0.Coords) : Memref sig .scVector .hbm S1x50x512 .f32 := (aV).slice (Rect.unit (s := S384x50x512) (k0_off2 L 8#32) S1x50x512.size (k0_off2_inb L 8)) (fun _ => rfl)
abbrev xRow9 (L : grid0.Coords) : Memref sig .scVector .hbm S1x50x512 .f32 := (xV).slice (Rect.unit (s := S1024x50x512) (k0_off1 L 9#32) S1x50x512.size (k0_off1_inb L 9)) (fun _ => rfl)
abbrev aRow9 (L : grid0.Coords) : Memref sig .scVector .hbm S1x50x512 .f32 := (aV).slice (Rect.unit (s := S384x50x512) (k0_off2 L 9#32) S1x50x512.size (k0_off2_inb L 9)) (fun _ => rfl)
abbrev xRow10 (L : grid0.Coords) : Memref sig .scVector .hbm S1x50x512 .f32 := (xV).slice (Rect.unit (s := S1024x50x512) (k0_off1 L 10#32) S1x50x512.size (k0_off1_inb L 10)) (fun _ => rfl)
abbrev aRow10 (L : grid0.Coords) : Memref sig .scVector .hbm S1x50x512 .f32 := (aV).slice (Rect.unit (s := S384x50x512) (k0_off2 L 10#32) S1x50x512.size (k0_off2_inb L 10)) (fun _ => rfl)
abbrev xRow11 (L : grid0.Coords) : Memref sig .scVector .hbm S1x50x512 .f32 := (xV).slice (Rect.unit (s := S1024x50x512) (k0_off1 L 11#32) S1x50x512.size (k0_off1_inb L 11)) (fun _ => rfl)
abbrev aRow11 (L : grid0.Coords) : Memref sig .scVector .hbm S1x50x512 .f32 := (aV).slice (Rect.unit (s := S384x50x512) (k0_off2 L 11#32) S1x50x512.size (k0_off2_inb L 11)) (fun _ => rfl)

abbrev cV (L : grid0.Coords) : Fin τ.nSC := (L 0).castLE hcore0
abbrev jV (L : grid0.Coords) : Fin τ.nSub := (L 1).castLE hsub0
/-- The subcore's thread. -/
abbrev thr (d : Dev nD) (L : grid0.Coords) : Thread nD τ := V d (cV L) (jV L)

/-! ## Where a row's elements sit -/

/-- The array's row number of the task's row `r`. -/
abbrev rowNo (L : grid0.Coords) (r : Fin 12) : ℕ := 24 * (L 1).val + 12 * (L 0).val + r.val

theorem xRow_emb_val (L : grid0.Coords) (r : Fin 12) (y : S1x50x512.Idx) (a : Fin 3) :
    (((xRow L r).view.emb y : S1024x50x512.Idx) a).val = (![rowNo L r, 0, 0] : Fin 3 → ℕ) a + (y a).val := by
  show (k0_off1 L (BitVec.ofNat 32 r.val)) a + 1 * (y a).val = _
  rw [k0_off1_eq, Nat.one_mul]
theorem aRow_emb_val (L : grid0.Coords) (r : Fin 12) (y : S1x50x512.Idx) (a : Fin 3) :
    (((aRow L r).view.emb y : S384x50x512.Idx) a).val = (![rowNo L r, 0, 0] : Fin 3 → ℕ) a + (y a).val := by
  show (k0_off2 L (BitVec.ofNat 32 r.val)) a + 1 * (y a).val = _
  rw [k0_off2_eq, Nat.one_mul]

/-- An element of the result's row sits, in `x`, where the same element of `x`'s row sits. -/
theorem xRow_emb_eq (L : grid0.Coords) (r : Fin 12) (y : S1x50x512.Idx) :
    ((xRow L r).view.emb y : S1024x50x512.Idx) = upA ((aRow L r).view.emb y) := by
  funext a; apply Fin.ext
  rw [xRow_emb_val]
  show _ = (((aRow L r).view.emb y : S384x50x512.Idx) a).val
  rw [aRow_emb_val]

variable [FloatOps F]

/-- Reading `x` through a row's view reads `x` where the row's element sits. -/
theorem read_xRow (d : Dev nD) (L : grid0.Coords) (r : Fin 12) (fx : Buf (Elt F) (xLoc d)) (y : S1x50x512.Idx) :
    (xRow L r).view.read (Elt F) fx y = fx ((xRow L r).view.emb y) :=
  (View.read_apply _ _).trans (cast_eq _ _)

/-- What a copy lands in a row of the result, when its payload is `x`'s row: the first 384 rows of `x` there. -/
theorem aRow_lands (d : Dev nD) (L : grid0.Coords) (r : Fin 12) (fx : Buf (Elt F) (xLoc d)) (fa : Buf (Elt F) (aLoc d))
    (w : S1x50x512.Idx → Elt F .f32) (hw : ∀ y, w y = fx ((xRow L r).view.emb y)) :
    ∀ i ∈ (aRow L r).view.set, (aRow L r).view.writes (Elt F) fa [⟨Rect.whole S1x50x512, w⟩] i = headRows d fx i := by
  intro i hi
  obtain ⟨y, -, rfl⟩ := Finset.mem_map.mp hi
  have h := View.read_writes_cons_emb (aRow L r).view fa (Rect.whole S1x50x512) w [] y
  rw [Rect.emb_whole_apply, View.read_apply] at h
  refine ((cast_eq _ _).symm.trans h).trans ?_
  rw [hw y, xRow_emb_eq]; rfl

section Tile

variable (d : Dev nD) (L : grid0.Coords)

set_option maxHeartbeats 4000000 in
/-- The task on the subcore at grid point `L`: from its twelve rows of `x` (any share), its twelve rows of the result,
    its four scratch buffers and eight semaphores, to the result's rows at `x`'s. -/
theorem tile_body (q : PosShare TreeShare) (fx : Buf (Elt F) (xLoc d)) (fa : Buf (Elt F) (aLoc d))
    (f0 : Buf (Elt F) ((thr d L).loc cc0_scratch0)) (f1 : Buf (Elt F) ((thr d L).loc cc0_scratch1))
    (f2 : Buf (Elt F) ((thr d L).loc cc0_scratch2)) (f3 : Buf (Elt F) ((thr d L).loc cc0_scratch3))
    (O : CellTallies nD τ sig (HIx 1)) (W : Waits sig (HIx 1)) :
    iprop(Transfers.MayWaits (thr d L) (none : HIx 1) O
        ∗ (((xRow0 L).view.loc (thr d L) ↦[(xRow0 L).view.set]{q} fx : sProp 𝕄)
          ∗ ((xRow1 L).view.loc (thr d L) ↦[(xRow1 L).view.set]{q} fx : sProp 𝕄)
          ∗ ((xRow2 L).view.loc (thr d L) ↦[(xRow2 L).view.set]{q} fx : sProp 𝕄)
          ∗ ((xRow3 L).view.loc (thr d L) ↦[(xRow3 L).view.set]{q} fx : sProp 𝕄)
          ∗ ((xRow4 L).view.loc (thr d L) ↦[(xRow4 L).view.set]{q} fx : sProp 𝕄)
          ∗ ((xRow5 L).view.loc (thr d L) ↦[(xRow5 L).view.set]{q} fx : sProp 𝕄)
          ∗ ((xRow6 L).view.loc (thr d L) ↦[(xRow6 L).view.set]{q} fx : sProp 𝕄)
          ∗ ((xRow7 L).view.loc (thr d L) ↦[(xRow7 L).view.set]{q} fx : sProp 𝕄)
          ∗ ((xRow8 L).view.loc (thr d L) ↦[(xRow8 L).view.set]{q} fx : sProp 𝕄)
          ∗ ((xRow9 L).view.loc (thr d L) ↦[(xRow9 L).view.set]{q} fx : sProp 𝕄)
          ∗ ((xRow10 L).view.loc (thr d L) ↦[(xRow10 L).view.set]{q} fx : sProp 𝕄)
          ∗ ((xRow11 L).view.loc (thr d L) ↦[(xRow11 L).view.set]{q} fx : sProp 𝕄))
        ∗ (((aRow0 L).view.loc (thr d L) ↦[(aRow0 L).view.set]{fullShare} fa : sProp 𝕄)
          ∗ ((aRow1 L).view.loc (thr d L) ↦[(aRow1 L).view.set]{fullShare} fa : sProp 𝕄)
          ∗ ((aRow2 L).view.loc (thr d L) ↦[(aRow2 L).view.set]{fullShare} fa : sProp 𝕄)
          ∗ ((aRow3 L).view.loc (thr d L) ↦[(aRow3 L).view.set]{fullShare} fa : sProp 𝕄)
          ∗ ((aRow4 L).view.loc (thr d L) ↦[(aRow4 L).view.set]{fullShare} fa : sProp 𝕄)
          ∗ ((aRow5 L).view.loc (thr d L) ↦[(aRow5 L).view.set]{fullShare} fa : sProp 𝕄)
          ∗ ((aRow6 L).view.loc (thr d L) ↦[(aRow6 L).view.set]{fullShare} fa : sProp 𝕄)
          ∗ ((aRow7 L).view.loc (thr d L) ↦[(aRow7 L).view.set]{fullShare} fa : sProp 𝕄)
          ∗ ((aRow8 L).view.loc (thr d L) ↦[(aRow8 L).view.set]{fullShare} fa : sProp 𝕄)
          ∗ ((aRow9 L).view.loc (thr d L) ↦[(aRow9 L).view.set]{fullShare} fa : sProp 𝕄)
          ∗ ((aRow10 L).view.loc (thr d L) ↦[(aRow10 L).view.set]{fullShare} fa : sProp 𝕄)
          ∗ ((aRow11 L).view.loc (thr d L) ↦[(aRow11 L).view.set]{fullShare} fa : sProp 𝕄))
        ∗ ((s0).view.loc (thr d L) ↦{fullShare} f0) ∗ ((s1).view.loc (thr d L) ↦{fullShare} f1)
        ∗ ((s2).view.loc (thr d L) ↦{fullShare} f2) ∗ ((s3).view.loc (thr d L) ↦{fullShare} f3)
        ∗ (semVal (thr d L, SemLoc.dma cc0_scratch4.sem) 0 ∗ semVal (thr d L, SemLoc.dma cc0_scratch5.sem) 0 ∗ semVal (thr d L, SemLoc.dma cc0_scratch6.sem) 0 ∗ semVal (thr d L, SemLoc.dma cc0_scratch7.sem) 0 ∗ semVal (thr d L, SemLoc.dma cc0_scratch8.sem) 0 ∗ semVal (thr d L, SemLoc.dma cc0_scratch9.sem) 0 ∗ semVal (thr d L, SemLoc.dma cc0_scratch10.sem) 0 ∗ semVal (thr d L, SemLoc.dma cc0_scratch11.sem) 0)
        ∗ owes (thr d L) O W)
      ⊢ wp frame (wpE (defs₀ (F := F)) 𝒱₀ (thr d L) none) Set.univ
          (cc0_sc_copy L xV (Memref.isWhole_whole _) aV (Memref.isWhole_whole _) s0 (Memref.isWhole_whole _) s1 (Memref.isWhole_whole _)
            s2 (Memref.isWhole_whole _) s3 (Memref.isWhole_whole _) cc0_scratch4 cc0_scratch5 cc0_scratch6 cc0_scratch7 cc0_scratch8 cc0_scratch9 cc0_scratch10 cc0_scratch11)
          fun _ => iprop(
            (((xRow0 L).view.loc (thr d L) ↦[(xRow0 L).view.set]{q} fx : sProp 𝕄)
              ∗ ((xRow1 L).view.loc (thr d L) ↦[(xRow1 L).view.set]{q} fx : sProp 𝕄)
              ∗ ((xRow2 L).view.loc (thr d L) ↦[(xRow2 L).view.set]{q} fx : sProp 𝕄)
              ∗ ((xRow3 L).view.loc (thr d L) ↦[(xRow3 L).view.set]{q} fx : sProp 𝕄)
              ∗ ((xRow4 L).view.loc (thr d L) ↦[(xRow4 L).view.set]{q} fx : sProp 𝕄)
              ∗ ((xRow5 L).view.loc (thr d L) ↦[(xRow5 L).view.set]{q} fx : sProp 𝕄)
              ∗ ((xRow6 L).view.loc (thr d L) ↦[(xRow6 L).view.set]{q} fx : sProp 𝕄)
              ∗ ((xRow7 L).view.loc (thr d L) ↦[(xRow7 L).view.set]{q} fx : sProp 𝕄)
              ∗ ((xRow8 L).view.loc (thr d L) ↦[(xRow8 L).view.set]{q} fx : sProp 𝕄)
              ∗ ((xRow9 L).view.loc (thr d L) ↦[(xRow9 L).view.set]{q} fx : sProp 𝕄)
              ∗ ((xRow10 L).view.loc (thr d L) ↦[(xRow10 L).view.set]{q} fx : sProp 𝕄)
              ∗ ((xRow11 L).view.loc (thr d L) ↦[(xRow11 L).view.set]{q} fx : sProp 𝕄))
            ∗ (((aRow0 L).view.loc (thr d L) ↦[(aRow0 L).view.set]{fullShare} headRows d fx : sProp 𝕄)
              ∗ ((aRow1 L).view.loc (thr d L) ↦[(aRow1 L).view.set]{fullShare} headRows d fx : sProp 𝕄)
              ∗ ((aRow2 L).view.loc (thr d L) ↦[(aRow2 L).view.set]{fullShare} headRows d fx : sProp 𝕄)
              ∗ ((aRow3 L).view.loc (thr d L) ↦[(aRow3 L).view.set]{fullShare} headRows d fx : sProp 𝕄)
              ∗ ((aRow4 L).view.loc (thr d L) ↦[(aRow4 L).view.set]{fullShare} headRows d fx : sProp 𝕄)
              ∗ ((aRow5 L).view.loc (thr d L) ↦[(aRow5 L).view.set]{fullShare} headRows d fx : sProp 𝕄)
              ∗ ((aRow6 L).view.loc (thr d L) ↦[(aRow6 L).view.set]{fullShare} headRows d fx : sProp 𝕄)
              ∗ ((aRow7 L).view.loc (thr d L) ↦[(aRow7 L).view.set]{fullShare} headRows d fx : sProp 𝕄)
              ∗ ((aRow8 L).view.loc (thr d L) ↦[(aRow8 L).view.set]{fullShare} headRows d fx : sProp 𝕄)
              ∗ ((aRow9 L).view.loc (thr d L) ↦[(aRow9 L).view.set]{fullShare} headRows d fx : sProp 𝕄)
              ∗ ((aRow10 L).view.loc (thr d L) ↦[(aRow10 L).view.set]{fullShare} headRows d fx : sProp 𝕄)
              ∗ ((aRow11 L).view.loc (thr d L) ↦[(aRow11 L).view.set]{fullShare} headRows d fx : sProp 𝕄))
            ∗ (∃ f, (s0).view.loc (thr d L) ↦{fullShare} f) ∗ (∃ f, (s1).view.loc (thr d L) ↦{fullShare} f)
            ∗ (∃ f, (s2).view.loc (thr d L) ↦{fullShare} f) ∗ (∃ f, (s3).view.loc (thr d L) ↦{fullShare} f)
            ∗ (semVal (thr d L, SemLoc.dma cc0_scratch4.sem) 0 ∗ semVal (thr d L, SemLoc.dma cc0_scratch5.sem) 0 ∗ semVal (thr d L, SemLoc.dma cc0_scratch6.sem) 0 ∗ semVal (thr d L, SemLoc.dma cc0_scratch7.sem) 0 ∗ semVal (thr d L, SemLoc.dma cc0_scratch8.sem) 0 ∗ semVal (thr d L, SemLoc.dma cc0_scratch9.sem) 0 ∗ semVal (thr d L, SemLoc.dma cc0_scratch10.sem) 0 ∗ semVal (thr d L, SemLoc.dma cc0_scratch11.sem) 0)
            ∗ ∃ W', ⌜∀ p ∈ W', p ∈ W ∨ p.2 = none⌝ ∗ owes (thr d L) O W') := by
  rw [cc0_sc_copy_eq_skeleton]; unfold cc0_sc_copy_skel
  iintro ⟨#Hmw, ⟨Hx0, Hx1, Hx2, Hx3, Hx4, Hx5, Hx6, Hx7, Hx8, Hx9, Hx10, Hx11⟩, ⟨Ha0, Ha1, Ha2, Ha3, Ha4, Ha5, Ha6, Ha7, Ha8, Ha9, Ha10, Ha11⟩, Hs0, Hs1, Hs2, Hs3, ⟨Hm4, Hm5, Hm6, Hm7, Hm8, Hm9, Hm10, Hm11⟩, HO⟩
  sl_exec
  sl_step
  isplitl [Hx0 Hx1 Hx2 Hx3 Hx4 Hx5 Hx6 Hx7 Hx8 Hx9 Hx10 Hx11]
  · isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    isplitl [Hx7]; · iexact Hx7
    isplitl [Hx8]; · iexact Hx8
    isplitl [Hx9]; · iexact Hx9
    isplitl [Hx10]; · iexact Hx10
    iexact Hx11
  isplitl [Ha0 Ha1 Ha2 Ha3 Ha4 Ha5 Ha6 Ha7 Ha8 Ha9 Ha10 Ha11]
  · have e0 := pointsTo_congr (Val := Elt F) (ℓ := (aRow0 L).view.loc (thr d L)) (q := fullShare) (nD := nD) (τ := τ) (sig := sig) (Ix := HIx 1) (Name := ℕ) (U := UU) (Lvl := ℕ)
      (aRow_lands d L ⟨0, by decide⟩ fx fa (tile_body.sl.dma0_3 d L fx f0) (fun y =>
        (congrFun (View.write_whole_univ (Val := Elt F) cc0_scratch0 _ _) y).trans (read_xRow d L ⟨0, by decide⟩ fx y)))
    have e1 := pointsTo_congr (Val := Elt F) (ℓ := (aRow1 L).view.loc (thr d L)) (q := fullShare) (nD := nD) (τ := τ) (sig := sig) (Ix := HIx 1) (Name := ℕ) (U := UU) (Lvl := ℕ)
      (aRow_lands d L ⟨1, by decide⟩ fx fa (tile_body.sl.dma0_5 d L fx f1) (fun y =>
        (congrFun (View.write_whole_univ (Val := Elt F) cc0_scratch1 _ _) y).trans (read_xRow d L ⟨1, by decide⟩ fx y)))
    have e2 := pointsTo_congr (Val := Elt F) (ℓ := (aRow2 L).view.loc (thr d L)) (q := fullShare) (nD := nD) (τ := τ) (sig := sig) (Ix := HIx 1) (Name := ℕ) (U := UU) (Lvl := ℕ)
      (aRow_lands d L ⟨2, by decide⟩ fx fa (tile_body.sl.dma0_7 d L fx f2) (fun y =>
        (congrFun (View.write_whole_univ (Val := Elt F) cc0_scratch2 _ _) y).trans (read_xRow d L ⟨2, by decide⟩ fx y)))
    have e3 := pointsTo_congr (Val := Elt F) (ℓ := (aRow3 L).view.loc (thr d L)) (q := fullShare) (nD := nD) (τ := τ) (sig := sig) (Ix := HIx 1) (Name := ℕ) (U := UU) (Lvl := ℕ)
      (aRow_lands d L ⟨3, by decide⟩ fx fa (tile_body.sl.dma0_9 d L fx f3) (fun y =>
        (congrFun (View.write_whole_univ (Val := Elt F) cc0_scratch3 _ _) y).trans (read_xRow d L ⟨3, by decide⟩ fx y)))
    have e4 := pointsTo_congr (Val := Elt F) (ℓ := (aRow4 L).view.loc (thr d L)) (q := fullShare) (nD := nD) (τ := τ) (sig := sig) (Ix := HIx 1) (Name := ℕ) (U := UU) (Lvl := ℕ)
      (aRow_lands d L ⟨4, by decide⟩ fx fa (tile_body.sl.dma0_11 d L fx f0) (fun y =>
        (congrFun (View.write_whole_univ (Val := Elt F) cc0_scratch0 _ _) y).trans (read_xRow d L ⟨4, by decide⟩ fx y)))
    have e5 := pointsTo_congr (Val := Elt F) (ℓ := (aRow5 L).view.loc (thr d L)) (q := fullShare) (nD := nD) (τ := τ) (sig := sig) (Ix := HIx 1) (Name := ℕ) (U := UU) (Lvl := ℕ)
      (aRow_lands d L ⟨5, by decide⟩ fx fa (tile_body.sl.dma0_13 d L fx f1) (fun y =>
        (congrFun (View.write_whole_univ (Val := Elt F) cc0_scratch1 _ _) y).trans (read_xRow d L ⟨5, by decide⟩ fx y)))
    have e6 := pointsTo_congr (Val := Elt F) (ℓ := (aRow6 L).view.loc (thr d L)) (q := fullShare) (nD := nD) (τ := τ) (sig := sig) (Ix := HIx 1) (Name := ℕ) (U := UU) (Lvl := ℕ)
      (aRow_lands d L ⟨6, by decide⟩ fx fa (tile_body.sl.dma0_15 d L fx f2) (fun y =>
        (congrFun (View.write_whole_univ (Val := Elt F) cc0_scratch2 _ _) y).trans (read_xRow d L ⟨6, by decide⟩ fx y)))
    have e7 := pointsTo_congr (Val := Elt F) (ℓ := (aRow7 L).view.loc (thr d L)) (q := fullShare) (nD := nD) (τ := τ) (sig := sig) (Ix := HIx 1) (Name := ℕ) (U := UU) (Lvl := ℕ)
      (aRow_lands d L ⟨7, by decide⟩ fx fa (tile_body.sl.dma0_17 d L fx f3) (fun y =>
        (congrFun (View.write_whole_univ (Val := Elt F) cc0_scratch3 _ _) y).trans (read_xRow d L ⟨7, by decide⟩ fx y)))
    have e8 := pointsTo_congr (Val := Elt F) (ℓ := (aRow8 L).view.loc (thr d L)) (q := fullShare) (nD := nD) (τ := τ) (sig := sig) (Ix := HIx 1) (Name := ℕ) (U := UU) (Lvl := ℕ)
      (aRow_lands d L ⟨8, by decide⟩ fx fa (tile_body.sl.dma0_19 d L fx f0) (fun y =>
        (congrFun (View.write_whole_univ (Val := Elt F) cc0_scratch0 _ _) y).trans (read_xRow d L ⟨8, by decide⟩ fx y)))
    have e9 := pointsTo_congr (Val := Elt F) (ℓ := (aRow9 L).view.loc (thr d L)) (q := fullShare) (nD := nD) (τ := τ) (sig := sig) (Ix := HIx 1) (Name := ℕ) (U := UU) (Lvl := ℕ)
      (aRow_lands d L ⟨9, by decide⟩ fx fa (tile_body.sl.dma0_21 d L fx f1) (fun y =>
        (congrFun (View.write_whole_univ (Val := Elt F) cc0_scratch1 _ _) y).trans (read_xRow d L ⟨9, by decide⟩ fx y)))
    have e10 := pointsTo_congr (Val := Elt F) (ℓ := (aRow10 L).view.loc (thr d L)) (q := fullShare) (nD := nD) (τ := τ) (sig := sig) (Ix := HIx 1) (Name := ℕ) (U := UU) (Lvl := ℕ)
      (aRow_lands d L ⟨10, by decide⟩ fx fa (tile_body.sl.dma0_22 d L fx f2) (fun y =>
        (congrFun (View.write_whole_univ (Val := Elt F) cc0_scratch2 _ _) y).trans (read_xRow d L ⟨10, by decide⟩ fx y)))
    have e11 := pointsTo_congr (Val := Elt F) (ℓ := (aRow11 L).view.loc (thr d L)) (q := fullShare) (nD := nD) (τ := τ) (sig := sig) (Ix := HIx 1) (Name := ℕ) (U := UU) (Lvl := ℕ)
      (aRow_lands d L ⟨11, by decide⟩ fx fa (tile_body.sl.dma0_23 d L fx f3) (fun y =>
        (congrFun (View.write_whole_univ (Val := Elt F) cc0_scratch3 _ _) y).trans (read_xRow d L ⟨11, by decide⟩ fx y)))
    isplitl [Ha0]; · iapply (Entails.of_eq e0); iexact Ha0
    isplitl [Ha1]; · iapply (Entails.of_eq e1); iexact Ha1
    isplitl [Ha2]; · iapply (Entails.of_eq e2); iexact Ha2
    isplitl [Ha3]; · iapply (Entails.of_eq e3); iexact Ha3
    isplitl [Ha4]; · iapply (Entails.of_eq e4); iexact Ha4
    isplitl [Ha5]; · iapply (Entails.of_eq e5); iexact Ha5
    isplitl [Ha6]; · iapply (Entails.of_eq e6); iexact Ha6
    isplitl [Ha7]; · iapply (Entails.of_eq e7); iexact Ha7
    isplitl [Ha8]; · iapply (Entails.of_eq e8); iexact Ha8
    isplitl [Ha9]; · iapply (Entails.of_eq e9); iexact Ha9
    isplitl [Ha10]; · iapply (Entails.of_eq e10); iexact Ha10
    iapply (Entails.of_eq e11); iexact Ha11
  isplitl [Hs0]; · iexists _; iexact Hs0
  isplitl [Hs1]; · iexists _; iexact Hs1
  isplitl [Hs2]; · iexists _; iexact Hs2
  isplitl [Hs3]; · iexists _; iexact Hs3
  isplitl [Hm4 Hm5 Hm6 Hm7 Hm8 Hm9 Hm10 Hm11]
  · isplitl [Hm4]; · iexact Hm4
    isplitl [Hm5]; · iexact Hm5
    isplitl [Hm6]; · iexact Hm6
    isplitl [Hm7]; · iexact Hm7
    isplitl [Hm8]; · iexact Hm8
    isplitl [Hm9]; · iexact Hm9
    isplitl [Hm10]; · iexact Hm10
    iexact Hm11
  iexists _; isplitr
  rotate_left
  · iexact HO
  · ipureintro; intro p hp
    simp only [Finset.mem_insert] at hp
    rcases hp with rfl | rfl | rfl | rfl | rfl | rfl | rfl | rfl | rfl | rfl | rfl | rfl | rfl | rfl | rfl | rfl | rfl | rfl | rfl | rfl | rfl | rfl | rfl | rfl | hp
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inl hp

end Tile

end Cert.Proof.KI

end
-- ==== Proof.KI.Obl.lean ====
/-
  What the SparseCore call carries and what each of its tasks is proved from: the call takes the first 384 rows of
  `x` and the 384-row result array row by row — row 24·s + 12·c + r to subcore `s` of SparseCore `c`, r < 12 — and
  brings them back with the result's rows holding `x`'s. The rows of an array are the sets of its elements with a
  given first coordinate: pairwise disjoint, covering the array.
-/
import proofs.«212309_g71296457113957_cont_9to1_m_186_18_alg».proof.Proof.KI.Tile

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

open Idealize.ShloMosaic.SparseCore.Cfg (tileRest ownBufs ownSems0 ownCells ownRefs mem_ownCells mem_ownRefs)

/-! ## Rows -/

/-- Row `n` of `x`, of the SparseCore's result: the elements whose first coordinate is `n`. -/
def xRowSet (n : ℕ) : Finset S1024x50x512.Idx := Finset.univ.filter fun j => (j 0).val = n
def aRowSet (n : ℕ) : Finset S384x50x512.Idx := Finset.univ.filter fun j => (j 0).val = n

theorem xRowSet_disjoint {n n' : ℕ} (h : n ≠ n') : Disjoint (xRowSet n) (xRowSet n') :=
  Finset.disjoint_filter.mpr fun _ _ h1 h2 => h (h1.symm.trans h2)
theorem aRowSet_disjoint {n n' : ℕ} (h : n ≠ n') : Disjoint (aRowSet n) (aRowSet n') :=
  Finset.disjoint_filter.mpr fun _ _ h1 h2 => h (h1.symm.trans h2)

/-- The row a task's slice of `x` is. -/
theorem set_xRow (L : grid0.Coords) (r : Fin 12) : (xRow L r).view.set = xRowSet (rowNo L r) := by
  show ((View.whole main_arg0_scv).slice _).set = _
  rw [View.set_slice_whole]
  ext j
  rw [Rect.mem_set_unit, k0_off1_eq]
  simp only [xRowSet, Finset.mem_filter, Finset.mem_univ, true_and]
  constructor
  · intro h
    have h0 : rowNo L r ≤ (j 0).val ∧ (j 0).val < rowNo L r + 1 := h 0
    omega
  · intro h a
    match a with
    | 0 => exact ⟨show rowNo L r ≤ (j 0).val by omega, show (j 0).val < rowNo L r + 1 by omega⟩
    | 1 =>
      have h1 : (j 1).val < 50 := (j 1).isLt
      exact ⟨Nat.zero_le _, show (j 1).val < 0 + 50 by omega⟩
    | 2 =>
      have h2 : (j 2).val < 512 := (j 2).isLt
      exact ⟨Nat.zero_le _, show (j 2).val < 0 + 512 by omega⟩
theorem set_aRow (L : grid0.Coords) (r : Fin 12) : (aRow L r).view.set = aRowSet (rowNo L r) := by
  show ((View.whole main_v0_scv).slice _).set = _
  rw [View.set_slice_whole]
  ext j
  rw [Rect.mem_set_unit, k0_off2_eq]
  simp only [aRowSet, Finset.mem_filter, Finset.mem_univ, true_and]
  constructor
  · intro h
    have h0 : rowNo L r ≤ (j 0).val ∧ (j 0).val < rowNo L r + 1 := h 0
    omega
  · intro h a
    match a with
    | 0 => exact ⟨show rowNo L r ≤ (j 0).val by omega, show (j 0).val < rowNo L r + 1 by omega⟩
    | 1 =>
      have h1 : (j 1).val < 50 := (j 1).isLt
      exact ⟨Nat.zero_le _, show (j 1).val < 0 + 50 by omega⟩
    | 2 =>
      have h2 : (j 2).val < 512 := (j 2).isLt
      exact ⟨Nat.zero_le _, show (j 2).val < 0 + 512 by omega⟩

variable (m : (ℓ : Loc nD τ sig) → Buf (Elt F) ℓ) (ρ : Dev nD → PrngReg)

/-- The array's row number of row `r` of the task of subcore `i` of SparseCore `c`. -/
abbrev rowOf (c i r : ℕ) : ℕ := 24 * i + 12 * c + r

/-- A task's rows: twelve of `x` at its launch contents, the same twelve of the result at `fa`. -/
def rowsX (d : Dev nD) (c i : ℕ) : sProp 𝕄 :=
  bigSep (Finset.univ : Finset (Fin 12)) fun r => xLoc d ↦[xRowSet (rowOf c i r.val)]{fullShare} m (xLoc d)
def rowsA (d : Dev nD) (fa : Buf (Elt F) (aLoc d)) (c i : ℕ) : sProp 𝕄 :=
  bigSep (Finset.univ : Finset (Fin 12)) fun r => aLoc d ↦[aRowSet (rowOf c i r.val)]{fullShare} fa

/-- The one call hands SparseCore `c` its sixteen tasks' rows, each task its own, and takes them back with the
    result's rows at `x`'s first 384. -/
def P : (K (F := F)).Pay (nD := nD) (Val := Elt F) (Name := ℕ) (U := UU) where
  st := fun q d c => bigSep Finset.univ fun i : Fin ((K (F := F)).nSub q) => iprop(rowsX m d c.val i.val ∗ rowsA d (m (aLoc d)) c.val i.val)
  dn := fun q d c => bigSep Finset.univ fun i : Fin ((K (F := F)).nSub q) => iprop(rowsX m d c.val i.val ∗ rowsA d (headRows d (m (xLoc d))) c.val i.val)
  go := fun _ d c i => iprop(rowsX m d c.val i.val ∗ rowsA d (m (aLoc d)) c.val i.val)
  td := fun _ d c i => iprop(rowsX m d c.val i.val ∗ rowsA d (headRows d (m (xLoc d))) c.val i.val)
  x := fun _ _ => iprop(emp)

instance P_storable : (P (F := F) m).IsStorable where
  st _ d c := by unfold P rowsX rowsA; infer_instance
  dn _ d c := by unfold P rowsX rowsA; infer_instance
  go _ _ _ _ := by unfold P rowsX rowsA; infer_instance
  td _ _ _ _ := by unfold P rowsX rowsA; infer_instance

/-! ## The task -/

theorem bigSep_fin12 (Φ : Fin 12 → sProp 𝕄) :
    bigSep (Finset.univ : Finset (Fin 12)) Φ = iprop(Φ 0 ∗ Φ 1 ∗ Φ 2 ∗ Φ 3 ∗ Φ 4 ∗ Φ 5 ∗ Φ 6 ∗ Φ 7 ∗ Φ 8 ∗ Φ 9 ∗ Φ 10 ∗ Φ 11) := by
  rw [show (Finset.univ : Finset (Fin 12)) = {0, 1, 2, 3, 4, 5, 6, 7, 8, 9, 10, 11} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

abbrev rr0 : Fin 12 := ⟨0, by decide⟩
abbrev rr1 : Fin 12 := ⟨1, by decide⟩
abbrev rr2 : Fin 12 := ⟨2, by decide⟩
abbrev rr3 : Fin 12 := ⟨3, by decide⟩
abbrev rr4 : Fin 12 := ⟨4, by decide⟩
abbrev rr5 : Fin 12 := ⟨5, by decide⟩
abbrev rr6 : Fin 12 := ⟨6, by decide⟩
abbrev rr7 : Fin 12 := ⟨7, by decide⟩
abbrev rr8 : Fin 12 := ⟨8, by decide⟩
abbrev rr9 : Fin 12 := ⟨9, by decide⟩
abbrev rr10 : Fin 12 := ⟨10, by decide⟩
abbrev rr11 : Fin 12 := ⟨11, by decide⟩

section Tile

variable (d : Dev nD) (L : grid0.Coords)

abbrev cell4 (d : Dev nD) (L : grid0.Coords) : GSem nD τ sig := (thr d L, .dma cc0_scratch4.sem)
abbrev cell5 (d : Dev nD) (L : grid0.Coords) : GSem nD τ sig := (thr d L, .dma cc0_scratch5.sem)
abbrev cell6 (d : Dev nD) (L : grid0.Coords) : GSem nD τ sig := (thr d L, .dma cc0_scratch6.sem)
abbrev cell7 (d : Dev nD) (L : grid0.Coords) : GSem nD τ sig := (thr d L, .dma cc0_scratch7.sem)
abbrev cell8 (d : Dev nD) (L : grid0.Coords) : GSem nD τ sig := (thr d L, .dma cc0_scratch8.sem)
abbrev cell9 (d : Dev nD) (L : grid0.Coords) : GSem nD τ sig := (thr d L, .dma cc0_scratch9.sem)
abbrev cell10 (d : Dev nD) (L : grid0.Coords) : GSem nD τ sig := (thr d L, .dma cc0_scratch10.sem)
abbrev cell11 (d : Dev nD) (L : grid0.Coords) : GSem nD τ sig := (thr d L, .dma cc0_scratch11.sem)

theorem ownSems0_V :
    (ownSems0 (thr d L) : sProp 𝕄)
      = iprop(semVal (cell4 d L) 0 ∗ semVal (cell5 d L) 0 ∗ semVal (cell6 d L) 0 ∗ semVal (cell7 d L) 0 ∗ semVal (cell8 d L) 0 ∗ semVal (cell9 d L) 0 ∗ semVal (cell10 d L) 0 ∗ semVal (cell11 d L) 0
          ∗ bigSep (((((((((ownCells (thr d L)).erase (cell4 d L)).erase (cell5 d L)).erase (cell6 d L)).erase (cell7 d L)).erase (cell8 d L)).erase (cell9 d L)).erase (cell10 d L)).erase (cell11 d L)) fun g => semVal g 0) := by
  unfold SparseCore.Cfg.ownSems0
  rw [SparseCore.bigSep_erase' ((mem_ownCells (g := cell4 d L)).mpr ⟨rfl, by show (SemLoc.dma cc0_scratch4.sem : SemLoc sig).isScoped .scVector = true; decide⟩),
    SparseCore.bigSep_erase' (Finset.mem_erase.mpr ⟨fun e => absurd (SemLoc.dma.inj (Prod.mk.inj e).2) (show (cc0_scratch5.sem : DmaSem sig) ≠ cc0_scratch4.sem by decide), (mem_ownCells (g := cell5 d L)).mpr ⟨rfl, by show (SemLoc.dma cc0_scratch5.sem : SemLoc sig).isScoped .scVector = true; decide⟩⟩),
    SparseCore.bigSep_erase' (Finset.mem_erase.mpr ⟨fun e => absurd (SemLoc.dma.inj (Prod.mk.inj e).2) (show (cc0_scratch6.sem : DmaSem sig) ≠ cc0_scratch5.sem by decide), Finset.mem_erase.mpr ⟨fun e => absurd (SemLoc.dma.inj (Prod.mk.inj e).2) (show (cc0_scratch6.sem : DmaSem sig) ≠ cc0_scratch4.sem by decide), (mem_ownCells (g := cell6 d L)).mpr ⟨rfl, by show (SemLoc.dma cc0_scratch6.sem : SemLoc sig).isScoped .scVector = true; decide⟩⟩⟩),
    SparseCore.bigSep_erase' (Finset.mem_erase.mpr ⟨fun e => absurd (SemLoc.dma.inj (Prod.mk.inj e).2) (show (cc0_scratch7.sem : DmaSem sig) ≠ cc0_scratch6.sem by decide), Finset.mem_erase.mpr ⟨fun e => absurd (SemLoc.dma.inj (Prod.mk.inj e).2) (show (cc0_scratch7.sem : DmaSem sig) ≠ cc0_scratch5.sem by decide), Finset.mem_erase.mpr ⟨fun e => absurd (SemLoc.dma.inj (Prod.mk.inj e).2) (show (cc0_scratch7.sem : DmaSem sig) ≠ cc0_scratch4.sem by decide), (mem_ownCells (g := cell7 d L)).mpr ⟨rfl, by show (SemLoc.dma cc0_scratch7.sem : SemLoc sig).isScoped .scVector = true; decide⟩⟩⟩⟩),
    SparseCore.bigSep_erase' (Finset.mem_erase.mpr ⟨fun e => absurd (SemLoc.dma.inj (Prod.mk.inj e).2) (show (cc0_scratch8.sem : DmaSem sig) ≠ cc0_scratch7.sem by decide), Finset.mem_erase.mpr ⟨fun e => absurd (SemLoc.dma.inj (Prod.mk.inj e).2) (show (cc0_scratch8.sem : DmaSem sig) ≠ cc0_scratch6.sem by decide), Finset.mem_erase.mpr ⟨fun e => absurd (SemLoc.dma.inj (Prod.mk.inj e).2) (show (cc0_scratch8.sem : DmaSem sig) ≠ cc0_scratch5.sem by decide), Finset.mem_erase.mpr ⟨fun e => absurd (SemLoc.dma.inj (Prod.mk.inj e).2) (show (cc0_scratch8.sem : DmaSem sig) ≠ cc0_scratch4.sem by decide), (mem_ownCells (g := cell8 d L)).mpr ⟨rfl, by show (SemLoc.dma cc0_scratch8.sem : SemLoc sig).isScoped .scVector = true; decide⟩⟩⟩⟩⟩),
    SparseCore.bigSep_erase' (Finset.mem_erase.mpr ⟨fun e => absurd (SemLoc.dma.inj (Prod.mk.inj e).2) (show (cc0_scratch9.sem : DmaSem sig) ≠ cc0_scratch8.sem by decide), Finset.mem_erase.mpr ⟨fun e => absurd (SemLoc.dma.inj (Prod.mk.inj e).2) (show (cc0_scratch9.sem : DmaSem sig) ≠ cc0_scratch7.sem by decide), Finset.mem_erase.mpr ⟨fun e => absurd (SemLoc.dma.inj (Prod.mk.inj e).2) (show (cc0_scratch9.sem : DmaSem sig) ≠ cc0_scratch6.sem by decide), Finset.mem_erase.mpr ⟨fun e => absurd (SemLoc.dma.inj (Prod.mk.inj e).2) (show (cc0_scratch9.sem : DmaSem sig) ≠ cc0_scratch5.sem by decide), Finset.mem_erase.mpr ⟨fun e => absurd (SemLoc.dma.inj (Prod.mk.inj e).2) (show (cc0_scratch9.sem : DmaSem sig) ≠ cc0_scratch4.sem by decide), (mem_ownCells (g := cell9 d L)).mpr ⟨rfl, by show (SemLoc.dma cc0_scratch9.sem : SemLoc sig).isScoped .scVector = true; decide⟩⟩⟩⟩⟩⟩),
    SparseCore.bigSep_erase' (Finset.mem_erase.mpr ⟨fun e => absurd (SemLoc.dma.inj (Prod.mk.inj e).2) (show (cc0_scratch10.sem : DmaSem sig) ≠ cc0_scratch9.sem by decide), Finset.mem_erase.mpr ⟨fun e => absurd (SemLoc.dma.inj (Prod.mk.inj e).2) (show (cc0_scratch10.sem : DmaSem sig) ≠ cc0_scratch8.sem by decide), Finset.mem_erase.mpr ⟨fun e => absurd (SemLoc.dma.inj (Prod.mk.inj e).2) (show (cc0_scratch10.sem : DmaSem sig) ≠ cc0_scratch7.sem by decide), Finset.mem_erase.mpr ⟨fun e => absurd (SemLoc.dma.inj (Prod.mk.inj e).2) (show (cc0_scratch10.sem : DmaSem sig) ≠ cc0_scratch6.sem by decide), Finset.mem_erase.mpr ⟨fun e => absurd (SemLoc.dma.inj (Prod.mk.inj e).2) (show (cc0_scratch10.sem : DmaSem sig) ≠ cc0_scratch5.sem by decide), Finset.mem_erase.mpr ⟨fun e => absurd (SemLoc.dma.inj (Prod.mk.inj e).2) (show (cc0_scratch10.sem : DmaSem sig) ≠ cc0_scratch4.sem by decide), (mem_ownCells (g := cell10 d L)).mpr ⟨rfl, by show (SemLoc.dma cc0_scratch10.sem : SemLoc sig).isScoped .scVector = true; decide⟩⟩⟩⟩⟩⟩⟩),
    SparseCore.bigSep_erase' (Finset.mem_erase.mpr ⟨fun e => absurd (SemLoc.dma.inj (Prod.mk.inj e).2) (show (cc0_scratch11.sem : DmaSem sig) ≠ cc0_scratch10.sem by decide), Finset.mem_erase.mpr ⟨fun e => absurd (SemLoc.dma.inj (Prod.mk.inj e).2) (show (cc0_scratch11.sem : DmaSem sig) ≠ cc0_scratch9.sem by decide), Finset.mem_erase.mpr ⟨fun e => absurd (SemLoc.dma.inj (Prod.mk.inj e).2) (show (cc0_scratch11.sem : DmaSem sig) ≠ cc0_scratch8.sem by decide), Finset.mem_erase.mpr ⟨fun e => absurd (SemLoc.dma.inj (Prod.mk.inj e).2) (show (cc0_scratch11.sem : DmaSem sig) ≠ cc0_scratch7.sem by decide), Finset.mem_erase.mpr ⟨fun e => absurd (SemLoc.dma.inj (Prod.mk.inj e).2) (show (cc0_scratch11.sem : DmaSem sig) ≠ cc0_scratch6.sem by decide), Finset.mem_erase.mpr ⟨fun e => absurd (SemLoc.dma.inj (Prod.mk.inj e).2) (show (cc0_scratch11.sem : DmaSem sig) ≠ cc0_scratch5.sem by decide), Finset.mem_erase.mpr ⟨fun e => absurd (SemLoc.dma.inj (Prod.mk.inj e).2) (show (cc0_scratch11.sem : DmaSem sig) ≠ cc0_scratch4.sem by decide), (mem_ownCells (g := cell11 d L)).mpr ⟨rfl, by show (SemLoc.dma cc0_scratch11.sem : SemLoc sig).isScoped .scVector = true; decide⟩⟩⟩⟩⟩⟩⟩⟩)]

variable [FloatOps F]

theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f)
          ∗ bigSep (((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩)]

theorem pts_xRow (r : Fin 12) (f : Buf (Elt F) (xLoc d)) :
    ((xRow L r).view.loc (thr d L) ↦[(xRow L r).view.set]{fullShare} f : sProp 𝕄) = xLoc d ↦[xRowSet (rowNo L r)]{fullShare} f := by
  rw [set_xRow]
theorem pts_aRow (r : Fin 12) (f : Buf (Elt F) (aLoc d)) :
    ((aRow L r).view.loc (thr d L) ↦[(aRow L r).view.set]{fullShare} f : sProp 𝕄) = aLoc d ↦[aRowSet (rowNo L r)]{fullShare} f := by
  rw [set_aRow]

set_option maxHeartbeats 1000000 in
/-- The task as the launch theorem poses it: from the task's rows and the subcore's scoped storage. -/
theorem tile_wrap (hF : (K (F := F)).Facts) (O : CellTallies nD τ sig (HIx 1)) (W : Waits sig (HIx 1)) (hO : ∀ g, O g none = 0) :
    iprop(levAts (K (F := F)).L (K (F := F)).lev ∗ emp
        ∗ (rowsX m d (L 0).val (L 1).val ∗ rowsA d (m (aLoc d)) (L 0).val (L 1).val)
        ∗ scopedBufs (thr d L) ∗ scopedSems0 (thr d L) ∗ owes (thr d L) O W)
      ⊢ wp frame (wpE (defs₀ (F := F)) 𝒱₀ (thr d L) none) Set.univ
          (cc0_sc_copy L xV (Memref.isWhole_whole _) aV (Memref.isWhole_whole _) s0 (Memref.isWhole_whole _) s1 (Memref.isWhole_whole _)
            s2 (Memref.isWhole_whole _) s3 (Memref.isWhole_whole _) cc0_scratch4 cc0_scratch5 cc0_scratch6 cc0_scratch7 cc0_scratch8 cc0_scratch9 cc0_scratch10 cc0_scratch11)
          fun _ => iprop((rowsX m d (L 0).val (L 1).val ∗ rowsA d (headRows d (m (xLoc d))) (L 0).val (L 1).val)
            ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  unfold rowsX rowsA
  rw [bigSep_fin12, bigSep_fin12, bigSep_fin12]
  iintro ⟨#Hlv, -, ⟨⟨Hx0, Hx1, Hx2, Hx3, Hx4, Hx5, Hx6, Hx7, Hx8, Hx9, Hx10, Hx11⟩, ⟨Ha0, Ha1, Ha2, Ha3, Ha4, Ha5, Ha6, Ha7, Ha8, Ha9, Ha10, Ha11⟩⟩,
    ⟨⟨%f0, Hs0⟩, ⟨%f1, Hs1⟩, ⟨%f2, Hs2⟩, ⟨%f3, Hs3⟩, Hbufs⟩, ⟨Hm4, Hm5, Hm6, Hm7, Hm8, Hm9, Hm10, Hm11, Hsems⟩, HO⟩
  ihave Hmw := ((K (F := F)).mayWaits_none (thr := thr d L) hO) $$ Hlv
  iapply (wp_wand_r frame _ Set.univ)
  isplitl [Hx0 Hx1 Hx2 Hx3 Hx4 Hx5 Hx6 Hx7 Hx8 Hx9 Hx10 Hx11 Ha0 Ha1 Ha2 Ha3 Ha4 Ha5 Ha6 Ha7 Ha8 Ha9 Ha10 Ha11 Hs0 Hs1 Hs2 Hs3 Hm4 Hm5 Hm6 Hm7 Hm8 Hm9 Hm10 Hm11 HO Hmw]
  · iapply (tile_body d L fullShare (m (xLoc d)) (m (aLoc d)) f0 f1 f2 f3 O W)
    isplitl [Hmw]; · iexact Hmw
    isplitl [Hx0 Hx1 Hx2 Hx3 Hx4 Hx5 Hx6 Hx7 Hx8 Hx9 Hx10 Hx11]
    · isplitl [Hx0]; · iapply (Entails.of_eq (pts_xRow (F := F) d L rr0 _).symm); iexact Hx0
      isplitl [Hx1]; · iapply (Entails.of_eq (pts_xRow (F := F) d L rr1 _).symm); iexact Hx1
      isplitl [Hx2]; · iapply (Entails.of_eq (pts_xRow (F := F) d L rr2 _).symm); iexact Hx2
      isplitl [Hx3]; · iapply (Entails.of_eq (pts_xRow (F := F) d L rr3 _).symm); iexact Hx3
      isplitl [Hx4]; · iapply (Entails.of_eq (pts_xRow (F := F) d L rr4 _).symm); iexact Hx4
      isplitl [Hx5]; · iapply (Entails.of_eq (pts_xRow (F := F) d L rr5 _).symm); iexact Hx5
      isplitl [Hx6]; · iapply (Entails.of_eq (pts_xRow (F := F) d L rr6 _).symm); iexact Hx6
      isplitl [Hx7]; · iapply (Entails.of_eq (pts_xRow (F := F) d L rr7 _).symm); iexact Hx7
      isplitl [Hx8]; · iapply (Entails.of_eq (pts_xRow (F := F) d L rr8 _).symm); iexact Hx8
      isplitl [Hx9]; · iapply (Entails.of_eq (pts_xRow (F := F) d L rr9 _).symm); iexact Hx9
      isplitl [Hx10]; · iapply (Entails.of_eq (pts_xRow (F := F) d L rr10 _).symm); iexact Hx10
      iapply (Entails.of_eq (pts_xRow (F := F) d L rr11 _).symm); iexact Hx11
    isplitl [Ha0 Ha1 Ha2 Ha3 Ha4 Ha5 Ha6 Ha7 Ha8 Ha9 Ha10 Ha11]
    · isplitl [Ha0]; · iapply (Entails.of_eq (pts_aRow (F := F) d L rr0 _).symm); iexact Ha0
      isplitl [Ha1]; · iapply (Entails.of_eq (pts_aRow (F := F) d L rr1 _).symm); iexact Ha1
      isplitl [Ha2]; · iapply (Entails.of_eq (pts_aRow (F := F) d L rr2 _).symm); iexact Ha2
      isplitl [Ha3]; · iapply (Entails.of_eq (pts_aRow (F := F) d L rr3 _).symm); iexact Ha3
      isplitl [Ha4]; · iapply (Entails.of_eq (pts_aRow (F := F) d L rr4 _).symm); iexact Ha4
      isplitl [Ha5]; · iapply (Entails.of_eq (pts_aRow (F := F) d L rr5 _).symm); iexact Ha5
      isplitl [Ha6]; · iapply (Entails.of_eq (pts_aRow (F := F) d L rr6 _).symm); iexact Ha6
      isplitl [Ha7]; · iapply (Entails.of_eq (pts_aRow (F := F) d L rr7 _).symm); iexact Ha7
      isplitl [Ha8]; · iapply (Entails.of_eq (pts_aRow (F := F) d L rr8 _).symm); iexact Ha8
      isplitl [Ha9]; · iapply (Entails.of_eq (pts_aRow (F := F) d L rr9 _).symm); iexact Ha9
      isplitl [Ha10]; · iapply (Entails.of_eq (pts_aRow (F := F) d L rr10 _).symm); iexact Ha10
      iapply (Entails.of_eq (pts_aRow (F := F) d L rr11 _).symm); iexact Ha11
    isplitl [Hs0]; · iexact Hs0
    isplitl [Hs1]; · iexact Hs1
    isplitl [Hs2]; · iexact Hs2
    isplitl [Hs3]; · iexact Hs3
    isplitl [Hm4 Hm5 Hm6 Hm7 Hm8 Hm9 Hm10 Hm11]
    · isplitl [Hm4]; · iexact Hm4
      isplitl [Hm5]; · iexact Hm5
      isplitl [Hm6]; · iexact Hm6
      isplitl [Hm7]; · iexact Hm7
      isplitl [Hm8]; · iexact Hm8
      isplitl [Hm9]; · iexact Hm9
      isplitl [Hm10]; · iexact Hm10
      iexact Hm11
    iexact HO
  iintro %_ ⟨⟨Hx0, Hx1, Hx2, Hx3, Hx4, Hx5, Hx6, Hx7, Hx8, Hx9, Hx10, Hx11⟩, ⟨Ha0, Ha1, Ha2, Ha3, Ha4, Ha5, Ha6, Ha7, Ha8, Ha9, Ha10, Ha11⟩, ⟨%g0, Hs0⟩, ⟨%g1, Hs1⟩, ⟨%g2, Hs2⟩, ⟨%g3, Hs3⟩, ⟨Hm4, Hm5, Hm6, Hm7, Hm8, Hm9, Hm10, Hm11⟩, HW⟩
  isplitl [Hx0 Hx1 Hx2 Hx3 Hx4 Hx5 Hx6 Hx7 Hx8 Hx9 Hx10 Hx11 Ha0 Ha1 Ha2 Ha3 Ha4 Ha5 Ha6 Ha7 Ha8 Ha9 Ha10 Ha11]
  · isplitl [Hx0 Hx1 Hx2 Hx3 Hx4 Hx5 Hx6 Hx7 Hx8 Hx9 Hx10 Hx11]
    · isplitl [Hx0]; · iapply (Entails.of_eq (pts_xRow (F := F) d L rr0 _)); iexact Hx0
      isplitl [Hx1]; · iapply (Entails.of_eq (pts_xRow (F := F) d L rr1 _)); iexact Hx1
      isplitl [Hx2]; · iapply (Entails.of_eq (pts_xRow (F := F) d L rr2 _)); iexact Hx2
      isplitl [Hx3]; · iapply (Entails.of_eq (pts_xRow (F := F) d L rr3 _)); iexact Hx3
      isplitl [Hx4]; · iapply (Entails.of_eq (pts_xRow (F := F) d L rr4 _)); iexact Hx4
      isplitl [Hx5]; · iapply (Entails.of_eq (pts_xRow (F := F) d L rr5 _)); iexact Hx5
      isplitl [Hx6]; · iapply (Entails.of_eq (pts_xRow (F := F) d L rr6 _)); iexact Hx6
      isplitl [Hx7]; · iapply (Entails.of_eq (pts_xRow (F := F) d L rr7 _)); iexact Hx7
      isplitl [Hx8]; · iapply (Entails.of_eq (pts_xRow (F := F) d L rr8 _)); iexact Hx8
      isplitl [Hx9]; · iapply (Entails.of_eq (pts_xRow (F := F) d L rr9 _)); iexact Hx9
      isplitl [Hx10]; · iapply (Entails.of_eq (pts_xRow (F := F) d L rr10 _)); iexact Hx10
      iapply (Entails.of_eq (pts_xRow (F := F) d L rr11 _)); iexact Hx11
    · isplitl [Ha0]; · iapply (Entails.of_eq (pts_aRow (F := F) d L rr0 _)); iexact Ha0
      isplitl [Ha1]; · iapply (Entails.of_eq (pts_aRow (F := F) d L rr1 _)); iexact Ha1
      isplitl [Ha2]; · iapply (Entails.of_eq (pts_aRow (F := F) d L rr2 _)); iexact Ha2
      isplitl [Ha3]; · iapply (Entails.of_eq (pts_aRow (F := F) d L rr3 _)); iexact Ha3
      isplitl [Ha4]; · iapply (Entails.of_eq (pts_aRow (F := F) d L rr4 _)); iexact Ha4
      isplitl [Ha5]; · iapply (Entails.of_eq (pts_aRow (F := F) d L rr5 _)); iexact Ha5
      isplitl [Ha6]; · iapply (Entails.of_eq (pts_aRow (F := F) d L rr6 _)); iexact Ha6
      isplitl [Ha7]; · iapply (Entails.of_eq (pts_aRow (F := F) d L rr7 _)); iexact Ha7
      isplitl [Ha8]; · iapply (Entails.of_eq (pts_aRow (F := F) d L rr8 _)); iexact Ha8
      isplitl [Ha9]; · iapply (Entails.of_eq (pts_aRow (F := F) d L rr9 _)); iexact Ha9
      isplitl [Ha10]; · iapply (Entails.of_eq (pts_aRow (F := F) d L rr10 _)); iexact Ha10
      iapply (Entails.of_eq (pts_aRow (F := F) d L rr11 _)); iexact Ha11
  isplitl [Hs0 Hs1 Hs2 Hs3 Hbufs]
  · isplitl [Hs0]; · iexists _; iexact Hs0
    isplitl [Hs1]; · iexists _; iexact Hs1
    isplitl [Hs2]; · iexists _; iexact Hs2
    isplitl [Hs3]; · iexists _; iexact Hs3
    iexact Hbufs
  isplitl [Hm4 Hm5 Hm6 Hm7 Hm8 Hm9 Hm10 Hm11 Hsems]
  · isplitl [Hm4]; · iexact Hm4
    isplitl [Hm5]; · iexact Hm5
    isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    iexact Hsems
  iexact HW

end Tile

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

variable [FloatOps F]

theorem defs₀_vector (c : Fin τ.nSC) (s : Fin τ.nSub) :
    defs₀ (F := F) (.scVector c s) 0 ()
      = SparseCore.onTile hcore0 hsub0 (fun c s => cc0_sc_copy (coordsV c s)
          xV (Memref.isWhole_whole _) aV (Memref.isWhole_whole _) s0 (Memref.isWhole_whole _) s1 (Memref.isWhole_whole _)
          s2 (Memref.isWhole_whole _) s3 (Memref.isWhole_whole _) cc0_scratch4 cc0_scratch5 cc0_scratch6 cc0_scratch7 cc0_scratch8 cc0_scratch9 cc0_scratch10 cc0_scratch11) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_wrap m d (coordsV ⟨_, hc.1⟩ ⟨_, hc.2⟩) hF O W hO).trans (wp_mono frame _ _ fun _ => obl_post)

theorem vecSplit : (K (F := F)).VecSplit' (P m) 0 := by
  intro d c
  show (bigSep Finset.univ fun i : Fin ((K (F := F)).nSub 0) => (P m).go 0 d c i)
    ⊢ |={Set.univ}=> iprop((bigSep Finset.univ fun i : Fin ((K (F := F)).nSub 0) => (P m).go 0 d c i)
      ∗ ((bigSep Finset.univ fun i : Fin ((K (F := F)).nSub 0) => (P m).td 0 d c i)
        -∗ bigSep Finset.univ fun i : Fin ((K (F := F)).nSub 0) => (P m).td 0 d c i))
  iintro H; imodintro
  isplitl [H]; · iexact H
  iintro H; iexact H

end Cert.Proof.KI

end
-- ==== Proof.KI.TcBody.lean ====
/-
  The TensorCore's kernel: ten chunks of 64 rows — rows 384 + 64·k … of `x` — are copied into chunk k of the 640-row
  result, each through slot k mod 8 of an eight-slot scratch: chunk k is fetched into its slot and written out from
  there, every copy issued and awaited by the TensorCore on the semaphore of its slot and direction, and a slot is
  refilled only after its write-out has been awaited. So chunk k of the result ends at chunk k of `x`'s last 640 rows.
  The arrays are held by the pieces the copies move: `x`'s ten chunks (its first 384 rows aside), the result's ten
  chunks, the scratch's eight slots.
-/
import proofs.«212309_g71296457113957_cont_9to1_m_186_18_alg».proof.Proof.KI.Base

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

/-- The three arrays the kernel is called with, whole. -/
abbrev tcXw : Memref sig .tc .hbm S1024x50x512 .f32 := Memref.whole main_arg0
abbrev tcBw : Memref sig .tc .hbm S640x50x512 .f32 := Memref.whole main_v1
abbrev tcSw : Memref sig .tc .vmem S8x64x50x512 .f32 := Memref.whole cc1_scratch0
abbrev tcX0 : Memref sig .tc .hbm S64x50x512 .f32 := (tcXw).slice (Rect.unit (s := S1024x50x512) ![384, 0, 0] S64x50x512.size inb_S1024x50x512_S64x50x512_384_0_0) (fun _ => rfl)
abbrev tcX1 : Memref sig .tc .hbm S64x50x512 .f32 := (tcXw).slice (Rect.unit (s := S1024x50x512) ![448, 0, 0] S64x50x512.size inb_S1024x50x512_S64x50x512_448_0_0) (fun _ => rfl)
abbrev tcX2 : Memref sig .tc .hbm S64x50x512 .f32 := (tcXw).slice (Rect.unit (s := S1024x50x512) ![512, 0, 0] S64x50x512.size inb_S1024x50x512_S64x50x512_512_0_0) (fun _ => rfl)
abbrev tcX3 : Memref sig .tc .hbm S64x50x512 .f32 := (tcXw).slice (Rect.unit (s := S1024x50x512) ![576, 0, 0] S64x50x512.size inb_S1024x50x512_S64x50x512_576_0_0) (fun _ => rfl)
abbrev tcX4 : Memref sig .tc .hbm S64x50x512 .f32 := (tcXw).slice (Rect.unit (s := S1024x50x512) ![640, 0, 0] S64x50x512.size inb_S1024x50x512_S64x50x512_640_0_0) (fun _ => rfl)
abbrev tcX5 : Memref sig .tc .hbm S64x50x512 .f32 := (tcXw).slice (Rect.unit (s := S1024x50x512) ![704, 0, 0] S64x50x512.size inb_S1024x50x512_S64x50x512_704_0_0) (fun _ => rfl)
abbrev tcX6 : Memref sig .tc .hbm S64x50x512 .f32 := (tcXw).slice (Rect.unit (s := S1024x50x512) ![768, 0, 0] S64x50x512.size inb_S1024x50x512_S64x50x512_768_0_0) (fun _ => rfl)
abbrev tcX7 : Memref sig .tc .hbm S64x50x512 .f32 := (tcXw).slice (Rect.unit (s := S1024x50x512) ![832, 0, 0] S64x50x512.size inb_S1024x50x512_S64x50x512_832_0_0) (fun _ => rfl)
abbrev tcX8 : Memref sig .tc .hbm S64x50x512 .f32 := (tcXw).slice (Rect.unit (s := S1024x50x512) ![896, 0, 0] S64x50x512.size inb_S1024x50x512_S64x50x512_896_0_0) (fun _ => rfl)
abbrev tcX9 : Memref sig .tc .hbm S64x50x512 .f32 := (tcXw).slice (Rect.unit (s := S1024x50x512) ![960, 0, 0] S64x50x512.size inb_S1024x50x512_S64x50x512_960_0_0) (fun _ => rfl)
abbrev tcB0 : Memref sig .tc .hbm S64x50x512 .f32 := (tcBw).slice (Rect.unit (s := S640x50x512) ![0, 0, 0] S64x50x512.size inb_S640x50x512_S64x50x512_0_0_0) (fun _ => rfl)
abbrev tcB1 : Memref sig .tc .hbm S64x50x512 .f32 := (tcBw).slice (Rect.unit (s := S640x50x512) ![64, 0, 0] S64x50x512.size inb_S640x50x512_S64x50x512_64_0_0) (fun _ => rfl)
abbrev tcB2 : Memref sig .tc .hbm S64x50x512 .f32 := (tcBw).slice (Rect.unit (s := S640x50x512) ![128, 0, 0] S64x50x512.size inb_S640x50x512_S64x50x512_128_0_0) (fun _ => rfl)
abbrev tcB3 : Memref sig .tc .hbm S64x50x512 .f32 := (tcBw).slice (Rect.unit (s := S640x50x512) ![192, 0, 0] S64x50x512.size inb_S640x50x512_S64x50x512_192_0_0) (fun _ => rfl)
abbrev tcB4 : Memref sig .tc .hbm S64x50x512 .f32 := (tcBw).slice (Rect.unit (s := S640x50x512) ![256, 0, 0] S64x50x512.size inb_S640x50x512_S64x50x512_256_0_0) (fun _ => rfl)
abbrev tcB5 : Memref sig .tc .hbm S64x50x512 .f32 := (tcBw).slice (Rect.unit (s := S640x50x512) ![320, 0, 0] S64x50x512.size inb_S640x50x512_S64x50x512_320_0_0) (fun _ => rfl)
abbrev tcB6 : Memref sig .tc .hbm S64x50x512 .f32 := (tcBw).slice (Rect.unit (s := S640x50x512) ![384, 0, 0] S64x50x512.size inb_S640x50x512_S64x50x512_384_0_0) (fun _ => rfl)
abbrev tcB7 : Memref sig .tc .hbm S64x50x512 .f32 := (tcBw).slice (Rect.unit (s := S640x50x512) ![448, 0, 0] S64x50x512.size inb_S640x50x512_S64x50x512_448_0_0) (fun _ => rfl)
abbrev tcB8 : Memref sig .tc .hbm S64x50x512 .f32 := (tcBw).slice (Rect.unit (s := S640x50x512) ![512, 0, 0] S64x50x512.size inb_S640x50x512_S64x50x512_512_0_0) (fun _ => rfl)
abbrev tcB9 : Memref sig .tc .hbm S64x50x512 .f32 := (tcBw).slice (Rect.unit (s := S640x50x512) ![576, 0, 0] S64x50x512.size inb_S640x50x512_S64x50x512_576_0_0) (fun _ => rfl)
abbrev tcS0 : Memref sig .tc .vmem S64x50x512 .f32 := ((tcSw).slice (Rect.unit (s := S8x64x50x512) ![0, 0, 0, 0] S1x64x50x512.size inb_S8x64x50x512_S1x64x50x512_0_0_0_0) (fun _ => rfl)).squeeze S64x50x512 squeezes_S1x64x50x512_S64x50x512
abbrev tcS1 : Memref sig .tc .vmem S64x50x512 .f32 := ((tcSw).slice (Rect.unit (s := S8x64x50x512) ![1, 0, 0, 0] S1x64x50x512.size inb_S8x64x50x512_S1x64x50x512_1_0_0_0) (fun _ => rfl)).squeeze S64x50x512 squeezes_S1x64x50x512_S64x50x512
abbrev tcS2 : Memref sig .tc .vmem S64x50x512 .f32 := ((tcSw).slice (Rect.unit (s := S8x64x50x512) ![2, 0, 0, 0] S1x64x50x512.size inb_S8x64x50x512_S1x64x50x512_2_0_0_0) (fun _ => rfl)).squeeze S64x50x512 squeezes_S1x64x50x512_S64x50x512
abbrev tcS3 : Memref sig .tc .vmem S64x50x512 .f32 := ((tcSw).slice (Rect.unit (s := S8x64x50x512) ![3, 0, 0, 0] S1x64x50x512.size inb_S8x64x50x512_S1x64x50x512_3_0_0_0) (fun _ => rfl)).squeeze S64x50x512 squeezes_S1x64x50x512_S64x50x512
abbrev tcS4 : Memref sig .tc .vmem S64x50x512 .f32 := ((tcSw).slice (Rect.unit (s := S8x64x50x512) ![4, 0, 0, 0] S1x64x50x512.size inb_S8x64x50x512_S1x64x50x512_4_0_0_0) (fun _ => rfl)).squeeze S64x50x512 squeezes_S1x64x50x512_S64x50x512
abbrev tcS5 : Memref sig .tc .vmem S64x50x512 .f32 := ((tcSw).slice (Rect.unit (s := S8x64x50x512) ![5, 0, 0, 0] S1x64x50x512.size inb_S8x64x50x512_S1x64x50x512_5_0_0_0) (fun _ => rfl)).squeeze S64x50x512 squeezes_S1x64x50x512_S64x50x512
abbrev tcS6 : Memref sig .tc .vmem S64x50x512 .f32 := ((tcSw).slice (Rect.unit (s := S8x64x50x512) ![6, 0, 0, 0] S1x64x50x512.size inb_S8x64x50x512_S1x64x50x512_6_0_0_0) (fun _ => rfl)).squeeze S64x50x512 squeezes_S1x64x50x512_S64x50x512
abbrev tcS7 : Memref sig .tc .vmem S64x50x512 .f32 := ((tcSw).slice (Rect.unit (s := S8x64x50x512) ![7, 0, 0, 0] S1x64x50x512.size inb_S8x64x50x512_S1x64x50x512_7_0_0_0) (fun _ => rfl)).squeeze S64x50x512 squeezes_S1x64x50x512_S64x50x512
abbrev tcI0 : DmaSems sig S_ := (cc1_scratch1.slice (Rect.unit (s := S8) ![0] S1.size inb_S8_S1_0)).squeeze S_ squeezes_S1_S_
abbrev tcI1 : DmaSems sig S_ := (cc1_scratch1.slice (Rect.unit (s := S8) ![1] S1.size inb_S8_S1_1)).squeeze S_ squeezes_S1_S_
abbrev tcI2 : DmaSems sig S_ := (cc1_scratch1.slice (Rect.unit (s := S8) ![2] S1.size inb_S8_S1_2)).squeeze S_ squeezes_S1_S_
abbrev tcI3 : DmaSems sig S_ := (cc1_scratch1.slice (Rect.unit (s := S8) ![3] S1.size inb_S8_S1_3)).squeeze S_ squeezes_S1_S_
abbrev tcI4 : DmaSems sig S_ := (cc1_scratch1.slice (Rect.unit (s := S8) ![4] S1.size inb_S8_S1_4)).squeeze S_ squeezes_S1_S_
abbrev tcI5 : DmaSems sig S_ := (cc1_scratch1.slice (Rect.unit (s := S8) ![5] S1.size inb_S8_S1_5)).squeeze S_ squeezes_S1_S_
abbrev tcI6 : DmaSems sig S_ := (cc1_scratch1.slice (Rect.unit (s := S8) ![6] S1.size inb_S8_S1_6)).squeeze S_ squeezes_S1_S_
abbrev tcI7 : DmaSems sig S_ := (cc1_scratch1.slice (Rect.unit (s := S8) ![7] S1.size inb_S8_S1_7)).squeeze S_ squeezes_S1_S_
abbrev tcO0 : DmaSems sig S_ := (cc1_scratch2.slice (Rect.unit (s := S8) ![0] S1.size inb_S8_S1_0)).squeeze S_ squeezes_S1_S_
abbrev tcO1 : DmaSems sig S_ := (cc1_scratch2.slice (Rect.unit (s := S8) ![1] S1.size inb_S8_S1_1)).squeeze S_ squeezes_S1_S_
abbrev tcO2 : DmaSems sig S_ := (cc1_scratch2.slice (Rect.unit (s := S8) ![2] S1.size inb_S8_S1_2)).squeeze S_ squeezes_S1_S_
abbrev tcO3 : DmaSems sig S_ := (cc1_scratch2.slice (Rect.unit (s := S8) ![3] S1.size inb_S8_S1_3)).squeeze S_ squeezes_S1_S_
abbrev tcO4 : DmaSems sig S_ := (cc1_scratch2.slice (Rect.unit (s := S8) ![4] S1.size inb_S8_S1_4)).squeeze S_ squeezes_S1_S_
abbrev tcO5 : DmaSems sig S_ := (cc1_scratch2.slice (Rect.unit (s := S8) ![5] S1.size inb_S8_S1_5)).squeeze S_ squeezes_S1_S_
abbrev tcO6 : DmaSems sig S_ := (cc1_scratch2.slice (Rect.unit (s := S8) ![6] S1.size inb_S8_S1_6)).squeeze S_ squeezes_S1_S_
abbrev tcO7 : DmaSems sig S_ := (cc1_scratch2.slice (Rect.unit (s := S8) ![7] S1.size inb_S8_S1_7)).squeeze S_ squeezes_S1_S_

variable [FloatOps F]

/-- The sixteen scoped semaphores of the TensorCore, each at zero. -/
abbrev tcSems (d : Dev nD) : sProp 𝕄 :=
  iprop((semVal (SparseCore.T (τ := τ) d, SemLoc.dma tcI0.sem) 0 ∗ semVal (SparseCore.T (τ := τ) d, SemLoc.dma tcI1.sem) 0 ∗ semVal (SparseCore.T (τ := τ) d, SemLoc.dma tcI2.sem) 0 ∗ semVal (SparseCore.T (τ := τ) d, SemLoc.dma tcI3.sem) 0 ∗ semVal (SparseCore.T (τ := τ) d, SemLoc.dma tcI4.sem) 0 ∗ semVal (SparseCore.T (τ := τ) d, SemLoc.dma tcI5.sem) 0 ∗ semVal (SparseCore.T (τ := τ) d, SemLoc.dma tcI6.sem) 0 ∗ semVal (SparseCore.T (τ := τ) d, SemLoc.dma tcI7.sem) 0)
      ∗ (semVal (SparseCore.T (τ := τ) d, SemLoc.dma tcO0.sem) 0 ∗ semVal (SparseCore.T (τ := τ) d, SemLoc.dma tcO1.sem) 0 ∗ semVal (SparseCore.T (τ := τ) d, SemLoc.dma tcO2.sem) 0 ∗ semVal (SparseCore.T (τ := τ) d, SemLoc.dma tcO3.sem) 0 ∗ semVal (SparseCore.T (τ := τ) d, SemLoc.dma tcO4.sem) 0 ∗ semVal (SparseCore.T (τ := τ) d, SemLoc.dma tcO5.sem) 0 ∗ semVal (SparseCore.T (τ := τ) d, SemLoc.dma tcO6.sem) 0 ∗ semVal (SparseCore.T (τ := τ) d, SemLoc.dma tcO7.sem) 0))

abbrev sLoc (d : Dev nD) : Loc nD τ sig := (SparseCore.T d).loc cc1_scratch0

/-! ## The pieces as sets of elements -/

/-- The 64 rows of `x` from row `n`, of the result from row `n`; slot `s` of the scratch; `x`'s first 384 rows. -/
def xRowsFrom (n : ℕ) : Finset S1024x50x512.Idx := Finset.univ.filter fun j => n ≤ (j 0).val ∧ (j 0).val < n + 64
def bRowsFrom (n : ℕ) : Finset S640x50x512.Idx := Finset.univ.filter fun j => n ≤ (j 0).val ∧ (j 0).val < n + 64
def slotSet (s : ℕ) : Finset S8x64x50x512.Idx := Finset.univ.filter fun j => (j 0).val = s
def xLow : Finset S1024x50x512.Idx := Finset.univ.filter fun j => (j 0).val < 384

omit [FloatOps F] in
theorem mem_chunk_x (n : ℕ) (inb) (j : S1024x50x512.Idx) :
    j ∈ (Rect.unit (s := S1024x50x512) ![n, 0, 0] S64x50x512.size inb).set ↔ n ≤ (j 0).val ∧ (j 0).val < n + 64 := by
  rw [Rect.mem_set_unit]
  constructor
  · intro h; exact h 0
  · intro h a
    match a with
    | 0 => exact h
    | 1 => have h1 : (j 1).val < 50 := (j 1).isLt; exact ⟨Nat.zero_le _, show (j 1).val < 0 + 50 by omega⟩
    | 2 => have h2 : (j 2).val < 512 := (j 2).isLt; exact ⟨Nat.zero_le _, show (j 2).val < 0 + 512 by omega⟩
omit [FloatOps F] in
theorem mem_chunk_b (n : ℕ) (inb) (j : S640x50x512.Idx) :
    j ∈ (Rect.unit (s := S640x50x512) ![n, 0, 0] S64x50x512.size inb).set ↔ n ≤ (j 0).val ∧ (j 0).val < n + 64 := by
  rw [Rect.mem_set_unit]
  constructor
  · intro h; exact h 0
  · intro h a
    match a with
    | 0 => exact h
    | 1 => have h1 : (j 1).val < 50 := (j 1).isLt; exact ⟨Nat.zero_le _, show (j 1).val < 0 + 50 by omega⟩
    | 2 => have h2 : (j 2).val < 512 := (j 2).isLt; exact ⟨Nat.zero_le _, show (j 2).val < 0 + 512 by omega⟩
omit [FloatOps F] in
theorem mem_slot (s : ℕ) (inb) (j : S8x64x50x512.Idx) :
    j ∈ (Rect.unit (s := S8x64x50x512) ![s, 0, 0, 0] S1x64x50x512.size inb).set ↔ (j 0).val = s := by
  rw [Rect.mem_set_unit]
  constructor
  · intro h
    have h0 : s ≤ (j 0).val ∧ (j 0).val < s + 1 := h 0
    omega
  · intro h a
    match a with
    | 0 => exact ⟨show s ≤ (j 0).val by omega, show (j 0).val < s + 1 by omega⟩
    | 1 => have h1 : (j 1).val < 64 := (j 1).isLt; exact ⟨Nat.zero_le _, show (j 1).val < 0 + 64 by omega⟩
    | 2 => have h2 : (j 2).val < 50 := (j 2).isLt; exact ⟨Nat.zero_le _, show (j 2).val < 0 + 50 by omega⟩
    | 3 => have h3 : (j 3).val < 512 := (j 3).isLt; exact ⟨Nat.zero_le _, show (j 3).val < 0 + 512 by omega⟩

omit [FloatOps F] in
theorem set_tcX0 : (tcX0).view.set = xRowsFrom (384 + 64 * ((0 : Fin 10) : ℕ)) := by
  show ((View.whole main_arg0).slice _).set = _
  rw [View.set_slice_whole]
  ext j
  rw [mem_chunk_x]
  simp only [xRowsFrom, Finset.mem_filter, Finset.mem_univ, true_and]
  exact Iff.rfl
omit [FloatOps F] in
theorem set_tcB0 : (tcB0).view.set = bRowsFrom (64 * ((0 : Fin 10) : ℕ)) := by
  show ((View.whole main_v1).slice _).set = _
  rw [View.set_slice_whole]
  ext j
  rw [mem_chunk_b]
  simp only [bRowsFrom, Finset.mem_filter, Finset.mem_univ, true_and]
  exact Iff.rfl
omit [FloatOps F] in
theorem set_tcX1 : (tcX1).view.set = xRowsFrom (384 + 64 * ((1 : Fin 10) : ℕ)) := by
  show ((View.whole main_arg0).slice _).set = _
  rw [View.set_slice_whole]
  ext j
  rw [mem_chunk_x]
  simp only [xRowsFrom, Finset.mem_filter, Finset.mem_univ, true_and]
  exact Iff.rfl
omit [FloatOps F] in
theorem set_tcB1 : (tcB1).view.set = bRowsFrom (64 * ((1 : Fin 10) : ℕ)) := by
  show ((View.whole main_v1).slice _).set = _
  rw [View.set_slice_whole]
  ext j
  rw [mem_chunk_b]
  simp only [bRowsFrom, Finset.mem_filter, Finset.mem_univ, true_and]
  exact Iff.rfl
omit [FloatOps F] in
theorem set_tcX2 : (tcX2).view.set = xRowsFrom (384 + 64 * ((2 : Fin 10) : ℕ)) := by
  show ((View.whole main_arg0).slice _).set = _
  rw [View.set_slice_whole]
  ext j
  rw [mem_chunk_x]
  simp only [xRowsFrom, Finset.mem_filter, Finset.mem_univ, true_and]
  exact Iff.rfl
omit [FloatOps F] in
theorem set_tcB2 : (tcB2).view.set = bRowsFrom (64 * ((2 : Fin 10) : ℕ)) := by
  show ((View.whole main_v1).slice _).set = _
  rw [View.set_slice_whole]
  ext j
  rw [mem_chunk_b]
  simp only [bRowsFrom, Finset.mem_filter, Finset.mem_univ, true_and]
  exact Iff.rfl
omit [FloatOps F] in
theorem set_tcX3 : (tcX3).view.set = xRowsFrom (384 + 64 * ((3 : Fin 10) : ℕ)) := by
  show ((View.whole main_arg0).slice _).set = _
  rw [View.set_slice_whole]
  ext j
  rw [mem_chunk_x]
  simp only [xRowsFrom, Finset.mem_filter, Finset.mem_univ, true_and]
  exact Iff.rfl
omit [FloatOps F] in
theorem set_tcB3 : (tcB3).view.set = bRowsFrom (64 * ((3 : Fin 10) : ℕ)) := by
  show ((View.whole main_v1).slice _).set = _
  rw [View.set_slice_whole]
  ext j
  rw [mem_chunk_b]
  simp only [bRowsFrom, Finset.mem_filter, Finset.mem_univ, true_and]
  exact Iff.rfl
omit [FloatOps F] in
theorem set_tcX4 : (tcX4).view.set = xRowsFrom (384 + 64 * ((4 : Fin 10) : ℕ)) := by
  show ((View.whole main_arg0).slice _).set = _
  rw [View.set_slice_whole]
  ext j
  rw [mem_chunk_x]
  simp only [xRowsFrom, Finset.mem_filter, Finset.mem_univ, true_and]
  exact Iff.rfl
omit [FloatOps F] in
theorem set_tcB4 : (tcB4).view.set = bRowsFrom (64 * ((4 : Fin 10) : ℕ)) := by
  show ((View.whole main_v1).slice _).set = _
  rw [View.set_slice_whole]
  ext j
  rw [mem_chunk_b]
  simp only [bRowsFrom, Finset.mem_filter, Finset.mem_univ, true_and]
  exact Iff.rfl
omit [FloatOps F] in
theorem set_tcX5 : (tcX5).view.set = xRowsFrom (384 + 64 * ((5 : Fin 10) : ℕ)) := by
  show ((View.whole main_arg0).slice _).set = _
  rw [View.set_slice_whole]
  ext j
  rw [mem_chunk_x]
  simp only [xRowsFrom, Finset.mem_filter, Finset.mem_univ, true_and]
  exact Iff.rfl
omit [FloatOps F] in
theorem set_tcB5 : (tcB5).view.set = bRowsFrom (64 * ((5 : Fin 10) : ℕ)) := by
  show ((View.whole main_v1).slice _).set = _
  rw [View.set_slice_whole]
  ext j
  rw [mem_chunk_b]
  simp only [bRowsFrom, Finset.mem_filter, Finset.mem_univ, true_and]
  exact Iff.rfl
omit [FloatOps F] in
theorem set_tcX6 : (tcX6).view.set = xRowsFrom (384 + 64 * ((6 : Fin 10) : ℕ)) := by
  show ((View.whole main_arg0).slice _).set = _
  rw [View.set_slice_whole]
  ext j
  rw [mem_chunk_x]
  simp only [xRowsFrom, Finset.mem_filter, Finset.mem_univ, true_and]
  exact Iff.rfl
omit [FloatOps F] in
theorem set_tcB6 : (tcB6).view.set = bRowsFrom (64 * ((6 : Fin 10) : ℕ)) := by
  show ((View.whole main_v1).slice _).set = _
  rw [View.set_slice_whole]
  ext j
  rw [mem_chunk_b]
  simp only [bRowsFrom, Finset.mem_filter, Finset.mem_univ, true_and]
  exact Iff.rfl
omit [FloatOps F] in
theorem set_tcX7 : (tcX7).view.set = xRowsFrom (384 + 64 * ((7 : Fin 10) : ℕ)) := by
  show ((View.whole main_arg0).slice _).set = _
  rw [View.set_slice_whole]
  ext j
  rw [mem_chunk_x]
  simp only [xRowsFrom, Finset.mem_filter, Finset.mem_univ, true_and]
  exact Iff.rfl
omit [FloatOps F] in
theorem set_tcB7 : (tcB7).view.set = bRowsFrom (64 * ((7 : Fin 10) : ℕ)) := by
  show ((View.whole main_v1).slice _).set = _
  rw [View.set_slice_whole]
  ext j
  rw [mem_chunk_b]
  simp only [bRowsFrom, Finset.mem_filter, Finset.mem_univ, true_and]
  exact Iff.rfl
omit [FloatOps F] in
theorem set_tcX8 : (tcX8).view.set = xRowsFrom (384 + 64 * ((8 : Fin 10) : ℕ)) := by
  show ((View.whole main_arg0).slice _).set = _
  rw [View.set_slice_whole]
  ext j
  rw [mem_chunk_x]
  simp only [xRowsFrom, Finset.mem_filter, Finset.mem_univ, true_and]
  exact Iff.rfl
omit [FloatOps F] in
theorem set_tcB8 : (tcB8).view.set = bRowsFrom (64 * ((8 : Fin 10) : ℕ)) := by
  show ((View.whole main_v1).slice _).set = _
  rw [View.set_slice_whole]
  ext j
  rw [mem_chunk_b]
  simp only [bRowsFrom, Finset.mem_filter, Finset.mem_univ, true_and]
  exact Iff.rfl
omit [FloatOps F] in
theorem set_tcX9 : (tcX9).view.set = xRowsFrom (384 + 64 * ((9 : Fin 10) : ℕ)) := by
  show ((View.whole main_arg0).slice _).set = _
  rw [View.set_slice_whole]
  ext j
  rw [mem_chunk_x]
  simp only [xRowsFrom, Finset.mem_filter, Finset.mem_univ, true_and]
  exact Iff.rfl
omit [FloatOps F] in
theorem set_tcB9 : (tcB9).view.set = bRowsFrom (64 * ((9 : Fin 10) : ℕ)) := by
  show ((View.whole main_v1).slice _).set = _
  rw [View.set_slice_whole]
  ext j
  rw [mem_chunk_b]
  simp only [bRowsFrom, Finset.mem_filter, Finset.mem_univ, true_and]
  exact Iff.rfl
omit [FloatOps F] in
theorem set_tcS0 : (tcS0).view.set = slotSet ((0 : Fin 8) : ℕ) := by
  show (((View.whole cc1_scratch0).slice (Rect.unit (s := S8x64x50x512) ![0, 0, 0, 0] S1x64x50x512.size inb_S8x64x50x512_S1x64x50x512_0_0_0_0)).reshape S64x50x512 squeezes_S1x64x50x512_S64x50x512.numel_eq).set = _
  rw [View.set_reshape, View.set_slice_whole]
  ext j
  rw [mem_slot]
  simp only [slotSet, Finset.mem_filter, Finset.mem_univ, true_and]
  exact Iff.rfl
omit [FloatOps F] in
theorem set_tcS1 : (tcS1).view.set = slotSet ((1 : Fin 8) : ℕ) := by
  show (((View.whole cc1_scratch0).slice (Rect.unit (s := S8x64x50x512) ![1, 0, 0, 0] S1x64x50x512.size inb_S8x64x50x512_S1x64x50x512_1_0_0_0)).reshape S64x50x512 squeezes_S1x64x50x512_S64x50x512.numel_eq).set = _
  rw [View.set_reshape, View.set_slice_whole]
  ext j
  rw [mem_slot]
  simp only [slotSet, Finset.mem_filter, Finset.mem_univ, true_and]
  exact Iff.rfl
omit [FloatOps F] in
theorem set_tcS2 : (tcS2).view.set = slotSet ((2 : Fin 8) : ℕ) := by
  show (((View.whole cc1_scratch0).slice (Rect.unit (s := S8x64x50x512) ![2, 0, 0, 0] S1x64x50x512.size inb_S8x64x50x512_S1x64x50x512_2_0_0_0)).reshape S64x50x512 squeezes_S1x64x50x512_S64x50x512.numel_eq).set = _
  rw [View.set_reshape, View.set_slice_whole]
  ext j
  rw [mem_slot]
  simp only [slotSet, Finset.mem_filter, Finset.mem_univ, true_and]
  exact Iff.rfl
omit [FloatOps F] in
theorem set_tcS3 : (tcS3).view.set = slotSet ((3 : Fin 8) : ℕ) := by
  show (((View.whole cc1_scratch0).slice (Rect.unit (s := S8x64x50x512) ![3, 0, 0, 0] S1x64x50x512.size inb_S8x64x50x512_S1x64x50x512_3_0_0_0)).reshape S64x50x512 squeezes_S1x64x50x512_S64x50x512.numel_eq).set = _
  rw [View.set_reshape, View.set_slice_whole]
  ext j
  rw [mem_slot]
  simp only [slotSet, Finset.mem_filter, Finset.mem_univ, true_and]
  exact Iff.rfl
omit [FloatOps F] in
theorem set_tcS4 : (tcS4).view.set = slotSet ((4 : Fin 8) : ℕ) := by
  show (((View.whole cc1_scratch0).slice (Rect.unit (s := S8x64x50x512) ![4, 0, 0, 0] S1x64x50x512.size inb_S8x64x50x512_S1x64x50x512_4_0_0_0)).reshape S64x50x512 squeezes_S1x64x50x512_S64x50x512.numel_eq).set = _
  rw [View.set_reshape, View.set_slice_whole]
  ext j
  rw [mem_slot]
  simp only [slotSet, Finset.mem_filter, Finset.mem_univ, true_and]
  exact Iff.rfl
omit [FloatOps F] in
theorem set_tcS5 : (tcS5).view.set = slotSet ((5 : Fin 8) : ℕ) := by
  show (((View.whole cc1_scratch0).slice (Rect.unit (s := S8x64x50x512) ![5, 0, 0, 0] S1x64x50x512.size inb_S8x64x50x512_S1x64x50x512_5_0_0_0)).reshape S64x50x512 squeezes_S1x64x50x512_S64x50x512.numel_eq).set = _
  rw [View.set_reshape, View.set_slice_whole]
  ext j
  rw [mem_slot]
  simp only [slotSet, Finset.mem_filter, Finset.mem_univ, true_and]
  exact Iff.rfl
omit [FloatOps F] in
theorem set_tcS6 : (tcS6).view.set = slotSet ((6 : Fin 8) : ℕ) := by
  show (((View.whole cc1_scratch0).slice (Rect.unit (s := S8x64x50x512) ![6, 0, 0, 0] S1x64x50x512.size inb_S8x64x50x512_S1x64x50x512_6_0_0_0)).reshape S64x50x512 squeezes_S1x64x50x512_S64x50x512.numel_eq).set = _
  rw [View.set_reshape, View.set_slice_whole]
  ext j
  rw [mem_slot]
  simp only [slotSet, Finset.mem_filter, Finset.mem_univ, true_and]
  exact Iff.rfl
omit [FloatOps F] in
theorem set_tcS7 : (tcS7).view.set = slotSet ((7 : Fin 8) : ℕ) := by
  show (((View.whole cc1_scratch0).slice (Rect.unit (s := S8x64x50x512) ![7, 0, 0, 0] S1x64x50x512.size inb_S8x64x50x512_S1x64x50x512_7_0_0_0)).reshape S64x50x512 squeezes_S1x64x50x512_S64x50x512.numel_eq).set = _
  rw [View.set_reshape, View.set_slice_whole]
  ext j
  rw [mem_slot]
  simp only [slotSet, Finset.mem_filter, Finset.mem_univ, true_and]
  exact Iff.rfl

/-! ## Where a chunk's elements sit, and what a copy lands -/

omit [FloatOps F] in
theorem tcX0_emb_eq (y : S64x50x512.Idx) : ((tcX0).view.emb y : S1024x50x512.Idx) = upB ((tcB0).view.emb y) := by
  funext a; apply Fin.ext
  match a with
  | 0 => show 384 + 1 * (y 0).val = (0 + 1 * (y 0).val) + 384; omega
  | 1 => rfl
  | 2 => rfl
omit [FloatOps F] in
theorem read_tcX0 (d : Dev nD) (fx : Buf (Elt F) (xLoc d)) (y : S64x50x512.Idx) :
    (tcX0).view.read (Elt F) fx y = fx ((tcX0).view.emb y) :=
  (View.read_apply _ _).trans (cast_eq _ _)
omit [FloatOps F] in
theorem tcB0_lands (d : Dev nD) (fx : Buf (Elt F) (xLoc d)) (fb : Buf (Elt F) (bLoc d))
    (w : S64x50x512.Idx → Elt F .f32) (hw : ∀ y, w y = fx ((tcX0).view.emb y)) :
    ∀ i ∈ (tcB0).view.set, (tcB0).view.writes (Elt F) fb [⟨Rect.whole S64x50x512, w⟩] i = tailRows d fx i := by
  intro i hi
  obtain ⟨y, -, rfl⟩ := Finset.mem_map.mp hi
  have h := View.read_writes_cons_emb (tcB0).view fb (Rect.whole S64x50x512) w [] y
  rw [Rect.emb_whole_apply, View.read_apply] at h
  refine ((cast_eq _ _).symm.trans h).trans ?_
  rw [hw y, tcX0_emb_eq]; rfl
omit [FloatOps F] in
theorem tcX1_emb_eq (y : S64x50x512.Idx) : ((tcX1).view.emb y : S1024x50x512.Idx) = upB ((tcB1).view.emb y) := by
  funext a; apply Fin.ext
  match a with
  | 0 => show 448 + 1 * (y 0).val = (64 + 1 * (y 0).val) + 384; omega
  | 1 => rfl
  | 2 => rfl
omit [FloatOps F] in
theorem read_tcX1 (d : Dev nD) (fx : Buf (Elt F) (xLoc d)) (y : S64x50x512.Idx) :
    (tcX1).view.read (Elt F) fx y = fx ((tcX1).view.emb y) :=
  (View.read_apply _ _).trans (cast_eq _ _)
omit [FloatOps F] in
theorem tcB1_lands (d : Dev nD) (fx : Buf (Elt F) (xLoc d)) (fb : Buf (Elt F) (bLoc d))
    (w : S64x50x512.Idx → Elt F .f32) (hw : ∀ y, w y = fx ((tcX1).view.emb y)) :
    ∀ i ∈ (tcB1).view.set, (tcB1).view.writes (Elt F) fb [⟨Rect.whole S64x50x512, w⟩] i = tailRows d fx i := by
  intro i hi
  obtain ⟨y, -, rfl⟩ := Finset.mem_map.mp hi
  have h := View.read_writes_cons_emb (tcB1).view fb (Rect.whole S64x50x512) w [] y
  rw [Rect.emb_whole_apply, View.read_apply] at h
  refine ((cast_eq _ _).symm.trans h).trans ?_
  rw [hw y, tcX1_emb_eq]; rfl
omit [FloatOps F] in
theorem tcX2_emb_eq (y : S64x50x512.Idx) : ((tcX2).view.emb y : S1024x50x512.Idx) = upB ((tcB2).view.emb y) := by
  funext a; apply Fin.ext
  match a with
  | 0 => show 512 + 1 * (y 0).val = (128 + 1 * (y 0).val) + 384; omega
  | 1 => rfl
  | 2 => rfl
omit [FloatOps F] in
theorem read_tcX2 (d : Dev nD) (fx : Buf (Elt F) (xLoc d)) (y : S64x50x512.Idx) :
    (tcX2).view.read (Elt F) fx y = fx ((tcX2).view.emb y) :=
  (View.read_apply _ _).trans (cast_eq _ _)
omit [FloatOps F] in
theorem tcB2_lands (d : Dev nD) (fx : Buf (Elt F) (xLoc d)) (fb : Buf (Elt F) (bLoc d))
    (w : S64x50x512.Idx → Elt F .f32) (hw : ∀ y, w y = fx ((tcX2).view.emb y)) :
    ∀ i ∈ (tcB2).view.set, (tcB2).view.writes (Elt F) fb [⟨Rect.whole S64x50x512, w⟩] i = tailRows d fx i := by
  intro i hi
  obtain ⟨y, -, rfl⟩ := Finset.mem_map.mp hi
  have h := View.read_writes_cons_emb (tcB2).view fb (Rect.whole S64x50x512) w [] y
  rw [Rect.emb_whole_apply, View.read_apply] at h
  refine ((cast_eq _ _).symm.trans h).trans ?_
  rw [hw y, tcX2_emb_eq]; rfl
omit [FloatOps F] in
theorem tcX3_emb_eq (y : S64x50x512.Idx) : ((tcX3).view.emb y : S1024x50x512.Idx) = upB ((tcB3).view.emb y) := by
  funext a; apply Fin.ext
  match a with
  | 0 => show 576 + 1 * (y 0).val = (192 + 1 * (y 0).val) + 384; omega
  | 1 => rfl
  | 2 => rfl
omit [FloatOps F] in
theorem read_tcX3 (d : Dev nD) (fx : Buf (Elt F) (xLoc d)) (y : S64x50x512.Idx) :
    (tcX3).view.read (Elt F) fx y = fx ((tcX3).view.emb y) :=
  (View.read_apply _ _).trans (cast_eq _ _)
omit [FloatOps F] in
theorem tcB3_lands (d : Dev nD) (fx : Buf (Elt F) (xLoc d)) (fb : Buf (Elt F) (bLoc d))
    (w : S64x50x512.Idx → Elt F .f32) (hw : ∀ y, w y = fx ((tcX3).view.emb y)) :
    ∀ i ∈ (tcB3).view.set, (tcB3).view.writes (Elt F) fb [⟨Rect.whole S64x50x512, w⟩] i = tailRows d fx i := by
  intro i hi
  obtain ⟨y, -, rfl⟩ := Finset.mem_map.mp hi
  have h := View.read_writes_cons_emb (tcB3).view fb (Rect.whole S64x50x512) w [] y
  rw [Rect.emb_whole_apply, View.read_apply] at h
  refine ((cast_eq _ _).symm.trans h).trans ?_
  rw [hw y, tcX3_emb_eq]; rfl
omit [FloatOps F] in
theorem tcX4_emb_eq (y : S64x50x512.Idx) : ((tcX4).view.emb y : S1024x50x512.Idx) = upB ((tcB4).view.emb y) := by
  funext a; apply Fin.ext
  match a with
  | 0 => show 640 + 1 * (y 0).val = (256 + 1 * (y 0).val) + 384; omega
  | 1 => rfl
  | 2 => rfl
omit [FloatOps F] in
theorem read_tcX4 (d : Dev nD) (fx : Buf (Elt F) (xLoc d)) (y : S64x50x512.Idx) :
    (tcX4).view.read (Elt F) fx y = fx ((tcX4).view.emb y) :=
  (View.read_apply _ _).trans (cast_eq _ _)
omit [FloatOps F] in
theorem tcB4_lands (d : Dev nD) (fx : Buf (Elt F) (xLoc d)) (fb : Buf (Elt F) (bLoc d))
    (w : S64x50x512.Idx → Elt F .f32) (hw : ∀ y, w y = fx ((tcX4).view.emb y)) :
    ∀ i ∈ (tcB4).view.set, (tcB4).view.writes (Elt F) fb [⟨Rect.whole S64x50x512, w⟩] i = tailRows d fx i := by
  intro i hi
  obtain ⟨y, -, rfl⟩ := Finset.mem_map.mp hi
  have h := View.read_writes_cons_emb (tcB4).view fb (Rect.whole S64x50x512) w [] y
  rw [Rect.emb_whole_apply, View.read_apply] at h
  refine ((cast_eq _ _).symm.trans h).trans ?_
  rw [hw y, tcX4_emb_eq]; rfl
omit [FloatOps F] in
theorem tcX5_emb_eq (y : S64x50x512.Idx) : ((tcX5).view.emb y : S1024x50x512.Idx) = upB ((tcB5).view.emb y) := by
  funext a; apply Fin.ext
  match a with
  | 0 => show 704 + 1 * (y 0).val = (320 + 1 * (y 0).val) + 384; omega
  | 1 => rfl
  | 2 => rfl
omit [FloatOps F] in
theorem read_tcX5 (d : Dev nD) (fx : Buf (Elt F) (xLoc d)) (y : S64x50x512.Idx) :
    (tcX5).view.read (Elt F) fx y = fx ((tcX5).view.emb y) :=
  (View.read_apply _ _).trans (cast_eq _ _)
omit [FloatOps F] in
theorem tcB5_lands (d : Dev nD) (fx : Buf (Elt F) (xLoc d)) (fb : Buf (Elt F) (bLoc d))
    (w : S64x50x512.Idx → Elt F .f32) (hw : ∀ y, w y = fx ((tcX5).view.emb y)) :
    ∀ i ∈ (tcB5).view.set, (tcB5).view.writes (Elt F) fb [⟨Rect.whole S64x50x512, w⟩] i = tailRows d fx i := by
  intro i hi
  obtain ⟨y, -, rfl⟩ := Finset.mem_map.mp hi
  have h := View.read_writes_cons_emb (tcB5).view fb (Rect.whole S64x50x512) w [] y
  rw [Rect.emb_whole_apply, View.read_apply] at h
  refine ((cast_eq _ _).symm.trans h).trans ?_
  rw [hw y, tcX5_emb_eq]; rfl
omit [FloatOps F] in
theorem tcX6_emb_eq (y : S64x50x512.Idx) : ((tcX6).view.emb y : S1024x50x512.Idx) = upB ((tcB6).view.emb y) := by
  funext a; apply Fin.ext
  match a with
  | 0 => show 768 + 1 * (y 0).val = (384 + 1 * (y 0).val) + 384; omega
  | 1 => rfl
  | 2 => rfl
omit [FloatOps F] in
theorem read_tcX6 (d : Dev nD) (fx : Buf (Elt F) (xLoc d)) (y : S64x50x512.Idx) :
    (tcX6).view.read (Elt F) fx y = fx ((tcX6).view.emb y) :=
  (View.read_apply _ _).trans (cast_eq _ _)
omit [FloatOps F] in
theorem tcB6_lands (d : Dev nD) (fx : Buf (Elt F) (xLoc d)) (fb : Buf (Elt F) (bLoc d))
    (w : S64x50x512.Idx → Elt F .f32) (hw : ∀ y, w y = fx ((tcX6).view.emb y)) :
    ∀ i ∈ (tcB6).view.set, (tcB6).view.writes (Elt F) fb [⟨Rect.whole S64x50x512, w⟩] i = tailRows d fx i := by
  intro i hi
  obtain ⟨y, -, rfl⟩ := Finset.mem_map.mp hi
  have h := View.read_writes_cons_emb (tcB6).view fb (Rect.whole S64x50x512) w [] y
  rw [Rect.emb_whole_apply, View.read_apply] at h
  refine ((cast_eq _ _).symm.trans h).trans ?_
  rw [hw y, tcX6_emb_eq]; rfl
omit [FloatOps F] in
theorem tcX7_emb_eq (y : S64x50x512.Idx) : ((tcX7).view.emb y : S1024x50x512.Idx) = upB ((tcB7).view.emb y) := by
  funext a; apply Fin.ext
  match a with
  | 0 => show 832 + 1 * (y 0).val = (448 + 1 * (y 0).val) + 384; omega
  | 1 => rfl
  | 2 => rfl
omit [FloatOps F] in
theorem read_tcX7 (d : Dev nD) (fx : Buf (Elt F) (xLoc d)) (y : S64x50x512.Idx) :
    (tcX7).view.read (Elt F) fx y = fx ((tcX7).view.emb y) :=
  (View.read_apply _ _).trans (cast_eq _ _)
omit [FloatOps F] in
theorem tcB7_lands (d : Dev nD) (fx : Buf (Elt F) (xLoc d)) (fb : Buf (Elt F) (bLoc d))
    (w : S64x50x512.Idx → Elt F .f32) (hw : ∀ y, w y = fx ((tcX7).view.emb y)) :
    ∀ i ∈ (tcB7).view.set, (tcB7).view.writes (Elt F) fb [⟨Rect.whole S64x50x512, w⟩] i = tailRows d fx i := by
  intro i hi
  obtain ⟨y, -, rfl⟩ := Finset.mem_map.mp hi
  have h := View.read_writes_cons_emb (tcB7).view fb (Rect.whole S64x50x512) w [] y
  rw [Rect.emb_whole_apply, View.read_apply] at h
  refine ((cast_eq _ _).symm.trans h).trans ?_
  rw [hw y, tcX7_emb_eq]; rfl
omit [FloatOps F] in
theorem tcX8_emb_eq (y : S64x50x512.Idx) : ((tcX8).view.emb y : S1024x50x512.Idx) = upB ((tcB8).view.emb y) := by
  funext a; apply Fin.ext
  match a with
  | 0 => show 896 + 1 * (y 0).val = (512 + 1 * (y 0).val) + 384; omega
  | 1 => rfl
  | 2 => rfl
omit [FloatOps F] in
theorem read_tcX8 (d : Dev nD) (fx : Buf (Elt F) (xLoc d)) (y : S64x50x512.Idx) :
    (tcX8).view.read (Elt F) fx y = fx ((tcX8).view.emb y) :=
  (View.read_apply _ _).trans (cast_eq _ _)
omit [FloatOps F] in
theorem tcB8_lands (d : Dev nD) (fx : Buf (Elt F) (xLoc d)) (fb : Buf (Elt F) (bLoc d))
    (w : S64x50x512.Idx → Elt F .f32) (hw : ∀ y, w y = fx ((tcX8).view.emb y)) :
    ∀ i ∈ (tcB8).view.set, (tcB8).view.writes (Elt F) fb [⟨Rect.whole S64x50x512, w⟩] i = tailRows d fx i := by
  intro i hi
  obtain ⟨y, -, rfl⟩ := Finset.mem_map.mp hi
  have h := View.read_writes_cons_emb (tcB8).view fb (Rect.whole S64x50x512) w [] y
  rw [Rect.emb_whole_apply, View.read_apply] at h
  refine ((cast_eq _ _).symm.trans h).trans ?_
  rw [hw y, tcX8_emb_eq]; rfl
omit [FloatOps F] in
theorem tcX9_emb_eq (y : S64x50x512.Idx) : ((tcX9).view.emb y : S1024x50x512.Idx) = upB ((tcB9).view.emb y) := by
  funext a; apply Fin.ext
  match a with
  | 0 => show 960 + 1 * (y 0).val = (576 + 1 * (y 0).val) + 384; omega
  | 1 => rfl
  | 2 => rfl
omit [FloatOps F] in
theorem read_tcX9 (d : Dev nD) (fx : Buf (Elt F) (xLoc d)) (y : S64x50x512.Idx) :
    (tcX9).view.read (Elt F) fx y = fx ((tcX9).view.emb y) :=
  (View.read_apply _ _).trans (cast_eq _ _)
omit [FloatOps F] in
theorem tcB9_lands (d : Dev nD) (fx : Buf (Elt F) (xLoc d)) (fb : Buf (Elt F) (bLoc d))
    (w : S64x50x512.Idx → Elt F .f32) (hw : ∀ y, w y = fx ((tcX9).view.emb y)) :
    ∀ i ∈ (tcB9).view.set, (tcB9).view.writes (Elt F) fb [⟨Rect.whole S64x50x512, w⟩] i = tailRows d fx i := by
  intro i hi
  obtain ⟨y, -, rfl⟩ := Finset.mem_map.mp hi
  have h := View.read_writes_cons_emb (tcB9).view fb (Rect.whole S64x50x512) w [] y
  rw [Rect.emb_whole_apply, View.read_apply] at h
  refine ((cast_eq _ _).symm.trans h).trans ?_
  rw [hw y, tcX9_emb_eq]; rfl

omit [FloatOps F] in
/-- Reading back through a view what was last written whole through it. -/
theorem read_writes_whole {κ : Kind} {sp : Space} {S : Shape} {e : EltTy} (v : View sig κ sp S e) (f : v.ty.Contents (Elt F))
    (w : (Rect.whole S).shape.Idx → Elt F e) (L : List (View.Piece (Elt F) S e)) (y : (Rect.whole S).shape.Idx) :
    v.read (Elt F) (v.writes (Elt F) f (⟨Rect.whole S, w⟩ :: L)) y = w y := by
  have h := View.read_writes_cons_emb v f (Rect.whole S) w L y
  rwa [Rect.emb_whole_apply] at h

/-! ## The run over the pieces -/

set_option maxHeartbeats 4000000 in
theorem tc_pieces (d : Dev nD) (q : PosShare TreeShare) (fx : Buf (Elt F) (xLoc d)) (fb : Buf (Elt F) (bLoc d))
    (fs : Buf (Elt F) (sLoc d)) (W : Waits sig (HIx 1)) :
    iprop((((tcX0).view.loc (SparseCore.T (τ := τ) d) ↦[(tcX0).view.set]{q} fx : sProp 𝕄)
          ∗ ((tcX1).view.loc (SparseCore.T (τ := τ) d) ↦[(tcX1).view.set]{q} fx : sProp 𝕄)
          ∗ ((tcX2).view.loc (SparseCore.T (τ := τ) d) ↦[(tcX2).view.set]{q} fx : sProp 𝕄)
          ∗ ((tcX3).view.loc (SparseCore.T (τ := τ) d) ↦[(tcX3).view.set]{q} fx : sProp 𝕄)
          ∗ ((tcX4).view.loc (SparseCore.T (τ := τ) d) ↦[(tcX4).view.set]{q} fx : sProp 𝕄)
          ∗ ((tcX5).view.loc (SparseCore.T (τ := τ) d) ↦[(tcX5).view.set]{q} fx : sProp 𝕄)
          ∗ ((tcX6).view.loc (SparseCore.T (τ := τ) d) ↦[(tcX6).view.set]{q} fx : sProp 𝕄)
          ∗ ((tcX7).view.loc (SparseCore.T (τ := τ) d) ↦[(tcX7).view.set]{q} fx : sProp 𝕄)
          ∗ ((tcX8).view.loc (SparseCore.T (τ := τ) d) ↦[(tcX8).view.set]{q} fx : sProp 𝕄)
          ∗ ((tcX9).view.loc (SparseCore.T (τ := τ) d) ↦[(tcX9).view.set]{q} fx : sProp 𝕄))
        ∗ (((tcB0).view.loc (SparseCore.T (τ := τ) d) ↦[(tcB0).view.set]{fullShare} fb : sProp 𝕄)
          ∗ ((tcB1).view.loc (SparseCore.T (τ := τ) d) ↦[(tcB1).view.set]{fullShare} fb : sProp 𝕄)
          ∗ ((tcB2).view.loc (SparseCore.T (τ := τ) d) ↦[(tcB2).view.set]{fullShare} fb : sProp 𝕄)
          ∗ ((tcB3).view.loc (SparseCore.T (τ := τ) d) ↦[(tcB3).view.set]{fullShare} fb : sProp 𝕄)
          ∗ ((tcB4).view.loc (SparseCore.T (τ := τ) d) ↦[(tcB4).view.set]{fullShare} fb : sProp 𝕄)
          ∗ ((tcB5).view.loc (SparseCore.T (τ := τ) d) ↦[(tcB5).view.set]{fullShare} fb : sProp 𝕄)
          ∗ ((tcB6).view.loc (SparseCore.T (τ := τ) d) ↦[(tcB6).view.set]{fullShare} fb : sProp 𝕄)
          ∗ ((tcB7).view.loc (SparseCore.T (τ := τ) d) ↦[(tcB7).view.set]{fullShare} fb : sProp 𝕄)
          ∗ ((tcB8).view.loc (SparseCore.T (τ := τ) d) ↦[(tcB8).view.set]{fullShare} fb : sProp 𝕄)
          ∗ ((tcB9).view.loc (SparseCore.T (τ := τ) d) ↦[(tcB9).view.set]{fullShare} fb : sProp 𝕄))
        ∗ (((tcS0).view.loc (SparseCore.T (τ := τ) d) ↦[(tcS0).view.set]{fullShare} fs : sProp 𝕄)
          ∗ ((tcS1).view.loc (SparseCore.T (τ := τ) d) ↦[(tcS1).view.set]{fullShare} fs : sProp 𝕄)
          ∗ ((tcS2).view.loc (SparseCore.T (τ := τ) d) ↦[(tcS2).view.set]{fullShare} fs : sProp 𝕄)
          ∗ ((tcS3).view.loc (SparseCore.T (τ := τ) d) ↦[(tcS3).view.set]{fullShare} fs : sProp 𝕄)
          ∗ ((tcS4).view.loc (SparseCore.T (τ := τ) d) ↦[(tcS4).view.set]{fullShare} fs : sProp 𝕄)
          ∗ ((tcS5).view.loc (SparseCore.T (τ := τ) d) ↦[(tcS5).view.set]{fullShare} fs : sProp 𝕄)
          ∗ ((tcS6).view.loc (SparseCore.T (τ := τ) d) ↦[(tcS6).view.set]{fullShare} fs : sProp 𝕄)
          ∗ ((tcS7).view.loc (SparseCore.T (τ := τ) d) ↦[(tcS7).view.set]{fullShare} fs : sProp 𝕄))
        ∗ tcSems d ∗ owes (SparseCore.T (τ := τ) d) 0 W)
      ⊢ wp frame (wpE (defs₀ (F := F)) 𝒱₀ (SparseCore.T (τ := τ) d) none) Set.univ
          (cc1__tc_pipe tcXw (Memref.isWhole_whole _) tcBw (Memref.isWhole_whole _) tcSw (Memref.isWhole_whole _) cc1_scratch1 cc1_scratch2)
          fun _ => iprop(
            (((tcX0).view.loc (SparseCore.T (τ := τ) d) ↦[(tcX0).view.set]{q} fx : sProp 𝕄)
              ∗ ((tcX1).view.loc (SparseCore.T (τ := τ) d) ↦[(tcX1).view.set]{q} fx : sProp 𝕄)
              ∗ ((tcX2).view.loc (SparseCore.T (τ := τ) d) ↦[(tcX2).view.set]{q} fx : sProp 𝕄)
              ∗ ((tcX3).view.loc (SparseCore.T (τ := τ) d) ↦[(tcX3).view.set]{q} fx : sProp 𝕄)
              ∗ ((tcX4).view.loc (SparseCore.T (τ := τ) d) ↦[(tcX4).view.set]{q} fx : sProp 𝕄)
              ∗ ((tcX5).view.loc (SparseCore.T (τ := τ) d) ↦[(tcX5).view.set]{q} fx : sProp 𝕄)
              ∗ ((tcX6).view.loc (SparseCore.T (τ := τ) d) ↦[(tcX6).view.set]{q} fx : sProp 𝕄)
              ∗ ((tcX7).view.loc (SparseCore.T (τ := τ) d) ↦[(tcX7).view.set]{q} fx : sProp 𝕄)
              ∗ ((tcX8).view.loc (SparseCore.T (τ := τ) d) ↦[(tcX8).view.set]{q} fx : sProp 𝕄)
              ∗ ((tcX9).view.loc (SparseCore.T (τ := τ) d) ↦[(tcX9).view.set]{q} fx : sProp 𝕄))
            ∗ (((tcB0).view.loc (SparseCore.T (τ := τ) d) ↦[(tcB0).view.set]{fullShare} tailRows d fx : sProp 𝕄)
              ∗ ((tcB1).view.loc (SparseCore.T (τ := τ) d) ↦[(tcB1).view.set]{fullShare} tailRows d fx : sProp 𝕄)
              ∗ ((tcB2).view.loc (SparseCore.T (τ := τ) d) ↦[(tcB2).view.set]{fullShare} tailRows d fx : sProp 𝕄)
              ∗ ((tcB3).view.loc (SparseCore.T (τ := τ) d) ↦[(tcB3).view.set]{fullShare} tailRows d fx : sProp 𝕄)
              ∗ ((tcB4).view.loc (SparseCore.T (τ := τ) d) ↦[(tcB4).view.set]{fullShare} tailRows d fx : sProp 𝕄)
              ∗ ((tcB5).view.loc (SparseCore.T (τ := τ) d) ↦[(tcB5).view.set]{fullShare} tailRows d fx : sProp 𝕄)
              ∗ ((tcB6).view.loc (SparseCore.T (τ := τ) d) ↦[(tcB6).view.set]{fullShare} tailRows d fx : sProp 𝕄)
              ∗ ((tcB7).view.loc (SparseCore.T (τ := τ) d) ↦[(tcB7).view.set]{fullShare} tailRows d fx : sProp 𝕄)
              ∗ ((tcB8).view.loc (SparseCore.T (τ := τ) d) ↦[(tcB8).view.set]{fullShare} tailRows d fx : sProp 𝕄)
              ∗ ((tcB9).view.loc (SparseCore.T (τ := τ) d) ↦[(tcB9).view.set]{fullShare} tailRows d fx : sProp 𝕄))
            ∗ ((∃ f, ((tcS0).view.loc (SparseCore.T (τ := τ) d) ↦[(tcS0).view.set]{fullShare} f : sProp 𝕄))
              ∗ (∃ f, ((tcS1).view.loc (SparseCore.T (τ := τ) d) ↦[(tcS1).view.set]{fullShare} f : sProp 𝕄))
              ∗ (∃ f, ((tcS2).view.loc (SparseCore.T (τ := τ) d) ↦[(tcS2).view.set]{fullShare} f : sProp 𝕄))
              ∗ (∃ f, ((tcS3).view.loc (SparseCore.T (τ := τ) d) ↦[(tcS3).view.set]{fullShare} f : sProp 𝕄))
              ∗ (∃ f, ((tcS4).view.loc (SparseCore.T (τ := τ) d) ↦[(tcS4).view.set]{fullShare} f : sProp 𝕄))
              ∗ (∃ f, ((tcS5).view.loc (SparseCore.T (τ := τ) d) ↦[(tcS5).view.set]{fullShare} f : sProp 𝕄))
              ∗ (∃ f, ((tcS6).view.loc (SparseCore.T (τ := τ) d) ↦[(tcS6).view.set]{fullShare} f : sProp 𝕄))
              ∗ (∃ f, ((tcS7).view.loc (SparseCore.T (τ := τ) d) ↦[(tcS7).view.set]{fullShare} f : sProp 𝕄)))
            ∗ tcSems d ∗ ∃ W', ⌜∀ p ∈ W', p ∈ W ∨ p.2 = none⌝ ∗ owes (SparseCore.T (τ := τ) d) 0 W') := by
  rw [cc1__tc_pipe_eq_skeleton]; unfold cc1__tc_pipe_skel
  iintro ⟨⟨Hx0, Hx1, Hx2, Hx3, Hx4, Hx5, Hx6, Hx7, Hx8, Hx9⟩, ⟨Hb0, Hb1, Hb2, Hb3, Hb4, Hb5, Hb6, Hb7, Hb8, Hb9⟩, ⟨Hs0, Hs1, Hs2, Hs3, Hs4, Hs5, Hs6, Hs7⟩, ⟨⟨Hi0, Hi1, Hi2, Hi3, Hi4, Hi5, Hi6, Hi7⟩, ⟨Ho0, Ho1, Ho2, Ho3, Ho4, Ho5, Ho6, Ho7⟩⟩, HO⟩
  sl_exec
  sl_step
  isplitl [Hx0 Hx1 Hx2 Hx3 Hx4 Hx5 Hx6 Hx7 Hx8 Hx9]
  · isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    isplitl [Hx7]; · iexact Hx7
    isplitl [Hx8]; · iexact Hx8
    iexact Hx9
  isplitl [Hb0 Hb1 Hb2 Hb3 Hb4 Hb5 Hb6 Hb7 Hb8 Hb9]
  · have e0 := pointsTo_congr (Val := Elt F) (ℓ := (tcB0).view.loc (SparseCore.T (τ := τ) d)) (q := fullShare) (nD := nD) (τ := τ) (sig := sig) (Ix := HIx 1) (Name := ℕ) (U := UU) (Lvl := ℕ)
      (tcB0_lands d fx fb (tc_pieces.sl.dma0_5 d fx fs) (fun y =>
        (read_writes_whole (F := F) (tcS0).view fs _ _ y).trans (read_tcX0 d fx y)))
    have e1 := pointsTo_congr (Val := Elt F) (ℓ := (tcB1).view.loc (SparseCore.T (τ := τ) d)) (q := fullShare) (nD := nD) (τ := τ) (sig := sig) (Ix := HIx 1) (Name := ℕ) (U := UU) (Lvl := ℕ)
      (tcB1_lands d fx fb (tc_pieces.sl.dma0_7 d fx fs) (fun y =>
        (read_writes_whole (F := F) (tcS1).view fs _ _ y).trans (read_tcX1 d fx y)))
    have e2 := pointsTo_congr (Val := Elt F) (ℓ := (tcB2).view.loc (SparseCore.T (τ := τ) d)) (q := fullShare) (nD := nD) (τ := τ) (sig := sig) (Ix := HIx 1) (Name := ℕ) (U := UU) (Lvl := ℕ)
      (tcB2_lands d fx fb (tc_pieces.sl.dma0_9 d fx fs) (fun y =>
        (read_writes_whole (F := F) (tcS2).view fs _ _ y).trans (read_tcX2 d fx y)))
    have e3 := pointsTo_congr (Val := Elt F) (ℓ := (tcB3).view.loc (SparseCore.T (τ := τ) d)) (q := fullShare) (nD := nD) (τ := τ) (sig := sig) (Ix := HIx 1) (Name := ℕ) (U := UU) (Lvl := ℕ)
      (tcB3_lands d fx fb (tc_pieces.sl.dma0_11 d fx fs) (fun y =>
        (read_writes_whole (F := F) (tcS3).view fs _ _ y).trans (read_tcX3 d fx y)))
    have e4 := pointsTo_congr (Val := Elt F) (ℓ := (tcB4).view.loc (SparseCore.T (τ := τ) d)) (q := fullShare) (nD := nD) (τ := τ) (sig := sig) (Ix := HIx 1) (Name := ℕ) (U := UU) (Lvl := ℕ)
      (tcB4_lands d fx fb (tc_pieces.sl.dma0_13 d fx fs) (fun y =>
        (read_writes_whole (F := F) (tcS4).view fs _ _ y).trans (read_tcX4 d fx y)))
    have e5 := pointsTo_congr (Val := Elt F) (ℓ := (tcB5).view.loc (SparseCore.T (τ := τ) d)) (q := fullShare) (nD := nD) (τ := τ) (sig := sig) (Ix := HIx 1) (Name := ℕ) (U := UU) (Lvl := ℕ)
      (tcB5_lands d fx fb (tc_pieces.sl.dma0_15 d fx fs) (fun y =>
        (read_writes_whole (F := F) (tcS5).view fs _ _ y).trans (read_tcX5 d fx y)))
    have e6 := pointsTo_congr (Val := Elt F) (ℓ := (tcB6).view.loc (SparseCore.T (τ := τ) d)) (q := fullShare) (nD := nD) (τ := τ) (sig := sig) (Ix := HIx 1) (Name := ℕ) (U := UU) (Lvl := ℕ)
      (tcB6_lands d fx fb (tc_pieces.sl.dma0_16 d fx fs) (fun y =>
        (read_writes_whole (F := F) (tcS6).view fs _ _ y).trans (read_tcX6 d fx y)))
    have e7 := pointsTo_congr (Val := Elt F) (ℓ := (tcB7).view.loc (SparseCore.T (τ := τ) d)) (q := fullShare) (nD := nD) (τ := τ) (sig := sig) (Ix := HIx 1) (Name := ℕ) (U := UU) (Lvl := ℕ)
      (tcB7_lands d fx fb (tc_pieces.sl.dma0_17 d fx fs) (fun y =>
        (read_writes_whole (F := F) (tcS7).view fs _ _ y).trans (read_tcX7 d fx y)))
    have e8 := pointsTo_congr (Val := Elt F) (ℓ := (tcB8).view.loc (SparseCore.T (τ := τ) d)) (q := fullShare) (nD := nD) (τ := τ) (sig := sig) (Ix := HIx 1) (Name := ℕ) (U := UU) (Lvl := ℕ)
      (tcB8_lands d fx fb (tc_pieces.sl.dma0_18 d fx fs) (fun y =>
        (read_writes_whole (F := F) (tcS0).view fs _ _ y).trans (read_tcX8 d fx y)))
    have e9 := pointsTo_congr (Val := Elt F) (ℓ := (tcB9).view.loc (SparseCore.T (τ := τ) d)) (q := fullShare) (nD := nD) (τ := τ) (sig := sig) (Ix := HIx 1) (Name := ℕ) (U := UU) (Lvl := ℕ)
      (tcB9_lands d fx fb (tc_pieces.sl.dma0_19 d fx fs) (fun y =>
        (read_writes_whole (F := F) (tcS1).view fs _ _ y).trans (read_tcX9 d fx y)))
    isplitl [Hb0]; · iapply (Entails.of_eq e0); iexact Hb0
    isplitl [Hb1]; · iapply (Entails.of_eq e1); iexact Hb1
    isplitl [Hb2]; · iapply (Entails.of_eq e2); iexact Hb2
    isplitl [Hb3]; · iapply (Entails.of_eq e3); iexact Hb3
    isplitl [Hb4]; · iapply (Entails.of_eq e4); iexact Hb4
    isplitl [Hb5]; · iapply (Entails.of_eq e5); iexact Hb5
    isplitl [Hb6]; · iapply (Entails.of_eq e6); iexact Hb6
    isplitl [Hb7]; · iapply (Entails.of_eq e7); iexact Hb7
    isplitl [Hb8]; · iapply (Entails.of_eq e8); iexact Hb8
    iapply (Entails.of_eq e9); iexact Hb9
  isplitl [Hs0 Hs1 Hs2 Hs3 Hs4 Hs5 Hs6 Hs7]
  · isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    isplitl [Hs5]; · iexists _; iexact Hs5
    isplitl [Hs6]; · iexists _; iexact Hs6
    iexists _; iexact Hs7
  isplitl [Hi0 Hi1 Hi2 Hi3 Hi4 Hi5 Hi6 Hi7 Ho0 Ho1 Ho2 Ho3 Ho4 Ho5 Ho6 Ho7]
  · isplitl [Hi0 Hi1 Hi2 Hi3 Hi4 Hi5 Hi6 Hi7]
    · isplitl [Hi0]; · iexact Hi0
      isplitl [Hi1]; · iexact Hi1
      isplitl [Hi2]; · iexact Hi2
      isplitl [Hi3]; · iexact Hi3
      isplitl [Hi4]; · iexact Hi4
      isplitl [Hi5]; · iexact Hi5
      isplitl [Hi6]; · iexact Hi6
      iexact Hi7
    · isplitl [Ho0]; · iexact Ho0
      isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      iexact Ho7
  iexists _; isplitr
  rotate_left
  · iexact HO
  · ipureintro; intro p hp
    simp only [Finset.mem_insert] at hp
    rcases hp with rfl | rfl | rfl | rfl | rfl | rfl | rfl | rfl | rfl | rfl | rfl | rfl | rfl | rfl | rfl | rfl | rfl | rfl | rfl | rfl | hp
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inl hp

/-! ## The arrays as their pieces -/

omit [FloatOps F] in
theorem bigSep_fin10 (Φ : Fin 10 → sProp 𝕄) :
    bigSep (Finset.univ : Finset (Fin 10)) Φ = iprop(Φ 0 ∗ Φ 1 ∗ Φ 2 ∗ Φ 3 ∗ Φ 4 ∗ Φ 5 ∗ Φ 6 ∗ Φ 7 ∗ Φ 8 ∗ Φ 9) := by
  rw [show (Finset.univ : Finset (Fin 10)) = {0, 1, 2, 3, 4, 5, 6, 7, 8, 9} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
omit [FloatOps F] in
theorem bigSep_fin8 (Φ : Fin 8 → sProp 𝕄) :
    bigSep (Finset.univ : Finset (Fin 8)) Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
theorem xRowsFrom_disjoint : ∀ k ∈ (Finset.univ : Finset (Fin 10)), ∀ k' ∈ (Finset.univ : Finset (Fin 10)), k ≠ k' →
    Disjoint (xRowsFrom (384 + 64 * k.val)) (xRowsFrom (384 + 64 * k'.val)) := by
  intro k _ k' _ h
  refine Finset.disjoint_filter.mpr fun j _ h1 h2 => h (Fin.ext ?_)
  omega
omit [FloatOps F] in
theorem bRowsFrom_disjoint : ∀ k ∈ (Finset.univ : Finset (Fin 10)), ∀ k' ∈ (Finset.univ : Finset (Fin 10)), k ≠ k' →
    Disjoint (bRowsFrom (64 * k.val)) (bRowsFrom (64 * k'.val)) := by
  intro k _ k' _ h
  refine Finset.disjoint_filter.mpr fun j _ h1 h2 => h (Fin.ext ?_)
  omega
omit [FloatOps F] in
theorem slotSet_disjoint : ∀ s ∈ (Finset.univ : Finset (Fin 8)), ∀ s' ∈ (Finset.univ : Finset (Fin 8)), s ≠ s' →
    Disjoint (slotSet s.val) (slotSet s'.val) := by
  intro s _ s' _ h
  exact Finset.disjoint_filter.mpr fun j _ h1 h2 => h (Fin.ext (h1.symm.trans h2))

omit [FloatOps F] in
theorem x_chunks_low_disjoint : Disjoint ((Finset.univ : Finset (Fin 10)).biUnion fun k => xRowsFrom (384 + 64 * k.val)) xLow := by
  refine Finset.disjoint_left.mpr fun j hj hl => ?_
  obtain ⟨k, -, hk⟩ := Finset.mem_biUnion.mp hj
  have h1 := (Finset.mem_filter.mp hk).2
  have h2 : (j 0).val < 384 := (Finset.mem_filter.mp hl).2
  omega
omit [FloatOps F] in
theorem x_chunks_cover : ((Finset.univ : Finset (Fin 10)).biUnion fun k => xRowsFrom (384 + 64 * k.val)) ∪ xLow = Finset.univ := by
  ext j
  simp only [Finset.mem_union, Finset.mem_biUnion, Finset.mem_univ, true_and, iff_true]
  have hj : (j 0).val < 1024 := (j 0).isLt
  by_cases h : (j 0).val < 384
  · exact .inr (Finset.mem_filter.mpr ⟨Finset.mem_univ _, h⟩)
  · exact .inl ⟨⟨((j 0).val - 384) / 64, by omega⟩, Finset.mem_filter.mpr ⟨Finset.mem_univ _, by
      show 384 + 64 * (((j 0).val - 384) / 64) ≤ (j 0).val ∧ (j 0).val < 384 + 64 * (((j 0).val - 384) / 64) + 64
      omega⟩⟩
omit [FloatOps F] in
theorem b_chunks_cover : ((Finset.univ : Finset (Fin 10)).biUnion fun k => bRowsFrom (64 * k.val)) = Finset.univ := by
  ext j
  simp only [Finset.mem_biUnion, Finset.mem_univ, true_and, iff_true]
  have hj : (j 0).val < 640 := (j 0).isLt
  exact ⟨⟨(j 0).val / 64, by omega⟩, Finset.mem_filter.mpr ⟨Finset.mem_univ _, by
    show 64 * ((j 0).val / 64) ≤ (j 0).val ∧ (j 0).val < 64 * ((j 0).val / 64) + 64
    omega⟩⟩
omit [FloatOps F] in
theorem s_slots_cover : ((Finset.univ : Finset (Fin 8)).biUnion fun s => slotSet s.val) = Finset.univ := by
  ext j
  simp only [Finset.mem_biUnion, Finset.mem_univ, true_and, iff_true]
  exact ⟨⟨(j 0).val, (j 0).isLt⟩, Finset.mem_filter.mpr ⟨Finset.mem_univ _, rfl⟩⟩

omit [FloatOps F] in
theorem x_chunks (d : Dev nD) (q : PosShare TreeShare) (f : Buf (Elt F) (xLoc d)) :
    (xLoc d ↦{q} f : sProp 𝕄)
      = iprop((bigSep (Finset.univ : Finset (Fin 10)) fun k => xLoc d ↦[xRowsFrom (384 + 64 * k.val)]{q} f) ∗ xLoc d ↦[xLow]{q} f) := by
  have hu := pointsTo_union (nD := nD) (τ := τ) (sig := sig) (Ix := HIx 1) (Val := Elt F) (Name := ℕ) (U := UU) (Lvl := ℕ)
    (ℓ := xLoc d) (q := q) (f := f) x_chunks_low_disjoint
  rw [← pointsTo_biUnion Finset.univ (ℓ := xLoc d) (fun k : Fin 10 => xRowsFrom (384 + 64 * k.val)) xRowsFrom_disjoint, ← BI.equiv_iff.mp ⟨hu.1, hu.2⟩, x_chunks_cover]
omit [FloatOps F] in
theorem b_chunks (d : Dev nD) (f : Buf (Elt F) (bLoc d)) :
    (bLoc d ↦{fullShare} f : sProp 𝕄) = bigSep (Finset.univ : Finset (Fin 10)) fun k => bLoc d ↦[bRowsFrom (64 * k.val)]{fullShare} f := by
  rw [← pointsTo_biUnion Finset.univ (ℓ := bLoc d) (fun k : Fin 10 => bRowsFrom (64 * k.val)) bRowsFrom_disjoint, b_chunks_cover]
omit [FloatOps F] in
theorem s_slots (d : Dev nD) (f : Buf (Elt F) (sLoc d)) :
    (sLoc d ↦{fullShare} f : sProp 𝕄) = bigSep (Finset.univ : Finset (Fin 8)) fun s => sLoc d ↦[slotSet s.val]{fullShare} f := by
  rw [← pointsTo_biUnion Finset.univ (ℓ := sLoc d) (fun s : Fin 8 => slotSet s.val) slotSet_disjoint, s_slots_cover]

/-- Eight slots, each at some contents, are the scratch at some contents. -/
theorem s_slots_join (d : Dev nD) :
    (bigSep (Finset.univ : Finset (Fin 8)) fun s => iprop(∃ f : Buf (Elt F) (sLoc d), sLoc d ↦[slotSet s.val]{fullShare} f))
      ⊢ (iprop(∃ f, sLoc d ↦{fullShare} f) : sProp 𝕄) := by
  refine (bigSep_exists_pi Finset.univ (fun (s : Fin 8) (f : Buf (Elt F) (sLoc d)) => (sLoc d ↦[slotSet s.val]{fullShare} f : sProp 𝕄))).trans ?_
  iintro ⟨%fs, H⟩
  ihave H' := (pointsTo_biUnion_join Finset.univ (fun s : Fin 8 => slotSet s.val) fs (fs 0) slotSet_disjoint) $$ H
  icases H' with ⟨%g, -, Hg⟩
  rw [s_slots_cover]
  iexists g; iexact Hg

omit [FloatOps F] in
theorem pts_tcX0 (d : Dev nD) (q : PosShare TreeShare) (f : Buf (Elt F) (xLoc d)) :
    ((tcX0).view.loc (SparseCore.T (τ := τ) d) ↦[(tcX0).view.set]{q} f : sProp 𝕄) = xLoc d ↦[xRowsFrom (384 + 64 * ((0 : Fin 10) : ℕ))]{q} f := by
  rw [set_tcX0]
omit [FloatOps F] in
theorem pts_tcB0 (d : Dev nD) (f : Buf (Elt F) (bLoc d)) :
    ((tcB0).view.loc (SparseCore.T (τ := τ) d) ↦[(tcB0).view.set]{fullShare} f : sProp 𝕄) = bLoc d ↦[bRowsFrom (64 * ((0 : Fin 10) : ℕ))]{fullShare} f := by
  rw [set_tcB0]
omit [FloatOps F] in
theorem pts_tcX1 (d : Dev nD) (q : PosShare TreeShare) (f : Buf (Elt F) (xLoc d)) :
    ((tcX1).view.loc (SparseCore.T (τ := τ) d) ↦[(tcX1).view.set]{q} f : sProp 𝕄) = xLoc d ↦[xRowsFrom (384 + 64 * ((1 : Fin 10) : ℕ))]{q} f := by
  rw [set_tcX1]
omit [FloatOps F] in
theorem pts_tcB1 (d : Dev nD) (f : Buf (Elt F) (bLoc d)) :
    ((tcB1).view.loc (SparseCore.T (τ := τ) d) ↦[(tcB1).view.set]{fullShare} f : sProp 𝕄) = bLoc d ↦[bRowsFrom (64 * ((1 : Fin 10) : ℕ))]{fullShare} f := by
  rw [set_tcB1]
omit [FloatOps F] in
theorem pts_tcX2 (d : Dev nD) (q : PosShare TreeShare) (f : Buf (Elt F) (xLoc d)) :
    ((tcX2).view.loc (SparseCore.T (τ := τ) d) ↦[(tcX2).view.set]{q} f : sProp 𝕄) = xLoc d ↦[xRowsFrom (384 + 64 * ((2 : Fin 10) : ℕ))]{q} f := by
  rw [set_tcX2]
omit [FloatOps F] in
theorem pts_tcB2 (d : Dev nD) (f : Buf (Elt F) (bLoc d)) :
    ((tcB2).view.loc (SparseCore.T (τ := τ) d) ↦[(tcB2).view.set]{fullShare} f : sProp 𝕄) = bLoc d ↦[bRowsFrom (64 * ((2 : Fin 10) : ℕ))]{fullShare} f := by
  rw [set_tcB2]
omit [FloatOps F] in
theorem pts_tcX3 (d : Dev nD) (q : PosShare TreeShare) (f : Buf (Elt F) (xLoc d)) :
    ((tcX3).view.loc (SparseCore.T (τ := τ) d) ↦[(tcX3).view.set]{q} f : sProp 𝕄) = xLoc d ↦[xRowsFrom (384 + 64 * ((3 : Fin 10) : ℕ))]{q} f := by
  rw [set_tcX3]
omit [FloatOps F] in
theorem pts_tcB3 (d : Dev nD) (f : Buf (Elt F) (bLoc d)) :
    ((tcB3).view.loc (SparseCore.T (τ := τ) d) ↦[(tcB3).view.set]{fullShare} f : sProp 𝕄) = bLoc d ↦[bRowsFrom (64 * ((3 : Fin 10) : ℕ))]{fullShare} f := by
  rw [set_tcB3]
omit [FloatOps F] in
theorem pts_tcX4 (d : Dev nD) (q : PosShare TreeShare) (f : Buf (Elt F) (xLoc d)) :
    ((tcX4).view.loc (SparseCore.T (τ := τ) d) ↦[(tcX4).view.set]{q} f : sProp 𝕄) = xLoc d ↦[xRowsFrom (384 + 64 * ((4 : Fin 10) : ℕ))]{q} f := by
  rw [set_tcX4]
omit [FloatOps F] in
theorem pts_tcB4 (d : Dev nD) (f : Buf (Elt F) (bLoc d)) :
    ((tcB4).view.loc (SparseCore.T (τ := τ) d) ↦[(tcB4).view.set]{fullShare} f : sProp 𝕄) = bLoc d ↦[bRowsFrom (64 * ((4 : Fin 10) : ℕ))]{fullShare} f := by
  rw [set_tcB4]
omit [FloatOps F] in
theorem pts_tcX5 (d : Dev nD) (q : PosShare TreeShare) (f : Buf (Elt F) (xLoc d)) :
    ((tcX5).view.loc (SparseCore.T (τ := τ) d) ↦[(tcX5).view.set]{q} f : sProp 𝕄) = xLoc d ↦[xRowsFrom (384 + 64 * ((5 : Fin 10) : ℕ))]{q} f := by
  rw [set_tcX5]
omit [FloatOps F] in
theorem pts_tcB5 (d : Dev nD) (f : Buf (Elt F) (bLoc d)) :
    ((tcB5).view.loc (SparseCore.T (τ := τ) d) ↦[(tcB5).view.set]{fullShare} f : sProp 𝕄) = bLoc d ↦[bRowsFrom (64 * ((5 : Fin 10) : ℕ))]{fullShare} f := by
  rw [set_tcB5]
omit [FloatOps F] in
theorem pts_tcX6 (d : Dev nD) (q : PosShare TreeShare) (f : Buf (Elt F) (xLoc d)) :
    ((tcX6).view.loc (SparseCore.T (τ := τ) d) ↦[(tcX6).view.set]{q} f : sProp 𝕄) = xLoc d ↦[xRowsFrom (384 + 64 * ((6 : Fin 10) : ℕ))]{q} f := by
  rw [set_tcX6]
omit [FloatOps F] in
theorem pts_tcB6 (d : Dev nD) (f : Buf (Elt F) (bLoc d)) :
    ((tcB6).view.loc (SparseCore.T (τ := τ) d) ↦[(tcB6).view.set]{fullShare} f : sProp 𝕄) = bLoc d ↦[bRowsFrom (64 * ((6 : Fin 10) : ℕ))]{fullShare} f := by
  rw [set_tcB6]
omit [FloatOps F] in
theorem pts_tcX7 (d : Dev nD) (q : PosShare TreeShare) (f : Buf (Elt F) (xLoc d)) :
    ((tcX7).view.loc (SparseCore.T (τ := τ) d) ↦[(tcX7).view.set]{q} f : sProp 𝕄) = xLoc d ↦[xRowsFrom (384 + 64 * ((7 : Fin 10) : ℕ))]{q} f := by
  rw [set_tcX7]
omit [FloatOps F] in
theorem pts_tcB7 (d : Dev nD) (f : Buf (Elt F) (bLoc d)) :
    ((tcB7).view.loc (SparseCore.T (τ := τ) d) ↦[(tcB7).view.set]{fullShare} f : sProp 𝕄) = bLoc d ↦[bRowsFrom (64 * ((7 : Fin 10) : ℕ))]{fullShare} f := by
  rw [set_tcB7]
omit [FloatOps F] in
theorem pts_tcX8 (d : Dev nD) (q : PosShare TreeShare) (f : Buf (Elt F) (xLoc d)) :
    ((tcX8).view.loc (SparseCore.T (τ := τ) d) ↦[(tcX8).view.set]{q} f : sProp 𝕄) = xLoc d ↦[xRowsFrom (384 + 64 * ((8 : Fin 10) : ℕ))]{q} f := by
  rw [set_tcX8]
omit [FloatOps F] in
theorem pts_tcB8 (d : Dev nD) (f : Buf (Elt F) (bLoc d)) :
    ((tcB8).view.loc (SparseCore.T (τ := τ) d) ↦[(tcB8).view.set]{fullShare} f : sProp 𝕄) = bLoc d ↦[bRowsFrom (64 * ((8 : Fin 10) : ℕ))]{fullShare} f := by
  rw [set_tcB8]
omit [FloatOps F] in
theorem pts_tcX9 (d : Dev nD) (q : PosShare TreeShare) (f : Buf (Elt F) (xLoc d)) :
    ((tcX9).view.loc (SparseCore.T (τ := τ) d) ↦[(tcX9).view.set]{q} f : sProp 𝕄) = xLoc d ↦[xRowsFrom (384 + 64 * ((9 : Fin 10) : ℕ))]{q} f := by
  rw [set_tcX9]
omit [FloatOps F] in
theorem pts_tcB9 (d : Dev nD) (f : Buf (Elt F) (bLoc d)) :
    ((tcB9).view.loc (SparseCore.T (τ := τ) d) ↦[(tcB9).view.set]{fullShare} f : sProp 𝕄) = bLoc d ↦[bRowsFrom (64 * ((9 : Fin 10) : ℕ))]{fullShare} f := by
  rw [set_tcB9]
omit [FloatOps F] in
theorem pts_tcS0 (d : Dev nD) (f : Buf (Elt F) (sLoc d)) :
    ((tcS0).view.loc (SparseCore.T (τ := τ) d) ↦[(tcS0).view.set]{fullShare} f : sProp 𝕄) = sLoc d ↦[slotSet ((0 : Fin 8) : ℕ)]{fullShare} f := by
  rw [set_tcS0]
omit [FloatOps F] in
theorem pts_tcS1 (d : Dev nD) (f : Buf (Elt F) (sLoc d)) :
    ((tcS1).view.loc (SparseCore.T (τ := τ) d) ↦[(tcS1).view.set]{fullShare} f : sProp 𝕄) = sLoc d ↦[slotSet ((1 : Fin 8) : ℕ)]{fullShare} f := by
  rw [set_tcS1]
omit [FloatOps F] in
theorem pts_tcS2 (d : Dev nD) (f : Buf (Elt F) (sLoc d)) :
    ((tcS2).view.loc (SparseCore.T (τ := τ) d) ↦[(tcS2).view.set]{fullShare} f : sProp 𝕄) = sLoc d ↦[slotSet ((2 : Fin 8) : ℕ)]{fullShare} f := by
  rw [set_tcS2]
omit [FloatOps F] in
theorem pts_tcS3 (d : Dev nD) (f : Buf (Elt F) (sLoc d)) :
    ((tcS3).view.loc (SparseCore.T (τ := τ) d) ↦[(tcS3).view.set]{fullShare} f : sProp 𝕄) = sLoc d ↦[slotSet ((3 : Fin 8) : ℕ)]{fullShare} f := by
  rw [set_tcS3]
omit [FloatOps F] in
theorem pts_tcS4 (d : Dev nD) (f : Buf (Elt F) (sLoc d)) :
    ((tcS4).view.loc (SparseCore.T (τ := τ) d) ↦[(tcS4).view.set]{fullShare} f : sProp 𝕄) = sLoc d ↦[slotSet ((4 : Fin 8) : ℕ)]{fullShare} f := by
  rw [set_tcS4]
omit [FloatOps F] in
theorem pts_tcS5 (d : Dev nD) (f : Buf (Elt F) (sLoc d)) :
    ((tcS5).view.loc (SparseCore.T (τ := τ) d) ↦[(tcS5).view.set]{fullShare} f : sProp 𝕄) = sLoc d ↦[slotSet ((5 : Fin 8) : ℕ)]{fullShare} f := by
  rw [set_tcS5]
omit [FloatOps F] in
theorem pts_tcS6 (d : Dev nD) (f : Buf (Elt F) (sLoc d)) :
    ((tcS6).view.loc (SparseCore.T (τ := τ) d) ↦[(tcS6).view.set]{fullShare} f : sProp 𝕄) = sLoc d ↦[slotSet ((6 : Fin 8) : ℕ)]{fullShare} f := by
  rw [set_tcS6]
omit [FloatOps F] in
theorem pts_tcS7 (d : Dev nD) (f : Buf (Elt F) (sLoc d)) :
    ((tcS7).view.loc (SparseCore.T (τ := τ) d) ↦[(tcS7).view.set]{fullShare} f : sProp 𝕄) = sLoc d ↦[slotSet ((7 : Fin 8) : ℕ)]{fullShare} f := by
  rw [set_tcS7]

set_option maxHeartbeats 1000000 in
/-- The kernel on the three arrays held whole. -/
theorem tc_body (d : Dev nD) (q : PosShare TreeShare) (fx : Buf (Elt F) (xLoc d)) (fb : Buf (Elt F) (bLoc d))
    (fs : Buf (Elt F) (sLoc d)) (W : Waits sig (HIx 1)) :
    iprop((xLoc d ↦{q} fx) ∗ (bLoc d ↦{fullShare} fb) ∗ (sLoc d ↦{fullShare} fs) ∗ tcSems d ∗ owes (SparseCore.T (τ := τ) d) 0 W)
      ⊢ wp frame (wpE (defs₀ (F := F)) 𝒱₀ (SparseCore.T (τ := τ) d) none) Set.univ
          (cc1__tc_pipe tcXw (Memref.isWhole_whole _) tcBw (Memref.isWhole_whole _) tcSw (Memref.isWhole_whole _) cc1_scratch1 cc1_scratch2)
          fun _ => iprop((xLoc d ↦{q} fx) ∗ (bLoc d ↦{fullShare} tailRows d fx) ∗ (∃ fs', sLoc d ↦{fullShare} fs') ∗ tcSems d
            ∗ ∃ W', ⌜∀ p ∈ W', p ∈ W ∨ p.2 = none⌝ ∗ owes (SparseCore.T (τ := τ) d) 0 W') := by
  rw [x_chunks (F := F) d q fx, b_chunks (F := F) d fb, b_chunks (F := F) d (tailRows d fx), s_slots (F := F) d fs, bigSep_fin10, bigSep_fin10, bigSep_fin10, bigSep_fin8]
  iintro ⟨⟨⟨Hx0, Hx1, Hx2, Hx3, Hx4, Hx5, Hx6, Hx7, Hx8, Hx9⟩, Hxlow⟩, ⟨Hb0, Hb1, Hb2, Hb3, Hb4, Hb5, Hb6, Hb7, Hb8, Hb9⟩, ⟨Hs0, Hs1, Hs2, Hs3, Hs4, Hs5, Hs6, Hs7⟩, Hsems, HO⟩
  iapply (wp_wand_r frame _ Set.univ)
  isplitl [Hx0 Hx1 Hx2 Hx3 Hx4 Hx5 Hx6 Hx7 Hx8 Hx9 Hb0 Hb1 Hb2 Hb3 Hb4 Hb5 Hb6 Hb7 Hb8 Hb9 Hs0 Hs1 Hs2 Hs3 Hs4 Hs5 Hs6 Hs7 Hsems HO]
  · iapply (tc_pieces d q fx fb fs W)
    isplitl [Hx0 Hx1 Hx2 Hx3 Hx4 Hx5 Hx6 Hx7 Hx8 Hx9]
    · isplitl [Hx0]; · iapply (Entails.of_eq (pts_tcX0 (F := F) d q _).symm); iexact Hx0
      isplitl [Hx1]; · iapply (Entails.of_eq (pts_tcX1 (F := F) d q _).symm); iexact Hx1
      isplitl [Hx2]; · iapply (Entails.of_eq (pts_tcX2 (F := F) d q _).symm); iexact Hx2
      isplitl [Hx3]; · iapply (Entails.of_eq (pts_tcX3 (F := F) d q _).symm); iexact Hx3
      isplitl [Hx4]; · iapply (Entails.of_eq (pts_tcX4 (F := F) d q _).symm); iexact Hx4
      isplitl [Hx5]; · iapply (Entails.of_eq (pts_tcX5 (F := F) d q _).symm); iexact Hx5
      isplitl [Hx6]; · iapply (Entails.of_eq (pts_tcX6 (F := F) d q _).symm); iexact Hx6
      isplitl [Hx7]; · iapply (Entails.of_eq (pts_tcX7 (F := F) d q _).symm); iexact Hx7
      isplitl [Hx8]; · iapply (Entails.of_eq (pts_tcX8 (F := F) d q _).symm); iexact Hx8
      iapply (Entails.of_eq (pts_tcX9 (F := F) d q _).symm); iexact Hx9
    isplitl [Hb0 Hb1 Hb2 Hb3 Hb4 Hb5 Hb6 Hb7 Hb8 Hb9]
    · isplitl [Hb0]; · iapply (Entails.of_eq (pts_tcB0 (F := F) d _).symm); iexact Hb0
      isplitl [Hb1]; · iapply (Entails.of_eq (pts_tcB1 (F := F) d _).symm); iexact Hb1
      isplitl [Hb2]; · iapply (Entails.of_eq (pts_tcB2 (F := F) d _).symm); iexact Hb2
      isplitl [Hb3]; · iapply (Entails.of_eq (pts_tcB3 (F := F) d _).symm); iexact Hb3
      isplitl [Hb4]; · iapply (Entails.of_eq (pts_tcB4 (F := F) d _).symm); iexact Hb4
      isplitl [Hb5]; · iapply (Entails.of_eq (pts_tcB5 (F := F) d _).symm); iexact Hb5
      isplitl [Hb6]; · iapply (Entails.of_eq (pts_tcB6 (F := F) d _).symm); iexact Hb6
      isplitl [Hb7]; · iapply (Entails.of_eq (pts_tcB7 (F := F) d _).symm); iexact Hb7
      isplitl [Hb8]; · iapply (Entails.of_eq (pts_tcB8 (F := F) d _).symm); iexact Hb8
      iapply (Entails.of_eq (pts_tcB9 (F := F) d _).symm); iexact Hb9
    isplitl [Hs0 Hs1 Hs2 Hs3 Hs4 Hs5 Hs6 Hs7]
    · isplitl [Hs0]; · iapply (Entails.of_eq (pts_tcS0 (F := F) d _).symm); iexact Hs0
      isplitl [Hs1]; · iapply (Entails.of_eq (pts_tcS1 (F := F) d _).symm); iexact Hs1
      isplitl [Hs2]; · iapply (Entails.of_eq (pts_tcS2 (F := F) d _).symm); iexact Hs2
      isplitl [Hs3]; · iapply (Entails.of_eq (pts_tcS3 (F := F) d _).symm); iexact Hs3
      isplitl [Hs4]; · iapply (Entails.of_eq (pts_tcS4 (F := F) d _).symm); iexact Hs4
      isplitl [Hs5]; · iapply (Entails.of_eq (pts_tcS5 (F := F) d _).symm); iexact Hs5
      isplitl [Hs6]; · iapply (Entails.of_eq (pts_tcS6 (F := F) d _).symm); iexact Hs6
      iapply (Entails.of_eq (pts_tcS7 (F := F) d _).symm); iexact Hs7
    isplitl [Hsems]; · iexact Hsems
    iexact HO
  iintro %_ ⟨⟨Hx0, Hx1, Hx2, Hx3, Hx4, Hx5, Hx6, Hx7, Hx8, Hx9⟩, ⟨Hb0, Hb1, Hb2, Hb3, Hb4, Hb5, Hb6, Hb7, Hb8, Hb9⟩, ⟨⟨%g0, Hs0⟩, ⟨%g1, Hs1⟩, ⟨%g2, Hs2⟩, ⟨%g3, Hs3⟩, ⟨%g4, Hs4⟩, ⟨%g5, Hs5⟩, ⟨%g6, Hs6⟩, ⟨%g7, Hs7⟩⟩, Hsems, HW⟩
  isplitl [Hx0 Hx1 Hx2 Hx3 Hx4 Hx5 Hx6 Hx7 Hx8 Hx9 Hxlow]
  · isplitl [Hx0 Hx1 Hx2 Hx3 Hx4 Hx5 Hx6 Hx7 Hx8 Hx9]
    · isplitl [Hx0]; · iapply (Entails.of_eq (pts_tcX0 (F := F) d q _)); iexact Hx0
      isplitl [Hx1]; · iapply (Entails.of_eq (pts_tcX1 (F := F) d q _)); iexact Hx1
      isplitl [Hx2]; · iapply (Entails.of_eq (pts_tcX2 (F := F) d q _)); iexact Hx2
      isplitl [Hx3]; · iapply (Entails.of_eq (pts_tcX3 (F := F) d q _)); iexact Hx3
      isplitl [Hx4]; · iapply (Entails.of_eq (pts_tcX4 (F := F) d q _)); iexact Hx4
      isplitl [Hx5]; · iapply (Entails.of_eq (pts_tcX5 (F := F) d q _)); iexact Hx5
      isplitl [Hx6]; · iapply (Entails.of_eq (pts_tcX6 (F := F) d q _)); iexact Hx6
      isplitl [Hx7]; · iapply (Entails.of_eq (pts_tcX7 (F := F) d q _)); iexact Hx7
      isplitl [Hx8]; · iapply (Entails.of_eq (pts_tcX8 (F := F) d q _)); iexact Hx8
      iapply (Entails.of_eq (pts_tcX9 (F := F) d q _)); iexact Hx9
    · iexact Hxlow
  isplitl [Hb0 Hb1 Hb2 Hb3 Hb4 Hb5 Hb6 Hb7 Hb8 Hb9]
  · isplitl [Hb0]; · iapply (Entails.of_eq (pts_tcB0 (F := F) d _)); iexact Hb0
    isplitl [Hb1]; · iapply (Entails.of_eq (pts_tcB1 (F := F) d _)); iexact Hb1
    isplitl [Hb2]; · iapply (Entails.of_eq (pts_tcB2 (F := F) d _)); iexact Hb2
    isplitl [Hb3]; · iapply (Entails.of_eq (pts_tcB3 (F := F) d _)); iexact Hb3
    isplitl [Hb4]; · iapply (Entails.of_eq (pts_tcB4 (F := F) d _)); iexact Hb4
    isplitl [Hb5]; · iapply (Entails.of_eq (pts_tcB5 (F := F) d _)); iexact Hb5
    isplitl [Hb6]; · iapply (Entails.of_eq (pts_tcB6 (F := F) d _)); iexact Hb6
    isplitl [Hb7]; · iapply (Entails.of_eq (pts_tcB7 (F := F) d _)); iexact Hb7
    isplitl [Hb8]; · iapply (Entails.of_eq (pts_tcB8 (F := F) d _)); iexact Hb8
    iapply (Entails.of_eq (pts_tcB9 (F := F) d _)); iexact Hb9
  isplitl [Hs0 Hs1 Hs2 Hs3 Hs4 Hs5 Hs6 Hs7]
  · iapply (s_slots_join (F := F) d)
    rw [bigSep_fin8]
    isplitl [Hs0]; · iexists _; iapply (Entails.of_eq (pts_tcS0 (F := F) d _)); iexact Hs0
    isplitl [Hs1]; · iexists _; iapply (Entails.of_eq (pts_tcS1 (F := F) d _)); iexact Hs1
    isplitl [Hs2]; · iexists _; iapply (Entails.of_eq (pts_tcS2 (F := F) d _)); iexact Hs2
    isplitl [Hs3]; · iexists _; iapply (Entails.of_eq (pts_tcS3 (F := F) d _)); iexact Hs3
    isplitl [Hs4]; · iexists _; iapply (Entails.of_eq (pts_tcS4 (F := F) d _)); iexact Hs4
    isplitl [Hs5]; · iexists _; iapply (Entails.of_eq (pts_tcS5 (F := F) d _)); iexact Hs5
    isplitl [Hs6]; · iexists _; iapply (Entails.of_eq (pts_tcS6 (F := F) d _)); iexact Hs6
    iexists _; iapply (Entails.of_eq (pts_tcS7 (F := F) d _)); iexact Hs7
  isplitl [Hsems]; · iexact Hsems
  iexact HW

end Cert.Proof.KI

end
-- ==== Proof.KI.TcRegion.lean ====
/-
  The TensorCore's pallas_call as one step of @main: from `x` held at any share and the 640-row result array held
  outright, the region is entered, the kernel's ten chunk copies (64 rows each, through eight slots of its scratch,
  every copy issued and awaited on a semaphore of its own slot) run, and the region is left with the result array
  holding rows 384 … 1023 of `x`, `x` as it was, and the TensorCore owing nothing.

  The region's entry hands the TensorCore its scoped storage — the one scratch buffer, whole, and the sixteen DMA
  semaphores at zero —; the pipeline has no window and one grid point, so its program is the side condition (none)
  and one call of the kernel, whose body is the kernel's function on the three whole arrays; the exit takes the
  scoped storage back.
-/
import proofs.«212309_g71296457113957_cont_9to1_m_186_18_alg».proof.Proof.KI.TcBody

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F]

/-- The TensorCore's one scoped buffer is the kernel's scratch. -/
theorem tc_scopedBufs (d : Dev nD) :
    (scopedBufs (SparseCore.T (τ := τ) d) : sProp 𝕄) = iprop(∃ fs : Buf (Elt F) (sLoc d), sLoc d ↦{fullShare} fs) := by
  rw [scopedBufs_tc, show (Finset.univ.filter fun b : Ref sig .tc => b.isScoped) = {cc1_scratch0} by decide, bigSep_singleton]

/-- Its scoped semaphores are the kernel's sixteen, the eight a chunk lands in a slot on and the eight a slot is
    written back on. -/
theorem tc_scopedSems (d : Dev nD) :
    (scopedSems0 (SparseCore.T (τ := τ) d) : sProp 𝕄) = iprop(semVal (SparseCore.T (τ := τ) d, SemLoc.dma tcI0.sem) 0 ∗ semVal (SparseCore.T (τ := τ) d, SemLoc.dma tcI1.sem) 0 ∗ semVal (SparseCore.T (τ := τ) d, SemLoc.dma tcI2.sem) 0 ∗ semVal (SparseCore.T (τ := τ) d, SemLoc.dma tcI3.sem) 0 ∗ semVal (SparseCore.T (τ := τ) d, SemLoc.dma tcI4.sem) 0 ∗ semVal (SparseCore.T (τ := τ) d, SemLoc.dma tcI5.sem) 0 ∗ semVal (SparseCore.T (τ := τ) d, SemLoc.dma tcI6.sem) 0 ∗ semVal (SparseCore.T (τ := τ) d, SemLoc.dma tcI7.sem) 0 ∗ semVal (SparseCore.T (τ := τ) d, SemLoc.dma tcO0.sem) 0 ∗ semVal (SparseCore.T (τ := τ) d, SemLoc.dma tcO1.sem) 0 ∗ semVal (SparseCore.T (τ := τ) d, SemLoc.dma tcO2.sem) 0 ∗ semVal (SparseCore.T (τ := τ) d, SemLoc.dma tcO3.sem) 0 ∗ semVal (SparseCore.T (τ := τ) d, SemLoc.dma tcO4.sem) 0 ∗ semVal (SparseCore.T (τ := τ) d, SemLoc.dma tcO5.sem) 0 ∗ semVal (SparseCore.T (τ := τ) d, SemLoc.dma tcO6.sem) 0 ∗ semVal (SparseCore.T (τ := τ) d, SemLoc.dma tcO7.sem) 0) := by
  rw [scopedSems0_tc, show (Finset.univ.filter fun sm : SemLoc sig => sm.isScoped .tc) = ({SemLoc.dma tcI0.sem, SemLoc.dma tcI1.sem, SemLoc.dma tcI2.sem, SemLoc.dma tcI3.sem, SemLoc.dma tcI4.sem, SemLoc.dma tcI5.sem, SemLoc.dma tcI6.sem, SemLoc.dma tcI7.sem, SemLoc.dma tcO0.sem, SemLoc.dma tcO1.sem, SemLoc.dma tcO2.sem, SemLoc.dma tcO3.sem, SemLoc.dma tcO4.sem, SemLoc.dma tcO5.sem, SemLoc.dma tcO6.sem, SemLoc.dma tcO7.sem} : Finset (SemLoc sig)) by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem tc_sems_in (d : Dev nD) : (scopedSems0 (SparseCore.T (τ := τ) d) : sProp 𝕄) ⊢ tcSems d := by
  rw [tc_scopedSems]
  iintro ⟨Hi0, Hi1, Hi2, Hi3, Hi4, Hi5, Hi6, Hi7, Ho0, Ho1, Ho2, Ho3, Ho4, Ho5, Ho6, Ho7⟩
  isplitl [Hi0 Hi1 Hi2 Hi3 Hi4 Hi5 Hi6 Hi7]
  · iframe
  · iframe

theorem tc_sems_out (d : Dev nD) : (tcSems d : sProp 𝕄) ⊢ scopedSems0 (SparseCore.T (τ := τ) d) := by
  rw [tc_scopedSems]
  iintro ⟨⟨Hi0, Hi1, Hi2, Hi3, Hi4, Hi5, Hi6, Hi7⟩, Ho0, Ho1, Ho2, Ho3, Ho4, Ho5, Ho6, Ho7⟩
  iframe

theorem tc_bufs_in (d : Dev nD) :
    (scopedBufs (SparseCore.T (τ := τ) d) : sProp 𝕄) ⊢ iprop(∃ fs : Buf (Elt F) (sLoc d), sLoc d ↦{fullShare} fs) := by
  rw [tc_scopedBufs]

theorem tc_bufs_out (d : Dev nD) :
    iprop(∃ fs : Buf (Elt F) (sLoc d), sLoc d ↦{fullShare} fs) ⊢ (scopedBufs (SparseCore.T (τ := τ) d) : sProp 𝕄) := by
  rw [tc_scopedBufs]

/-- The region's program on a grid of one point with no window: the side condition (none), then the kernel once. -/
theorem tc_prun (d : Dev nD) (q : PosShare TreeShare) (fx : Buf (Elt F) (xLoc d)) (fb : Buf (Elt F) (bLoc d))
    (fs : Buf (Elt F) (sLoc d)) (W : Waits sig (HIx 1)) (Ψ : PUnit → sProp 𝕄) :
    iprop((xLoc d ↦{q} fx) ∗ (bLoc d ↦{fullShare} fb) ∗ (sLoc d ↦{fullShare} fs) ∗ tcSems d ∗ owes (SparseCore.T (τ := τ) d) 0 W
        ∗ (((xLoc d ↦{q} fx) ∗ (bLoc d ↦{fullShare} tailRows d fx) ∗ (∃ fs', sLoc d ↦{fullShare} fs') ∗ tcSems d
              ∗ ∃ W', ⌜∀ p ∈ W', p ∈ W ∨ p.2 = none⌝ ∗ owes (SparseCore.T (τ := τ) d) 0 W') -∗ Ψ ⟨⟩))
      ⊢ wp frame (wpE (D (F := F)) 𝒱 (SparseCore.T (τ := τ) d) (some (Sum.inr 1 : (𝒱).V))) Set.univ
          (Pipeline.prun (nD := nD) (τ := τ) (pcfgs (F := F)) 0) Ψ := by
  unfold Pipeline.prun
  iintro ⟨Hx, Hb, Hs, Hsem, HO, Hk⟩
  simp only [Pipeline.Prefetch.readAll, Pipeline.Prefetch.readTables]
  iapply (wp_assume 𝒱 (SparseCore.T (τ := τ) d) _ Set.univ trivial)
  have hN : ∀ a, ((pcfgs (F := F) 0).at a).N = 1 := fun _ => rfl
  unfold Pipeline.Cfg.runAt
  simp only [hN, one_ne_zero, if_false, dite_true, ↓reduceIte, ↓reduceDIte]
  unfold Pipeline.Cfg.straight
  simp only [Pipeline.Cfg.eachWin, List.finRange_zero, List.foldr_nil]
  iapply (wp_call 𝒱 (SparseCore.T (τ := τ) d) (some (Sum.inr 1 : (𝒱).V)) Set.univ (defs := D (F := F)) (Γ := .empty)
    (ℓ := Pipeline.kernel (Λ₀ := Λ₀) (P := Fin 1) (A := fun p => (pcfgs (F := F) p).Adm) (1 : Λ₀.Label)) (k := fun _ => Prog.ret PUnit.unit) (Q := Ψ)
    (Sum.inl none : (𝒱).V) (by intro u hu; cases hu; exact Sum.Lex.sep _ _))
  iapply (Pipeline.wp_liftProg (D (F := F)) (Pipeline.defs_kernel pcfgs defs₀) 𝒱₀ (SparseCore.T (τ := τ) d) Set.univ none
    (cc1__tc_pipe tcXw (Memref.isWhole_whole _) tcBw (Memref.isWhole_whole _) tcSw (Memref.isWhole_whole _) cc1_scratch1 cc1_scratch2) _)
  iapply (wp_wand_r frame _ Set.univ)
  isplitl [Hx Hb Hs Hsem HO]
  · iapply (tc_body d q fx fb fs W)
    iframe
  · iintro %_ Hpost
    rw [wp_ret]
    imodintro
    iapply Hk
    iexact Hpost

/-- The region's call in the pipelines' body table: the entry takes the scoped buffers, the region's program runs
    from the scratch and the semaphores they and the boundary hold, and the exit is handed the semaphores at zero
    and the scratch back. -/
theorem tc_entry (d : Dev nD) (q : PosShare TreeShare) (fx : Buf (Elt F) (xLoc d)) (W : Waits sig (HIx 1))
    {Φ : PUnit → sProp 𝕄} :
    iprop(boundary (T d) ∗ (xLoc d ↦{q} fx) ∗ (∃ fb, bLoc d ↦{fullShare} fb) ∗ owes (T d) 0 W
        ∗ ((boundary (T d) ∗ (xLoc d ↦{q} fx) ∗ (bLoc d ↦{fullShare} tailRows d fx)
              ∗ ∃ W', ⌜∀ p ∈ W', p ∈ W ∨ p.2 = none⌝ ∗ owes (T d) 0 W') -∗ Φ ⟨⟩))
      ⊢ wp frame (wpE (D (F := F)) 𝒱 (T d) none) Set.univ
          (Prog.lift (.customCall (Pipeline.entry (Λ₀ := Λ₀) (P := Fin 1) (A := fun p => (pcfgs (F := F) p).Adm) 0) ())) Φ := by
  unfold boundary
  iintro ⟨⟨Hsb, Hss, Hid⟩, Hx, ⟨%fb, Hb⟩, HO, Hk⟩
  iapply (wp_customCall 𝒱 (T d) none Set.univ (defs := D (F := F)) (Γ := .empty)
    (ℓ := Pipeline.entry (Λ₀ := Λ₀) (P := Fin 1) (A := fun p => (pcfgs (F := F) p).Adm) 0) (a := ()) (k := Prog.ret) (Q := Φ)
    (Sum.inr 1 : (𝒱).V) (by intro u hu; cases hu)) $$ Hsb
  iintro Hsb
  ihave Hs := (tc_bufs_in d) $$ Hsb
  icases Hs with ⟨%fs, Hs⟩
  ihave Hsem := (tc_sems_in d) $$ Hss
  iapply (tc_prun d q fx fb fs W _)
  isplitl [Hx]; · iexact Hx
  isplitl [Hb]; · iexact Hb
  isplitl [Hs]; · iexact Hs
  isplitl [Hsem]; · iexact Hsem
  isplitl [HO]; · iexact HO
  iintro ⟨Hx, Hb, Hs, Hsem, HW⟩
  rw [kernelExitSpec_apply]
  ihave Hss := (tc_sems_out d) $$ Hsem
  isplitl [Hss]; · iexact Hss
  iintro Hss
  ihave Hsb := (tc_bufs_out d) $$ Hs
  isplitl [Hsb]; · iexact Hsb
  iintro Hsb
  rw [wp_ret]
  imodintro
  iapply Hk
  isplitl [Hsb Hss Hid]
  · isplitl [Hsb]; · iexact Hsb
    isplitl [Hss]; · iexact Hss
    iexact Hid
  isplitl [Hx]; · iexact Hx
  isplitl [Hb]; · iexact Hb
  iexact HW

/-- The region as @main runs it on device `d`'s TensorCore: the same call, lifted to the body table that also
    holds the SparseCore dispatch. -/
theorem tc_region [∀ e, Nonempty (Elt F e)] (d : Dev nD) (q : PosShare TreeShare) (fx : Buf (Elt F) (xLoc d)) (W : Waits sig (HIx 1))
    {Φ : PUnit → sProp 𝕄} :
    iprop(boundary (T d) ∗ (xLoc d ↦{q} fx) ∗ (∃ fb, bLoc d ↦{fullShare} fb) ∗ owes (T d) 0 W
        ∗ ((boundary (T d) ∗ (xLoc d ↦{q} fx) ∗ (bLoc d ↦{fullShare} tailRows d fx)
              ∗ ∃ W', ⌜∀ p ∈ W', p ∈ W ∨ p.2 = none⌝ ∗ owes (T d) 0 W') -∗ Φ ⟨⟩))
      ⊢ wp frame (wpE ((K (F := F)).defs (D (F := F))) 𝒱 (T d) none) Set.univ
          (Prog.lift (.customCall (SparseCore.inner (Pipeline.entry 0)) ())) Φ := by
  exact (tc_entry d q fx W).trans (SparseCore.Cfg.wp_liftProg (K (F := F)) (D (F := F)) 𝒱 (T d) (Name := ℕ) (U := UU) (nD := nD) Set.univ none
      (Prog.lift (.customCall (Pipeline.entry (Λ₀ := Λ₀) (P := Fin 1) (A := fun p => (pcfgs (F := F) p).Adm) 0) ())) Φ)

end Cert.Proof.KI
end
-- ==== Proof.KI.Main.lean ====
/-
  The idealized kernel's run: @main on the TensorCore starts the SparseCore call on the first 384 rows of `x` and the
  384-row result, gets the rows back with the result holding `x`'s, runs its own kernel's region on the last 640
  rows, and concatenates the two results — which is `x`, since row j of the concatenation is row j of the first
  piece below 384 and row j - 384 of the second from there on. The launch theorem turns the tasks' and @main's
  proofs into a statement about every weakly fair execution of the device's threads.
-/
import proofs.«212309_g71296457113957_cont_9to1_m_186_18_alg».proof.Proof.KI.Obl
import proofs.«212309_g71296457113957_cont_9to1_m_186_18_alg».proof.Proof.KI.TcRegion
import Idealize.ShloMosaic.Lib.Pipeline.Value

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

open Idealize.ShloMosaic.StableHlo (held held_split held_sdiff_result wp_hlo_within)

/-! ## The concatenation of the two pieces is `x` -/

theorem upA_eq {i : S384x50x512.Idx} {j : S1024x50x512.Idx} (h : ∀ a, (i a).val = (j a).val) : upA i = j :=
  funext fun a => Fin.ext (h a)

theorem upB_eq {i : S640x50x512.Idx} {j : S1024x50x512.Idx} (h0 : (i 0).val + 384 = (j 0).val) (h1 : (i 1).val = (j 1).val)
    (h2 : (i 2).val = (j 2).val) : upB i = j :=
  funext fun a => Fin.ext (by match a with | 0 => exact h0 | 1 => exact h1 | 2 => exact h2)

/-- Rows 0 … 383 followed by rows 384 … 1023 are the array. -/
theorem cat_rows (d : Dev nD) (fx : Buf (Elt F) (xLoc d)) :
    concatenate S1024x50x512 0 [⟨S384x50x512, headRows d fx⟩, ⟨S640x50x512, tailRows d fx⟩]
      concatenates_S384x50x512_S640x50x512_S1024x50x512_d0 = fx := by
  funext j
  by_cases h : (j 0).val < 384
  · let i : S384x50x512.Idx := fun a => ⟨(j a).val, by
      match a with
      | 0 => exact h
      | 1 => exact (j 1).isLt
      | 2 => exact (j 2).isLt⟩
    refine (concatenate_pair_apply_left (t := S1024x50x512) (s₁ := S384x50x512) (s₂ := S640x50x512) (0 : Fin 3) (headRows d fx) (tailRows d fx)
      concatenates_S384x50x512_S640x50x512_S1024x50x512_d0 j rfl i (fun b => rfl)).trans ?_
    exact congrArg fx (upA_eq fun a => rfl)
  · have hj : (j 0).val < 1024 := (j 0).isLt
    let i : S640x50x512.Idx := fun a => match a with
      | 0 => ⟨(j 0).val - 384, by show (j 0).val - 384 < 640; omega⟩
      | 1 => ⟨(j 1).val, (j 1).isLt⟩
      | 2 => ⟨(j 2).val, (j 2).isLt⟩
    have hi : ∀ b : Fin 3, b ≠ 0 → (i b).val = (j b).val := fun b hb => by
      match b with
      | 0 => exact absurd rfl hb
      | 1 => rfl
      | 2 => rfl
    have ha : (i 0).val + 384 = (j 0).val := by show (j 0).val - 384 + 384 = (j 0).val; omega
    refine (concatenate_pair_apply_right (t := S1024x50x512) (s₁ := S384x50x512) (s₂ := S640x50x512) (0 : Fin 3) (headRows d fx) (tailRows d fx)
      concatenates_S384x50x512_S640x50x512_S1024x50x512_d0 j rfl rfl i hi ha).trans ?_
    exact congrArg fx (upB_eq ha rfl rfl)

variable (m : (ℓ : Loc nD τ sig) → Buf (Elt F) ℓ) (ρ : Dev nD → PrngReg)

/-! ## The arrays as rows -/

/-- The tasks' rows, as one family: SparseCore, subcore, row of the task. -/
abbrev Tk : Type := Fin 2 × Fin 16 × Fin 12
abbrev rowT (t : Tk) : ℕ := rowOf t.1.val t.2.1.val t.2.2.val

/-- The rows of `x` no task reads. -/
def xRest : Finset S1024x50x512.Idx := Finset.univ.filter fun j => 384 ≤ (j 0).val

theorem rowT_inj {t t' : Tk} (h : t ≠ t') : rowT t ≠ rowT t' := by
  obtain ⟨c, i, r⟩ := t; obtain ⟨c', i', r'⟩ := t'
  intro e
  apply h
  have hc := c.isLt; have hc' := c'.isLt; have hr := r.isLt; have hr' := r'.isLt
  simp only [rowT, rowOf] at e
  have h1 : i.val = i'.val := by omega
  have h2 : c.val = c'.val := by omega
  have h3 : r.val = r'.val := by omega
  exact Prod.ext (Fin.ext h2) (Prod.ext (Fin.ext h1) (Fin.ext h3))

theorem rowT_lt (t : Tk) : rowT t < 384 := by
  obtain ⟨c, i, r⟩ := t
  have hc := c.isLt; have hi := i.isLt; have hr := r.isLt
  simp only [rowT, rowOf]; omega

theorem exists_rowT {n : ℕ} (h : n < 384) : ∃ t : Tk, rowT t = n :=
  ⟨(⟨n % 24 / 12, by omega⟩, ⟨n / 24, by omega⟩, ⟨n % 12, by omega⟩), by simp only [rowT, rowOf]; omega⟩

theorem x_rows_disjoint : ∀ t ∈ (Finset.univ : Finset Tk), ∀ t' ∈ (Finset.univ : Finset Tk), t ≠ t' → Disjoint (xRowSet (rowT t)) (xRowSet (rowT t')) :=
  fun _ _ _ _ h => xRowSet_disjoint (rowT_inj h)
theorem a_rows_disjoint : ∀ t ∈ (Finset.univ : Finset Tk), ∀ t' ∈ (Finset.univ : Finset Tk), t ≠ t' → Disjoint (aRowSet (rowT t)) (aRowSet (rowT t')) :=
  fun _ _ _ _ h => aRowSet_disjoint (rowT_inj h)

theorem x_rows_rest_disjoint : Disjoint ((Finset.univ : Finset Tk).biUnion fun t => xRowSet (rowT t)) xRest := by
  refine Finset.disjoint_left.mpr fun j hj hr => ?_
  obtain ⟨t, -, ht⟩ := Finset.mem_biUnion.mp hj
  have h1 : (j 0).val = rowT t := (Finset.mem_filter.mp ht).2
  have h2 : 384 ≤ (j 0).val := (Finset.mem_filter.mp hr).2
  have := rowT_lt t; omega

theorem x_rows_cover : ((Finset.univ : Finset Tk).biUnion fun t => xRowSet (rowT t)) ∪ xRest = Finset.univ := by
  ext j
  simp only [Finset.mem_union, Finset.mem_biUnion, Finset.mem_univ, true_and, iff_true]
  by_cases h : (j 0).val < 384
  · obtain ⟨t, ht⟩ := exists_rowT h
    exact .inl ⟨t, Finset.mem_filter.mpr ⟨Finset.mem_univ _, ht.symm⟩⟩
  · exact .inr (Finset.mem_filter.mpr ⟨Finset.mem_univ _, by omega⟩)

theorem a_rows_cover : ((Finset.univ : Finset Tk).biUnion fun t => aRowSet (rowT t)) = Finset.univ := by
  ext j
  simp only [Finset.mem_biUnion, Finset.mem_univ, true_and, iff_true]
  have h : (j 0).val < 384 := (j 0).isLt
  obtain ⟨t, ht⟩ := exists_rowT h
  exact ⟨t, Finset.mem_filter.mpr ⟨Finset.mem_univ _, ht.symm⟩⟩

theorem x_split (d : Dev nD) (f : Buf (Elt F) (xLoc d)) :
    (xLoc d ↦{fullShare} f : sProp 𝕄)
      = iprop((bigSep (Finset.univ : Finset Tk) fun t => xLoc d ↦[xRowSet (rowT t)]{fullShare} f) ∗ xLoc d ↦[xRest]{fullShare} f) := by
  have hu := pointsTo_union (nD := nD) (τ := τ) (sig := sig) (Ix := HIx 1) (Val := Elt F) (Name := ℕ) (U := UU) (Lvl := ℕ)
    (ℓ := xLoc d) (q := fullShare) (f := f) x_rows_rest_disjoint
  rw [← pointsTo_biUnion Finset.univ (ℓ := xLoc d) (fun t : Tk => xRowSet (rowT t)) x_rows_disjoint, ← BI.equiv_iff.mp ⟨hu.1, hu.2⟩, x_rows_cover]

theorem a_split (d : Dev nD) (f : Buf (Elt F) (aLoc d)) :
    (aLoc d ↦{fullShare} f : sProp 𝕄) = bigSep (Finset.univ : Finset Tk) fun t => aLoc d ↦[aRowSet (rowT t)]{fullShare} f := by
  rw [← pointsTo_biUnion Finset.univ (ℓ := aLoc d) (fun t : Tk => aRowSet (rowT t)) a_rows_disjoint, a_rows_cover]

theorem nest (Φ : Tk → sProp 𝕄) :
    bigSep (Finset.univ : Finset Tk) Φ = bigSep Finset.univ fun c : Fin 2 => bigSep Finset.univ fun i : Fin 16 => bigSep Finset.univ fun r : Fin 12 => Φ (c, i, r) := by
  rw [bigSep_univ_prod]
  exact bigSep_congr fun c _ => bigSep_univ_prod _

/-- What the call takes for the two SparseCores, as the rows of the two arrays. -/
theorem st_eq (d : Dev nD) :
    (bigSep Finset.univ fun c : Fin ((K (F := F)).nCore 0) => (P m).st 0 d c)
      = iprop((bigSep (Finset.univ : Finset Tk) fun t => xLoc d ↦[xRowSet (rowT t)]{fullShare} m (xLoc d))
          ∗ bigSep (Finset.univ : Finset Tk) fun t => aLoc d ↦[aRowSet (rowT t)]{fullShare} m (aLoc d)) := by
  rw [nest, nest, ← bigSep_sep' (Finset.univ : Finset (Fin 2))]
  refine bigSep_congr fun c _ => ?_
  rw [← bigSep_sep' (Finset.univ : Finset (Fin 16))]
  rfl
/-- What it hands back. -/
theorem dn_eq (d : Dev nD) :
    (bigSep Finset.univ fun c : Fin ((K (F := F)).nCore 0) => (P m).dn 0 d c)
      = iprop((bigSep (Finset.univ : Finset Tk) fun t => xLoc d ↦[xRowSet (rowT t)]{fullShare} m (xLoc d))
          ∗ bigSep (Finset.univ : Finset Tk) fun t => aLoc d ↦[aRowSet (rowT t)]{fullShare} headRows d (m (xLoc d))) := by
  rw [nest, nest, ← bigSep_sep' (Finset.univ : Finset (Fin 2))]
  refine bigSep_congr fun c _ => ?_
  rw [← bigSep_sep' (Finset.univ : Finset (Fin 16))]
  rfl

/-! ## The launch element: the handshakes' rounds; nothing of the kernels' own -/

def u₀ : UU := (initOf (K (F := F)).hsCells (K (F := F)).hsToks, 1)

theorem bigSep_emp' {I : Type} (s : Finset I) : (bigSep s fun _ => iprop(emp)) = (iprop(emp) : sProp 𝕄) := bigSep_emp_const s

variable [FloatOps F]

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a' : DevRef τ sig := Proc.devRef .tc (main_v0 : Ref sig .tc)
abbrev b' : DevRef τ sig := Proc.devRef .tc (main_v1 : Ref sig .tc)
abbrev r' : DevRef τ sig := Proc.devRef .tc (main_v2 : Ref sig .tc)
abbrev opCat : HloOp τ sig (Elt F) :=
  StableHlo.binary main_v0 main_v1 main_v2 ((fun a b => concatenate S1024x50x512 0 [⟨S384x50x512, a⟩, ⟨S640x50x512, b⟩] concatenates_S384x50x512_S640x50x512_S1024x50x512_d0) : (⟨S384x50x512, .f32⟩ : BufTy).Contents (Elt F) → (⟨S640x50x512, .f32⟩ : BufTy).Contents (Elt F) → (⟨S1024x50x512, .f32⟩ : BufTy).Contents (Elt F))

/-- The three arrays the concatenation touches. -/
abbrev S3 : Finset (DevRef τ sig) := {a', b', r'}

omit [FloatOps F] in
theorem held_S3 (d : Dev nD) (W : Valuation τ sig (Elt F)) :
    (held (T d) S3 W : sProp 𝕄) = iprop((aLoc d ↦{fullShare} W a') ∗ (bLoc d ↦{fullShare} W b') ∗ rLoc d ↦{fullShare} W r') := by
  unfold held S3
  rw [SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((xLoc d ↦{fullShare} W main_arg0) ∗ ((SparseCore.T d).loc main_arg1 ↦{fullShare} W main_arg1)
          ∗ ((SparseCore.T d).loc main_arg2 ↦{fullShare} W main_arg2) ∗ (aLoc d ↦{fullShare} W main_v0)
          ∗ (bLoc d ↦{fullShare} W main_v1) ∗ rLoc d ↦{fullShare} W main_v2) := by
  unfold unscopedBufs
  rw [show (Finset.univ.filter fun b : Ref sig .tc => ¬ b.isScoped) = {main_arg0, main_arg1, main_arg2, main_v0, main_v1, main_v2} by decide,
    SparseCore.bigSep_insert' (by decide), SparseCore.bigSep_insert' (by decide), SparseCore.bigSep_insert' (by decide),
    SparseCore.bigSep_insert' (by decide), SparseCore.bigSep_insert' (by decide), bigSep_singleton]

/-- The valuation the concatenation runs at: the two pieces at what the kernels left. -/
def V0 (d : Dev nD) : Valuation τ sig (Elt F) := fun b => m (d, b)
def V1 (d : Dev nD) : Valuation τ sig (Elt F) :=
  Function.update (Function.update (V0 m d) a' (headRows d (m (xLoc d)))) b' (tailRows d (m (xLoc d)))

theorem V1_a (d : Dev nD) : V1 m d a' = headRows d (m (xLoc d)) :=
  (Function.update_of_ne (show a' ≠ b' by decide) _ _).trans (Function.update_self _ _ _)
theorem V1_b (d : Dev nD) : V1 m d b' = tailRows d (m (xLoc d)) := Function.update_self _ _ _
theorem V1_r (d : Dev nD) : V1 m d r' = V0 m d r' :=
  (Function.update_of_ne (show r' ≠ b' by decide) _ _).trans (Function.update_of_ne (show r' ≠ a' by decide) _ _)

theorem hCat : (opCat (F := F)).bufs ⊆ S3 := show ({a', b', r'} : Finset (DevRef τ sig)) ⊆ S3 by decide

/-- After the concatenation the result array holds `x`. -/
theorem cat_result (d : Dev nD) : (opCat (F := F)).result (V1 m d) r' = m (xLoc d) := by
  refine (StableHlo.binary_result main_v0 main_v1 main_v2 _ _ _ _ (V1 m d)).trans ?_
  show concatenate S1024x50x512 0 [⟨S384x50x512, V1 m d a'⟩, ⟨S640x50x512, V1 m d b'⟩] _ = _
  rw [V1_a, V1_b]
  exact cat_rows d (m (xLoc d))

/-- The TensorCore's handshake state after the one call: it owes nothing more, and may record any wait at the
    kernels' own index. -/
theorem tcSt_owes (d : Dev nD) :
    ((K (F := F)).tcSt EH d ((0 : Fin 1).val + 1) : sProp 𝕄)
      ⊢ iprop(∃ W, owes (T d) 0 W ∗ (∀ W', ⌜∀ p ∈ W', p ∈ W ∨ p.2 = none⌝ -∗ owes (T d) 0 W' -∗ (K (F := F)).tcSt EH d 1)) := by
  unfold SparseCore.Cfg.tcSt
  rw [(K (F := F)).Otc_end d (show 1 ≤ (0 : Fin 1).val + 1 from le_refl 1)]
  iintro ⟨⟨%W, %hW, HO⟩, Hrest⟩
  iexists W
  isplitl [HO]; · iexact HO
  iintro %W' %hW' HO
  isplitl [HO]
  · iexists W'
    isplitr
    · ipureintro
      intro p hp
      rcases hW' p hp with h | h
      · exact hW p h
      · rw [h]; exact Nat.zero_le _
    · iexact HO
  · iexact Hrest

/-- What @main leaves the claim: the three arguments at their launch contents, the result at `x`'s. -/
abbrev FIN (d : Dev nD) : sProp 𝕄 :=
  iprop((xLoc d ↦{fullShare} m (xLoc d)) ∗ ((SparseCore.T d).loc main_arg1 ↦{fullShare} m ((SparseCore.T d).loc main_arg1))
    ∗ ((SparseCore.T d).loc main_arg2 ↦{fullShare} m ((SparseCore.T d).loc main_arg2)) ∗ rLoc d ↦{fullShare} m (xLoc d))

set_option maxHeartbeats 1000000 in
/-- @main on device `d`'s TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, H1, H2, Ha, Hbb, Hr⟩, -, -⟩, -⟩
  ihave Hx' := (Entails.of_eq (x_split (F := F) d _)) $$ Hx
  icases Hx' with ⟨Hxr, Hxrest⟩
  ihave Ha' := (Entails.of_eq (a_split (F := F) d _)) $$ Ha
  -- the SparseCore call: the first 384 rows of `x` and the result's rows out, and back
  iapply ((K (F := F)).wp_run (D (F := F)) 𝒱 (EH := EH) (P := P m) κ d 0) $$ [Hst Hxr Ha' Hxrest Hb H1 H2 Hbb Hr]
  isplitr; · iexact Hctx
  isplitl [Hst]; · iexact Hst
  isplitl [Hxr Ha']
  · rw [st_eq]
    isplitl [Hxr]; · iexact Hxr
    iexact Ha'
  iintro ⟨Hst, Hdn⟩
  ihave Hdn' := (Entails.of_eq (dn_eq m d)) $$ Hdn
  icases Hdn' with ⟨Hxr, Ha'⟩
  ihave Hx := (Entails.of_eq (x_split (F := F) d (m (xLoc d))).symm) $$ [Hxr Hxrest]
  · isplitl [Hxr]; · iexact Hxr
    iexact Hxrest
  ihave Ha := (Entails.of_eq (a_split (F := F) d (headRows d (m (xLoc d)))).symm) $$ Ha'
  -- the TensorCore's own region: the last 640 rows
  ihave Hst' := (tcSt_owes (F := F) d) $$ Hst
  icases Hst' with ⟨%W, HO, Hback⟩
  iapply (tc_region (F := F) d fullShare (m (xLoc d)) W) $$ [Hb Hx Hbb HO Hback Ha H1 H2 Hr]
  isplitl [Hb]; · iexact Hb
  isplitl [Hx]; · iexact Hx
  isplitl [Hbb]; · iexists _; iexact Hbb
  isplitl [HO]; · iexact HO
  iintro ⟨Hb, Hx, Hbb, %W', %hW', HO⟩
  ihave Hst := Hback $$ [] [HO]
  · ipureintro; exact hW'
  · iexact HO
  -- the concatenation
  iapply (wp_hlo_within 𝒱 (SparseCore.T d) none Set.univ (op := opCat) (S := S3) hCat (V := V1 m d)) $$ [Hb Ha Hbb Hr]
  · isplitl [Hb]; · iexact Hb
    rw [held_S3, V1_a, V1_b, V1_r]
    isplitl [Ha]; · iexact Ha
    isplitl [Hbb]; · iexact Hbb
    iexact Hr
  iintro ⟨Hb, Hheld⟩
  ihave Hh := (Entails.of_eq (held_S3 (F := F) d _)) $$ Hheld
  icases Hh with ⟨-, -, Hr⟩
  rw [cat_result]
  rw [wp_ret]; imodintro; imodintro
  isplitl [Hst]; · iexact Hst
  isplitl [Hx]; · iexact Hx
  isplitl [H1]; · iexact H1
  isplitl [H2]; · iexact H2
  iexact Hr

def fq (d : Dev nD) (s' : Phys nD τ sig (Elt F)) : Prop :=
  s'.mem.mem (xLoc d) = m (xLoc d) ∧ s'.mem.mem ((SparseCore.T d).loc main_arg1) = m ((SparseCore.T d).loc main_arg1)
    ∧ s'.mem.mem ((SparseCore.T d).loc main_arg2) = m ((SparseCore.T d).loc main_arg2) ∧ s'.mem.mem (rLoc d) = m (xLoc d)

omit [FloatOps F] in
theorem agree_whole (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%h, HSI, -⟩
  isplitr
  · ipureintro; exact funext fun i => h i (Finset.mem_univ i)
  · iexact HSI

omit [FloatOps F] in
theorem hfin (d : Dev nD) (s' : Phys nD τ sig (Elt F)) : iprop(FIN m d ∗ SI s') ⊢ (⌜fq m d s'⌝ : sProp 𝕄) := by
  iintro ⟨⟨Hx, H1, H2, Hr⟩, HSI⟩
  ihave H := (agree_whole (F := F) s' _ _) $$ [Hx HSI]
  · isplitl [Hx] <;> iassumption
  icases H with ⟨%hx, HSI⟩
  ihave H := (agree_whole (F := F) s' _ _) $$ [H1 HSI]
  · isplitl [H1] <;> iassumption
  icases H with ⟨%h1, HSI⟩
  ihave H := (agree_whole (F := F) s' _ _) $$ [H2 HSI]
  · isplitl [H2] <;> iassumption
  icases H with ⟨%h2, HSI⟩
  ihave H := (agree_whole (F := F) s' _ _) $$ [Hr HSI]
  · isplitl [Hr] <;> iassumption
  icases H with ⟨%hr, -⟩
  ipureintro; exact ⟨hx, h1, h2, hr⟩

/-! ## The program's run -/

def QC : PUnit × MemSt nD τ sig (Elt F) → Prop := fun r => ∀ c : Dev nD,
  r.2.mem (xLoc c) = m (xLoc c) ∧ r.2.mem ((SparseCore.T c).loc main_arg1) = m ((SparseCore.T c).loc main_arg1)
    ∧ r.2.mem ((SparseCore.T c).loc main_arg2) = m ((SparseCore.T c).loc main_arg2) ∧ r.2.mem (rLoc c) = m (xLoc c)

/-- Every weakly fair execution of the device's threads terminates, nothing faulting, with the arguments unchanged and
    the result equal to `x`. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.KB.Base.lean ====
/-
  The kernel as printed, as the SparseCore launch theorem sees it: the program's label signature with its one
  TensorCore pallas_call, the SparseCore configuration, the body table below the SparseCore dispatch, the
  termination measures, and the ghost state — the launch handshakes' rounds beside the counters that the
  kernels' own local copies are tracked with (every copy of this program is issued and awaited by one thread
  on a semaphore of its own, one copy at a time per semaphore, so no schedule is needed).
-/
import proofs.«212309_g71296457113957_cont_9to1_m_186_18_alg».proof.Defs
import Idealize.ShloMosaic.Lib.SparseCore.Launch
import Idealize.ShloMosaic.Lib.StableHlo.Run
import Idealize.ShloMosaic.Lib.Pipeline.Kit
import Idealize.ShloMosaic.Lib.Tactic
import proofs.«212309_g71296457113957_cont_9to1_m_186_18_alg».proof.Proof.Gen.Kernel
import proofs.«212309_g71296457113957_cont_9to1_m_186_18_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

/-- The handshakes' rounds: the left factor; the counters are found by instance in the right. -/
abbrev EH : Emb UH (MT nD τ sig (HIx 1) (Elt F) ℕ UU ℕ) := embL

/-- The argument `x`, the SparseCore's part of the result, the TensorCore's part, and the result, as locations of device `d`. -/
abbrev xLoc (d : Dev nD) : Loc nD τ sig := (SparseCore.T d).loc main_arg0
abbrev aLoc (d : Dev nD) : Loc nD τ sig := (SparseCore.T d).loc main_v0
abbrev bLoc (d : Dev nD) : Loc nD τ sig := (SparseCore.T d).loc main_v1
abbrev rLoc (d : Dev nD) : Loc nD τ sig := (SparseCore.T d).loc main_v2

/-- An index into the first 384 rows, as an index of the whole array: the same coordinates. -/
def upA (i : S384x50x512.Idx) : S1024x50x512.Idx := fun a =>
  ⟨(i a).val, by
    have h := (i a).isLt
    match a with
    | 0 => exact Nat.lt_of_lt_of_le h (by decide)
    | 1 => exact h
    | 2 => exact h⟩

/-- An index into the last 640 rows, as an index of the whole array: the row 384 further down. -/
def upB (i : S640x50x512.Idx) : S1024x50x512.Idx := fun a =>
  match a with
  | 0 => ⟨(i 0).val + 384, by have h := (i 0).isLt; have : S640x50x512.size 0 = 640 := rfl; have : S1024x50x512.size 0 = 1024 := rfl; omega⟩
  | 1 => ⟨(i 1).val, (i 1).isLt⟩
  | 2 => ⟨(i 2).val, (i 2).isLt⟩

/-- Rows 0 … 383 of an array of 1024 rows: what the SparseCore's tiles copy. -/
def headRows (d : Dev nD) (fx : Buf (Elt F) (xLoc d)) : Buf (Elt F) (aLoc d) := fun i => fx (upA i)

/-- Rows 384 … 1023: what the TensorCore's kernel copies. -/
def tailRows (d : Dev nD) (fx : Buf (Elt F) (xLoc d)) : Buf (Elt F) (bLoc d) := fun i => fx (upB i)

end Cert.Proof.KB

end
-- ==== Proof.KB.Tile.lean ====
/-
  One vector subcore's task: twelve rows of `x` — rows 24·s + 12·c + r of the array, for subcore `s` of SparseCore `c` —
  are copied into the same rows of the 384-row result array, each through one of four row-sized scratch buffers:
  row r is fetched into scratch r mod 4 and written out from there, every copy issued and awaited by the subcore
  itself on a semaphore that carries no other copy at that time, and a scratch is refilled only after its
  write-out has been awaited. So what the task leaves in its rows of the result is `x`'s rows, element by element.
-/
import proofs.«212309_g71296457113957_cont_9to1_m_186_18_alg».proof.Proof.KB.Base

noncomputable section

namespace Cert.Proof.KB

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

/-! ## The memrefs, spelt as the body table passes them and as the body slices them -/

abbrev xV : Memref sig .scVector .hbm S1024x50x512 .f32 := Memref.whole main_arg0_scv
abbrev aV : Memref sig .scVector .hbm S384x50x512 .f32 := Memref.whole main_v0_scv
abbrev s0 : Memref sig .scVector .vmem S1x50x512 .f32 := Memref.whole cc0_scratch0
abbrev s1 : Memref sig .scVector .vmem S1x50x512 .f32 := Memref.whole cc0_scratch1
abbrev s2 : Memref sig .scVector .vmem S1x50x512 .f32 := Memref.whole cc0_scratch2
abbrev s3 : Memref sig .scVector .vmem S1x50x512 .f32 := Memref.whole cc0_scratch3

/-- Row `r` of the task at grid point `L`, in `x` and in the result: the slice the body makes. -/
abbrev xRow (L : grid0.Coords) (r : Fin 12) : Memref sig .scVector .hbm S1x50x512 .f32 :=
  (xV).slice (Rect.unit (s := S1024x50x512) (k0_off1 L (BitVec.ofNat 32 r.val)) S1x50x512.size (k0_off1_inb L r)) (fun _ => rfl)
abbrev aRow (L : grid0.Coords) (r : Fin 12) : Memref sig .scVector .hbm S1x50x512 .f32 :=
  (aV).slice (Rect.unit (s := S384x50x512) (k0_off2 L (BitVec.ofNat 32 r.val)) S1x50x512.size (k0_off2_inb L r)) (fun _ => rfl)
abbrev xRow0 (L : grid0.Coords) : Memref sig .scVector .hbm S1x50x512 .f32 := (xV).slice (Rect.unit (s := S1024x50x512) (k0_off1 L 0#32) S1x50x512.size (k0_off1_inb L 0)) (fun _ => rfl)
abbrev aRow0 (L : grid0.Coords) : Memref sig .scVector .hbm S1x50x512 .f32 := (aV).slice (Rect.unit (s := S384x50x512) (k0_off2 L 0#32) S1x50x512.size (k0_off2_inb L 0)) (fun _ => rfl)
abbrev xRow1 (L : grid0.Coords) : Memref sig .scVector .hbm S1x50x512 .f32 := (xV).slice (Rect.unit (s := S1024x50x512) (k0_off1 L 1#32) S1x50x512.size (k0_off1_inb L 1)) (fun _ => rfl)
abbrev aRow1 (L : grid0.Coords) : Memref sig .scVector .hbm S1x50x512 .f32 := (aV).slice (Rect.unit (s := S384x50x512) (k0_off2 L 1#32) S1x50x512.size (k0_off2_inb L 1)) (fun _ => rfl)
abbrev xRow2 (L : grid0.Coords) : Memref sig .scVector .hbm S1x50x512 .f32 := (xV).slice (Rect.unit (s := S1024x50x512) (k0_off1 L 2#32) S1x50x512.size (k0_off1_inb L 2)) (fun _ => rfl)
abbrev aRow2 (L : grid0.Coords) : Memref sig .scVector .hbm S1x50x512 .f32 := (aV).slice (Rect.unit (s := S384x50x512) (k0_off2 L 2#32) S1x50x512.size (k0_off2_inb L 2)) (fun _ => rfl)
abbrev xRow3 (L : grid0.Coords) : Memref sig .scVector .hbm S1x50x512 .f32 := (xV).slice (Rect.unit (s := S1024x50x512) (k0_off1 L 3#32) S1x50x512.size (k0_off1_inb L 3)) (fun _ => rfl)
abbrev aRow3 (L : grid0.Coords) : Memref sig .scVector .hbm S1x50x512 .f32 := (aV).slice (Rect.unit (s := S384x50x512) (k0_off2 L 3#32) S1x50x512.size (k0_off2_inb L 3)) (fun _ => rfl)
abbrev xRow4 (L : grid0.Coords) : Memref sig .scVector .hbm S1x50x512 .f32 := (xV).slice (Rect.unit (s := S1024x50x512) (k0_off1 L 4#32) S1x50x512.size (k0_off1_inb L 4)) (fun _ => rfl)
abbrev aRow4 (L : grid0.Coords) : Memref sig .scVector .hbm S1x50x512 .f32 := (aV).slice (Rect.unit (s := S384x50x512) (k0_off2 L 4#32) S1x50x512.size (k0_off2_inb L 4)) (fun _ => rfl)
abbrev xRow5 (L : grid0.Coords) : Memref sig .scVector .hbm S1x50x512 .f32 := (xV).slice (Rect.unit (s := S1024x50x512) (k0_off1 L 5#32) S1x50x512.size (k0_off1_inb L 5)) (fun _ => rfl)
abbrev aRow5 (L : grid0.Coords) : Memref sig .scVector .hbm S1x50x512 .f32 := (aV).slice (Rect.unit (s := S384x50x512) (k0_off2 L 5#32) S1x50x512.size (k0_off2_inb L 5)) (fun _ => rfl)
abbrev xRow6 (L : grid0.Coords) : Memref sig .scVector .hbm S1x50x512 .f32 := (xV).slice (Rect.unit (s := S1024x50x512) (k0_off1 L 6#32) S1x50x512.size (k0_off1_inb L 6)) (fun _ => rfl)
abbrev aRow6 (L : grid0.Coords) : Memref sig .scVector .hbm S1x50x512 .f32 := (aV).slice (Rect.unit (s := S384x50x512) (k0_off2 L 6#32) S1x50x512.size (k0_off2_inb L 6)) (fun _ => rfl)
abbrev xRow7 (L : grid0.Coords) : Memref sig .scVector .hbm S1x50x512 .f32 := (xV).slice (Rect.unit (s := S1024x50x512) (k0_off1 L 7#32) S1x50x512.size (k0_off1_inb L 7)) (fun _ => rfl)
abbrev aRow7 (L : grid0.Coords) : Memref sig .scVector .hbm S1x50x512 .f32 := (aV).slice (Rect.unit (s := S384x50x512) (k0_off2 L 7#32) S1x50x512.size (k0_off2_inb L 7)) (fun _ => rfl)
abbrev xRow8 (L : grid0.Coords) : Memref sig .scVector .hbm S1x50x512 .f32 := (xV).slice (Rect.unit (s := S1024x50x512) (k0_off1 L 8#32) S1x50x512.size (k0_off1_inb L 8)) (fun _ => rfl)
abbrev aRow8 (L : grid0.Coords) : Memref sig .scVector .hbm S1x50x512 .f32 := (aV).slice (Rect.unit (s := S384x50x512) (k0_off2 L 8#32) S1x50x512.size (k0_off2_inb L 8)) (fun _ => rfl)
abbrev xRow9 (L : grid0.Coords) : Memref sig .scVector .hbm S1x50x512 .f32 := (xV).slice (Rect.unit (s := S1024x50x512) (k0_off1 L 9#32) S1x50x512.size (k0_off1_inb L 9)) (fun _ => rfl)
abbrev aRow9 (L : grid0.Coords) : Memref sig .scVector .hbm S1x50x512 .f32 := (aV).slice (Rect.unit (s := S384x50x512) (k0_off2 L 9#32) S1x50x512.size (k0_off2_inb L 9)) (fun _ => rfl)
abbrev xRow10 (L : grid0.Coords) : Memref sig .scVector .hbm S1x50x512 .f32 := (xV).slice (Rect.unit (s := S1024x50x512) (k0_off1 L 10#32) S1x50x512.size (k0_off1_inb L 10)) (fun _ => rfl)
abbrev aRow10 (L : grid0.Coords) : Memref sig .scVector .hbm S1x50x512 .f32 := (aV).slice (Rect.unit (s := S384x50x512) (k0_off2 L 10#32) S1x50x512.size (k0_off2_inb L 10)) (fun _ => rfl)
abbrev xRow11 (L : grid0.Coords) : Memref sig .scVector .hbm S1x50x512 .f32 := (xV).slice (Rect.unit (s := S1024x50x512) (k0_off1 L 11#32) S1x50x512.size (k0_off1_inb L 11)) (fun _ => rfl)
abbrev aRow11 (L : grid0.Coords) : Memref sig .scVector .hbm S1x50x512 .f32 := (aV).slice (Rect.unit (s := S384x50x512) (k0_off2 L 11#32) S1x50x512.size (k0_off2_inb L 11)) (fun _ => rfl)

abbrev cV (L : grid0.Coords) : Fin τ.nSC := (L 0).castLE hcore0
abbrev jV (L : grid0.Coords) : Fin τ.nSub := (L 1).castLE hsub0
/-- The subcore's thread. -/
abbrev thr (d : Dev nD) (L : grid0.Coords) : Thread nD τ := V d (cV L) (jV L)

/-! ## Where a row's elements sit -/

/-- The array's row number of the task's row `r`. -/
abbrev rowNo (L : grid0.Coords) (r : Fin 12) : ℕ := 24 * (L 1).val + 12 * (L 0).val + r.val

theorem xRow_emb_val (L : grid0.Coords) (r : Fin 12) (y : S1x50x512.Idx) (a : Fin 3) :
    (((xRow L r).view.emb y : S1024x50x512.Idx) a).val = (![rowNo L r, 0, 0] : Fin 3 → ℕ) a + (y a).val := by
  show (k0_off1 L (BitVec.ofNat 32 r.val)) a + 1 * (y a).val = _
  rw [k0_off1_eq, Nat.one_mul]
theorem aRow_emb_val (L : grid0.Coords) (r : Fin 12) (y : S1x50x512.Idx) (a : Fin 3) :
    (((aRow L r).view.emb y : S384x50x512.Idx) a).val = (![rowNo L r, 0, 0] : Fin 3 → ℕ) a + (y a).val := by
  show (k0_off2 L (BitVec.ofNat 32 r.val)) a + 1 * (y a).val = _
  rw [k0_off2_eq, Nat.one_mul]

/-- An element of the result's row sits, in `x`, where the same element of `x`'s row sits. -/
theorem xRow_emb_eq (L : grid0.Coords) (r : Fin 12) (y : S1x50x512.Idx) :
    ((xRow L r).view.emb y : S1024x50x512.Idx) = upA ((aRow L r).view.emb y) := by
  funext a; apply Fin.ext
  rw [xRow_emb_val]
  show _ = (((aRow L r).view.emb y : S384x50x512.Idx) a).val
  rw [aRow_emb_val]

variable [FloatOps F]

/-- Reading `x` through a row's view reads `x` where the row's element sits. -/
theorem read_xRow (d : Dev nD) (L : grid0.Coords) (r : Fin 12) (fx : Buf (Elt F) (xLoc d)) (y : S1x50x512.Idx) :
    (xRow L r).view.read (Elt F) fx y = fx ((xRow L r).view.emb y) :=
  (View.read_apply _ _).trans (cast_eq _ _)

/-- What a copy lands in a row of the result, when its payload is `x`'s row: the first 384 rows of `x` there. -/
theorem aRow_lands (d : Dev nD) (L : grid0.Coords) (r : Fin 12) (fx : Buf (Elt F) (xLoc d)) (fa : Buf (Elt F) (aLoc d))
    (w : S1x50x512.Idx → Elt F .f32) (hw : ∀ y, w y = fx ((xRow L r).view.emb y)) :
    ∀ i ∈ (aRow L r).view.set, (aRow L r).view.writes (Elt F) fa [⟨Rect.whole S1x50x512, w⟩] i = headRows d fx i := by
  intro i hi
  obtain ⟨y, -, rfl⟩ := Finset.mem_map.mp hi
  have h := View.read_writes_cons_emb (aRow L r).view fa (Rect.whole S1x50x512) w [] y
  rw [Rect.emb_whole_apply, View.read_apply] at h
  refine ((cast_eq _ _).symm.trans h).trans ?_
  rw [hw y, xRow_emb_eq]; rfl

section Tile

variable (d : Dev nD) (L : grid0.Coords)

set_option maxHeartbeats 4000000 in
/-- The task on the subcore at grid point `L`: from its twelve rows of `x` (any share), its twelve rows of the result,
    its four scratch buffers and eight semaphores, to the result's rows at `x`'s. -/
theorem tile_body (q : PosShare TreeShare) (fx : Buf (Elt F) (xLoc d)) (fa : Buf (Elt F) (aLoc d))
    (f0 : Buf (Elt F) ((thr d L).loc cc0_scratch0)) (f1 : Buf (Elt F) ((thr d L).loc cc0_scratch1))
    (f2 : Buf (Elt F) ((thr d L).loc cc0_scratch2)) (f3 : Buf (Elt F) ((thr d L).loc cc0_scratch3))
    (O : CellTallies nD τ sig (HIx 1)) (W : Waits sig (HIx 1)) :
    iprop(Transfers.MayWaits (thr d L) (none : HIx 1) O
        ∗ (((xRow0 L).view.loc (thr d L) ↦[(xRow0 L).view.set]{q} fx : sProp 𝕄)
          ∗ ((xRow1 L).view.loc (thr d L) ↦[(xRow1 L).view.set]{q} fx : sProp 𝕄)
          ∗ ((xRow2 L).view.loc (thr d L) ↦[(xRow2 L).view.set]{q} fx : sProp 𝕄)
          ∗ ((xRow3 L).view.loc (thr d L) ↦[(xRow3 L).view.set]{q} fx : sProp 𝕄)
          ∗ ((xRow4 L).view.loc (thr d L) ↦[(xRow4 L).view.set]{q} fx : sProp 𝕄)
          ∗ ((xRow5 L).view.loc (thr d L) ↦[(xRow5 L).view.set]{q} fx : sProp 𝕄)
          ∗ ((xRow6 L).view.loc (thr d L) ↦[(xRow6 L).view.set]{q} fx : sProp 𝕄)
          ∗ ((xRow7 L).view.loc (thr d L) ↦[(xRow7 L).view.set]{q} fx : sProp 𝕄)
          ∗ ((xRow8 L).view.loc (thr d L) ↦[(xRow8 L).view.set]{q} fx : sProp 𝕄)
          ∗ ((xRow9 L).view.loc (thr d L) ↦[(xRow9 L).view.set]{q} fx : sProp 𝕄)
          ∗ ((xRow10 L).view.loc (thr d L) ↦[(xRow10 L).view.set]{q} fx : sProp 𝕄)
          ∗ ((xRow11 L).view.loc (thr d L) ↦[(xRow11 L).view.set]{q} fx : sProp 𝕄))
        ∗ (((aRow0 L).view.loc (thr d L) ↦[(aRow0 L).view.set]{fullShare} fa : sProp 𝕄)
          ∗ ((aRow1 L).view.loc (thr d L) ↦[(aRow1 L).view.set]{fullShare} fa : sProp 𝕄)
          ∗ ((aRow2 L).view.loc (thr d L) ↦[(aRow2 L).view.set]{fullShare} fa : sProp 𝕄)
          ∗ ((aRow3 L).view.loc (thr d L) ↦[(aRow3 L).view.set]{fullShare} fa : sProp 𝕄)
          ∗ ((aRow4 L).view.loc (thr d L) ↦[(aRow4 L).view.set]{fullShare} fa : sProp 𝕄)
          ∗ ((aRow5 L).view.loc (thr d L) ↦[(aRow5 L).view.set]{fullShare} fa : sProp 𝕄)
          ∗ ((aRow6 L).view.loc (thr d L) ↦[(aRow6 L).view.set]{fullShare} fa : sProp 𝕄)
          ∗ ((aRow7 L).view.loc (thr d L) ↦[(aRow7 L).view.set]{fullShare} fa : sProp 𝕄)
          ∗ ((aRow8 L).view.loc (thr d L) ↦[(aRow8 L).view.set]{fullShare} fa : sProp 𝕄)
          ∗ ((aRow9 L).view.loc (thr d L) ↦[(aRow9 L).view.set]{fullShare} fa : sProp 𝕄)
          ∗ ((aRow10 L).view.loc (thr d L) ↦[(aRow10 L).view.set]{fullShare} fa : sProp 𝕄)
          ∗ ((aRow11 L).view.loc (thr d L) ↦[(aRow11 L).view.set]{fullShare} fa : sProp 𝕄))
        ∗ ((s0).view.loc (thr d L) ↦{fullShare} f0) ∗ ((s1).view.loc (thr d L) ↦{fullShare} f1)
        ∗ ((s2).view.loc (thr d L) ↦{fullShare} f2) ∗ ((s3).view.loc (thr d L) ↦{fullShare} f3)
        ∗ (semVal (thr d L, SemLoc.dma cc0_scratch4.sem) 0 ∗ semVal (thr d L, SemLoc.dma cc0_scratch5.sem) 0 ∗ semVal (thr d L, SemLoc.dma cc0_scratch6.sem) 0 ∗ semVal (thr d L, SemLoc.dma cc0_scratch7.sem) 0 ∗ semVal (thr d L, SemLoc.dma cc0_scratch8.sem) 0 ∗ semVal (thr d L, SemLoc.dma cc0_scratch9.sem) 0 ∗ semVal (thr d L, SemLoc.dma cc0_scratch10.sem) 0 ∗ semVal (thr d L, SemLoc.dma cc0_scratch11.sem) 0)
        ∗ owes (thr d L) O W)
      ⊢ wp frame (wpE (defs₀ (F := F)) 𝒱₀ (thr d L) none) Set.univ
          (cc0_sc_copy L xV (Memref.isWhole_whole _) aV (Memref.isWhole_whole _) s0 (Memref.isWhole_whole _) s1 (Memref.isWhole_whole _)
            s2 (Memref.isWhole_whole _) s3 (Memref.isWhole_whole _) cc0_scratch4 cc0_scratch5 cc0_scratch6 cc0_scratch7 cc0_scratch8 cc0_scratch9 cc0_scratch10 cc0_scratch11)
          fun _ => iprop(
            (((xRow0 L).view.loc (thr d L) ↦[(xRow0 L).view.set]{q} fx : sProp 𝕄)
              ∗ ((xRow1 L).view.loc (thr d L) ↦[(xRow1 L).view.set]{q} fx : sProp 𝕄)
              ∗ ((xRow2 L).view.loc (thr d L) ↦[(xRow2 L).view.set]{q} fx : sProp 𝕄)
              ∗ ((xRow3 L).view.loc (thr d L) ↦[(xRow3 L).view.set]{q} fx : sProp 𝕄)
              ∗ ((xRow4 L).view.loc (thr d L) ↦[(xRow4 L).view.set]{q} fx : sProp 𝕄)
              ∗ ((xRow5 L).view.loc (thr d L) ↦[(xRow5 L).view.set]{q} fx : sProp 𝕄)
              ∗ ((xRow6 L).view.loc (thr d L) ↦[(xRow6 L).view.set]{q} fx : sProp 𝕄)
              ∗ ((xRow7 L).view.loc (thr d L) ↦[(xRow7 L).view.set]{q} fx : sProp 𝕄)
              ∗ ((xRow8 L).view.loc (thr d L) ↦[(xRow8 L).view.set]{q} fx : sProp 𝕄)
              ∗ ((xRow9 L).view.loc (thr d L) ↦[(xRow9 L).view.set]{q} fx : sProp 𝕄)
              ∗ ((xRow10 L).view.loc (thr d L) ↦[(xRow10 L).view.set]{q} fx : sProp 𝕄)
              ∗ ((xRow11 L).view.loc (thr d L) ↦[(xRow11 L).view.set]{q} fx : sProp 𝕄))
            ∗ (((aRow0 L).view.loc (thr d L) ↦[(aRow0 L).view.set]{fullShare} headRows d fx : sProp 𝕄)
              ∗ ((aRow1 L).view.loc (thr d L) ↦[(aRow1 L).view.set]{fullShare} headRows d fx : sProp 𝕄)
              ∗ ((aRow2 L).view.loc (thr d L) ↦[(aRow2 L).view.set]{fullShare} headRows d fx : sProp 𝕄)
              ∗ ((aRow3 L).view.loc (thr d L) ↦[(aRow3 L).view.set]{fullShare} headRows d fx : sProp 𝕄)
              ∗ ((aRow4 L).view.loc (thr d L) ↦[(aRow4 L).view.set]{fullShare} headRows d fx : sProp 𝕄)
              ∗ ((aRow5 L).view.loc (thr d L) ↦[(aRow5 L).view.set]{fullShare} headRows d fx : sProp 𝕄)
              ∗ ((aRow6 L).view.loc (thr d L) ↦[(aRow6 L).view.set]{fullShare} headRows d fx : sProp 𝕄)
              ∗ ((aRow7 L).view.loc (thr d L) ↦[(aRow7 L).view.set]{fullShare} headRows d fx : sProp 𝕄)
              ∗ ((aRow8 L).view.loc (thr d L) ↦[(aRow8 L).view.set]{fullShare} headRows d fx : sProp 𝕄)
              ∗ ((aRow9 L).view.loc (thr d L) ↦[(aRow9 L).view.set]{fullShare} headRows d fx : sProp 𝕄)
              ∗ ((aRow10 L).view.loc (thr d L) ↦[(aRow10 L).view.set]{fullShare} headRows d fx : sProp 𝕄)
              ∗ ((aRow11 L).view.loc (thr d L) ↦[(aRow11 L).view.set]{fullShare} headRows d fx : sProp 𝕄))
            ∗ (∃ f, (s0).view.loc (thr d L) ↦{fullShare} f) ∗ (∃ f, (s1).view.loc (thr d L) ↦{fullShare} f)
            ∗ (∃ f, (s2).view.loc (thr d L) ↦{fullShare} f) ∗ (∃ f, (s3).view.loc (thr d L) ↦{fullShare} f)
            ∗ (semVal (thr d L, SemLoc.dma cc0_scratch4.sem) 0 ∗ semVal (thr d L, SemLoc.dma cc0_scratch5.sem) 0 ∗ semVal (thr d L, SemLoc.dma cc0_scratch6.sem) 0 ∗ semVal (thr d L, SemLoc.dma cc0_scratch7.sem) 0 ∗ semVal (thr d L, SemLoc.dma cc0_scratch8.sem) 0 ∗ semVal (thr d L, SemLoc.dma cc0_scratch9.sem) 0 ∗ semVal (thr d L, SemLoc.dma cc0_scratch10.sem) 0 ∗ semVal (thr d L, SemLoc.dma cc0_scratch11.sem) 0)
            ∗ ∃ W', ⌜∀ p ∈ W', p ∈ W ∨ p.2 = none⌝ ∗ owes (thr d L) O W') := by
  rw [cc0_sc_copy_eq_skeleton]; unfold cc0_sc_copy_skel
  iintro ⟨#Hmw, ⟨Hx0, Hx1, Hx2, Hx3, Hx4, Hx5, Hx6, Hx7, Hx8, Hx9, Hx10, Hx11⟩, ⟨Ha0, Ha1, Ha2, Ha3, Ha4, Ha5, Ha6, Ha7, Ha8, Ha9, Ha10, Ha11⟩, Hs0, Hs1, Hs2, Hs3, ⟨Hm4, Hm5, Hm6, Hm7, Hm8, Hm9, Hm10, Hm11⟩, HO⟩
  sl_exec
  sl_step
  isplitl [Hx0 Hx1 Hx2 Hx3 Hx4 Hx5 Hx6 Hx7 Hx8 Hx9 Hx10 Hx11]
  · isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    isplitl [Hx7]; · iexact Hx7
    isplitl [Hx8]; · iexact Hx8
    isplitl [Hx9]; · iexact Hx9
    isplitl [Hx10]; · iexact Hx10
    iexact Hx11
  isplitl [Ha0 Ha1 Ha2 Ha3 Ha4 Ha5 Ha6 Ha7 Ha8 Ha9 Ha10 Ha11]
  · have e0 := pointsTo_congr (Val := Elt F) (ℓ := (aRow0 L).view.loc (thr d L)) (q := fullShare) (nD := nD) (τ := τ) (sig := sig) (Ix := HIx 1) (Name := ℕ) (U := UU) (Lvl := ℕ)
      (aRow_lands d L ⟨0, by decide⟩ fx fa (tile_body.sl.dma0_3 d L fx f0) (fun y =>
        (congrFun (View.write_whole_univ (Val := Elt F) cc0_scratch0 _ _) y).trans (read_xRow d L ⟨0, by decide⟩ fx y)))
    have e1 := pointsTo_congr (Val := Elt F) (ℓ := (aRow1 L).view.loc (thr d L)) (q := fullShare) (nD := nD) (τ := τ) (sig := sig) (Ix := HIx 1) (Name := ℕ) (U := UU) (Lvl := ℕ)
      (aRow_lands d L ⟨1, by decide⟩ fx fa (tile_body.sl.dma0_5 d L fx f1) (fun y =>
        (congrFun (View.write_whole_univ (Val := Elt F) cc0_scratch1 _ _) y).trans (read_xRow d L ⟨1, by decide⟩ fx y)))
    have e2 := pointsTo_congr (Val := Elt F) (ℓ := (aRow2 L).view.loc (thr d L)) (q := fullShare) (nD := nD) (τ := τ) (sig := sig) (Ix := HIx 1) (Name := ℕ) (U := UU) (Lvl := ℕ)
      (aRow_lands d L ⟨2, by decide⟩ fx fa (tile_body.sl.dma0_7 d L fx f2) (fun y =>
        (congrFun (View.write_whole_univ (Val := Elt F) cc0_scratch2 _ _) y).trans (read_xRow d L ⟨2, by decide⟩ fx y)))
    have e3 := pointsTo_congr (Val := Elt F) (ℓ := (aRow3 L).view.loc (thr d L)) (q := fullShare) (nD := nD) (τ := τ) (sig := sig) (Ix := HIx 1) (Name := ℕ) (U := UU) (Lvl := ℕ)
      (aRow_lands d L ⟨3, by decide⟩ fx fa (tile_body.sl.dma0_9 d L fx f3) (fun y =>
        (congrFun (View.write_whole_univ (Val := Elt F) cc0_scratch3 _ _) y).trans (read_xRow d L ⟨3, by decide⟩ fx y)))
    have e4 := pointsTo_congr (Val := Elt F) (ℓ := (aRow4 L).view.loc (thr d L)) (q := fullShare) (nD := nD) (τ := τ) (sig := sig) (Ix := HIx 1) (Name := ℕ) (U := UU) (Lvl := ℕ)
      (aRow_lands d L ⟨4, by decide⟩ fx fa (tile_body.sl.dma0_11 d L fx f0) (fun y =>
        (congrFun (View.write_whole_univ (Val := Elt F) cc0_scratch0 _ _) y).trans (read_xRow d L ⟨4, by decide⟩ fx y)))
    have e5 := pointsTo_congr (Val := Elt F) (ℓ := (aRow5 L).view.loc (thr d L)) (q := fullShare) (nD := nD) (τ := τ) (sig := sig) (Ix := HIx 1) (Name := ℕ) (U := UU) (Lvl := ℕ)
      (aRow_lands d L ⟨5, by decide⟩ fx fa (tile_body.sl.dma0_13 d L fx f1) (fun y =>
        (congrFun (View.write_whole_univ (Val := Elt F) cc0_scratch1 _ _) y).trans (read_xRow d L ⟨5, by decide⟩ fx y)))
    have e6 := pointsTo_congr (Val := Elt F) (ℓ := (aRow6 L).view.loc (thr d L)) (q := fullShare) (nD := nD) (τ := τ) (sig := sig) (Ix := HIx 1) (Name := ℕ) (U := UU) (Lvl := ℕ)
      (aRow_lands d L ⟨6, by decide⟩ fx fa (tile_body.sl.dma0_15 d L fx f2) (fun y =>
        (congrFun (View.write_whole_univ (Val := Elt F) cc0_scratch2 _ _) y).trans (read_xRow d L ⟨6, by decide⟩ fx y)))
    have e7 := pointsTo_congr (Val := Elt F) (ℓ := (aRow7 L).view.loc (thr d L)) (q := fullShare) (nD := nD) (τ := τ) (sig := sig) (Ix := HIx 1) (Name := ℕ) (U := UU) (Lvl := ℕ)
      (aRow_lands d L ⟨7, by decide⟩ fx fa (tile_body.sl.dma0_17 d L fx f3) (fun y =>
        (congrFun (View.write_whole_univ (Val := Elt F) cc0_scratch3 _ _) y).trans (read_xRow d L ⟨7, by decide⟩ fx y)))
    have e8 := pointsTo_congr (Val := Elt F) (ℓ := (aRow8 L).view.loc (thr d L)) (q := fullShare) (nD := nD) (τ := τ) (sig := sig) (Ix := HIx 1) (Name := ℕ) (U := UU) (Lvl := ℕ)
      (aRow_lands d L ⟨8, by decide⟩ fx fa (tile_body.sl.dma0_19 d L fx f0) (fun y =>
        (congrFun (View.write_whole_univ (Val := Elt F) cc0_scratch0 _ _) y).trans (read_xRow d L ⟨8, by decide⟩ fx y)))
    have e9 := pointsTo_congr (Val := Elt F) (ℓ := (aRow9 L).view.loc (thr d L)) (q := fullShare) (nD := nD) (τ := τ) (sig := sig) (Ix := HIx 1) (Name := ℕ) (U := UU) (Lvl := ℕ)
      (aRow_lands d L ⟨9, by decide⟩ fx fa (tile_body.sl.dma0_21 d L fx f1) (fun y =>
        (congrFun (View.write_whole_univ (Val := Elt F) cc0_scratch1 _ _) y).trans (read_xRow d L ⟨9, by decide⟩ fx y)))
    have e10 := pointsTo_congr (Val := Elt F) (ℓ := (aRow10 L).view.loc (thr d L)) (q := fullShare) (nD := nD) (τ := τ) (sig := sig) (Ix := HIx 1) (Name := ℕ) (U := UU) (Lvl := ℕ)
      (aRow_lands d L ⟨10, by decide⟩ fx fa (tile_body.sl.dma0_22 d L fx f2) (fun y =>
        (congrFun (View.write_whole_univ (Val := Elt F) cc0_scratch2 _ _) y).trans (read_xRow d L ⟨10, by decide⟩ fx y)))
    have e11 := pointsTo_congr (Val := Elt F) (ℓ := (aRow11 L).view.loc (thr d L)) (q := fullShare) (nD := nD) (τ := τ) (sig := sig) (Ix := HIx 1) (Name := ℕ) (U := UU) (Lvl := ℕ)
      (aRow_lands d L ⟨11, by decide⟩ fx fa (tile_body.sl.dma0_23 d L fx f3) (fun y =>
        (congrFun (View.write_whole_univ (Val := Elt F) cc0_scratch3 _ _) y).trans (read_xRow d L ⟨11, by decide⟩ fx y)))
    isplitl [Ha0]; · iapply (Entails.of_eq e0); iexact Ha0
    isplitl [Ha1]; · iapply (Entails.of_eq e1); iexact Ha1
    isplitl [Ha2]; · iapply (Entails.of_eq e2); iexact Ha2
    isplitl [Ha3]; · iapply (Entails.of_eq e3); iexact Ha3
    isplitl [Ha4]; · iapply (Entails.of_eq e4); iexact Ha4
    isplitl [Ha5]; · iapply (Entails.of_eq e5); iexact Ha5
    isplitl [Ha6]; · iapply (Entails.of_eq e6); iexact Ha6
    isplitl [Ha7]; · iapply (Entails.of_eq e7); iexact Ha7
    isplitl [Ha8]; · iapply (Entails.of_eq e8); iexact Ha8
    isplitl [Ha9]; · iapply (Entails.of_eq e9); iexact Ha9
    isplitl [Ha10]; · iapply (Entails.of_eq e10); iexact Ha10
    iapply (Entails.of_eq e11); iexact Ha11
  isplitl [Hs0]; · iexists _; iexact Hs0
  isplitl [Hs1]; · iexists _; iexact Hs1
  isplitl [Hs2]; · iexists _; iexact Hs2
  isplitl [Hs3]; · iexists _; iexact Hs3
  isplitl [Hm4 Hm5 Hm6 Hm7 Hm8 Hm9 Hm10 Hm11]
  · isplitl [Hm4]; · iexact Hm4
    isplitl [Hm5]; · iexact Hm5
    isplitl [Hm6]; · iexact Hm6
    isplitl [Hm7]; · iexact Hm7
    isplitl [Hm8]; · iexact Hm8
    isplitl [Hm9]; · iexact Hm9
    isplitl [Hm10]; · iexact Hm10
    iexact Hm11
  iexists _; isplitr
  rotate_left
  · iexact HO
  · ipureintro; intro p hp
    simp only [Finset.mem_insert] at hp
    rcases hp with rfl | rfl | rfl | rfl | rfl | rfl | rfl | rfl | rfl | rfl | rfl | rfl | rfl | rfl | rfl | rfl | rfl | rfl | rfl | rfl | rfl | rfl | rfl | rfl | hp
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inl hp

end Tile

end Cert.Proof.KB

end
-- ==== Proof.KB.Obl.lean ====
/-
  What the SparseCore call carries and what each of its tasks is proved from: the call takes the first 384 rows of
  `x` and the 384-row result array row by row — row 24·s + 12·c + r to subcore `s` of SparseCore `c`, r < 12 — and
  brings them back with the result's rows holding `x`'s. The rows of an array are the sets of its elements with a
  given first coordinate: pairwise disjoint, covering the array.
-/
import proofs.«212309_g71296457113957_cont_9to1_m_186_18_alg».proof.Proof.KB.Tile

noncomputable section

namespace Cert.Proof.KB

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

open Idealize.ShloMosaic.SparseCore.Cfg (tileRest ownBufs ownSems0 ownCells ownRefs mem_ownCells mem_ownRefs)

/-! ## Rows -/

/-- Row `n` of `x`, of the SparseCore's result: the elements whose first coordinate is `n`. -/
def xRowSet (n : ℕ) : Finset S1024x50x512.Idx := Finset.univ.filter fun j => (j 0).val = n
def aRowSet (n : ℕ) : Finset S384x50x512.Idx := Finset.univ.filter fun j => (j 0).val = n

theorem xRowSet_disjoint {n n' : ℕ} (h : n ≠ n') : Disjoint (xRowSet n) (xRowSet n') :=
  Finset.disjoint_filter.mpr fun _ _ h1 h2 => h (h1.symm.trans h2)
theorem aRowSet_disjoint {n n' : ℕ} (h : n ≠ n') : Disjoint (aRowSet n) (aRowSet n') :=
  Finset.disjoint_filter.mpr fun _ _ h1 h2 => h (h1.symm.trans h2)

/-- The row a task's slice of `x` is. -/
theorem set_xRow (L : grid0.Coords) (r : Fin 12) : (xRow L r).view.set = xRowSet (rowNo L r) := by
  show ((View.whole main_arg0_scv).slice _).set = _
  rw [View.set_slice_whole]
  ext j
  rw [Rect.mem_set_unit, k0_off1_eq]
  simp only [xRowSet, Finset.mem_filter, Finset.mem_univ, true_and]
  constructor
  · intro h
    have h0 : rowNo L r ≤ (j 0).val ∧ (j 0).val < rowNo L r + 1 := h 0
    omega
  · intro h a
    match a with
    | 0 => exact ⟨show rowNo L r ≤ (j 0).val by omega, show (j 0).val < rowNo L r + 1 by omega⟩
    | 1 =>
      have h1 : (j 1).val < 50 := (j 1).isLt
      exact ⟨Nat.zero_le _, show (j 1).val < 0 + 50 by omega⟩
    | 2 =>
      have h2 : (j 2).val < 512 := (j 2).isLt
      exact ⟨Nat.zero_le _, show (j 2).val < 0 + 512 by omega⟩
theorem set_aRow (L : grid0.Coords) (r : Fin 12) : (aRow L r).view.set = aRowSet (rowNo L r) := by
  show ((View.whole main_v0_scv).slice _).set = _
  rw [View.set_slice_whole]
  ext j
  rw [Rect.mem_set_unit, k0_off2_eq]
  simp only [aRowSet, Finset.mem_filter, Finset.mem_univ, true_and]
  constructor
  · intro h
    have h0 : rowNo L r ≤ (j 0).val ∧ (j 0).val < rowNo L r + 1 := h 0
    omega
  · intro h a
    match a with
    | 0 => exact ⟨show rowNo L r ≤ (j 0).val by omega, show (j 0).val < rowNo L r + 1 by omega⟩
    | 1 =>
      have h1 : (j 1).val < 50 := (j 1).isLt
      exact ⟨Nat.zero_le _, show (j 1).val < 0 + 50 by omega⟩
    | 2 =>
      have h2 : (j 2).val < 512 := (j 2).isLt
      exact ⟨Nat.zero_le _, show (j 2).val < 0 + 512 by omega⟩

variable (m : (ℓ : Loc nD τ sig) → Buf (Elt F) ℓ) (ρ : Dev nD → PrngReg)

/-- The array's row number of row `r` of the task of subcore `i` of SparseCore `c`. -/
abbrev rowOf (c i r : ℕ) : ℕ := 24 * i + 12 * c + r

/-- A task's rows: twelve of `x` at its launch contents, the same twelve of the result at `fa`. -/
def rowsX (d : Dev nD) (c i : ℕ) : sProp 𝕄 :=
  bigSep (Finset.univ : Finset (Fin 12)) fun r => xLoc d ↦[xRowSet (rowOf c i r.val)]{fullShare} m (xLoc d)
def rowsA (d : Dev nD) (fa : Buf (Elt F) (aLoc d)) (c i : ℕ) : sProp 𝕄 :=
  bigSep (Finset.univ : Finset (Fin 12)) fun r => aLoc d ↦[aRowSet (rowOf c i r.val)]{fullShare} fa

/-- The one call hands SparseCore `c` its sixteen tasks' rows, each task its own, and takes them back with the
    result's rows at `x`'s first 384. -/
def P : (K (F := F)).Pay (nD := nD) (Val := Elt F) (Name := ℕ) (U := UU) where
  st := fun q d c => bigSep Finset.univ fun i : Fin ((K (F := F)).nSub q) => iprop(rowsX m d c.val i.val ∗ rowsA d (m (aLoc d)) c.val i.val)
  dn := fun q d c => bigSep Finset.univ fun i : Fin ((K (F := F)).nSub q) => iprop(rowsX m d c.val i.val ∗ rowsA d (headRows d (m (xLoc d))) c.val i.val)
  go := fun _ d c i => iprop(rowsX m d c.val i.val ∗ rowsA d (m (aLoc d)) c.val i.val)
  td := fun _ d c i => iprop(rowsX m d c.val i.val ∗ rowsA d (headRows d (m (xLoc d))) c.val i.val)
  x := fun _ _ => iprop(emp)

instance P_storable : (P (F := F) m).IsStorable where
  st _ d c := by unfold P rowsX rowsA; infer_instance
  dn _ d c := by unfold P rowsX rowsA; infer_instance
  go _ _ _ _ := by unfold P rowsX rowsA; infer_instance
  td _ _ _ _ := by unfold P rowsX rowsA; infer_instance

/-! ## The task -/

theorem bigSep_fin12 (Φ : Fin 12 → sProp 𝕄) :
    bigSep (Finset.univ : Finset (Fin 12)) Φ = iprop(Φ 0 ∗ Φ 1 ∗ Φ 2 ∗ Φ 3 ∗ Φ 4 ∗ Φ 5 ∗ Φ 6 ∗ Φ 7 ∗ Φ 8 ∗ Φ 9 ∗ Φ 10 ∗ Φ 11) := by
  rw [show (Finset.univ : Finset (Fin 12)) = {0, 1, 2, 3, 4, 5, 6, 7, 8, 9, 10, 11} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

abbrev rr0 : Fin 12 := ⟨0, by decide⟩
abbrev rr1 : Fin 12 := ⟨1, by decide⟩
abbrev rr2 : Fin 12 := ⟨2, by decide⟩
abbrev rr3 : Fin 12 := ⟨3, by decide⟩
abbrev rr4 : Fin 12 := ⟨4, by decide⟩
abbrev rr5 : Fin 12 := ⟨5, by decide⟩
abbrev rr6 : Fin 12 := ⟨6, by decide⟩
abbrev rr7 : Fin 12 := ⟨7, by decide⟩
abbrev rr8 : Fin 12 := ⟨8, by decide⟩
abbrev rr9 : Fin 12 := ⟨9, by decide⟩
abbrev rr10 : Fin 12 := ⟨10, by decide⟩
abbrev rr11 : Fin 12 := ⟨11, by decide⟩

section Tile

variable (d : Dev nD) (L : grid0.Coords)

abbrev cell4 (d : Dev nD) (L : grid0.Coords) : GSem nD τ sig := (thr d L, .dma cc0_scratch4.sem)
abbrev cell5 (d : Dev nD) (L : grid0.Coords) : GSem nD τ sig := (thr d L, .dma cc0_scratch5.sem)
abbrev cell6 (d : Dev nD) (L : grid0.Coords) : GSem nD τ sig := (thr d L, .dma cc0_scratch6.sem)
abbrev cell7 (d : Dev nD) (L : grid0.Coords) : GSem nD τ sig := (thr d L, .dma cc0_scratch7.sem)
abbrev cell8 (d : Dev nD) (L : grid0.Coords) : GSem nD τ sig := (thr d L, .dma cc0_scratch8.sem)
abbrev cell9 (d : Dev nD) (L : grid0.Coords) : GSem nD τ sig := (thr d L, .dma cc0_scratch9.sem)
abbrev cell10 (d : Dev nD) (L : grid0.Coords) : GSem nD τ sig := (thr d L, .dma cc0_scratch10.sem)
abbrev cell11 (d : Dev nD) (L : grid0.Coords) : GSem nD τ sig := (thr d L, .dma cc0_scratch11.sem)

theorem ownSems0_V :
    (ownSems0 (thr d L) : sProp 𝕄)
      = iprop(semVal (cell4 d L) 0 ∗ semVal (cell5 d L) 0 ∗ semVal (cell6 d L) 0 ∗ semVal (cell7 d L) 0 ∗ semVal (cell8 d L) 0 ∗ semVal (cell9 d L) 0 ∗ semVal (cell10 d L) 0 ∗ semVal (cell11 d L) 0
          ∗ bigSep (((((((((ownCells (thr d L)).erase (cell4 d L)).erase (cell5 d L)).erase (cell6 d L)).erase (cell7 d L)).erase (cell8 d L)).erase (cell9 d L)).erase (cell10 d L)).erase (cell11 d L)) fun g => semVal g 0) := by
  unfold SparseCore.Cfg.ownSems0
  rw [SparseCore.bigSep_erase' ((mem_ownCells (g := cell4 d L)).mpr ⟨rfl, by show (SemLoc.dma cc0_scratch4.sem : SemLoc sig).isScoped .scVector = true; decide⟩),
    SparseCore.bigSep_erase' (Finset.mem_erase.mpr ⟨fun e => absurd (SemLoc.dma.inj (Prod.mk.inj e).2) (show (cc0_scratch5.sem : DmaSem sig) ≠ cc0_scratch4.sem by decide), (mem_ownCells (g := cell5 d L)).mpr ⟨rfl, by show (SemLoc.dma cc0_scratch5.sem : SemLoc sig).isScoped .scVector = true; decide⟩⟩),
    SparseCore.bigSep_erase' (Finset.mem_erase.mpr ⟨fun e => absurd (SemLoc.dma.inj (Prod.mk.inj e).2) (show (cc0_scratch6.sem : DmaSem sig) ≠ cc0_scratch5.sem by decide), Finset.mem_erase.mpr ⟨fun e => absurd (SemLoc.dma.inj (Prod.mk.inj e).2) (show (cc0_scratch6.sem : DmaSem sig) ≠ cc0_scratch4.sem by decide), (mem_ownCells (g := cell6 d L)).mpr ⟨rfl, by show (SemLoc.dma cc0_scratch6.sem : SemLoc sig).isScoped .scVector = true; decide⟩⟩⟩),
    SparseCore.bigSep_erase' (Finset.mem_erase.mpr ⟨fun e => absurd (SemLoc.dma.inj (Prod.mk.inj e).2) (show (cc0_scratch7.sem : DmaSem sig) ≠ cc0_scratch6.sem by decide), Finset.mem_erase.mpr ⟨fun e => absurd (SemLoc.dma.inj (Prod.mk.inj e).2) (show (cc0_scratch7.sem : DmaSem sig) ≠ cc0_scratch5.sem by decide), Finset.mem_erase.mpr ⟨fun e => absurd (SemLoc.dma.inj (Prod.mk.inj e).2) (show (cc0_scratch7.sem : DmaSem sig) ≠ cc0_scratch4.sem by decide), (mem_ownCells (g := cell7 d L)).mpr ⟨rfl, by show (SemLoc.dma cc0_scratch7.sem : SemLoc sig).isScoped .scVector = true; decide⟩⟩⟩⟩),
    SparseCore.bigSep_erase' (Finset.mem_erase.mpr ⟨fun e => absurd (SemLoc.dma.inj (Prod.mk.inj e).2) (show (cc0_scratch8.sem : DmaSem sig) ≠ cc0_scratch7.sem by decide), Finset.mem_erase.mpr ⟨fun e => absurd (SemLoc.dma.inj (Prod.mk.inj e).2) (show (cc0_scratch8.sem : DmaSem sig) ≠ cc0_scratch6.sem by decide), Finset.mem_erase.mpr ⟨fun e => absurd (SemLoc.dma.inj (Prod.mk.inj e).2) (show (cc0_scratch8.sem : DmaSem sig) ≠ cc0_scratch5.sem by decide), Finset.mem_erase.mpr ⟨fun e => absurd (SemLoc.dma.inj (Prod.mk.inj e).2) (show (cc0_scratch8.sem : DmaSem sig) ≠ cc0_scratch4.sem by decide), (mem_ownCells (g := cell8 d L)).mpr ⟨rfl, by show (SemLoc.dma cc0_scratch8.sem : SemLoc sig).isScoped .scVector = true; decide⟩⟩⟩⟩⟩),
    SparseCore.bigSep_erase' (Finset.mem_erase.mpr ⟨fun e => absurd (SemLoc.dma.inj (Prod.mk.inj e).2) (show (cc0_scratch9.sem : DmaSem sig) ≠ cc0_scratch8.sem by decide), Finset.mem_erase.mpr ⟨fun e => absurd (SemLoc.dma.inj (Prod.mk.inj e).2) (show (cc0_scratch9.sem : DmaSem sig) ≠ cc0_scratch7.sem by decide), Finset.mem_erase.mpr ⟨fun e => absurd (SemLoc.dma.inj (Prod.mk.inj e).2) (show (cc0_scratch9.sem : DmaSem sig) ≠ cc0_scratch6.sem by decide), Finset.mem_erase.mpr ⟨fun e => absurd (SemLoc.dma.inj (Prod.mk.inj e).2) (show (cc0_scratch9.sem : DmaSem sig) ≠ cc0_scratch5.sem by decide), Finset.mem_erase.mpr ⟨fun e => absurd (SemLoc.dma.inj (Prod.mk.inj e).2) (show (cc0_scratch9.sem : DmaSem sig) ≠ cc0_scratch4.sem by decide), (mem_ownCells (g := cell9 d L)).mpr ⟨rfl, by show (SemLoc.dma cc0_scratch9.sem : SemLoc sig).isScoped .scVector = true; decide⟩⟩⟩⟩⟩⟩),
    SparseCore.bigSep_erase' (Finset.mem_erase.mpr ⟨fun e => absurd (SemLoc.dma.inj (Prod.mk.inj e).2) (show (cc0_scratch10.sem : DmaSem sig) ≠ cc0_scratch9.sem by decide), Finset.mem_erase.mpr ⟨fun e => absurd (SemLoc.dma.inj (Prod.mk.inj e).2) (show (cc0_scratch10.sem : DmaSem sig) ≠ cc0_scratch8.sem by decide), Finset.mem_erase.mpr ⟨fun e => absurd (SemLoc.dma.inj (Prod.mk.inj e).2) (show (cc0_scratch10.sem : DmaSem sig) ≠ cc0_scratch7.sem by decide), Finset.mem_erase.mpr ⟨fun e => absurd (SemLoc.dma.inj (Prod.mk.inj e).2) (show (cc0_scratch10.sem : DmaSem sig) ≠ cc0_scratch6.sem by decide), Finset.mem_erase.mpr ⟨fun e => absurd (SemLoc.dma.inj (Prod.mk.inj e).2) (show (cc0_scratch10.sem : DmaSem sig) ≠ cc0_scratch5.sem by decide), Finset.mem_erase.mpr ⟨fun e => absurd (SemLoc.dma.inj (Prod.mk.inj e).2) (show (cc0_scratch10.sem : DmaSem sig) ≠ cc0_scratch4.sem by decide), (mem_ownCells (g := cell10 d L)).mpr ⟨rfl, by show (SemLoc.dma cc0_scratch10.sem : SemLoc sig).isScoped .scVector = true; decide⟩⟩⟩⟩⟩⟩⟩),
    SparseCore.bigSep_erase' (Finset.mem_erase.mpr ⟨fun e => absurd (SemLoc.dma.inj (Prod.mk.inj e).2) (show (cc0_scratch11.sem : DmaSem sig) ≠ cc0_scratch10.sem by decide), Finset.mem_erase.mpr ⟨fun e => absurd (SemLoc.dma.inj (Prod.mk.inj e).2) (show (cc0_scratch11.sem : DmaSem sig) ≠ cc0_scratch9.sem by decide), Finset.mem_erase.mpr ⟨fun e => absurd (SemLoc.dma.inj (Prod.mk.inj e).2) (show (cc0_scratch11.sem : DmaSem sig) ≠ cc0_scratch8.sem by decide), Finset.mem_erase.mpr ⟨fun e => absurd (SemLoc.dma.inj (Prod.mk.inj e).2) (show (cc0_scratch11.sem : DmaSem sig) ≠ cc0_scratch7.sem by decide), Finset.mem_erase.mpr ⟨fun e => absurd (SemLoc.dma.inj (Prod.mk.inj e).2) (show (cc0_scratch11.sem : DmaSem sig) ≠ cc0_scratch6.sem by decide), Finset.mem_erase.mpr ⟨fun e => absurd (SemLoc.dma.inj (Prod.mk.inj e).2) (show (cc0_scratch11.sem : DmaSem sig) ≠ cc0_scratch5.sem by decide), Finset.mem_erase.mpr ⟨fun e => absurd (SemLoc.dma.inj (Prod.mk.inj e).2) (show (cc0_scratch11.sem : DmaSem sig) ≠ cc0_scratch4.sem by decide), (mem_ownCells (g := cell11 d L)).mpr ⟨rfl, by show (SemLoc.dma cc0_scratch11.sem : SemLoc sig).isScoped .scVector = true; decide⟩⟩⟩⟩⟩⟩⟩⟩)]

variable [FloatOps F]

theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f)
          ∗ bigSep (((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩)]

theorem pts_xRow (r : Fin 12) (f : Buf (Elt F) (xLoc d)) :
    ((xRow L r).view.loc (thr d L) ↦[(xRow L r).view.set]{fullShare} f : sProp 𝕄) = xLoc d ↦[xRowSet (rowNo L r)]{fullShare} f := by
  rw [set_xRow]
theorem pts_aRow (r : Fin 12) (f : Buf (Elt F) (aLoc d)) :
    ((aRow L r).view.loc (thr d L) ↦[(aRow L r).view.set]{fullShare} f : sProp 𝕄) = aLoc d ↦[aRowSet (rowNo L r)]{fullShare} f := by
  rw [set_aRow]

set_option maxHeartbeats 1000000 in
/-- The task as the launch theorem poses it: from the task's rows and the subcore's scoped storage. -/
theorem tile_wrap (hF : (K (F := F)).Facts) (O : CellTallies nD τ sig (HIx 1)) (W : Waits sig (HIx 1)) (hO : ∀ g, O g none = 0) :
    iprop(levAts (K (F := F)).L (K (F := F)).lev ∗ emp
        ∗ (rowsX m d (L 0).val (L 1).val ∗ rowsA d (m (aLoc d)) (L 0).val (L 1).val)
        ∗ scopedBufs (thr d L) ∗ scopedSems0 (thr d L) ∗ owes (thr d L) O W)
      ⊢ wp frame (wpE (defs₀ (F := F)) 𝒱₀ (thr d L) none) Set.univ
          (cc0_sc_copy L xV (Memref.isWhole_whole _) aV (Memref.isWhole_whole _) s0 (Memref.isWhole_whole _) s1 (Memref.isWhole_whole _)
            s2 (Memref.isWhole_whole _) s3 (Memref.isWhole_whole _) cc0_scratch4 cc0_scratch5 cc0_scratch6 cc0_scratch7 cc0_scratch8 cc0_scratch9 cc0_scratch10 cc0_scratch11)
          fun _ => iprop((rowsX m d (L 0).val (L 1).val ∗ rowsA d (headRows d (m (xLoc d))) (L 0).val (L 1).val)
            ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  unfold rowsX rowsA
  rw [bigSep_fin12, bigSep_fin12, bigSep_fin12]
  iintro ⟨#Hlv, -, ⟨⟨Hx0, Hx1, Hx2, Hx3, Hx4, Hx5, Hx6, Hx7, Hx8, Hx9, Hx10, Hx11⟩, ⟨Ha0, Ha1, Ha2, Ha3, Ha4, Ha5, Ha6, Ha7, Ha8, Ha9, Ha10, Ha11⟩⟩,
    ⟨⟨%f0, Hs0⟩, ⟨%f1, Hs1⟩, ⟨%f2, Hs2⟩, ⟨%f3, Hs3⟩, Hbufs⟩, ⟨Hm4, Hm5, Hm6, Hm7, Hm8, Hm9, Hm10, Hm11, Hsems⟩, HO⟩
  ihave Hmw := ((K (F := F)).mayWaits_none (thr := thr d L) hO) $$ Hlv
  iapply (wp_wand_r frame _ Set.univ)
  isplitl [Hx0 Hx1 Hx2 Hx3 Hx4 Hx5 Hx6 Hx7 Hx8 Hx9 Hx10 Hx11 Ha0 Ha1 Ha2 Ha3 Ha4 Ha5 Ha6 Ha7 Ha8 Ha9 Ha10 Ha11 Hs0 Hs1 Hs2 Hs3 Hm4 Hm5 Hm6 Hm7 Hm8 Hm9 Hm10 Hm11 HO Hmw]
  · iapply (tile_body d L fullShare (m (xLoc d)) (m (aLoc d)) f0 f1 f2 f3 O W)
    isplitl [Hmw]; · iexact Hmw
    isplitl [Hx0 Hx1 Hx2 Hx3 Hx4 Hx5 Hx6 Hx7 Hx8 Hx9 Hx10 Hx11]
    · isplitl [Hx0]; · iapply (Entails.of_eq (pts_xRow (F := F) d L rr0 _).symm); iexact Hx0
      isplitl [Hx1]; · iapply (Entails.of_eq (pts_xRow (F := F) d L rr1 _).symm); iexact Hx1
      isplitl [Hx2]; · iapply (Entails.of_eq (pts_xRow (F := F) d L rr2 _).symm); iexact Hx2
      isplitl [Hx3]; · iapply (Entails.of_eq (pts_xRow (F := F) d L rr3 _).symm); iexact Hx3
      isplitl [Hx4]; · iapply (Entails.of_eq (pts_xRow (F := F) d L rr4 _).symm); iexact Hx4
      isplitl [Hx5]; · iapply (Entails.of_eq (pts_xRow (F := F) d L rr5 _).symm); iexact Hx5
      isplitl [Hx6]; · iapply (Entails.of_eq (pts_xRow (F := F) d L rr6 _).symm); iexact Hx6
      isplitl [Hx7]; · iapply (Entails.of_eq (pts_xRow (F := F) d L rr7 _).symm); iexact Hx7
      isplitl [Hx8]; · iapply (Entails.of_eq (pts_xRow (F := F) d L rr8 _).symm); iexact Hx8
      isplitl [Hx9]; · iapply (Entails.of_eq (pts_xRow (F := F) d L rr9 _).symm); iexact Hx9
      isplitl [Hx10]; · iapply (Entails.of_eq (pts_xRow (F := F) d L rr10 _).symm); iexact Hx10
      iapply (Entails.of_eq (pts_xRow (F := F) d L rr11 _).symm); iexact Hx11
    isplitl [Ha0 Ha1 Ha2 Ha3 Ha4 Ha5 Ha6 Ha7 Ha8 Ha9 Ha10 Ha11]
    · isplitl [Ha0]; · iapply (Entails.of_eq (pts_aRow (F := F) d L rr0 _).symm); iexact Ha0
      isplitl [Ha1]; · iapply (Entails.of_eq (pts_aRow (F := F) d L rr1 _).symm); iexact Ha1
      isplitl [Ha2]; · iapply (Entails.of_eq (pts_aRow (F := F) d L rr2 _).symm); iexact Ha2
      isplitl [Ha3]; · iapply (Entails.of_eq (pts_aRow (F := F) d L rr3 _).symm); iexact Ha3
      isplitl [Ha4]; · iapply (Entails.of_eq (pts_aRow (F := F) d L rr4 _).symm); iexact Ha4
      isplitl [Ha5]; · iapply (Entails.of_eq (pts_aRow (F := F) d L rr5 _).symm); iexact Ha5
      isplitl [Ha6]; · iapply (Entails.of_eq (pts_aRow (F := F) d L rr6 _).symm); iexact Ha6
      isplitl [Ha7]; · iapply (Entails.of_eq (pts_aRow (F := F) d L rr7 _).symm); iexact Ha7
      isplitl [Ha8]; · iapply (Entails.of_eq (pts_aRow (F := F) d L rr8 _).symm); iexact Ha8
      isplitl [Ha9]; · iapply (Entails.of_eq (pts_aRow (F := F) d L rr9 _).symm); iexact Ha9
      isplitl [Ha10]; · iapply (Entails.of_eq (pts_aRow (F := F) d L rr10 _).symm); iexact Ha10
      iapply (Entails.of_eq (pts_aRow (F := F) d L rr11 _).symm); iexact Ha11
    isplitl [Hs0]; · iexact Hs0
    isplitl [Hs1]; · iexact Hs1
    isplitl [Hs2]; · iexact Hs2
    isplitl [Hs3]; · iexact Hs3
    isplitl [Hm4 Hm5 Hm6 Hm7 Hm8 Hm9 Hm10 Hm11]
    · isplitl [Hm4]; · iexact Hm4
      isplitl [Hm5]; · iexact Hm5
      isplitl [Hm6]; · iexact Hm6
      isplitl [Hm7]; · iexact Hm7
      isplitl [Hm8]; · iexact Hm8
      isplitl [Hm9]; · iexact Hm9
      isplitl [Hm10]; · iexact Hm10
      iexact Hm11
    iexact HO
  iintro %_ ⟨⟨Hx0, Hx1, Hx2, Hx3, Hx4, Hx5, Hx6, Hx7, Hx8, Hx9, Hx10, Hx11⟩, ⟨Ha0, Ha1, Ha2, Ha3, Ha4, Ha5, Ha6, Ha7, Ha8, Ha9, Ha10, Ha11⟩, ⟨%g0, Hs0⟩, ⟨%g1, Hs1⟩, ⟨%g2, Hs2⟩, ⟨%g3, Hs3⟩, ⟨Hm4, Hm5, Hm6, Hm7, Hm8, Hm9, Hm10, Hm11⟩, HW⟩
  isplitl [Hx0 Hx1 Hx2 Hx3 Hx4 Hx5 Hx6 Hx7 Hx8 Hx9 Hx10 Hx11 Ha0 Ha1 Ha2 Ha3 Ha4 Ha5 Ha6 Ha7 Ha8 Ha9 Ha10 Ha11]
  · isplitl [Hx0 Hx1 Hx2 Hx3 Hx4 Hx5 Hx6 Hx7 Hx8 Hx9 Hx10 Hx11]
    · isplitl [Hx0]; · iapply (Entails.of_eq (pts_xRow (F := F) d L rr0 _)); iexact Hx0
      isplitl [Hx1]; · iapply (Entails.of_eq (pts_xRow (F := F) d L rr1 _)); iexact Hx1
      isplitl [Hx2]; · iapply (Entails.of_eq (pts_xRow (F := F) d L rr2 _)); iexact Hx2
      isplitl [Hx3]; · iapply (Entails.of_eq (pts_xRow (F := F) d L rr3 _)); iexact Hx3
      isplitl [Hx4]; · iapply (Entails.of_eq (pts_xRow (F := F) d L rr4 _)); iexact Hx4
      isplitl [Hx5]; · iapply (Entails.of_eq (pts_xRow (F := F) d L rr5 _)); iexact Hx5
      isplitl [Hx6]; · iapply (Entails.of_eq (pts_xRow (F := F) d L rr6 _)); iexact Hx6
      isplitl [Hx7]; · iapply (Entails.of_eq (pts_xRow (F := F) d L rr7 _)); iexact Hx7
      isplitl [Hx8]; · iapply (Entails.of_eq (pts_xRow (F := F) d L rr8 _)); iexact Hx8
      isplitl [Hx9]; · iapply (Entails.of_eq (pts_xRow (F := F) d L rr9 _)); iexact Hx9
      isplitl [Hx10]; · iapply (Entails.of_eq (pts_xRow (F := F) d L rr10 _)); iexact Hx10
      iapply (Entails.of_eq (pts_xRow (F := F) d L rr11 _)); iexact Hx11
    · isplitl [Ha0]; · iapply (Entails.of_eq (pts_aRow (F := F) d L rr0 _)); iexact Ha0
      isplitl [Ha1]; · iapply (Entails.of_eq (pts_aRow (F := F) d L rr1 _)); iexact Ha1
      isplitl [Ha2]; · iapply (Entails.of_eq (pts_aRow (F := F) d L rr2 _)); iexact Ha2
      isplitl [Ha3]; · iapply (Entails.of_eq (pts_aRow (F := F) d L rr3 _)); iexact Ha3
      isplitl [Ha4]; · iapply (Entails.of_eq (pts_aRow (F := F) d L rr4 _)); iexact Ha4
      isplitl [Ha5]; · iapply (Entails.of_eq (pts_aRow (F := F) d L rr5 _)); iexact Ha5
      isplitl [Ha6]; · iapply (Entails.of_eq (pts_aRow (F := F) d L rr6 _)); iexact Ha6
      isplitl [Ha7]; · iapply (Entails.of_eq (pts_aRow (F := F) d L rr7 _)); iexact Ha7
      isplitl [Ha8]; · iapply (Entails.of_eq (pts_aRow (F := F) d L rr8 _)); iexact Ha8
      isplitl [Ha9]; · iapply (Entails.of_eq (pts_aRow (F := F) d L rr9 _)); iexact Ha9
      isplitl [Ha10]; · iapply (Entails.of_eq (pts_aRow (F := F) d L rr10 _)); iexact Ha10
      iapply (Entails.of_eq (pts_aRow (F := F) d L rr11 _)); iexact Ha11
  isplitl [Hs0 Hs1 Hs2 Hs3 Hbufs]
  · isplitl [Hs0]; · iexists _; iexact Hs0
    isplitl [Hs1]; · iexists _; iexact Hs1
    isplitl [Hs2]; · iexists _; iexact Hs2
    isplitl [Hs3]; · iexists _; iexact Hs3
    iexact Hbufs
  isplitl [Hm4 Hm5 Hm6 Hm7 Hm8 Hm9 Hm10 Hm11 Hsems]
  · isplitl [Hm4]; · iexact Hm4
    isplitl [Hm5]; · iexact Hm5
    isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    iexact Hsems
  iexact HW

end Tile

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

variable [FloatOps F]

theorem defs₀_vector (c : Fin τ.nSC) (s : Fin τ.nSub) :
    defs₀ (F := F) (.scVector c s) 0 ()
      = SparseCore.onTile hcore0 hsub0 (fun c s => cc0_sc_copy (coordsV c s)
          xV (Memref.isWhole_whole _) aV (Memref.isWhole_whole _) s0 (Memref.isWhole_whole _) s1 (Memref.isWhole_whole _)
          s2 (Memref.isWhole_whole _) s3 (Memref.isWhole_whole _) cc0_scratch4 cc0_scratch5 cc0_scratch6 cc0_scratch7 cc0_scratch8 cc0_scratch9 cc0_scratch10 cc0_scratch11) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_wrap m d (coordsV ⟨_, hc.1⟩ ⟨_, hc.2⟩) hF O W hO).trans (wp_mono frame _ _ fun _ => obl_post)

theorem vecSplit : (K (F := F)).VecSplit' (P m) 0 := by
  intro d c
  show (bigSep Finset.univ fun i : Fin ((K (F := F)).nSub 0) => (P m).go 0 d c i)
    ⊢ |={Set.univ}=> iprop((bigSep Finset.univ fun i : Fin ((K (F := F)).nSub 0) => (P m).go 0 d c i)
      ∗ ((bigSep Finset.univ fun i : Fin ((K (F := F)).nSub 0) => (P m).td 0 d c i)
        -∗ bigSep Finset.univ fun i : Fin ((K (F := F)).nSub 0) => (P m).td 0 d c i))
  iintro H; imodintro
  isplitl [H]; · iexact H
  iintro H; iexact H

end Cert.Proof.KB

end
-- ==== Proof.KB.TcBody.lean ====
/-
  The TensorCore's kernel: ten chunks of 64 rows — rows 384 + 64·k … of `x` — are copied into chunk k of the 640-row
  result, each through slot k mod 8 of an eight-slot scratch: chunk k is fetched into its slot and written out from
  there, every copy issued and awaited by the TensorCore on the semaphore of its slot and direction, and a slot is
  refilled only after its write-out has been awaited. So chunk k of the result ends at chunk k of `x`'s last 640 rows.
  The arrays are held by the pieces the copies move: `x`'s ten chunks (its first 384 rows aside), the result's ten
  chunks, the scratch's eight slots.
-/
import proofs.«212309_g71296457113957_cont_9to1_m_186_18_alg».proof.Proof.KB.Base

noncomputable section

namespace Cert.Proof.KB

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

/-- The three arrays the kernel is called with, whole. -/
abbrev tcXw : Memref sig .tc .hbm S1024x50x512 .f32 := Memref.whole main_arg0
abbrev tcBw : Memref sig .tc .hbm S640x50x512 .f32 := Memref.whole main_v1
abbrev tcSw : Memref sig .tc .vmem S8x64x50x512 .f32 := Memref.whole cc1_scratch0
abbrev tcX0 : Memref sig .tc .hbm S64x50x512 .f32 := (tcXw).slice (Rect.unit (s := S1024x50x512) ![384, 0, 0] S64x50x512.size inb_S1024x50x512_S64x50x512_384_0_0) (fun _ => rfl)
abbrev tcX1 : Memref sig .tc .hbm S64x50x512 .f32 := (tcXw).slice (Rect.unit (s := S1024x50x512) ![448, 0, 0] S64x50x512.size inb_S1024x50x512_S64x50x512_448_0_0) (fun _ => rfl)
abbrev tcX2 : Memref sig .tc .hbm S64x50x512 .f32 := (tcXw).slice (Rect.unit (s := S1024x50x512) ![512, 0, 0] S64x50x512.size inb_S1024x50x512_S64x50x512_512_0_0) (fun _ => rfl)
abbrev tcX3 : Memref sig .tc .hbm S64x50x512 .f32 := (tcXw).slice (Rect.unit (s := S1024x50x512) ![576, 0, 0] S64x50x512.size inb_S1024x50x512_S64x50x512_576_0_0) (fun _ => rfl)
abbrev tcX4 : Memref sig .tc .hbm S64x50x512 .f32 := (tcXw).slice (Rect.unit (s := S1024x50x512) ![640, 0, 0] S64x50x512.size inb_S1024x50x512_S64x50x512_640_0_0) (fun _ => rfl)
abbrev tcX5 : Memref sig .tc .hbm S64x50x512 .f32 := (tcXw).slice (Rect.unit (s := S1024x50x512) ![704, 0, 0] S64x50x512.size inb_S1024x50x512_S64x50x512_704_0_0) (fun _ => rfl)
abbrev tcX6 : Memref sig .tc .hbm S64x50x512 .f32 := (tcXw).slice (Rect.unit (s := S1024x50x512) ![768, 0, 0] S64x50x512.size inb_S1024x50x512_S64x50x512_768_0_0) (fun _ => rfl)
abbrev tcX7 : Memref sig .tc .hbm S64x50x512 .f32 := (tcXw).slice (Rect.unit (s := S1024x50x512) ![832, 0, 0] S64x50x512.size inb_S1024x50x512_S64x50x512_832_0_0) (fun _ => rfl)
abbrev tcX8 : Memref sig .tc .hbm S64x50x512 .f32 := (tcXw).slice (Rect.unit (s := S1024x50x512) ![896, 0, 0] S64x50x512.size inb_S1024x50x512_S64x50x512_896_0_0) (fun _ => rfl)
abbrev tcX9 : Memref sig .tc .hbm S64x50x512 .f32 := (tcXw).slice (Rect.unit (s := S1024x50x512) ![960, 0, 0] S64x50x512.size inb_S1024x50x512_S64x50x512_960_0_0) (fun _ => rfl)
abbrev tcB0 : Memref sig .tc .hbm S64x50x512 .f32 := (tcBw).slice (Rect.unit (s := S640x50x512) ![0, 0, 0] S64x50x512.size inb_S640x50x512_S64x50x512_0_0_0) (fun _ => rfl)
abbrev tcB1 : Memref sig .tc .hbm S64x50x512 .f32 := (tcBw).slice (Rect.unit (s := S640x50x512) ![64, 0, 0] S64x50x512.size inb_S640x50x512_S64x50x512_64_0_0) (fun _ => rfl)
abbrev tcB2 : Memref sig .tc .hbm S64x50x512 .f32 := (tcBw).slice (Rect.unit (s := S640x50x512) ![128, 0, 0] S64x50x512.size inb_S640x50x512_S64x50x512_128_0_0) (fun _ => rfl)
abbrev tcB3 : Memref sig .tc .hbm S64x50x512 .f32 := (tcBw).slice (Rect.unit (s := S640x50x512) ![192, 0, 0] S64x50x512.size inb_S640x50x512_S64x50x512_192_0_0) (fun _ => rfl)
abbrev tcB4 : Memref sig .tc .hbm S64x50x512 .f32 := (tcBw).slice (Rect.unit (s := S640x50x512) ![256, 0, 0] S64x50x512.size inb_S640x50x512_S64x50x512_256_0_0) (fun _ => rfl)
abbrev tcB5 : Memref sig .tc .hbm S64x50x512 .f32 := (tcBw).slice (Rect.unit (s := S640x50x512) ![320, 0, 0] S64x50x512.size inb_S640x50x512_S64x50x512_320_0_0) (fun _ => rfl)
abbrev tcB6 : Memref sig .tc .hbm S64x50x512 .f32 := (tcBw).slice (Rect.unit (s := S640x50x512) ![384, 0, 0] S64x50x512.size inb_S640x50x512_S64x50x512_384_0_0) (fun _ => rfl)
abbrev tcB7 : Memref sig .tc .hbm S64x50x512 .f32 := (tcBw).slice (Rect.unit (s := S640x50x512) ![448, 0, 0] S64x50x512.size inb_S640x50x512_S64x50x512_448_0_0) (fun _ => rfl)
abbrev tcB8 : Memref sig .tc .hbm S64x50x512 .f32 := (tcBw).slice (Rect.unit (s := S640x50x512) ![512, 0, 0] S64x50x512.size inb_S640x50x512_S64x50x512_512_0_0) (fun _ => rfl)
abbrev tcB9 : Memref sig .tc .hbm S64x50x512 .f32 := (tcBw).slice (Rect.unit (s := S640x50x512) ![576, 0, 0] S64x50x512.size inb_S640x50x512_S64x50x512_576_0_0) (fun _ => rfl)
abbrev tcS0 : Memref sig .tc .vmem S64x50x512 .f32 := ((tcSw).slice (Rect.unit (s := S8x64x50x512) ![0, 0, 0, 0] S1x64x50x512.size inb_S8x64x50x512_S1x64x50x512_0_0_0_0) (fun _ => rfl)).squeeze S64x50x512 squeezes_S1x64x50x512_S64x50x512
abbrev tcS1 : Memref sig .tc .vmem S64x50x512 .f32 := ((tcSw).slice (Rect.unit (s := S8x64x50x512) ![1, 0, 0, 0] S1x64x50x512.size inb_S8x64x50x512_S1x64x50x512_1_0_0_0) (fun _ => rfl)).squeeze S64x50x512 squeezes_S1x64x50x512_S64x50x512
abbrev tcS2 : Memref sig .tc .vmem S64x50x512 .f32 := ((tcSw).slice (Rect.unit (s := S8x64x50x512) ![2, 0, 0, 0] S1x64x50x512.size inb_S8x64x50x512_S1x64x50x512_2_0_0_0) (fun _ => rfl)).squeeze S64x50x512 squeezes_S1x64x50x512_S64x50x512
abbrev tcS3 : Memref sig .tc .vmem S64x50x512 .f32 := ((tcSw).slice (Rect.unit (s := S8x64x50x512) ![3, 0, 0, 0] S1x64x50x512.size inb_S8x64x50x512_S1x64x50x512_3_0_0_0) (fun _ => rfl)).squeeze S64x50x512 squeezes_S1x64x50x512_S64x50x512
abbrev tcS4 : Memref sig .tc .vmem S64x50x512 .f32 := ((tcSw).slice (Rect.unit (s := S8x64x50x512) ![4, 0, 0, 0] S1x64x50x512.size inb_S8x64x50x512_S1x64x50x512_4_0_0_0) (fun _ => rfl)).squeeze S64x50x512 squeezes_S1x64x50x512_S64x50x512
abbrev tcS5 : Memref sig .tc .vmem S64x50x512 .f32 := ((tcSw).slice (Rect.unit (s := S8x64x50x512) ![5, 0, 0, 0] S1x64x50x512.size inb_S8x64x50x512_S1x64x50x512_5_0_0_0) (fun _ => rfl)).squeeze S64x50x512 squeezes_S1x64x50x512_S64x50x512
abbrev tcS6 : Memref sig .tc .vmem S64x50x512 .f32 := ((tcSw).slice (Rect.unit (s := S8x64x50x512) ![6, 0, 0, 0] S1x64x50x512.size inb_S8x64x50x512_S1x64x50x512_6_0_0_0) (fun _ => rfl)).squeeze S64x50x512 squeezes_S1x64x50x512_S64x50x512
abbrev tcS7 : Memref sig .tc .vmem S64x50x512 .f32 := ((tcSw).slice (Rect.unit (s := S8x64x50x512) ![7, 0, 0, 0] S1x64x50x512.size inb_S8x64x50x512_S1x64x50x512_7_0_0_0) (fun _ => rfl)).squeeze S64x50x512 squeezes_S1x64x50x512_S64x50x512
abbrev tcI0 : DmaSems sig S_ := (cc1_scratch1.slice (Rect.unit (s := S8) ![0] S1.size inb_S8_S1_0)).squeeze S_ squeezes_S1_S_
abbrev tcI1 : DmaSems sig S_ := (cc1_scratch1.slice (Rect.unit (s := S8) ![1] S1.size inb_S8_S1_1)).squeeze S_ squeezes_S1_S_
abbrev tcI2 : DmaSems sig S_ := (cc1_scratch1.slice (Rect.unit (s := S8) ![2] S1.size inb_S8_S1_2)).squeeze S_ squeezes_S1_S_
abbrev tcI3 : DmaSems sig S_ := (cc1_scratch1.slice (Rect.unit (s := S8) ![3] S1.size inb_S8_S1_3)).squeeze S_ squeezes_S1_S_
abbrev tcI4 : DmaSems sig S_ := (cc1_scratch1.slice (Rect.unit (s := S8) ![4] S1.size inb_S8_S1_4)).squeeze S_ squeezes_S1_S_
abbrev tcI5 : DmaSems sig S_ := (cc1_scratch1.slice (Rect.unit (s := S8) ![5] S1.size inb_S8_S1_5)).squeeze S_ squeezes_S1_S_
abbrev tcI6 : DmaSems sig S_ := (cc1_scratch1.slice (Rect.unit (s := S8) ![6] S1.size inb_S8_S1_6)).squeeze S_ squeezes_S1_S_
abbrev tcI7 : DmaSems sig S_ := (cc1_scratch1.slice (Rect.unit (s := S8) ![7] S1.size inb_S8_S1_7)).squeeze S_ squeezes_S1_S_
abbrev tcO0 : DmaSems sig S_ := (cc1_scratch2.slice (Rect.unit (s := S8) ![0] S1.size inb_S8_S1_0)).squeeze S_ squeezes_S1_S_
abbrev tcO1 : DmaSems sig S_ := (cc1_scratch2.slice (Rect.unit (s := S8) ![1] S1.size inb_S8_S1_1)).squeeze S_ squeezes_S1_S_
abbrev tcO2 : DmaSems sig S_ := (cc1_scratch2.slice (Rect.unit (s := S8) ![2] S1.size inb_S8_S1_2)).squeeze S_ squeezes_S1_S_
abbrev tcO3 : DmaSems sig S_ := (cc1_scratch2.slice (Rect.unit (s := S8) ![3] S1.size inb_S8_S1_3)).squeeze S_ squeezes_S1_S_
abbrev tcO4 : DmaSems sig S_ := (cc1_scratch2.slice (Rect.unit (s := S8) ![4] S1.size inb_S8_S1_4)).squeeze S_ squeezes_S1_S_
abbrev tcO5 : DmaSems sig S_ := (cc1_scratch2.slice (Rect.unit (s := S8) ![5] S1.size inb_S8_S1_5)).squeeze S_ squeezes_S1_S_
abbrev tcO6 : DmaSems sig S_ := (cc1_scratch2.slice (Rect.unit (s := S8) ![6] S1.size inb_S8_S1_6)).squeeze S_ squeezes_S1_S_
abbrev tcO7 : DmaSems sig S_ := (cc1_scratch2.slice (Rect.unit (s := S8) ![7] S1.size inb_S8_S1_7)).squeeze S_ squeezes_S1_S_

variable [FloatOps F]

/-- The sixteen scoped semaphores of the TensorCore, each at zero. -/
abbrev tcSems (d : Dev nD) : sProp 𝕄 :=
  iprop((semVal (SparseCore.T (τ := τ) d, SemLoc.dma tcI0.sem) 0 ∗ semVal (SparseCore.T (τ := τ) d, SemLoc.dma tcI1.sem) 0 ∗ semVal (SparseCore.T (τ := τ) d, SemLoc.dma tcI2.sem) 0 ∗ semVal (SparseCore.T (τ := τ) d, SemLoc.dma tcI3.sem) 0 ∗ semVal (SparseCore.T (τ := τ) d, SemLoc.dma tcI4.sem) 0 ∗ semVal (SparseCore.T (τ := τ) d, SemLoc.dma tcI5.sem) 0 ∗ semVal (SparseCore.T (τ := τ) d, SemLoc.dma tcI6.sem) 0 ∗ semVal (SparseCore.T (τ := τ) d, SemLoc.dma tcI7.sem) 0)
      ∗ (semVal (SparseCore.T (τ := τ) d, SemLoc.dma tcO0.sem) 0 ∗ semVal (SparseCore.T (τ := τ) d, SemLoc.dma tcO1.sem) 0 ∗ semVal (SparseCore.T (τ := τ) d, SemLoc.dma tcO2.sem) 0 ∗ semVal (SparseCore.T (τ := τ) d, SemLoc.dma tcO3.sem) 0 ∗ semVal (SparseCore.T (τ := τ) d, SemLoc.dma tcO4.sem) 0 ∗ semVal (SparseCore.T (τ := τ) d, SemLoc.dma tcO5.sem) 0 ∗ semVal (SparseCore.T (τ := τ) d, SemLoc.dma tcO6.sem) 0 ∗ semVal (SparseCore.T (τ := τ) d, SemLoc.dma tcO7.sem) 0))

abbrev sLoc (d : Dev nD) : Loc nD τ sig := (SparseCore.T d).loc cc1_scratch0

/-! ## The pieces as sets of elements -/

/-- The 64 rows of `x` from row `n`, of the result from row `n`; slot `s` of the scratch; `x`'s first 384 rows. -/
def xRowsFrom (n : ℕ) : Finset S1024x50x512.Idx := Finset.univ.filter fun j => n ≤ (j 0).val ∧ (j 0).val < n + 64
def bRowsFrom (n : ℕ) : Finset S640x50x512.Idx := Finset.univ.filter fun j => n ≤ (j 0).val ∧ (j 0).val < n + 64
def slotSet (s : ℕ) : Finset S8x64x50x512.Idx := Finset.univ.filter fun j => (j 0).val = s
def xLow : Finset S1024x50x512.Idx := Finset.univ.filter fun j => (j 0).val < 384

omit [FloatOps F] in
theorem mem_chunk_x (n : ℕ) (inb) (j : S1024x50x512.Idx) :
    j ∈ (Rect.unit (s := S1024x50x512) ![n, 0, 0] S64x50x512.size inb).set ↔ n ≤ (j 0).val ∧ (j 0).val < n + 64 := by
  rw [Rect.mem_set_unit]
  constructor
  · intro h; exact h 0
  · intro h a
    match a with
    | 0 => exact h
    | 1 => have h1 : (j 1).val < 50 := (j 1).isLt; exact ⟨Nat.zero_le _, show (j 1).val < 0 + 50 by omega⟩
    | 2 => have h2 : (j 2).val < 512 := (j 2).isLt; exact ⟨Nat.zero_le _, show (j 2).val < 0 + 512 by omega⟩
omit [FloatOps F] in
theorem mem_chunk_b (n : ℕ) (inb) (j : S640x50x512.Idx) :
    j ∈ (Rect.unit (s := S640x50x512) ![n, 0, 0] S64x50x512.size inb).set ↔ n ≤ (j 0).val ∧ (j 0).val < n + 64 := by
  rw [Rect.mem_set_unit]
  constructor
  · intro h; exact h 0
  · intro h a
    match a with
    | 0 => exact h
    | 1 => have h1 : (j 1).val < 50 := (j 1).isLt; exact ⟨Nat.zero_le _, show (j 1).val < 0 + 50 by omega⟩
    | 2 => have h2 : (j 2).val < 512 := (j 2).isLt; exact ⟨Nat.zero_le _, show (j 2).val < 0 + 512 by omega⟩
omit [FloatOps F] in
theorem mem_slot (s : ℕ) (inb) (j : S8x64x50x512.Idx) :
    j ∈ (Rect.unit (s := S8x64x50x512) ![s, 0, 0, 0] S1x64x50x512.size inb).set ↔ (j 0).val = s := by
  rw [Rect.mem_set_unit]
  constructor
  · intro h
    have h0 : s ≤ (j 0).val ∧ (j 0).val < s + 1 := h 0
    omega
  · intro h a
    match a with
    | 0 => exact ⟨show s ≤ (j 0).val by omega, show (j 0).val < s + 1 by omega⟩
    | 1 => have h1 : (j 1).val < 64 := (j 1).isLt; exact ⟨Nat.zero_le _, show (j 1).val < 0 + 64 by omega⟩
    | 2 => have h2 : (j 2).val < 50 := (j 2).isLt; exact ⟨Nat.zero_le _, show (j 2).val < 0 + 50 by omega⟩
    | 3 => have h3 : (j 3).val < 512 := (j 3).isLt; exact ⟨Nat.zero_le _, show (j 3).val < 0 + 512 by omega⟩

omit [FloatOps F] in
theorem set_tcX0 : (tcX0).view.set = xRowsFrom (384 + 64 * ((0 : Fin 10) : ℕ)) := by
  show ((View.whole main_arg0).slice _).set = _
  rw [View.set_slice_whole]
  ext j
  rw [mem_chunk_x]
  simp only [xRowsFrom, Finset.mem_filter, Finset.mem_univ, true_and]
  exact Iff.rfl
omit [FloatOps F] in
theorem set_tcB0 : (tcB0).view.set = bRowsFrom (64 * ((0 : Fin 10) : ℕ)) := by
  show ((View.whole main_v1).slice _).set = _
  rw [View.set_slice_whole]
  ext j
  rw [mem_chunk_b]
  simp only [bRowsFrom, Finset.mem_filter, Finset.mem_univ, true_and]
  exact Iff.rfl
omit [FloatOps F] in
theorem set_tcX1 : (tcX1).view.set = xRowsFrom (384 + 64 * ((1 : Fin 10) : ℕ)) := by
  show ((View.whole main_arg0).slice _).set = _
  rw [View.set_slice_whole]
  ext j
  rw [mem_chunk_x]
  simp only [xRowsFrom, Finset.mem_filter, Finset.mem_univ, true_and]
  exact Iff.rfl
omit [FloatOps F] in
theorem set_tcB1 : (tcB1).view.set = bRowsFrom (64 * ((1 : Fin 10) : ℕ)) := by
  show ((View.whole main_v1).slice _).set = _
  rw [View.set_slice_whole]
  ext j
  rw [mem_chunk_b]
  simp only [bRowsFrom, Finset.mem_filter, Finset.mem_univ, true_and]
  exact Iff.rfl
omit [FloatOps F] in
theorem set_tcX2 : (tcX2).view.set = xRowsFrom (384 + 64 * ((2 : Fin 10) : ℕ)) := by
  show ((View.whole main_arg0).slice _).set = _
  rw [View.set_slice_whole]
  ext j
  rw [mem_chunk_x]
  simp only [xRowsFrom, Finset.mem_filter, Finset.mem_univ, true_and]
  exact Iff.rfl
omit [FloatOps F] in
theorem set_tcB2 : (tcB2).view.set = bRowsFrom (64 * ((2 : Fin 10) : ℕ)) := by
  show ((View.whole main_v1).slice _).set = _
  rw [View.set_slice_whole]
  ext j
  rw [mem_chunk_b]
  simp only [bRowsFrom, Finset.mem_filter, Finset.mem_univ, true_and]
  exact Iff.rfl
omit [FloatOps F] in
theorem set_tcX3 : (tcX3).view.set = xRowsFrom (384 + 64 * ((3 : Fin 10) : ℕ)) := by
  show ((View.whole main_arg0).slice _).set = _
  rw [View.set_slice_whole]
  ext j
  rw [mem_chunk_x]
  simp only [xRowsFrom, Finset.mem_filter, Finset.mem_univ, true_and]
  exact Iff.rfl
omit [FloatOps F] in
theorem set_tcB3 : (tcB3).view.set = bRowsFrom (64 * ((3 : Fin 10) : ℕ)) := by
  show ((View.whole main_v1).slice _).set = _
  rw [View.set_slice_whole]
  ext j
  rw [mem_chunk_b]
  simp only [bRowsFrom, Finset.mem_filter, Finset.mem_univ, true_and]
  exact Iff.rfl
omit [FloatOps F] in
theorem set_tcX4 : (tcX4).view.set = xRowsFrom (384 + 64 * ((4 : Fin 10) : ℕ)) := by
  show ((View.whole main_arg0).slice _).set = _
  rw [View.set_slice_whole]
  ext j
  rw [mem_chunk_x]
  simp only [xRowsFrom, Finset.mem_filter, Finset.mem_univ, true_and]
  exact Iff.rfl
omit [FloatOps F] in
theorem set_tcB4 : (tcB4).view.set = bRowsFrom (64 * ((4 : Fin 10) : ℕ)) := by
  show ((View.whole main_v1).slice _).set = _
  rw [View.set_slice_whole]
  ext j
  rw [mem_chunk_b]
  simp only [bRowsFrom, Finset.mem_filter, Finset.mem_univ, true_and]
  exact Iff.rfl
omit [FloatOps F] in
theorem set_tcX5 : (tcX5).view.set = xRowsFrom (384 + 64 * ((5 : Fin 10) : ℕ)) := by
  show ((View.whole main_arg0).slice _).set = _
  rw [View.set_slice_whole]
  ext j
  rw [mem_chunk_x]
  simp only [xRowsFrom, Finset.mem_filter, Finset.mem_univ, true_and]
  exact Iff.rfl
omit [FloatOps F] in
theorem set_tcB5 : (tcB5).view.set = bRowsFrom (64 * ((5 : Fin 10) : ℕ)) := by
  show ((View.whole main_v1).slice _).set = _
  rw [View.set_slice_whole]
  ext j
  rw [mem_chunk_b]
  simp only [bRowsFrom, Finset.mem_filter, Finset.mem_univ, true_and]
  exact Iff.rfl
omit [FloatOps F] in
theorem set_tcX6 : (tcX6).view.set = xRowsFrom (384 + 64 * ((6 : Fin 10) : ℕ)) := by
  show ((View.whole main_arg0).slice _).set = _
  rw [View.set_slice_whole]
  ext j
  rw [mem_chunk_x]
  simp only [xRowsFrom, Finset.mem_filter, Finset.mem_univ, true_and]
  exact Iff.rfl
omit [FloatOps F] in
theorem set_tcB6 : (tcB6).view.set = bRowsFrom (64 * ((6 : Fin 10) : ℕ)) := by
  show ((View.whole main_v1).slice _).set = _
  rw [View.set_slice_whole]
  ext j
  rw [mem_chunk_b]
  simp only [bRowsFrom, Finset.mem_filter, Finset.mem_univ, true_and]
  exact Iff.rfl
omit [FloatOps F] in
theorem set_tcX7 : (tcX7).view.set = xRowsFrom (384 + 64 * ((7 : Fin 10) : ℕ)) := by
  show ((View.whole main_arg0).slice _).set = _
  rw [View.set_slice_whole]
  ext j
  rw [mem_chunk_x]
  simp only [xRowsFrom, Finset.mem_filter, Finset.mem_univ, true_and]
  exact Iff.rfl
omit [FloatOps F] in
theorem set_tcB7 : (tcB7).view.set = bRowsFrom (64 * ((7 : Fin 10) : ℕ)) := by
  show ((View.whole main_v1).slice _).set = _
  rw [View.set_slice_whole]
  ext j
  rw [mem_chunk_b]
  simp only [bRowsFrom, Finset.mem_filter, Finset.mem_univ, true_and]
  exact Iff.rfl
omit [FloatOps F] in
theorem set_tcX8 : (tcX8).view.set = xRowsFrom (384 + 64 * ((8 : Fin 10) : ℕ)) := by
  show ((View.whole main_arg0).slice _).set = _
  rw [View.set_slice_whole]
  ext j
  rw [mem_chunk_x]
  simp only [xRowsFrom, Finset.mem_filter, Finset.mem_univ, true_and]
  exact Iff.rfl
omit [FloatOps F] in
theorem set_tcB8 : (tcB8).view.set = bRowsFrom (64 * ((8 : Fin 10) : ℕ)) := by
  show ((View.whole main_v1).slice _).set = _
  rw [View.set_slice_whole]
  ext j
  rw [mem_chunk_b]
  simp only [bRowsFrom, Finset.mem_filter, Finset.mem_univ, true_and]
  exact Iff.rfl
omit [FloatOps F] in
theorem set_tcX9 : (tcX9).view.set = xRowsFrom (384 + 64 * ((9 : Fin 10) : ℕ)) := by
  show ((View.whole main_arg0).slice _).set = _
  rw [View.set_slice_whole]
  ext j
  rw [mem_chunk_x]
  simp only [xRowsFrom, Finset.mem_filter, Finset.mem_univ, true_and]
  exact Iff.rfl
omit [FloatOps F] in
theorem set_tcB9 : (tcB9).view.set = bRowsFrom (64 * ((9 : Fin 10) : ℕ)) := by
  show ((View.whole main_v1).slice _).set = _
  rw [View.set_slice_whole]
  ext j
  rw [mem_chunk_b]
  simp only [bRowsFrom, Finset.mem_filter, Finset.mem_univ, true_and]
  exact Iff.rfl
omit [FloatOps F] in
theorem set_tcS0 : (tcS0).view.set = slotSet ((0 : Fin 8) : ℕ) := by
  show (((View.whole cc1_scratch0).slice (Rect.unit (s := S8x64x50x512) ![0, 0, 0, 0] S1x64x50x512.size inb_S8x64x50x512_S1x64x50x512_0_0_0_0)).reshape S64x50x512 squeezes_S1x64x50x512_S64x50x512.numel_eq).set = _
  rw [View.set_reshape, View.set_slice_whole]
  ext j
  rw [mem_slot]
  simp only [slotSet, Finset.mem_filter, Finset.mem_univ, true_and]
  exact Iff.rfl
omit [FloatOps F] in
theorem set_tcS1 : (tcS1).view.set = slotSet ((1 : Fin 8) : ℕ) := by
  show (((View.whole cc1_scratch0).slice (Rect.unit (s := S8x64x50x512) ![1, 0, 0, 0] S1x64x50x512.size inb_S8x64x50x512_S1x64x50x512_1_0_0_0)).reshape S64x50x512 squeezes_S1x64x50x512_S64x50x512.numel_eq).set = _
  rw [View.set_reshape, View.set_slice_whole]
  ext j
  rw [mem_slot]
  simp only [slotSet, Finset.mem_filter, Finset.mem_univ, true_and]
  exact Iff.rfl
omit [FloatOps F] in
theorem set_tcS2 : (tcS2).view.set = slotSet ((2 : Fin 8) : ℕ) := by
  show (((View.whole cc1_scratch0).slice (Rect.unit (s := S8x64x50x512) ![2, 0, 0, 0] S1x64x50x512.size inb_S8x64x50x512_S1x64x50x512_2_0_0_0)).reshape S64x50x512 squeezes_S1x64x50x512_S64x50x512.numel_eq).set = _
  rw [View.set_reshape, View.set_slice_whole]
  ext j
  rw [mem_slot]
  simp only [slotSet, Finset.mem_filter, Finset.mem_univ, true_and]
  exact Iff.rfl
omit [FloatOps F] in
theorem set_tcS3 : (tcS3).view.set = slotSet ((3 : Fin 8) : ℕ) := by
  show (((View.whole cc1_scratch0).slice (Rect.unit (s := S8x64x50x512) ![3, 0, 0, 0] S1x64x50x512.size inb_S8x64x50x512_S1x64x50x512_3_0_0_0)).reshape S64x50x512 squeezes_S1x64x50x512_S64x50x512.numel_eq).set = _
  rw [View.set_reshape, View.set_slice_whole]
  ext j
  rw [mem_slot]
  simp only [slotSet, Finset.mem_filter, Finset.mem_univ, true_and]
  exact Iff.rfl
omit [FloatOps F] in
theorem set_tcS4 : (tcS4).view.set = slotSet ((4 : Fin 8) : ℕ) := by
  show (((View.whole cc1_scratch0).slice (Rect.unit (s := S8x64x50x512) ![4, 0, 0, 0] S1x64x50x512.size inb_S8x64x50x512_S1x64x50x512_4_0_0_0)).reshape S64x50x512 squeezes_S1x64x50x512_S64x50x512.numel_eq).set = _
  rw [View.set_reshape, View.set_slice_whole]
  ext j
  rw [mem_slot]
  simp only [slotSet, Finset.mem_filter, Finset.mem_univ, true_and]
  exact Iff.rfl
omit [FloatOps F] in
theorem set_tcS5 : (tcS5).view.set = slotSet ((5 : Fin 8) : ℕ) := by
  show (((View.whole cc1_scratch0).slice (Rect.unit (s := S8x64x50x512) ![5, 0, 0, 0] S1x64x50x512.size inb_S8x64x50x512_S1x64x50x512_5_0_0_0)).reshape S64x50x512 squeezes_S1x64x50x512_S64x50x512.numel_eq).set = _
  rw [View.set_reshape, View.set_slice_whole]
  ext j
  rw [mem_slot]
  simp only [slotSet, Finset.mem_filter, Finset.mem_univ, true_and]
  exact Iff.rfl
omit [FloatOps F] in
theorem set_tcS6 : (tcS6).view.set = slotSet ((6 : Fin 8) : ℕ) := by
  show (((View.whole cc1_scratch0).slice (Rect.unit (s := S8x64x50x512) ![6, 0, 0, 0] S1x64x50x512.size inb_S8x64x50x512_S1x64x50x512_6_0_0_0)).reshape S64x50x512 squeezes_S1x64x50x512_S64x50x512.numel_eq).set = _
  rw [View.set_reshape, View.set_slice_whole]
  ext j
  rw [mem_slot]
  simp only [slotSet, Finset.mem_filter, Finset.mem_univ, true_and]
  exact Iff.rfl
omit [FloatOps F] in
theorem set_tcS7 : (tcS7).view.set = slotSet ((7 : Fin 8) : ℕ) := by
  show (((View.whole cc1_scratch0).slice (Rect.unit (s := S8x64x50x512) ![7, 0, 0, 0] S1x64x50x512.size inb_S8x64x50x512_S1x64x50x512_7_0_0_0)).reshape S64x50x512 squeezes_S1x64x50x512_S64x50x512.numel_eq).set = _
  rw [View.set_reshape, View.set_slice_whole]
  ext j
  rw [mem_slot]
  simp only [slotSet, Finset.mem_filter, Finset.mem_univ, true_and]
  exact Iff.rfl

/-! ## Where a chunk's elements sit, and what a copy lands -/

omit [FloatOps F] in
theorem tcX0_emb_eq (y : S64x50x512.Idx) : ((tcX0).view.emb y : S1024x50x512.Idx) = upB ((tcB0).view.emb y) := by
  funext a; apply Fin.ext
  match a with
  | 0 => show 384 + 1 * (y 0).val = (0 + 1 * (y 0).val) + 384; omega
  | 1 => rfl
  | 2 => rfl
omit [FloatOps F] in
theorem read_tcX0 (d : Dev nD) (fx : Buf (Elt F) (xLoc d)) (y : S64x50x512.Idx) :
    (tcX0).view.read (Elt F) fx y = fx ((tcX0).view.emb y) :=
  (View.read_apply _ _).trans (cast_eq _ _)
omit [FloatOps F] in
theorem tcB0_lands (d : Dev nD) (fx : Buf (Elt F) (xLoc d)) (fb : Buf (Elt F) (bLoc d))
    (w : S64x50x512.Idx → Elt F .f32) (hw : ∀ y, w y = fx ((tcX0).view.emb y)) :
    ∀ i ∈ (tcB0).view.set, (tcB0).view.writes (Elt F) fb [⟨Rect.whole S64x50x512, w⟩] i = tailRows d fx i := by
  intro i hi
  obtain ⟨y, -, rfl⟩ := Finset.mem_map.mp hi
  have h := View.read_writes_cons_emb (tcB0).view fb (Rect.whole S64x50x512) w [] y
  rw [Rect.emb_whole_apply, View.read_apply] at h
  refine ((cast_eq _ _).symm.trans h).trans ?_
  rw [hw y, tcX0_emb_eq]; rfl
omit [FloatOps F] in
theorem tcX1_emb_eq (y : S64x50x512.Idx) : ((tcX1).view.emb y : S1024x50x512.Idx) = upB ((tcB1).view.emb y) := by
  funext a; apply Fin.ext
  match a with
  | 0 => show 448 + 1 * (y 0).val = (64 + 1 * (y 0).val) + 384; omega
  | 1 => rfl
  | 2 => rfl
omit [FloatOps F] in
theorem read_tcX1 (d : Dev nD) (fx : Buf (Elt F) (xLoc d)) (y : S64x50x512.Idx) :
    (tcX1).view.read (Elt F) fx y = fx ((tcX1).view.emb y) :=
  (View.read_apply _ _).trans (cast_eq _ _)
omit [FloatOps F] in
theorem tcB1_lands (d : Dev nD) (fx : Buf (Elt F) (xLoc d)) (fb : Buf (Elt F) (bLoc d))
    (w : S64x50x512.Idx → Elt F .f32) (hw : ∀ y, w y = fx ((tcX1).view.emb y)) :
    ∀ i ∈ (tcB1).view.set, (tcB1).view.writes (Elt F) fb [⟨Rect.whole S64x50x512, w⟩] i = tailRows d fx i := by
  intro i hi
  obtain ⟨y, -, rfl⟩ := Finset.mem_map.mp hi
  have h := View.read_writes_cons_emb (tcB1).view fb (Rect.whole S64x50x512) w [] y
  rw [Rect.emb_whole_apply, View.read_apply] at h
  refine ((cast_eq _ _).symm.trans h).trans ?_
  rw [hw y, tcX1_emb_eq]; rfl
omit [FloatOps F] in
theorem tcX2_emb_eq (y : S64x50x512.Idx) : ((tcX2).view.emb y : S1024x50x512.Idx) = upB ((tcB2).view.emb y) := by
  funext a; apply Fin.ext
  match a with
  | 0 => show 512 + 1 * (y 0).val = (128 + 1 * (y 0).val) + 384; omega
  | 1 => rfl
  | 2 => rfl
omit [FloatOps F] in
theorem read_tcX2 (d : Dev nD) (fx : Buf (Elt F) (xLoc d)) (y : S64x50x512.Idx) :
    (tcX2).view.read (Elt F) fx y = fx ((tcX2).view.emb y) :=
  (View.read_apply _ _).trans (cast_eq _ _)
omit [FloatOps F] in
theorem tcB2_lands (d : Dev nD) (fx : Buf (Elt F) (xLoc d)) (fb : Buf (Elt F) (bLoc d))
    (w : S64x50x512.Idx → Elt F .f32) (hw : ∀ y, w y = fx ((tcX2).view.emb y)) :
    ∀ i ∈ (tcB2).view.set, (tcB2).view.writes (Elt F) fb [⟨Rect.whole S64x50x512, w⟩] i = tailRows d fx i := by
  intro i hi
  obtain ⟨y, -, rfl⟩ := Finset.mem_map.mp hi
  have h := View.read_writes_cons_emb (tcB2).view fb (Rect.whole S64x50x512) w [] y
  rw [Rect.emb_whole_apply, View.read_apply] at h
  refine ((cast_eq _ _).symm.trans h).trans ?_
  rw [hw y, tcX2_emb_eq]; rfl
omit [FloatOps F] in
theorem tcX3_emb_eq (y : S64x50x512.Idx) : ((tcX3).view.emb y : S1024x50x512.Idx) = upB ((tcB3).view.emb y) := by
  funext a; apply Fin.ext
  match a with
  | 0 => show 576 + 1 * (y 0).val = (192 + 1 * (y 0).val) + 384; omega
  | 1 => rfl
  | 2 => rfl
omit [FloatOps F] in
theorem read_tcX3 (d : Dev nD) (fx : Buf (Elt F) (xLoc d)) (y : S64x50x512.Idx) :
    (tcX3).view.read (Elt F) fx y = fx ((tcX3).view.emb y) :=
  (View.read_apply _ _).trans (cast_eq _ _)
omit [FloatOps F] in
theorem tcB3_lands (d : Dev nD) (fx : Buf (Elt F) (xLoc d)) (fb : Buf (Elt F) (bLoc d))
    (w : S64x50x512.Idx → Elt F .f32) (hw : ∀ y, w y = fx ((tcX3).view.emb y)) :
    ∀ i ∈ (tcB3).view.set, (tcB3).view.writes (Elt F) fb [⟨Rect.whole S64x50x512, w⟩] i = tailRows d fx i := by
  intro i hi
  obtain ⟨y, -, rfl⟩ := Finset.mem_map.mp hi
  have h := View.read_writes_cons_emb (tcB3).view fb (Rect.whole S64x50x512) w [] y
  rw [Rect.emb_whole_apply, View.read_apply] at h
  refine ((cast_eq _ _).symm.trans h).trans ?_
  rw [hw y, tcX3_emb_eq]; rfl
omit [FloatOps F] in
theorem tcX4_emb_eq (y : S64x50x512.Idx) : ((tcX4).view.emb y : S1024x50x512.Idx) = upB ((tcB4).view.emb y) := by
  funext a; apply Fin.ext
  match a with
  | 0 => show 640 + 1 * (y 0).val = (256 + 1 * (y 0).val) + 384; omega
  | 1 => rfl
  | 2 => rfl
omit [FloatOps F] in
theorem read_tcX4 (d : Dev nD) (fx : Buf (Elt F) (xLoc d)) (y : S64x50x512.Idx) :
    (tcX4).view.read (Elt F) fx y = fx ((tcX4).view.emb y) :=
  (View.read_apply _ _).trans (cast_eq _ _)
omit [FloatOps F] in
theorem tcB4_lands (d : Dev nD) (fx : Buf (Elt F) (xLoc d)) (fb : Buf (Elt F) (bLoc d))
    (w : S64x50x512.Idx → Elt F .f32) (hw : ∀ y, w y = fx ((tcX4).view.emb y)) :
    ∀ i ∈ (tcB4).view.set, (tcB4).view.writes (Elt F) fb [⟨Rect.whole S64x50x512, w⟩] i = tailRows d fx i := by
  intro i hi
  obtain ⟨y, -, rfl⟩ := Finset.mem_map.mp hi
  have h := View.read_writes_cons_emb (tcB4).view fb (Rect.whole S64x50x512) w [] y
  rw [Rect.emb_whole_apply, View.read_apply] at h
  refine ((cast_eq _ _).symm.trans h).trans ?_
  rw [hw y, tcX4_emb_eq]; rfl
omit [FloatOps F] in
theorem tcX5_emb_eq (y : S64x50x512.Idx) : ((tcX5).view.emb y : S1024x50x512.Idx) = upB ((tcB5).view.emb y) := by
  funext a; apply Fin.ext
  match a with
  | 0 => show 704 + 1 * (y 0).val = (320 + 1 * (y 0).val) + 384; omega
  | 1 => rfl
  | 2 => rfl
omit [FloatOps F] in
theorem read_tcX5 (d : Dev nD) (fx : Buf (Elt F) (xLoc d)) (y : S64x50x512.Idx) :
    (tcX5).view.read (Elt F) fx y = fx ((tcX5).view.emb y) :=
  (View.read_apply _ _).trans (cast_eq _ _)
omit [FloatOps F] in
theorem tcB5_lands (d : Dev nD) (fx : Buf (Elt F) (xLoc d)) (fb : Buf (Elt F) (bLoc d))
    (w : S64x50x512.Idx → Elt F .f32) (hw : ∀ y, w y = fx ((tcX5).view.emb y)) :
    ∀ i ∈ (tcB5).view.set, (tcB5).view.writes (Elt F) fb [⟨Rect.whole S64x50x512, w⟩] i = tailRows d fx i := by
  intro i hi
  obtain ⟨y, -, rfl⟩ := Finset.mem_map.mp hi
  have h := View.read_writes_cons_emb (tcB5).view fb (Rect.whole S64x50x512) w [] y
  rw [Rect.emb_whole_apply, View.read_apply] at h
  refine ((cast_eq _ _).symm.trans h).trans ?_
  rw [hw y, tcX5_emb_eq]; rfl
omit [FloatOps F] in
theorem tcX6_emb_eq (y : S64x50x512.Idx) : ((tcX6).view.emb y : S1024x50x512.Idx) = upB ((tcB6).view.emb y) := by
  funext a; apply Fin.ext
  match a with
  | 0 => show 768 + 1 * (y 0).val = (384 + 1 * (y 0).val) + 384; omega
  | 1 => rfl
  | 2 => rfl
omit [FloatOps F] in
theorem read_tcX6 (d : Dev nD) (fx : Buf (Elt F) (xLoc d)) (y : S64x50x512.Idx) :
    (tcX6).view.read (Elt F) fx y = fx ((tcX6).view.emb y) :=
  (View.read_apply _ _).trans (cast_eq _ _)
omit [FloatOps F] in
theorem tcB6_lands (d : Dev nD) (fx : Buf (Elt F) (xLoc d)) (fb : Buf (Elt F) (bLoc d))
    (w : S64x50x512.Idx → Elt F .f32) (hw : ∀ y, w y = fx ((tcX6).view.emb y)) :
    ∀ i ∈ (tcB6).view.set, (tcB6).view.writes (Elt F) fb [⟨Rect.whole S64x50x512, w⟩] i = tailRows d fx i := by
  intro i hi
  obtain ⟨y, -, rfl⟩ := Finset.mem_map.mp hi
  have h := View.read_writes_cons_emb (tcB6).view fb (Rect.whole S64x50x512) w [] y
  rw [Rect.emb_whole_apply, View.read_apply] at h
  refine ((cast_eq _ _).symm.trans h).trans ?_
  rw [hw y, tcX6_emb_eq]; rfl
omit [FloatOps F] in
theorem tcX7_emb_eq (y : S64x50x512.Idx) : ((tcX7).view.emb y : S1024x50x512.Idx) = upB ((tcB7).view.emb y) := by
  funext a; apply Fin.ext
  match a with
  | 0 => show 832 + 1 * (y 0).val = (448 + 1 * (y 0).val) + 384; omega
  | 1 => rfl
  | 2 => rfl
omit [FloatOps F] in
theorem read_tcX7 (d : Dev nD) (fx : Buf (Elt F) (xLoc d)) (y : S64x50x512.Idx) :
    (tcX7).view.read (Elt F) fx y = fx ((tcX7).view.emb y) :=
  (View.read_apply _ _).trans (cast_eq _ _)
omit [FloatOps F] in
theorem tcB7_lands (d : Dev nD) (fx : Buf (Elt F) (xLoc d)) (fb : Buf (Elt F) (bLoc d))
    (w : S64x50x512.Idx → Elt F .f32) (hw : ∀ y, w y = fx ((tcX7).view.emb y)) :
    ∀ i ∈ (tcB7).view.set, (tcB7).view.writes (Elt F) fb [⟨Rect.whole S64x50x512, w⟩] i = tailRows d fx i := by
  intro i hi
  obtain ⟨y, -, rfl⟩ := Finset.mem_map.mp hi
  have h := View.read_writes_cons_emb (tcB7).view fb (Rect.whole S64x50x512) w [] y
  rw [Rect.emb_whole_apply, View.read_apply] at h
  refine ((cast_eq _ _).symm.trans h).trans ?_
  rw [hw y, tcX7_emb_eq]; rfl
omit [FloatOps F] in
theorem tcX8_emb_eq (y : S64x50x512.Idx) : ((tcX8).view.emb y : S1024x50x512.Idx) = upB ((tcB8).view.emb y) := by
  funext a; apply Fin.ext
  match a with
  | 0 => show 896 + 1 * (y 0).val = (512 + 1 * (y 0).val) + 384; omega
  | 1 => rfl
  | 2 => rfl
omit [FloatOps F] in
theorem read_tcX8 (d : Dev nD) (fx : Buf (Elt F) (xLoc d)) (y : S64x50x512.Idx) :
    (tcX8).view.read (Elt F) fx y = fx ((tcX8).view.emb y) :=
  (View.read_apply _ _).trans (cast_eq _ _)
omit [FloatOps F] in
theorem tcB8_lands (d : Dev nD) (fx : Buf (Elt F) (xLoc d)) (fb : Buf (Elt F) (bLoc d))
    (w : S64x50x512.Idx → Elt F .f32) (hw : ∀ y, w y = fx ((tcX8).view.emb y)) :
    ∀ i ∈ (tcB8).view.set, (tcB8).view.writes (Elt F) fb [⟨Rect.whole S64x50x512, w⟩] i = tailRows d fx i := by
  intro i hi
  obtain ⟨y, -, rfl⟩ := Finset.mem_map.mp hi
  have h := View.read_writes_cons_emb (tcB8).view fb (Rect.whole S64x50x512) w [] y
  rw [Rect.emb_whole_apply, View.read_apply] at h
  refine ((cast_eq _ _).symm.trans h).trans ?_
  rw [hw y, tcX8_emb_eq]; rfl
omit [FloatOps F] in
theorem tcX9_emb_eq (y : S64x50x512.Idx) : ((tcX9).view.emb y : S1024x50x512.Idx) = upB ((tcB9).view.emb y) := by
  funext a; apply Fin.ext
  match a with
  | 0 => show 960 + 1 * (y 0).val = (576 + 1 * (y 0).val) + 384; omega
  | 1 => rfl
  | 2 => rfl
omit [FloatOps F] in
theorem read_tcX9 (d : Dev nD) (fx : Buf (Elt F) (xLoc d)) (y : S64x50x512.Idx) :
    (tcX9).view.read (Elt F) fx y = fx ((tcX9).view.emb y) :=
  (View.read_apply _ _).trans (cast_eq _ _)
omit [FloatOps F] in
theorem tcB9_lands (d : Dev nD) (fx : Buf (Elt F) (xLoc d)) (fb : Buf (Elt F) (bLoc d))
    (w : S64x50x512.Idx → Elt F .f32) (hw : ∀ y, w y = fx ((tcX9).view.emb y)) :
    ∀ i ∈ (tcB9).view.set, (tcB9).view.writes (Elt F) fb [⟨Rect.whole S64x50x512, w⟩] i = tailRows d fx i := by
  intro i hi
  obtain ⟨y, -, rfl⟩ := Finset.mem_map.mp hi
  have h := View.read_writes_cons_emb (tcB9).view fb (Rect.whole S64x50x512) w [] y
  rw [Rect.emb_whole_apply, View.read_apply] at h
  refine ((cast_eq _ _).symm.trans h).trans ?_
  rw [hw y, tcX9_emb_eq]; rfl

omit [FloatOps F] in
/-- Reading back through a view what was last written whole through it. -/
theorem read_writes_whole {κ : Kind} {sp : Space} {S : Shape} {e : EltTy} (v : View sig κ sp S e) (f : v.ty.Contents (Elt F))
    (w : (Rect.whole S).shape.Idx → Elt F e) (L : List (View.Piece (Elt F) S e)) (y : (Rect.whole S).shape.Idx) :
    v.read (Elt F) (v.writes (Elt F) f (⟨Rect.whole S, w⟩ :: L)) y = w y := by
  have h := View.read_writes_cons_emb v f (Rect.whole S) w L y
  rwa [Rect.emb_whole_apply] at h

/-! ## The run over the pieces -/

set_option maxHeartbeats 4000000 in
theorem tc_pieces (d : Dev nD) (q : PosShare TreeShare) (fx : Buf (Elt F) (xLoc d)) (fb : Buf (Elt F) (bLoc d))
    (fs : Buf (Elt F) (sLoc d)) (W : Waits sig (HIx 1)) :
    iprop((((tcX0).view.loc (SparseCore.T (τ := τ) d) ↦[(tcX0).view.set]{q} fx : sProp 𝕄)
          ∗ ((tcX1).view.loc (SparseCore.T (τ := τ) d) ↦[(tcX1).view.set]{q} fx : sProp 𝕄)
          ∗ ((tcX2).view.loc (SparseCore.T (τ := τ) d) ↦[(tcX2).view.set]{q} fx : sProp 𝕄)
          ∗ ((tcX3).view.loc (SparseCore.T (τ := τ) d) ↦[(tcX3).view.set]{q} fx : sProp 𝕄)
          ∗ ((tcX4).view.loc (SparseCore.T (τ := τ) d) ↦[(tcX4).view.set]{q} fx : sProp 𝕄)
          ∗ ((tcX5).view.loc (SparseCore.T (τ := τ) d) ↦[(tcX5).view.set]{q} fx : sProp 𝕄)
          ∗ ((tcX6).view.loc (SparseCore.T (τ := τ) d) ↦[(tcX6).view.set]{q} fx : sProp 𝕄)
          ∗ ((tcX7).view.loc (SparseCore.T (τ := τ) d) ↦[(tcX7).view.set]{q} fx : sProp 𝕄)
          ∗ ((tcX8).view.loc (SparseCore.T (τ := τ) d) ↦[(tcX8).view.set]{q} fx : sProp 𝕄)
          ∗ ((tcX9).view.loc (SparseCore.T (τ := τ) d) ↦[(tcX9).view.set]{q} fx : sProp 𝕄))
        ∗ (((tcB0).view.loc (SparseCore.T (τ := τ) d) ↦[(tcB0).view.set]{fullShare} fb : sProp 𝕄)
          ∗ ((tcB1).view.loc (SparseCore.T (τ := τ) d) ↦[(tcB1).view.set]{fullShare} fb : sProp 𝕄)
          ∗ ((tcB2).view.loc (SparseCore.T (τ := τ) d) ↦[(tcB2).view.set]{fullShare} fb : sProp 𝕄)
          ∗ ((tcB3).view.loc (SparseCore.T (τ := τ) d) ↦[(tcB3).view.set]{fullShare} fb : sProp 𝕄)
          ∗ ((tcB4).view.loc (SparseCore.T (τ := τ) d) ↦[(tcB4).view.set]{fullShare} fb : sProp 𝕄)
          ∗ ((tcB5).view.loc (SparseCore.T (τ := τ) d) ↦[(tcB5).view.set]{fullShare} fb : sProp 𝕄)
          ∗ ((tcB6).view.loc (SparseCore.T (τ := τ) d) ↦[(tcB6).view.set]{fullShare} fb : sProp 𝕄)
          ∗ ((tcB7).view.loc (SparseCore.T (τ := τ) d) ↦[(tcB7).view.set]{fullShare} fb : sProp 𝕄)
          ∗ ((tcB8).view.loc (SparseCore.T (τ := τ) d) ↦[(tcB8).view.set]{fullShare} fb : sProp 𝕄)
          ∗ ((tcB9).view.loc (SparseCore.T (τ := τ) d) ↦[(tcB9).view.set]{fullShare} fb : sProp 𝕄))
        ∗ (((tcS0).view.loc (SparseCore.T (τ := τ) d) ↦[(tcS0).view.set]{fullShare} fs : sProp 𝕄)
          ∗ ((tcS1).view.loc (SparseCore.T (τ := τ) d) ↦[(tcS1).view.set]{fullShare} fs : sProp 𝕄)
          ∗ ((tcS2).view.loc (SparseCore.T (τ := τ) d) ↦[(tcS2).view.set]{fullShare} fs : sProp 𝕄)
          ∗ ((tcS3).view.loc (SparseCore.T (τ := τ) d) ↦[(tcS3).view.set]{fullShare} fs : sProp 𝕄)
          ∗ ((tcS4).view.loc (SparseCore.T (τ := τ) d) ↦[(tcS4).view.set]{fullShare} fs : sProp 𝕄)
          ∗ ((tcS5).view.loc (SparseCore.T (τ := τ) d) ↦[(tcS5).view.set]{fullShare} fs : sProp 𝕄)
          ∗ ((tcS6).view.loc (SparseCore.T (τ := τ) d) ↦[(tcS6).view.set]{fullShare} fs : sProp 𝕄)
          ∗ ((tcS7).view.loc (SparseCore.T (τ := τ) d) ↦[(tcS7).view.set]{fullShare} fs : sProp 𝕄))
        ∗ tcSems d ∗ owes (SparseCore.T (τ := τ) d) 0 W)
      ⊢ wp frame (wpE (defs₀ (F := F)) 𝒱₀ (SparseCore.T (τ := τ) d) none) Set.univ
          (cc1__tc_pipe tcXw (Memref.isWhole_whole _) tcBw (Memref.isWhole_whole _) tcSw (Memref.isWhole_whole _) cc1_scratch1 cc1_scratch2)
          fun _ => iprop(
            (((tcX0).view.loc (SparseCore.T (τ := τ) d) ↦[(tcX0).view.set]{q} fx : sProp 𝕄)
              ∗ ((tcX1).view.loc (SparseCore.T (τ := τ) d) ↦[(tcX1).view.set]{q} fx : sProp 𝕄)
              ∗ ((tcX2).view.loc (SparseCore.T (τ := τ) d) ↦[(tcX2).view.set]{q} fx : sProp 𝕄)
              ∗ ((tcX3).view.loc (SparseCore.T (τ := τ) d) ↦[(tcX3).view.set]{q} fx : sProp 𝕄)
              ∗ ((tcX4).view.loc (SparseCore.T (τ := τ) d) ↦[(tcX4).view.set]{q} fx : sProp 𝕄)
              ∗ ((tcX5).view.loc (SparseCore.T (τ := τ) d) ↦[(tcX5).view.set]{q} fx : sProp 𝕄)
              ∗ ((tcX6).view.loc (SparseCore.T (τ := τ) d) ↦[(tcX6).view.set]{q} fx : sProp 𝕄)
              ∗ ((tcX7).view.loc (SparseCore.T (τ := τ) d) ↦[(tcX7).view.set]{q} fx : sProp 𝕄)
              ∗ ((tcX8).view.loc (SparseCore.T (τ := τ) d) ↦[(tcX8).view.set]{q} fx : sProp 𝕄)
              ∗ ((tcX9).view.loc (SparseCore.T (τ := τ) d) ↦[(tcX9).view.set]{q} fx : sProp 𝕄))
            ∗ (((tcB0).view.loc (SparseCore.T (τ := τ) d) ↦[(tcB0).view.set]{fullShare} tailRows d fx : sProp 𝕄)
              ∗ ((tcB1).view.loc (SparseCore.T (τ := τ) d) ↦[(tcB1).view.set]{fullShare} tailRows d fx : sProp 𝕄)
              ∗ ((tcB2).view.loc (SparseCore.T (τ := τ) d) ↦[(tcB2).view.set]{fullShare} tailRows d fx : sProp 𝕄)
              ∗ ((tcB3).view.loc (SparseCore.T (τ := τ) d) ↦[(tcB3).view.set]{fullShare} tailRows d fx : sProp 𝕄)
              ∗ ((tcB4).view.loc (SparseCore.T (τ := τ) d) ↦[(tcB4).view.set]{fullShare} tailRows d fx : sProp 𝕄)
              ∗ ((tcB5).view.loc (SparseCore.T (τ := τ) d) ↦[(tcB5).view.set]{fullShare} tailRows d fx : sProp 𝕄)
              ∗ ((tcB6).view.loc (SparseCore.T (τ := τ) d) ↦[(tcB6).view.set]{fullShare} tailRows d fx : sProp 𝕄)
              ∗ ((tcB7).view.loc (SparseCore.T (τ := τ) d) ↦[(tcB7).view.set]{fullShare} tailRows d fx : sProp 𝕄)
              ∗ ((tcB8).view.loc (SparseCore.T (τ := τ) d) ↦[(tcB8).view.set]{fullShare} tailRows d fx : sProp 𝕄)
              ∗ ((tcB9).view.loc (SparseCore.T (τ := τ) d) ↦[(tcB9).view.set]{fullShare} tailRows d fx : sProp 𝕄))
            ∗ ((∃ f, ((tcS0).view.loc (SparseCore.T (τ := τ) d) ↦[(tcS0).view.set]{fullShare} f : sProp 𝕄))
              ∗ (∃ f, ((tcS1).view.loc (SparseCore.T (τ := τ) d) ↦[(tcS1).view.set]{fullShare} f : sProp 𝕄))
              ∗ (∃ f, ((tcS2).view.loc (SparseCore.T (τ := τ) d) ↦[(tcS2).view.set]{fullShare} f : sProp 𝕄))
              ∗ (∃ f, ((tcS3).view.loc (SparseCore.T (τ := τ) d) ↦[(tcS3).view.set]{fullShare} f : sProp 𝕄))
              ∗ (∃ f, ((tcS4).view.loc (SparseCore.T (τ := τ) d) ↦[(tcS4).view.set]{fullShare} f : sProp 𝕄))
              ∗ (∃ f, ((tcS5).view.loc (SparseCore.T (τ := τ) d) ↦[(tcS5).view.set]{fullShare} f : sProp 𝕄))
              ∗ (∃ f, ((tcS6).view.loc (SparseCore.T (τ := τ) d) ↦[(tcS6).view.set]{fullShare} f : sProp 𝕄))
              ∗ (∃ f, ((tcS7).view.loc (SparseCore.T (τ := τ) d) ↦[(tcS7).view.set]{fullShare} f : sProp 𝕄)))
            ∗ tcSems d ∗ ∃ W', ⌜∀ p ∈ W', p ∈ W ∨ p.2 = none⌝ ∗ owes (SparseCore.T (τ := τ) d) 0 W') := by
  rw [cc1__tc_pipe_eq_skeleton]; unfold cc1__tc_pipe_skel
  iintro ⟨⟨Hx0, Hx1, Hx2, Hx3, Hx4, Hx5, Hx6, Hx7, Hx8, Hx9⟩, ⟨Hb0, Hb1, Hb2, Hb3, Hb4, Hb5, Hb6, Hb7, Hb8, Hb9⟩, ⟨Hs0, Hs1, Hs2, Hs3, Hs4, Hs5, Hs6, Hs7⟩, ⟨⟨Hi0, Hi1, Hi2, Hi3, Hi4, Hi5, Hi6, Hi7⟩, ⟨Ho0, Ho1, Ho2, Ho3, Ho4, Ho5, Ho6, Ho7⟩⟩, HO⟩
  sl_exec
  sl_step
  isplitl [Hx0 Hx1 Hx2 Hx3 Hx4 Hx5 Hx6 Hx7 Hx8 Hx9]
  · isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    isplitl [Hx7]; · iexact Hx7
    isplitl [Hx8]; · iexact Hx8
    iexact Hx9
  isplitl [Hb0 Hb1 Hb2 Hb3 Hb4 Hb5 Hb6 Hb7 Hb8 Hb9]
  · have e0 := pointsTo_congr (Val := Elt F) (ℓ := (tcB0).view.loc (SparseCore.T (τ := τ) d)) (q := fullShare) (nD := nD) (τ := τ) (sig := sig) (Ix := HIx 1) (Name := ℕ) (U := UU) (Lvl := ℕ)
      (tcB0_lands d fx fb (tc_pieces.sl.dma0_5 d fx fs) (fun y =>
        (read_writes_whole (F := F) (tcS0).view fs _ _ y).trans (read_tcX0 d fx y)))
    have e1 := pointsTo_congr (Val := Elt F) (ℓ := (tcB1).view.loc (SparseCore.T (τ := τ) d)) (q := fullShare) (nD := nD) (τ := τ) (sig := sig) (Ix := HIx 1) (Name := ℕ) (U := UU) (Lvl := ℕ)
      (tcB1_lands d fx fb (tc_pieces.sl.dma0_7 d fx fs) (fun y =>
        (read_writes_whole (F := F) (tcS1).view fs _ _ y).trans (read_tcX1 d fx y)))
    have e2 := pointsTo_congr (Val := Elt F) (ℓ := (tcB2).view.loc (SparseCore.T (τ := τ) d)) (q := fullShare) (nD := nD) (τ := τ) (sig := sig) (Ix := HIx 1) (Name := ℕ) (U := UU) (Lvl := ℕ)
      (tcB2_lands d fx fb (tc_pieces.sl.dma0_9 d fx fs) (fun y =>
        (read_writes_whole (F := F) (tcS2).view fs _ _ y).trans (read_tcX2 d fx y)))
    have e3 := pointsTo_congr (Val := Elt F) (ℓ := (tcB3).view.loc (SparseCore.T (τ := τ) d)) (q := fullShare) (nD := nD) (τ := τ) (sig := sig) (Ix := HIx 1) (Name := ℕ) (U := UU) (Lvl := ℕ)
      (tcB3_lands d fx fb (tc_pieces.sl.dma0_11 d fx fs) (fun y =>
        (read_writes_whole (F := F) (tcS3).view fs _ _ y).trans (read_tcX3 d fx y)))
    have e4 := pointsTo_congr (Val := Elt F) (ℓ := (tcB4).view.loc (SparseCore.T (τ := τ) d)) (q := fullShare) (nD := nD) (τ := τ) (sig := sig) (Ix := HIx 1) (Name := ℕ) (U := UU) (Lvl := ℕ)
      (tcB4_lands d fx fb (tc_pieces.sl.dma0_13 d fx fs) (fun y =>
        (read_writes_whole (F := F) (tcS4).view fs _ _ y).trans (read_tcX4 d fx y)))
    have e5 := pointsTo_congr (Val := Elt F) (ℓ := (tcB5).view.loc (SparseCore.T (τ := τ) d)) (q := fullShare) (nD := nD) (τ := τ) (sig := sig) (Ix := HIx 1) (Name := ℕ) (U := UU) (Lvl := ℕ)
      (tcB5_lands d fx fb (tc_pieces.sl.dma0_15 d fx fs) (fun y =>
        (read_writes_whole (F := F) (tcS5).view fs _ _ y).trans (read_tcX5 d fx y)))
    have e6 := pointsTo_congr (Val := Elt F) (ℓ := (tcB6).view.loc (SparseCore.T (τ := τ) d)) (q := fullShare) (nD := nD) (τ := τ) (sig := sig) (Ix := HIx 1) (Name := ℕ) (U := UU) (Lvl := ℕ)
      (tcB6_lands d fx fb (tc_pieces.sl.dma0_16 d fx fs) (fun y =>
        (read_writes_whole (F := F) (tcS6).view fs _ _ y).trans (read_tcX6 d fx y)))
    have e7 := pointsTo_congr (Val := Elt F) (ℓ := (tcB7).view.loc (SparseCore.T (τ := τ) d)) (q := fullShare) (nD := nD) (τ := τ) (sig := sig) (Ix := HIx 1) (Name := ℕ) (U := UU) (Lvl := ℕ)
      (tcB7_lands d fx fb (tc_pieces.sl.dma0_17 d fx fs) (fun y =>
        (read_writes_whole (F := F) (tcS7).view fs _ _ y).trans (read_tcX7 d fx y)))
    have e8 := pointsTo_congr (Val := Elt F) (ℓ := (tcB8).view.loc (SparseCore.T (τ := τ) d)) (q := fullShare) (nD := nD) (τ := τ) (sig := sig) (Ix := HIx 1) (Name := ℕ) (U := UU) (Lvl := ℕ)
      (tcB8_lands d fx fb (tc_pieces.sl.dma0_18 d fx fs) (fun y =>
        (read_writes_whole (F := F) (tcS0).view fs _ _ y).trans (read_tcX8 d fx y)))
    have e9 := pointsTo_congr (Val := Elt F) (ℓ := (tcB9).view.loc (SparseCore.T (τ := τ) d)) (q := fullShare) (nD := nD) (τ := τ) (sig := sig) (Ix := HIx 1) (Name := ℕ) (U := UU) (Lvl := ℕ)
      (tcB9_lands d fx fb (tc_pieces.sl.dma0_19 d fx fs) (fun y =>
        (read_writes_whole (F := F) (tcS1).view fs _ _ y).trans (read_tcX9 d fx y)))
    isplitl [Hb0]; · iapply (Entails.of_eq e0); iexact Hb0
    isplitl [Hb1]; · iapply (Entails.of_eq e1); iexact Hb1
    isplitl [Hb2]; · iapply (Entails.of_eq e2); iexact Hb2
    isplitl [Hb3]; · iapply (Entails.of_eq e3); iexact Hb3
    isplitl [Hb4]; · iapply (Entails.of_eq e4); iexact Hb4
    isplitl [Hb5]; · iapply (Entails.of_eq e5); iexact Hb5
    isplitl [Hb6]; · iapply (Entails.of_eq e6); iexact Hb6
    isplitl [Hb7]; · iapply (Entails.of_eq e7); iexact Hb7
    isplitl [Hb8]; · iapply (Entails.of_eq e8); iexact Hb8
    iapply (Entails.of_eq e9); iexact Hb9
  isplitl [Hs0 Hs1 Hs2 Hs3 Hs4 Hs5 Hs6 Hs7]
  · isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    isplitl [Hs5]; · iexists _; iexact Hs5
    isplitl [Hs6]; · iexists _; iexact Hs6
    iexists _; iexact Hs7
  isplitl [Hi0 Hi1 Hi2 Hi3 Hi4 Hi5 Hi6 Hi7 Ho0 Ho1 Ho2 Ho3 Ho4 Ho5 Ho6 Ho7]
  · isplitl [Hi0 Hi1 Hi2 Hi3 Hi4 Hi5 Hi6 Hi7]
    · isplitl [Hi0]; · iexact Hi0
      isplitl [Hi1]; · iexact Hi1
      isplitl [Hi2]; · iexact Hi2
      isplitl [Hi3]; · iexact Hi3
      isplitl [Hi4]; · iexact Hi4
      isplitl [Hi5]; · iexact Hi5
      isplitl [Hi6]; · iexact Hi6
      iexact Hi7
    · isplitl [Ho0]; · iexact Ho0
      isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      iexact Ho7
  iexists _; isplitr
  rotate_left
  · iexact HO
  · ipureintro; intro p hp
    simp only [Finset.mem_insert] at hp
    rcases hp with rfl | rfl | rfl | rfl | rfl | rfl | rfl | rfl | rfl | rfl | rfl | rfl | rfl | rfl | rfl | rfl | rfl | rfl | rfl | rfl | hp
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inr rfl
    · exact .inl hp

/-! ## The arrays as their pieces -/

omit [FloatOps F] in
theorem bigSep_fin10 (Φ : Fin 10 → sProp 𝕄) :
    bigSep (Finset.univ : Finset (Fin 10)) Φ = iprop(Φ 0 ∗ Φ 1 ∗ Φ 2 ∗ Φ 3 ∗ Φ 4 ∗ Φ 5 ∗ Φ 6 ∗ Φ 7 ∗ Φ 8 ∗ Φ 9) := by
  rw [show (Finset.univ : Finset (Fin 10)) = {0, 1, 2, 3, 4, 5, 6, 7, 8, 9} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
omit [FloatOps F] in
theorem bigSep_fin8 (Φ : Fin 8 → sProp 𝕄) :
    bigSep (Finset.univ : Finset (Fin 8)) Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] in
theorem xRowsFrom_disjoint : ∀ k ∈ (Finset.univ : Finset (Fin 10)), ∀ k' ∈ (Finset.univ : Finset (Fin 10)), k ≠ k' →
    Disjoint (xRowsFrom (384 + 64 * k.val)) (xRowsFrom (384 + 64 * k'.val)) := by
  intro k _ k' _ h
  refine Finset.disjoint_filter.mpr fun j _ h1 h2 => h (Fin.ext ?_)
  omega
omit [FloatOps F] in
theorem bRowsFrom_disjoint : ∀ k ∈ (Finset.univ : Finset (Fin 10)), ∀ k' ∈ (Finset.univ : Finset (Fin 10)), k ≠ k' →
    Disjoint (bRowsFrom (64 * k.val)) (bRowsFrom (64 * k'.val)) := by
  intro k _ k' _ h
  refine Finset.disjoint_filter.mpr fun j _ h1 h2 => h (Fin.ext ?_)
  omega
omit [FloatOps F] in
theorem slotSet_disjoint : ∀ s ∈ (Finset.univ : Finset (Fin 8)), ∀ s' ∈ (Finset.univ : Finset (Fin 8)), s ≠ s' →
    Disjoint (slotSet s.val) (slotSet s'.val) := by
  intro s _ s' _ h
  exact Finset.disjoint_filter.mpr fun j _ h1 h2 => h (Fin.ext (h1.symm.trans h2))

omit [FloatOps F] in
theorem x_chunks_low_disjoint : Disjoint ((Finset.univ : Finset (Fin 10)).biUnion fun k => xRowsFrom (384 + 64 * k.val)) xLow := by
  refine Finset.disjoint_left.mpr fun j hj hl => ?_
  obtain ⟨k, -, hk⟩ := Finset.mem_biUnion.mp hj
  have h1 := (Finset.mem_filter.mp hk).2
  have h2 : (j 0).val < 384 := (Finset.mem_filter.mp hl).2
  omega
omit [FloatOps F] in
theorem x_chunks_cover : ((Finset.univ : Finset (Fin 10)).biUnion fun k => xRowsFrom (384 + 64 * k.val)) ∪ xLow = Finset.univ := by
  ext j
  simp only [Finset.mem_union, Finset.mem_biUnion, Finset.mem_univ, true_and, iff_true]
  have hj : (j 0).val < 1024 := (j 0).isLt
  by_cases h : (j 0).val < 384
  · exact .inr (Finset.mem_filter.mpr ⟨Finset.mem_univ _, h⟩)
  · exact .inl ⟨⟨((j 0).val - 384) / 64, by omega⟩, Finset.mem_filter.mpr ⟨Finset.mem_univ _, by
      show 384 + 64 * (((j 0).val - 384) / 64) ≤ (j 0).val ∧ (j 0).val < 384 + 64 * (((j 0).val - 384) / 64) + 64
      omega⟩⟩
omit [FloatOps F] in
theorem b_chunks_cover : ((Finset.univ : Finset (Fin 10)).biUnion fun k => bRowsFrom (64 * k.val)) = Finset.univ := by
  ext j
  simp only [Finset.mem_biUnion, Finset.mem_univ, true_and, iff_true]
  have hj : (j 0).val < 640 := (j 0).isLt
  exact ⟨⟨(j 0).val / 64, by omega⟩, Finset.mem_filter.mpr ⟨Finset.mem_univ _, by
    show 64 * ((j 0).val / 64) ≤ (j 0).val ∧ (j 0).val < 64 * ((j 0).val / 64) + 64
    omega⟩⟩
omit [FloatOps F] in
theorem s_slots_cover : ((Finset.univ : Finset (Fin 8)).biUnion fun s => slotSet s.val) = Finset.univ := by
  ext j
  simp only [Finset.mem_biUnion, Finset.mem_univ, true_and, iff_true]
  exact ⟨⟨(j 0).val, (j 0).isLt⟩, Finset.mem_filter.mpr ⟨Finset.mem_univ _, rfl⟩⟩

omit [FloatOps F] in
theorem x_chunks (d : Dev nD) (q : PosShare TreeShare) (f : Buf (Elt F) (xLoc d)) :
    (xLoc d ↦{q} f : sProp 𝕄)
      = iprop((bigSep (Finset.univ : Finset (Fin 10)) fun k => xLoc d ↦[xRowsFrom (384 + 64 * k.val)]{q} f) ∗ xLoc d ↦[xLow]{q} f) := by
  have hu := pointsTo_union (nD := nD) (τ := τ) (sig := sig) (Ix := HIx 1) (Val := Elt F) (Name := ℕ) (U := UU) (Lvl := ℕ)
    (ℓ := xLoc d) (q := q) (f := f) x_chunks_low_disjoint
  rw [← pointsTo_biUnion Finset.univ (ℓ := xLoc d) (fun k : Fin 10 => xRowsFrom (384 + 64 * k.val)) xRowsFrom_disjoint, ← BI.equiv_iff.mp ⟨hu.1, hu.2⟩, x_chunks_cover]
omit [FloatOps F] in
theorem b_chunks (d : Dev nD) (f : Buf (Elt F) (bLoc d)) :
    (bLoc d ↦{fullShare} f : sProp 𝕄) = bigSep (Finset.univ : Finset (Fin 10)) fun k => bLoc d ↦[bRowsFrom (64 * k.val)]{fullShare} f := by
  rw [← pointsTo_biUnion Finset.univ (ℓ := bLoc d) (fun k : Fin 10 => bRowsFrom (64 * k.val)) bRowsFrom_disjoint, b_chunks_cover]
omit [FloatOps F] in
theorem s_slots (d : Dev nD) (f : Buf (Elt F) (sLoc d)) :
    (sLoc d ↦{fullShare} f : sProp 𝕄) = bigSep (Finset.univ : Finset (Fin 8)) fun s => sLoc d ↦[slotSet s.val]{fullShare} f := by
  rw [← pointsTo_biUnion Finset.univ (ℓ := sLoc d) (fun s : Fin 8 => slotSet s.val) slotSet_disjoint, s_slots_cover]

/-- Eight slots, each at some contents, are the scratch at some contents. -/
theorem s_slots_join (d : Dev nD) :
    (bigSep (Finset.univ : Finset (Fin 8)) fun s => iprop(∃ f : Buf (Elt F) (sLoc d), sLoc d ↦[slotSet s.val]{fullShare} f))
      ⊢ (iprop(∃ f, sLoc d ↦{fullShare} f) : sProp 𝕄) := by
  refine (bigSep_exists_pi Finset.univ (fun (s : Fin 8) (f : Buf (Elt F) (sLoc d)) => (sLoc d ↦[slotSet s.val]{fullShare} f : sProp 𝕄))).trans ?_
  iintro ⟨%fs, H⟩
  ihave H' := (pointsTo_biUnion_join Finset.univ (fun s : Fin 8 => slotSet s.val) fs (fs 0) slotSet_disjoint) $$ H
  icases H' with ⟨%g, -, Hg⟩
  rw [s_slots_cover]
  iexists g; iexact Hg

omit [FloatOps F] in
theorem pts_tcX0 (d : Dev nD) (q : PosShare TreeShare) (f : Buf (Elt F) (xLoc d)) :
    ((tcX0).view.loc (SparseCore.T (τ := τ) d) ↦[(tcX0).view.set]{q} f : sProp 𝕄) = xLoc d ↦[xRowsFrom (384 + 64 * ((0 : Fin 10) : ℕ))]{q} f := by
  rw [set_tcX0]
omit [FloatOps F] in
theorem pts_tcB0 (d : Dev nD) (f : Buf (Elt F) (bLoc d)) :
    ((tcB0).view.loc (SparseCore.T (τ := τ) d) ↦[(tcB0).view.set]{fullShare} f : sProp 𝕄) = bLoc d ↦[bRowsFrom (64 * ((0 : Fin 10) : ℕ))]{fullShare} f := by
  rw [set_tcB0]
omit [FloatOps F] in
theorem pts_tcX1 (d : Dev nD) (q : PosShare TreeShare) (f : Buf (Elt F) (xLoc d)) :
    ((tcX1).view.loc (SparseCore.T (τ := τ) d) ↦[(tcX1).view.set]{q} f : sProp 𝕄) = xLoc d ↦[xRowsFrom (384 + 64 * ((1 : Fin 10) : ℕ))]{q} f := by
  rw [set_tcX1]
omit [FloatOps F] in
theorem pts_tcB1 (d : Dev nD) (f : Buf (Elt F) (bLoc d)) :
    ((tcB1).view.loc (SparseCore.T (τ := τ) d) ↦[(tcB1).view.set]{fullShare} f : sProp 𝕄) = bLoc d ↦[bRowsFrom (64 * ((1 : Fin 10) : ℕ))]{fullShare} f := by
  rw [set_tcB1]
omit [FloatOps F] in
theorem pts_tcX2 (d : Dev nD) (q : PosShare TreeShare) (f : Buf (Elt F) (xLoc d)) :
    ((tcX2).view.loc (SparseCore.T (τ := τ) d) ↦[(tcX2).view.set]{q} f : sProp 𝕄) = xLoc d ↦[xRowsFrom (384 + 64 * ((2 : Fin 10) : ℕ))]{q} f := by
  rw [set_tcX2]
omit [FloatOps F] in
theorem pts_tcB2 (d : Dev nD) (f : Buf (Elt F) (bLoc d)) :
    ((tcB2).view.loc (SparseCore.T (τ := τ) d) ↦[(tcB2).view.set]{fullShare} f : sProp 𝕄) = bLoc d ↦[bRowsFrom (64 * ((2 : Fin 10) : ℕ))]{fullShare} f := by
  rw [set_tcB2]
omit [FloatOps F] in
theorem pts_tcX3 (d : Dev nD) (q : PosShare TreeShare) (f : Buf (Elt F) (xLoc d)) :
    ((tcX3).view.loc (SparseCore.T (τ := τ) d) ↦[(tcX3).view.set]{q} f : sProp 𝕄) = xLoc d ↦[xRowsFrom (384 + 64 * ((3 : Fin 10) : ℕ))]{q} f := by
  rw [set_tcX3]
omit [FloatOps F] in
theorem pts_tcB3 (d : Dev nD) (f : Buf (Elt F) (bLoc d)) :
    ((tcB3).view.loc (SparseCore.T (τ := τ) d) ↦[(tcB3).view.set]{fullShare} f : sProp 𝕄) = bLoc d ↦[bRowsFrom (64 * ((3 : Fin 10) : ℕ))]{fullShare} f := by
  rw [set_tcB3]
omit [FloatOps F] in
theorem pts_tcX4 (d : Dev nD) (q : PosShare TreeShare) (f : Buf (Elt F) (xLoc d)) :
    ((tcX4).view.loc (SparseCore.T (τ := τ) d) ↦[(tcX4).view.set]{q} f : sProp 𝕄) = xLoc d ↦[xRowsFrom (384 + 64 * ((4 : Fin 10) : ℕ))]{q} f := by
  rw [set_tcX4]
omit [FloatOps F] in
theorem pts_tcB4 (d : Dev nD) (f : Buf (Elt F) (bLoc d)) :
    ((tcB4).view.loc (SparseCore.T (τ := τ) d) ↦[(tcB4).view.set]{fullShare} f : sProp 𝕄) = bLoc d ↦[bRowsFrom (64 * ((4 : Fin 10) : ℕ))]{fullShare} f := by
  rw [set_tcB4]
omit [FloatOps F] in
theorem pts_tcX5 (d : Dev nD) (q : PosShare TreeShare) (f : Buf (Elt F) (xLoc d)) :
    ((tcX5).view.loc (SparseCore.T (τ := τ) d) ↦[(tcX5).view.set]{q} f : sProp 𝕄) = xLoc d ↦[xRowsFrom (384 + 64 * ((5 : Fin 10) : ℕ))]{q} f := by
  rw [set_tcX5]
omit [FloatOps F] in
theorem pts_tcB5 (d : Dev nD) (f : Buf (Elt F) (bLoc d)) :
    ((tcB5).view.loc (SparseCore.T (τ := τ) d) ↦[(tcB5).view.set]{fullShare} f : sProp 𝕄) = bLoc d ↦[bRowsFrom (64 * ((5 : Fin 10) : ℕ))]{fullShare} f := by
  rw [set_tcB5]
omit [FloatOps F] in
theorem pts_tcX6 (d : Dev nD) (q : PosShare TreeShare) (f : Buf (Elt F) (xLoc d)) :
    ((tcX6).view.loc (SparseCore.T (τ := τ) d) ↦[(tcX6).view.set]{q} f : sProp 𝕄) = xLoc d ↦[xRowsFrom (384 + 64 * ((6 : Fin 10) : ℕ))]{q} f := by
  rw [set_tcX6]
omit [FloatOps F] in
theorem pts_tcB6 (d : Dev nD) (f : Buf (Elt F) (bLoc d)) :
    ((tcB6).view.loc (SparseCore.T (τ := τ) d) ↦[(tcB6).view.set]{fullShare} f : sProp 𝕄) = bLoc d ↦[bRowsFrom (64 * ((6 : Fin 10) : ℕ))]{fullShare} f := by
  rw [set_tcB6]
omit [FloatOps F] in
theorem pts_tcX7 (d : Dev nD) (q : PosShare TreeShare) (f : Buf (Elt F) (xLoc d)) :
    ((tcX7).view.loc (SparseCore.T (τ := τ) d) ↦[(tcX7).view.set]{q} f : sProp 𝕄) = xLoc d ↦[xRowsFrom (384 + 64 * ((7 : Fin 10) : ℕ))]{q} f := by
  rw [set_tcX7]
omit [FloatOps F] in
theorem pts_tcB7 (d : Dev nD) (f : Buf (Elt F) (bLoc d)) :
    ((tcB7).view.loc (SparseCore.T (τ := τ) d) ↦[(tcB7).view.set]{fullShare} f : sProp 𝕄) = bLoc d ↦[bRowsFrom (64 * ((7 : Fin 10) : ℕ))]{fullShare} f := by
  rw [set_tcB7]
omit [FloatOps F] in
theorem pts_tcX8 (d : Dev nD) (q : PosShare TreeShare) (f : Buf (Elt F) (xLoc d)) :
    ((tcX8).view.loc (SparseCore.T (τ := τ) d) ↦[(tcX8).view.set]{q} f : sProp 𝕄) = xLoc d ↦[xRowsFrom (384 + 64 * ((8 : Fin 10) : ℕ))]{q} f := by
  rw [set_tcX8]
omit [FloatOps F] in
theorem pts_tcB8 (d : Dev nD) (f : Buf (Elt F) (bLoc d)) :
    ((tcB8).view.loc (SparseCore.T (τ := τ) d) ↦[(tcB8).view.set]{fullShare} f : sProp 𝕄) = bLoc d ↦[bRowsFrom (64 * ((8 : Fin 10) : ℕ))]{fullShare} f := by
  rw [set_tcB8]
omit [FloatOps F] in
theorem pts_tcX9 (d : Dev nD) (q : PosShare TreeShare) (f : Buf (Elt F) (xLoc d)) :
    ((tcX9).view.loc (SparseCore.T (τ := τ) d) ↦[(tcX9).view.set]{q} f : sProp 𝕄) = xLoc d ↦[xRowsFrom (384 + 64 * ((9 : Fin 10) : ℕ))]{q} f := by
  rw [set_tcX9]
omit [FloatOps F] in
theorem pts_tcB9 (d : Dev nD) (f : Buf (Elt F) (bLoc d)) :
    ((tcB9).view.loc (SparseCore.T (τ := τ) d) ↦[(tcB9).view.set]{fullShare} f : sProp 𝕄) = bLoc d ↦[bRowsFrom (64 * ((9 : Fin 10) : ℕ))]{fullShare} f := by
  rw [set_tcB9]
omit [FloatOps F] in
theorem pts_tcS0 (d : Dev nD) (f : Buf (Elt F) (sLoc d)) :
    ((tcS0).view.loc (SparseCore.T (τ := τ) d) ↦[(tcS0).view.set]{fullShare} f : sProp 𝕄) = sLoc d ↦[slotSet ((0 : Fin 8) : ℕ)]{fullShare} f := by
  rw [set_tcS0]
omit [FloatOps F] in
theorem pts_tcS1 (d : Dev nD) (f : Buf (Elt F) (sLoc d)) :
    ((tcS1).view.loc (SparseCore.T (τ := τ) d) ↦[(tcS1).view.set]{fullShare} f : sProp 𝕄) = sLoc d ↦[slotSet ((1 : Fin 8) : ℕ)]{fullShare} f := by
  rw [set_tcS1]
omit [FloatOps F] in
theorem pts_tcS2 (d : Dev nD) (f : Buf (Elt F) (sLoc d)) :
    ((tcS2).view.loc (SparseCore.T (τ := τ) d) ↦[(tcS2).view.set]{fullShare} f : sProp 𝕄) = sLoc d ↦[slotSet ((2 : Fin 8) : ℕ)]{fullShare} f := by
  rw [set_tcS2]
omit [FloatOps F] in
theorem pts_tcS3 (d : Dev nD) (f : Buf (Elt F) (sLoc d)) :
    ((tcS3).view.loc (SparseCore.T (τ := τ) d) ↦[(tcS3).view.set]{fullShare} f : sProp 𝕄) = sLoc d ↦[slotSet ((3 : Fin 8) : ℕ)]{fullShare} f := by
  rw [set_tcS3]
omit [FloatOps F] in
theorem pts_tcS4 (d : Dev nD) (f : Buf (Elt F) (sLoc d)) :
    ((tcS4).view.loc (SparseCore.T (τ := τ) d) ↦[(tcS4).view.set]{fullShare} f : sProp 𝕄) = sLoc d ↦[slotSet ((4 : Fin 8) : ℕ)]{fullShare} f := by
  rw [set_tcS4]
omit [FloatOps F] in
theorem pts_tcS5 (d : Dev nD) (f : Buf (Elt F) (sLoc d)) :
    ((tcS5).view.loc (SparseCore.T (τ := τ) d) ↦[(tcS5).view.set]{fullShare} f : sProp 𝕄) = sLoc d ↦[slotSet ((5 : Fin 8) : ℕ)]{fullShare} f := by
  rw [set_tcS5]
omit [FloatOps F] in
theorem pts_tcS6 (d : Dev nD) (f : Buf (Elt F) (sLoc d)) :
    ((tcS6).view.loc (SparseCore.T (τ := τ) d) ↦[(tcS6).view.set]{fullShare} f : sProp 𝕄) = sLoc d ↦[slotSet ((6 : Fin 8) : ℕ)]{fullShare} f := by
  rw [set_tcS6]
omit [FloatOps F] in
theorem pts_tcS7 (d : Dev nD) (f : Buf (Elt F) (sLoc d)) :
    ((tcS7).view.loc (SparseCore.T (τ := τ) d) ↦[(tcS7).view.set]{fullShare} f : sProp 𝕄) = sLoc d ↦[slotSet ((7 : Fin 8) : ℕ)]{fullShare} f := by
  rw [set_tcS7]

set_option maxHeartbeats 1000000 in
/-- The kernel on the three arrays held whole. -/
theorem tc_body (d : Dev nD) (q : PosShare TreeShare) (fx : Buf (Elt F) (xLoc d)) (fb : Buf (Elt F) (bLoc d))
    (fs : Buf (Elt F) (sLoc d)) (W : Waits sig (HIx 1)) :
    iprop((xLoc d ↦{q} fx) ∗ (bLoc d ↦{fullShare} fb) ∗ (sLoc d ↦{fullShare} fs) ∗ tcSems d ∗ owes (SparseCore.T (τ := τ) d) 0 W)
      ⊢ wp frame (wpE (defs₀ (F := F)) 𝒱₀ (SparseCore.T (τ := τ) d) none) Set.univ
          (cc1__tc_pipe tcXw (Memref.isWhole_whole _) tcBw (Memref.isWhole_whole _) tcSw (Memref.isWhole_whole _) cc1_scratch1 cc1_scratch2)
          fun _ => iprop((xLoc d ↦{q} fx) ∗ (bLoc d ↦{fullShare} tailRows d fx) ∗ (∃ fs', sLoc d ↦{fullShare} fs') ∗ tcSems d
            ∗ ∃ W', ⌜∀ p ∈ W', p ∈ W ∨ p.2 = none⌝ ∗ owes (SparseCore.T (τ := τ) d) 0 W') := by
  rw [x_chunks (F := F) d q fx, b_chunks (F := F) d fb, b_chunks (F := F) d (tailRows d fx), s_slots (F := F) d fs, bigSep_fin10, bigSep_fin10, bigSep_fin10, bigSep_fin8]
  iintro ⟨⟨⟨Hx0, Hx1, Hx2, Hx3, Hx4, Hx5, Hx6, Hx7, Hx8, Hx9⟩, Hxlow⟩, ⟨Hb0, Hb1, Hb2, Hb3, Hb4, Hb5, Hb6, Hb7, Hb8, Hb9⟩, ⟨Hs0, Hs1, Hs2, Hs3, Hs4, Hs5, Hs6, Hs7⟩, Hsems, HO⟩
  iapply (wp_wand_r frame _ Set.univ)
  isplitl [Hx0 Hx1 Hx2 Hx3 Hx4 Hx5 Hx6 Hx7 Hx8 Hx9 Hb0 Hb1 Hb2 Hb3 Hb4 Hb5 Hb6 Hb7 Hb8 Hb9 Hs0 Hs1 Hs2 Hs3 Hs4 Hs5 Hs6 Hs7 Hsems HO]
  · iapply (tc_pieces d q fx fb fs W)
    isplitl [Hx0 Hx1 Hx2 Hx3 Hx4 Hx5 Hx6 Hx7 Hx8 Hx9]
    · isplitl [Hx0]; · iapply (Entails.of_eq (pts_tcX0 (F := F) d q _).symm); iexact Hx0
      isplitl [Hx1]; · iapply (Entails.of_eq (pts_tcX1 (F := F) d q _).symm); iexact Hx1
      isplitl [Hx2]; · iapply (Entails.of_eq (pts_tcX2 (F := F) d q _).symm); iexact Hx2
      isplitl [Hx3]; · iapply (Entails.of_eq (pts_tcX3 (F := F) d q _).symm); iexact Hx3
      isplitl [Hx4]; · iapply (Entails.of_eq (pts_tcX4 (F := F) d q _).symm); iexact Hx4
      isplitl [Hx5]; · iapply (Entails.of_eq (pts_tcX5 (F := F) d q _).symm); iexact Hx5
      isplitl [Hx6]; · iapply (Entails.of_eq (pts_tcX6 (F := F) d q _).symm); iexact Hx6
      isplitl [Hx7]; · iapply (Entails.of_eq (pts_tcX7 (F := F) d q _).symm); iexact Hx7
      isplitl [Hx8]; · iapply (Entails.of_eq (pts_tcX8 (F := F) d q _).symm); iexact Hx8
      iapply (Entails.of_eq (pts_tcX9 (F := F) d q _).symm); iexact Hx9
    isplitl [Hb0 Hb1 Hb2 Hb3 Hb4 Hb5 Hb6 Hb7 Hb8 Hb9]
    · isplitl [Hb0]; · iapply (Entails.of_eq (pts_tcB0 (F := F) d _).symm); iexact Hb0
      isplitl [Hb1]; · iapply (Entails.of_eq (pts_tcB1 (F := F) d _).symm); iexact Hb1
      isplitl [Hb2]; · iapply (Entails.of_eq (pts_tcB2 (F := F) d _).symm); iexact Hb2
      isplitl [Hb3]; · iapply (Entails.of_eq (pts_tcB3 (F := F) d _).symm); iexact Hb3
      isplitl [Hb4]; · iapply (Entails.of_eq (pts_tcB4 (F := F) d _).symm); iexact Hb4
      isplitl [Hb5]; · iapply (Entails.of_eq (pts_tcB5 (F := F) d _).symm); iexact Hb5
      isplitl [Hb6]; · iapply (Entails.of_eq (pts_tcB6 (F := F) d _).symm); iexact Hb6
      isplitl [Hb7]; · iapply (Entails.of_eq (pts_tcB7 (F := F) d _).symm); iexact Hb7
      isplitl [Hb8]; · iapply (Entails.of_eq (pts_tcB8 (F := F) d _).symm); iexact Hb8
      iapply (Entails.of_eq (pts_tcB9 (F := F) d _).symm); iexact Hb9
    isplitl [Hs0 Hs1 Hs2 Hs3 Hs4 Hs5 Hs6 Hs7]
    · isplitl [Hs0]; · iapply (Entails.of_eq (pts_tcS0 (F := F) d _).symm); iexact Hs0
      isplitl [Hs1]; · iapply (Entails.of_eq (pts_tcS1 (F := F) d _).symm); iexact Hs1
      isplitl [Hs2]; · iapply (Entails.of_eq (pts_tcS2 (F := F) d _).symm); iexact Hs2
      isplitl [Hs3]; · iapply (Entails.of_eq (pts_tcS3 (F := F) d _).symm); iexact Hs3
      isplitl [Hs4]; · iapply (Entails.of_eq (pts_tcS4 (F := F) d _).symm); iexact Hs4
      isplitl [Hs5]; · iapply (Entails.of_eq (pts_tcS5 (F := F) d _).symm); iexact Hs5
      isplitl [Hs6]; · iapply (Entails.of_eq (pts_tcS6 (F := F) d _).symm); iexact Hs6
      iapply (Entails.of_eq (pts_tcS7 (F := F) d _).symm); iexact Hs7
    isplitl [Hsems]; · iexact Hsems
    iexact HO
  iintro %_ ⟨⟨Hx0, Hx1, Hx2, Hx3, Hx4, Hx5, Hx6, Hx7, Hx8, Hx9⟩, ⟨Hb0, Hb1, Hb2, Hb3, Hb4, Hb5, Hb6, Hb7, Hb8, Hb9⟩, ⟨⟨%g0, Hs0⟩, ⟨%g1, Hs1⟩, ⟨%g2, Hs2⟩, ⟨%g3, Hs3⟩, ⟨%g4, Hs4⟩, ⟨%g5, Hs5⟩, ⟨%g6, Hs6⟩, ⟨%g7, Hs7⟩⟩, Hsems, HW⟩
  isplitl [Hx0 Hx1 Hx2 Hx3 Hx4 Hx5 Hx6 Hx7 Hx8 Hx9 Hxlow]
  · isplitl [Hx0 Hx1 Hx2 Hx3 Hx4 Hx5 Hx6 Hx7 Hx8 Hx9]
    · isplitl [Hx0]; · iapply (Entails.of_eq (pts_tcX0 (F := F) d q _)); iexact Hx0
      isplitl [Hx1]; · iapply (Entails.of_eq (pts_tcX1 (F := F) d q _)); iexact Hx1
      isplitl [Hx2]; · iapply (Entails.of_eq (pts_tcX2 (F := F) d q _)); iexact Hx2
      isplitl [Hx3]; · iapply (Entails.of_eq (pts_tcX3 (F := F) d q _)); iexact Hx3
      isplitl [Hx4]; · iapply (Entails.of_eq (pts_tcX4 (F := F) d q _)); iexact Hx4
      isplitl [Hx5]; · iapply (Entails.of_eq (pts_tcX5 (F := F) d q _)); iexact Hx5
      isplitl [Hx6]; · iapply (Entails.of_eq (pts_tcX6 (F := F) d q _)); iexact Hx6
      isplitl [Hx7]; · iapply (Entails.of_eq (pts_tcX7 (F := F) d q _)); iexact Hx7
      isplitl [Hx8]; · iapply (Entails.of_eq (pts_tcX8 (F := F) d q _)); iexact Hx8
      iapply (Entails.of_eq (pts_tcX9 (F := F) d q _)); iexact Hx9
    · iexact Hxlow
  isplitl [Hb0 Hb1 Hb2 Hb3 Hb4 Hb5 Hb6 Hb7 Hb8 Hb9]
  · isplitl [Hb0]; · iapply (Entails.of_eq (pts_tcB0 (F := F) d _)); iexact Hb0
    isplitl [Hb1]; · iapply (Entails.of_eq (pts_tcB1 (F := F) d _)); iexact Hb1
    isplitl [Hb2]; · iapply (Entails.of_eq (pts_tcB2 (F := F) d _)); iexact Hb2
    isplitl [Hb3]; · iapply (Entails.of_eq (pts_tcB3 (F := F) d _)); iexact Hb3
    isplitl [Hb4]; · iapply (Entails.of_eq (pts_tcB4 (F := F) d _)); iexact Hb4
    isplitl [Hb5]; · iapply (Entails.of_eq (pts_tcB5 (F := F) d _)); iexact Hb5
    isplitl [Hb6]; · iapply (Entails.of_eq (pts_tcB6 (F := F) d _)); iexact Hb6
    isplitl [Hb7]; · iapply (Entails.of_eq (pts_tcB7 (F := F) d _)); iexact Hb7
    isplitl [Hb8]; · iapply (Entails.of_eq (pts_tcB8 (F := F) d _)); iexact Hb8
    iapply (Entails.of_eq (pts_tcB9 (F := F) d _)); iexact Hb9
  isplitl [Hs0 Hs1 Hs2 Hs3 Hs4 Hs5 Hs6 Hs7]
  · iapply (s_slots_join (F := F) d)
    rw [bigSep_fin8]
    isplitl [Hs0]; · iexists _; iapply (Entails.of_eq (pts_tcS0 (F := F) d _)); iexact Hs0
    isplitl [Hs1]; · iexists _; iapply (Entails.of_eq (pts_tcS1 (F := F) d _)); iexact Hs1
    isplitl [Hs2]; · iexists _; iapply (Entails.of_eq (pts_tcS2 (F := F) d _)); iexact Hs2
    isplitl [Hs3]; · iexists _; iapply (Entails.of_eq (pts_tcS3 (F := F) d _)); iexact Hs3
    isplitl [Hs4]; · iexists _; iapply (Entails.of_eq (pts_tcS4 (F := F) d _)); iexact Hs4
    isplitl [Hs5]; · iexists _; iapply (Entails.of_eq (pts_tcS5 (F := F) d _)); iexact Hs5
    isplitl [Hs6]; · iexists _; iapply (Entails.of_eq (pts_tcS6 (F := F) d _)); iexact Hs6
    iexists _; iapply (Entails.of_eq (pts_tcS7 (F := F) d _)); iexact Hs7
  isplitl [Hsems]; · iexact Hsems
  iexact HW

end Cert.Proof.KB

end
-- ==== Proof.KB.TcRegion.lean ====
/-
  The TensorCore's pallas_call as one step of @main: from `x` held at any share and the 640-row result array held
  outright, the region is entered, the kernel's ten chunk copies (64 rows each, through eight slots of its scratch,
  every copy issued and awaited on a semaphore of its own slot) run, and the region is left with the result array
  holding rows 384 … 1023 of `x`, `x` as it was, and the TensorCore owing nothing.

  The region's entry hands the TensorCore its scoped storage — the one scratch buffer, whole, and the sixteen DMA
  semaphores at zero —; the pipeline has no window and one grid point, so its program is the side condition (none)
  and one call of the kernel, whose body is the kernel's function on the three whole arrays; the exit takes the
  scoped storage back.
-/
import proofs.«212309_g71296457113957_cont_9to1_m_186_18_alg».proof.Proof.KB.TcBody

noncomputable section

namespace Cert.Proof.KB

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F]

/-- The TensorCore's one scoped buffer is the kernel's scratch. -/
theorem tc_scopedBufs (d : Dev nD) :
    (scopedBufs (SparseCore.T (τ := τ) d) : sProp 𝕄) = iprop(∃ fs : Buf (Elt F) (sLoc d), sLoc d ↦{fullShare} fs) := by
  rw [scopedBufs_tc, show (Finset.univ.filter fun b : Ref sig .tc => b.isScoped) = {cc1_scratch0} by decide, bigSep_singleton]

/-- Its scoped semaphores are the kernel's sixteen, the eight a chunk lands in a slot on and the eight a slot is
    written back on. -/
theorem tc_scopedSems (d : Dev nD) :
    (scopedSems0 (SparseCore.T (τ := τ) d) : sProp 𝕄) = iprop(semVal (SparseCore.T (τ := τ) d, SemLoc.dma tcI0.sem) 0 ∗ semVal (SparseCore.T (τ := τ) d, SemLoc.dma tcI1.sem) 0 ∗ semVal (SparseCore.T (τ := τ) d, SemLoc.dma tcI2.sem) 0 ∗ semVal (SparseCore.T (τ := τ) d, SemLoc.dma tcI3.sem) 0 ∗ semVal (SparseCore.T (τ := τ) d, SemLoc.dma tcI4.sem) 0 ∗ semVal (SparseCore.T (τ := τ) d, SemLoc.dma tcI5.sem) 0 ∗ semVal (SparseCore.T (τ := τ) d, SemLoc.dma tcI6.sem) 0 ∗ semVal (SparseCore.T (τ := τ) d, SemLoc.dma tcI7.sem) 0 ∗ semVal (SparseCore.T (τ := τ) d, SemLoc.dma tcO0.sem) 0 ∗ semVal (SparseCore.T (τ := τ) d, SemLoc.dma tcO1.sem) 0 ∗ semVal (SparseCore.T (τ := τ) d, SemLoc.dma tcO2.sem) 0 ∗ semVal (SparseCore.T (τ := τ) d, SemLoc.dma tcO3.sem) 0 ∗ semVal (SparseCore.T (τ := τ) d, SemLoc.dma tcO4.sem) 0 ∗ semVal (SparseCore.T (τ := τ) d, SemLoc.dma tcO5.sem) 0 ∗ semVal (SparseCore.T (τ := τ) d, SemLoc.dma tcO6.sem) 0 ∗ semVal (SparseCore.T (τ := τ) d, SemLoc.dma tcO7.sem) 0) := by
  rw [scopedSems0_tc, show (Finset.univ.filter fun sm : SemLoc sig => sm.isScoped .tc) = ({SemLoc.dma tcI0.sem, SemLoc.dma tcI1.sem, SemLoc.dma tcI2.sem, SemLoc.dma tcI3.sem, SemLoc.dma tcI4.sem, SemLoc.dma tcI5.sem, SemLoc.dma tcI6.sem, SemLoc.dma tcI7.sem, SemLoc.dma tcO0.sem, SemLoc.dma tcO1.sem, SemLoc.dma tcO2.sem, SemLoc.dma tcO3.sem, SemLoc.dma tcO4.sem, SemLoc.dma tcO5.sem, SemLoc.dma tcO6.sem, SemLoc.dma tcO7.sem} : Finset (SemLoc sig)) by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem tc_sems_in (d : Dev nD) : (scopedSems0 (SparseCore.T (τ := τ) d) : sProp 𝕄) ⊢ tcSems d := by
  rw [tc_scopedSems]
  iintro ⟨Hi0, Hi1, Hi2, Hi3, Hi4, Hi5, Hi6, Hi7, Ho0, Ho1, Ho2, Ho3, Ho4, Ho5, Ho6, Ho7⟩
  isplitl [Hi0 Hi1 Hi2 Hi3 Hi4 Hi5 Hi6 Hi7]
  · iframe
  · iframe

theorem tc_sems_out (d : Dev nD) : (tcSems d : sProp 𝕄) ⊢ scopedSems0 (SparseCore.T (τ := τ) d) := by
  rw [tc_scopedSems]
  iintro ⟨⟨Hi0, Hi1, Hi2, Hi3, Hi4, Hi5, Hi6, Hi7⟩, Ho0, Ho1, Ho2, Ho3, Ho4, Ho5, Ho6, Ho7⟩
  iframe

theorem tc_bufs_in (d : Dev nD) :
    (scopedBufs (SparseCore.T (τ := τ) d) : sProp 𝕄) ⊢ iprop(∃ fs : Buf (Elt F) (sLoc d), sLoc d ↦{fullShare} fs) := by
  rw [tc_scopedBufs]

theorem tc_bufs_out (d : Dev nD) :
    iprop(∃ fs : Buf (Elt F) (sLoc d), sLoc d ↦{fullShare} fs) ⊢ (scopedBufs (SparseCore.T (τ := τ) d) : sProp 𝕄) := by
  rw [tc_scopedBufs]

/-- The region's program on a grid of one point with no window: the side condition (none), then the kernel once. -/
theorem tc_prun (d : Dev nD) (q : PosShare TreeShare) (fx : Buf (Elt F) (xLoc d)) (fb : Buf (Elt F) (bLoc d))
    (fs : Buf (Elt F) (sLoc d)) (W : Waits sig (HIx 1)) (Ψ : PUnit → sProp 𝕄) :
    iprop((xLoc d ↦{q} fx) ∗ (bLoc d ↦{fullShare} fb) ∗ (sLoc d ↦{fullShare} fs) ∗ tcSems d ∗ owes (SparseCore.T (τ := τ) d) 0 W
        ∗ (((xLoc d ↦{q} fx) ∗ (bLoc d ↦{fullShare} tailRows d fx) ∗ (∃ fs', sLoc d ↦{fullShare} fs') ∗ tcSems d
              ∗ ∃ W', ⌜∀ p ∈ W', p ∈ W ∨ p.2 = none⌝ ∗ owes (SparseCore.T (τ := τ) d) 0 W') -∗ Ψ ⟨⟩))
      ⊢ wp frame (wpE (D (F := F)) 𝒱 (SparseCore.T (τ := τ) d) (some (Sum.inr 1 : (𝒱).V))) Set.univ
          (Pipeline.prun (nD := nD) (τ := τ) (pcfgs (F := F)) 0) Ψ := by
  unfold Pipeline.prun
  iintro ⟨Hx, Hb, Hs, Hsem, HO, Hk⟩
  simp only [Pipeline.Prefetch.readAll, Pipeline.Prefetch.readTables]
  iapply (wp_assume 𝒱 (SparseCore.T (τ := τ) d) _ Set.univ trivial)
  have hN : ∀ a, ((pcfgs (F := F) 0).at a).N = 1 := fun _ => rfl
  unfold Pipeline.Cfg.runAt
  simp only [hN, one_ne_zero, if_false, dite_true, ↓reduceIte, ↓reduceDIte]
  unfold Pipeline.Cfg.straight
  simp only [Pipeline.Cfg.eachWin, List.finRange_zero, List.foldr_nil]
  iapply (wp_call 𝒱 (SparseCore.T (τ := τ) d) (some (Sum.inr 1 : (𝒱).V)) Set.univ (defs := D (F := F)) (Γ := .empty)
    (ℓ := Pipeline.kernel (Λ₀ := Λ₀) (P := Fin 1) (A := fun p => (pcfgs (F := F) p).Adm) (1 : Λ₀.Label)) (k := fun _ => Prog.ret PUnit.unit) (Q := Ψ)
    (Sum.inl none : (𝒱).V) (by intro u hu; cases hu; exact Sum.Lex.sep _ _))
  iapply (Pipeline.wp_liftProg (D (F := F)) (Pipeline.defs_kernel pcfgs defs₀) 𝒱₀ (SparseCore.T (τ := τ) d) Set.univ none
    (cc1__tc_pipe tcXw (Memref.isWhole_whole _) tcBw (Memref.isWhole_whole _) tcSw (Memref.isWhole_whole _) cc1_scratch1 cc1_scratch2) _)
  iapply (wp_wand_r frame _ Set.univ)
  isplitl [Hx Hb Hs Hsem HO]
  · iapply (tc_body d q fx fb fs W)
    iframe
  · iintro %_ Hpost
    rw [wp_ret]
    imodintro
    iapply Hk
    iexact Hpost

/-- The region's call in the pipelines' body table: the entry takes the scoped buffers, the region's program runs
    from the scratch and the semaphores they and the boundary hold, and the exit is handed the semaphores at zero
    and the scratch back. -/
theorem tc_entry (d : Dev nD) (q : PosShare TreeShare) (fx : Buf (Elt F) (xLoc d)) (W : Waits sig (HIx 1))
    {Φ : PUnit → sProp 𝕄} :
    iprop(boundary (T d) ∗ (xLoc d ↦{q} fx) ∗ (∃ fb, bLoc d ↦{fullShare} fb) ∗ owes (T d) 0 W
        ∗ ((boundary (T d) ∗ (xLoc d ↦{q} fx) ∗ (bLoc d ↦{fullShare} tailRows d fx)
              ∗ ∃ W', ⌜∀ p ∈ W', p ∈ W ∨ p.2 = none⌝ ∗ owes (T d) 0 W') -∗ Φ ⟨⟩))
      ⊢ wp frame (wpE (D (F := F)) 𝒱 (T d) none) Set.univ
          (Prog.lift (.customCall (Pipeline.entry (Λ₀ := Λ₀) (P := Fin 1) (A := fun p => (pcfgs (F := F) p).Adm) 0) ())) Φ := by
  unfold boundary
  iintro ⟨⟨Hsb, Hss, Hid⟩, Hx, ⟨%fb, Hb⟩, HO, Hk⟩
  iapply (wp_customCall 𝒱 (T d) none Set.univ (defs := D (F := F)) (Γ := .empty)
    (ℓ := Pipeline.entry (Λ₀ := Λ₀) (P := Fin 1) (A := fun p => (pcfgs (F := F) p).Adm) 0) (a := ()) (k := Prog.ret) (Q := Φ)
    (Sum.inr 1 : (𝒱).V) (by intro u hu; cases hu)) $$ Hsb
  iintro Hsb
  ihave Hs := (tc_bufs_in d) $$ Hsb
  icases Hs with ⟨%fs, Hs⟩
  ihave Hsem := (tc_sems_in d) $$ Hss
  iapply (tc_prun d q fx fb fs W _)
  isplitl [Hx]; · iexact Hx
  isplitl [Hb]; · iexact Hb
  isplitl [Hs]; · iexact Hs
  isplitl [Hsem]; · iexact Hsem
  isplitl [HO]; · iexact HO
  iintro ⟨Hx, Hb, Hs, Hsem, HW⟩
  rw [kernelExitSpec_apply]
  ihave Hss := (tc_sems_out d) $$ Hsem
  isplitl [Hss]; · iexact Hss
  iintro Hss
  ihave Hsb := (tc_bufs_out d) $$ Hs
  isplitl [Hsb]; · iexact Hsb
  iintro Hsb
  rw [wp_ret]
  imodintro
  iapply Hk
  isplitl [Hsb Hss Hid]
  · isplitl [Hsb]; · iexact Hsb
    isplitl [Hss]; · iexact Hss
    iexact Hid
  isplitl [Hx]; · iexact Hx
  isplitl [Hb]; · iexact Hb
  iexact HW

/-- The region as @main runs it on device `d`'s TensorCore: the same call, lifted to the body table that also
    holds the SparseCore dispatch. -/
theorem tc_region [∀ e, Nonempty (Elt F e)] (d : Dev nD) (q : PosShare TreeShare) (fx : Buf (Elt F) (xLoc d)) (W : Waits sig (HIx 1))
    {Φ : PUnit → sProp 𝕄} :
    iprop(boundary (T d) ∗ (xLoc d ↦{q} fx) ∗ (∃ fb, bLoc d ↦{fullShare} fb) ∗ owes (T d) 0 W
        ∗ ((boundary (T d) ∗ (xLoc d ↦{q} fx) ∗ (bLoc d ↦{fullShare} tailRows d fx)
              ∗ ∃ W', ⌜∀ p ∈ W', p ∈ W ∨ p.2 = none⌝ ∗ owes (T d) 0 W') -∗ Φ ⟨⟩))
      ⊢ wp frame (wpE ((K (F := F)).defs (D (F := F))) 𝒱 (T d) none) Set.univ
          (Prog.lift (.customCall (SparseCore.inner (Pipeline.entry 0)) ())) Φ := by
  exact (tc_entry d q fx W).trans (SparseCore.Cfg.wp_liftProg (K (F := F)) (D (F := F)) 𝒱 (T d) (Name := ℕ) (U := UU) (nD := nD) Set.univ none
      (Prog.lift (.customCall (Pipeline.entry (Λ₀ := Λ₀) (P := Fin 1) (A := fun p => (pcfgs (F := F) p).Adm) 0) ())) Φ)

end Cert.Proof.KB
end
-- ==== Proof.KB.Main.lean ====
/-
  The printed kernel's run: @main on the TensorCore starts the SparseCore call on the first 384 rows of `x` and the
  384-row result, gets the rows back with the result holding `x`'s, runs its own kernel's region on the last 640
  rows, and concatenates the two results — which is `x`, since row j of the concatenation is row j of the first
  piece below 384 and row j - 384 of the second from there on. The launch theorem turns the tasks' and @main's
  proofs into a statement about every weakly fair execution of the device's threads.
-/
import proofs.«212309_g71296457113957_cont_9to1_m_186_18_alg».proof.Proof.KB.Obl
import proofs.«212309_g71296457113957_cont_9to1_m_186_18_alg».proof.Proof.KB.TcRegion
import Idealize.ShloMosaic.Lib.Pipeline.Value

noncomputable section

namespace Cert.Proof.KB

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

open Idealize.ShloMosaic.StableHlo (held held_split held_sdiff_result wp_hlo_within)

/-! ## The concatenation of the two pieces is `x` -/

theorem upA_eq {i : S384x50x512.Idx} {j : S1024x50x512.Idx} (h : ∀ a, (i a).val = (j a).val) : upA i = j :=
  funext fun a => Fin.ext (h a)

theorem upB_eq {i : S640x50x512.Idx} {j : S1024x50x512.Idx} (h0 : (i 0).val + 384 = (j 0).val) (h1 : (i 1).val = (j 1).val)
    (h2 : (i 2).val = (j 2).val) : upB i = j :=
  funext fun a => Fin.ext (by match a with | 0 => exact h0 | 1 => exact h1 | 2 => exact h2)

/-- Rows 0 … 383 followed by rows 384 … 1023 are the array. -/
theorem cat_rows (d : Dev nD) (fx : Buf (Elt F) (xLoc d)) :
    concatenate S1024x50x512 0 [⟨S384x50x512, headRows d fx⟩, ⟨S640x50x512, tailRows d fx⟩]
      concatenates_S384x50x512_S640x50x512_S1024x50x512_d0 = fx := by
  funext j
  by_cases h : (j 0).val < 384
  · let i : S384x50x512.Idx := fun a => ⟨(j a).val, by
      match a with
      | 0 => exact h
      | 1 => exact (j 1).isLt
      | 2 => exact (j 2).isLt⟩
    refine (concatenate_pair_apply_left (t := S1024x50x512) (s₁ := S384x50x512) (s₂ := S640x50x512) (0 : Fin 3) (headRows d fx) (tailRows d fx)
      concatenates_S384x50x512_S640x50x512_S1024x50x512_d0 j rfl i (fun b => rfl)).trans ?_
    exact congrArg fx (upA_eq fun a => rfl)
  · have hj : (j 0).val < 1024 := (j 0).isLt
    let i : S640x50x512.Idx := fun a => match a with
      | 0 => ⟨(j 0).val - 384, by show (j 0).val - 384 < 640; omega⟩
      | 1 => ⟨(j 1).val, (j 1).isLt⟩
      | 2 => ⟨(j 2).val, (j 2).isLt⟩
    have hi : ∀ b : Fin 3, b ≠ 0 → (i b).val = (j b).val := fun b hb => by
      match b with
      | 0 => exact absurd rfl hb
      | 1 => rfl
      | 2 => rfl
    have ha : (i 0).val + 384 = (j 0).val := by show (j 0).val - 384 + 384 = (j 0).val; omega
    refine (concatenate_pair_apply_right (t := S1024x50x512) (s₁ := S384x50x512) (s₂ := S640x50x512) (0 : Fin 3) (headRows d fx) (tailRows d fx)
      concatenates_S384x50x512_S640x50x512_S1024x50x512_d0 j rfl rfl i hi ha).trans ?_
    exact congrArg fx (upB_eq ha rfl rfl)

variable (m : (ℓ : Loc nD τ sig) → Buf (Elt F) ℓ) (ρ : Dev nD → PrngReg)

/-! ## The arrays as rows -/

/-- The tasks' rows, as one family: SparseCore, subcore, row of the task. -/
abbrev Tk : Type := Fin 2 × Fin 16 × Fin 12
abbrev rowT (t : Tk) : ℕ := rowOf t.1.val t.2.1.val t.2.2.val

/-- The rows of `x` no task reads. -/
def xRest : Finset S1024x50x512.Idx := Finset.univ.filter fun j => 384 ≤ (j 0).val

theorem rowT_inj {t t' : Tk} (h : t ≠ t') : rowT t ≠ rowT t' := by
  obtain ⟨c, i, r⟩ := t; obtain ⟨c', i', r'⟩ := t'
  intro e
  apply h
  have hc := c.isLt; have hc' := c'.isLt; have hr := r.isLt; have hr' := r'.isLt
  simp only [rowT, rowOf] at e
  have h1 : i.val = i'.val := by omega
  have h2 : c.val = c'.val := by omega
  have h3 : r.val = r'.val := by omega
  exact Prod.ext (Fin.ext h2) (Prod.ext (Fin.ext h1) (Fin.ext h3))

theorem rowT_lt (t : Tk) : rowT t < 384 := by
  obtain ⟨c, i, r⟩ := t
  have hc := c.isLt; have hi := i.isLt; have hr := r.isLt
  simp only [rowT, rowOf]; omega

theorem exists_rowT {n : ℕ} (h : n < 384) : ∃ t : Tk, rowT t = n :=
  ⟨(⟨n % 24 / 12, by omega⟩, ⟨n / 24, by omega⟩, ⟨n % 12, by omega⟩), by simp only [rowT, rowOf]; omega⟩

theorem x_rows_disjoint : ∀ t ∈ (Finset.univ : Finset Tk), ∀ t' ∈ (Finset.univ : Finset Tk), t ≠ t' → Disjoint (xRowSet (rowT t)) (xRowSet (rowT t')) :=
  fun _ _ _ _ h => xRowSet_disjoint (rowT_inj h)
theorem a_rows_disjoint : ∀ t ∈ (Finset.univ : Finset Tk), ∀ t' ∈ (Finset.univ : Finset Tk), t ≠ t' → Disjoint (aRowSet (rowT t)) (aRowSet (rowT t')) :=
  fun _ _ _ _ h => aRowSet_disjoint (rowT_inj h)

theorem x_rows_rest_disjoint : Disjoint ((Finset.univ : Finset Tk).biUnion fun t => xRowSet (rowT t)) xRest := by
  refine Finset.disjoint_left.mpr fun j hj hr => ?_
  obtain ⟨t, -, ht⟩ := Finset.mem_biUnion.mp hj
  have h1 : (j 0).val = rowT t := (Finset.mem_filter.mp ht).2
  have h2 : 384 ≤ (j 0).val := (Finset.mem_filter.mp hr).2
  have := rowT_lt t; omega

theorem x_rows_cover : ((Finset.univ : Finset Tk).biUnion fun t => xRowSet (rowT t)) ∪ xRest = Finset.univ := by
  ext j
  simp only [Finset.mem_union, Finset.mem_biUnion, Finset.mem_univ, true_and, iff_true]
  by_cases h : (j 0).val < 384
  · obtain ⟨t, ht⟩ := exists_rowT h
    exact .inl ⟨t, Finset.mem_filter.mpr ⟨Finset.mem_univ _, ht.symm⟩⟩
  · exact .inr (Finset.mem_filter.mpr ⟨Finset.mem_univ _, by omega⟩)

theorem a_rows_cover : ((Finset.univ : Finset Tk).biUnion fun t => aRowSet (rowT t)) = Finset.univ := by
  ext j
  simp only [Finset.mem_biUnion, Finset.mem_univ, true_and, iff_true]
  have h : (j 0).val < 384 := (j 0).isLt
  obtain ⟨t, ht⟩ := exists_rowT h
  exact ⟨t, Finset.mem_filter.mpr ⟨Finset.mem_univ _, ht.symm⟩⟩

theorem x_split (d : Dev nD) (f : Buf (Elt F) (xLoc d)) :
    (xLoc d ↦{fullShare} f : sProp 𝕄)
      = iprop((bigSep (Finset.univ : Finset Tk) fun t => xLoc d ↦[xRowSet (rowT t)]{fullShare} f) ∗ xLoc d ↦[xRest]{fullShare} f) := by
  have hu := pointsTo_union (nD := nD) (τ := τ) (sig := sig) (Ix := HIx 1) (Val := Elt F) (Name := ℕ) (U := UU) (Lvl := ℕ)
    (ℓ := xLoc d) (q := fullShare) (f := f) x_rows_rest_disjoint
  rw [← pointsTo_biUnion Finset.univ (ℓ := xLoc d) (fun t : Tk => xRowSet (rowT t)) x_rows_disjoint, ← BI.equiv_iff.mp ⟨hu.1, hu.2⟩, x_rows_cover]

theorem a_split (d : Dev nD) (f : Buf (Elt F) (aLoc d)) :
    (aLoc d ↦{fullShare} f : sProp 𝕄) = bigSep (Finset.univ : Finset Tk) fun t => aLoc d ↦[aRowSet (rowT t)]{fullShare} f := by
  rw [← pointsTo_biUnion Finset.univ (ℓ := aLoc d) (fun t : Tk => aRowSet (rowT t)) a_rows_disjoint, a_rows_cover]

theorem nest (Φ : Tk → sProp 𝕄) :
    bigSep (Finset.univ : Finset Tk) Φ = bigSep Finset.univ fun c : Fin 2 => bigSep Finset.univ fun i : Fin 16 => bigSep Finset.univ fun r : Fin 12 => Φ (c, i, r) := by
  rw [bigSep_univ_prod]
  exact bigSep_congr fun c _ => bigSep_univ_prod _

/-- What the call takes for the two SparseCores, as the rows of the two arrays. -/
theorem st_eq (d : Dev nD) :
    (bigSep Finset.univ fun c : Fin ((K (F := F)).nCore 0) => (P m).st 0 d c)
      = iprop((bigSep (Finset.univ : Finset Tk) fun t => xLoc d ↦[xRowSet (rowT t)]{fullShare} m (xLoc d))
          ∗ bigSep (Finset.univ : Finset Tk) fun t => aLoc d ↦[aRowSet (rowT t)]{fullShare} m (aLoc d)) := by
  rw [nest, nest, ← bigSep_sep' (Finset.univ : Finset (Fin 2))]
  refine bigSep_congr fun c _ => ?_
  rw [← bigSep_sep' (Finset.univ : Finset (Fin 16))]
  rfl
/-- What it hands back. -/
theorem dn_eq (d : Dev nD) :
    (bigSep Finset.univ fun c : Fin ((K (F := F)).nCore 0) => (P m).dn 0 d c)
      = iprop((bigSep (Finset.univ : Finset Tk) fun t => xLoc d ↦[xRowSet (rowT t)]{fullShare} m (xLoc d))
          ∗ bigSep (Finset.univ : Finset Tk) fun t => aLoc d ↦[aRowSet (rowT t)]{fullShare} headRows d (m (xLoc d))) := by
  rw [nest, nest, ← bigSep_sep' (Finset.univ : Finset (Fin 2))]
  refine bigSep_congr fun c _ => ?_
  rw [← bigSep_sep' (Finset.univ : Finset (Fin 16))]
  rfl

/-! ## The launch element: the handshakes' rounds; nothing of the kernels' own -/

def u₀ : UU := (initOf (K (F := F)).hsCells (K (F := F)).hsToks, 1)

theorem bigSep_emp' {I : Type} (s : Finset I) : (bigSep s fun _ => iprop(emp)) = (iprop(emp) : sProp 𝕄) := bigSep_emp_const s

variable [FloatOps F]

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a' : DevRef τ sig := Proc.devRef .tc (main_v0 : Ref sig .tc)
abbrev b' : DevRef τ sig := Proc.devRef .tc (main_v1 : Ref sig .tc)
abbrev r' : DevRef τ sig := Proc.devRef .tc (main_v2 : Ref sig .tc)
abbrev opCat : HloOp τ sig (Elt F) :=
  StableHlo.binary main_v0 main_v1 main_v2 ((fun a b => concatenate S1024x50x512 0 [⟨S384x50x512, a⟩, ⟨S640x50x512, b⟩] concatenates_S384x50x512_S640x50x512_S1024x50x512_d0) : (⟨S384x50x512, .f32⟩ : BufTy).Contents (Elt F) → (⟨S640x50x512, .f32⟩ : BufTy).Contents (Elt F) → (⟨S1024x50x512, .f32⟩ : BufTy).Contents (Elt F))

/-- The three arrays the concatenation touches. -/
abbrev S3 : Finset (DevRef τ sig) := {a', b', r'}

omit [FloatOps F] in
theorem held_S3 (d : Dev nD) (W : Valuation τ sig (Elt F)) :
    (held (T d) S3 W : sProp 𝕄) = iprop((aLoc d ↦{fullShare} W a') ∗ (bLoc d ↦{fullShare} W b') ∗ rLoc d ↦{fullShare} W r') := by
  unfold held S3
  rw [SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((xLoc d ↦{fullShare} W main_arg0) ∗ ((SparseCore.T d).loc main_arg1 ↦{fullShare} W main_arg1)
          ∗ ((SparseCore.T d).loc main_arg2 ↦{fullShare} W main_arg2) ∗ (aLoc d ↦{fullShare} W main_v0)
          ∗ (bLoc d ↦{fullShare} W main_v1) ∗ rLoc d ↦{fullShare} W main_v2) := by
  unfold unscopedBufs
  rw [show (Finset.univ.filter fun b : Ref sig .tc => ¬ b.isScoped) = {main_arg0, main_arg1, main_arg2, main_v0, main_v1, main_v2} by decide,
    SparseCore.bigSep_insert' (by decide), SparseCore.bigSep_insert' (by decide), SparseCore.bigSep_insert' (by decide),
    SparseCore.bigSep_insert' (by decide), SparseCore.bigSep_insert' (by decide), bigSep_singleton]

/-- The valuation the concatenation runs at: the two pieces at what the kernels left. -/
def V0 (d : Dev nD) : Valuation τ sig (Elt F) := fun b => m (d, b)
def V1 (d : Dev nD) : Valuation τ sig (Elt F) :=
  Function.update (Function.update (V0 m d) a' (headRows d (m (xLoc d)))) b' (tailRows d (m (xLoc d)))

theorem V1_a (d : Dev nD) : V1 m d a' = headRows d (m (xLoc d)) :=
  (Function.update_of_ne (show a' ≠ b' by decide) _ _).trans (Function.update_self _ _ _)
theorem V1_b (d : Dev nD) : V1 m d b' = tailRows d (m (xLoc d)) := Function.update_self _ _ _
theorem V1_r (d : Dev nD) : V1 m d r' = V0 m d r' :=
  (Function.update_of_ne (show r' ≠ b' by decide) _ _).trans (Function.update_of_ne (show r' ≠ a' by decide) _ _)

theorem hCat : (opCat (F := F)).bufs ⊆ S3 := show ({a', b', r'} : Finset (DevRef τ sig)) ⊆ S3 by decide

/-- After the concatenation the result array holds `x`. -/
theorem cat_result (d : Dev nD) : (opCat (F := F)).result (V1 m d) r' = m (xLoc d) := by
  refine (StableHlo.binary_result main_v0 main_v1 main_v2 _ _ _ _ (V1 m d)).trans ?_
  show concatenate S1024x50x512 0 [⟨S384x50x512, V1 m d a'⟩, ⟨S640x50x512, V1 m d b'⟩] _ = _
  rw [V1_a, V1_b]
  exact cat_rows d (m (xLoc d))

/-- The TensorCore's handshake state after the one call: it owes nothing more, and may record any wait at the
    kernels' own index. -/
theorem tcSt_owes (d : Dev nD) :
    ((K (F := F)).tcSt EH d ((0 : Fin 1).val + 1) : sProp 𝕄)
      ⊢ iprop(∃ W, owes (T d) 0 W ∗ (∀ W', ⌜∀ p ∈ W', p ∈ W ∨ p.2 = none⌝ -∗ owes (T d) 0 W' -∗ (K (F := F)).tcSt EH d 1)) := by
  unfold SparseCore.Cfg.tcSt
  rw [(K (F := F)).Otc_end d (show 1 ≤ (0 : Fin 1).val + 1 from le_refl 1)]
  iintro ⟨⟨%W, %hW, HO⟩, Hrest⟩
  iexists W
  isplitl [HO]; · iexact HO
  iintro %W' %hW' HO
  isplitl [HO]
  · iexists W'
    isplitr
    · ipureintro
      intro p hp
      rcases hW' p hp with h | h
      · exact hW p h
      · rw [h]; exact Nat.zero_le _
    · iexact HO
  · iexact Hrest

/-- What @main leaves the claim: the three arguments at their launch contents, the result at `x`'s. -/
abbrev FIN (d : Dev nD) : sProp 𝕄 :=
  iprop((xLoc d ↦{fullShare} m (xLoc d)) ∗ ((SparseCore.T d).loc main_arg1 ↦{fullShare} m ((SparseCore.T d).loc main_arg1))
    ∗ ((SparseCore.T d).loc main_arg2 ↦{fullShare} m ((SparseCore.T d).loc main_arg2)) ∗ rLoc d ↦{fullShare} m (xLoc d))

set_option maxHeartbeats 1000000 in
/-- @main on device `d`'s TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, H1, H2, Ha, Hbb, Hr⟩, -, -⟩, -⟩
  ihave Hx' := (Entails.of_eq (x_split (F := F) d _)) $$ Hx
  icases Hx' with ⟨Hxr, Hxrest⟩
  ihave Ha' := (Entails.of_eq (a_split (F := F) d _)) $$ Ha
  -- the SparseCore call: the first 384 rows of `x` and the result's rows out, and back
  iapply ((K (F := F)).wp_run (D (F := F)) 𝒱 (EH := EH) (P := P m) κ d 0) $$ [Hst Hxr Ha' Hxrest Hb H1 H2 Hbb Hr]
  isplitr; · iexact Hctx
  isplitl [Hst]; · iexact Hst
  isplitl [Hxr Ha']
  · rw [st_eq]
    isplitl [Hxr]; · iexact Hxr
    iexact Ha'
  iintro ⟨Hst, Hdn⟩
  ihave Hdn' := (Entails.of_eq (dn_eq m d)) $$ Hdn
  icases Hdn' with ⟨Hxr, Ha'⟩
  ihave Hx := (Entails.of_eq (x_split (F := F) d (m (xLoc d))).symm) $$ [Hxr Hxrest]
  · isplitl [Hxr]; · iexact Hxr
    iexact Hxrest
  ihave Ha := (Entails.of_eq (a_split (F := F) d (headRows d (m (xLoc d)))).symm) $$ Ha'
  -- the TensorCore's own region: the last 640 rows
  ihave Hst' := (tcSt_owes (F := F) d) $$ Hst
  icases Hst' with ⟨%W, HO, Hback⟩
  iapply (tc_region (F := F) d fullShare (m (xLoc d)) W) $$ [Hb Hx Hbb HO Hback Ha H1 H2 Hr]
  isplitl [Hb]; · iexact Hb
  isplitl [Hx]; · iexact Hx
  isplitl [Hbb]; · iexists _; iexact Hbb
  isplitl [HO]; · iexact HO
  iintro ⟨Hb, Hx, Hbb, %W', %hW', HO⟩
  ihave Hst := Hback $$ [] [HO]
  · ipureintro; exact hW'
  · iexact HO
  -- the concatenation
  iapply (wp_hlo_within 𝒱 (SparseCore.T d) none Set.univ (op := opCat) (S := S3) hCat (V := V1 m d)) $$ [Hb Ha Hbb Hr]
  · isplitl [Hb]; · iexact Hb
    rw [held_S3, V1_a, V1_b, V1_r]
    isplitl [Ha]; · iexact Ha
    isplitl [Hbb]; · iexact Hbb
    iexact Hr
  iintro ⟨Hb, Hheld⟩
  ihave Hh := (Entails.of_eq (held_S3 (F := F) d _)) $$ Hheld
  icases Hh with ⟨-, -, Hr⟩
  rw [cat_result]
  rw [wp_ret]; imodintro; imodintro
  isplitl [Hst]; · iexact Hst
  isplitl [Hx]; · iexact Hx
  isplitl [H1]; · iexact H1
  isplitl [H2]; · iexact H2
  iexact Hr

def fq (d : Dev nD) (s' : Phys nD τ sig (Elt F)) : Prop :=
  s'.mem.mem (xLoc d) = m (xLoc d) ∧ s'.mem.mem ((SparseCore.T d).loc main_arg1) = m ((SparseCore.T d).loc main_arg1)
    ∧ s'.mem.mem ((SparseCore.T d).loc main_arg2) = m ((SparseCore.T d).loc main_arg2) ∧ s'.mem.mem (rLoc d) = m (xLoc d)

omit [FloatOps F] in
theorem agree_whole (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%h, HSI, -⟩
  isplitr
  · ipureintro; exact funext fun i => h i (Finset.mem_univ i)
  · iexact HSI

omit [FloatOps F] in
theorem hfin (d : Dev nD) (s' : Phys nD τ sig (Elt F)) : iprop(FIN m d ∗ SI s') ⊢ (⌜fq m d s'⌝ : sProp 𝕄) := by
  iintro ⟨⟨Hx, H1, H2, Hr⟩, HSI⟩
  ihave H := (agree_whole (F := F) s' _ _) $$ [Hx HSI]
  · isplitl [Hx] <;> iassumption
  icases H with ⟨%hx, HSI⟩
  ihave H := (agree_whole (F := F) s' _ _) $$ [H1 HSI]
  · isplitl [H1] <;> iassumption
  icases H with ⟨%h1, HSI⟩
  ihave H := (agree_whole (F := F) s' _ _) $$ [H2 HSI]
  · isplitl [H2] <;> iassumption
  icases H with ⟨%h2, HSI⟩
  ihave H := (agree_whole (F := F) s' _ _) $$ [Hr HSI]
  · isplitl [Hr] <;> iassumption
  icases H with ⟨%hr, -⟩
  ipureintro; exact ⟨hx, h1, h2, hr⟩

/-! ## The program's run -/

def QC : PUnit × MemSt nD τ sig (Elt F) → Prop := fun r => ∀ c : Dev nD,
  r.2.mem (xLoc c) = m (xLoc c) ∧ r.2.mem ((SparseCore.T c).loc main_arg1) = m ((SparseCore.T c).loc main_arg1)
    ∧ r.2.mem ((SparseCore.T c).loc main_arg2) = m ((SparseCore.T c).loc main_arg2) ∧ r.2.mem (rLoc c) = m (xLoc c)

/-- Every weakly fair execution of the device's threads terminates, nothing faulting, with the arguments unchanged and
    the result equal to `x`. -/
theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.Ref.lean ====
/-
  The reference's run: its @main returns its first argument and does nothing else, so every execution ends at once
  with every array as it was.
-/
import proofs.«212309_g71296457113957_cont_9to1_m_186_18_alg».proof.Defs
import proofs.«212309_g71296457113957_cont_9to1_m_186_18_alg».proof.Proof.Gen.ReferenceIdeal
import Idealize.ShloMosaic.Lib.StableHlo.Run

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- @main has no operation. -/
abbrev ops : List (HloOp τ sig (Elt F)) := []

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

/-- Every weakly fair execution terminates with every array of the TensorCore at its launch contents. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = m ((c.tc : Thread nD τ).loc b) :=
  (θ_run defs _ _).mono (fun _ h c b => (h c b).trans rfl)
    (run_seq scopedRefs_eq scopedSems_eq defs main (fun _ => ops) main_eq (fun _ => trivial) m ρ)

end Cert.Proof.Ref

end
-- ==== Proof.lean ====
/-
  The certificate's five claims. The kernel is the identity on `x`: sixteen vector subcores on each of two SparseCores
  copy rows 0 … 383 row by row, twelve rows each, the TensorCore's own kernel copies rows 384 … 1023 in ten chunks of 64
  rows, and @main concatenates the two pieces. The reference returns `x`. No arithmetic is done on any element, so the
  two results are equal as extended reals element by element whatever the inputs are; the frames — every weakly fair
  execution of the device's threads terminates, nothing faulting, the arguments unchanged — are the same run with the
  result's value dropped, once at the word-level instance and once at the ideal one. The idealized program is the
  printed one read at the exact instance, no operation of it rewritten, so there is nothing to preserve.
-/
import proofs.«212309_g71296457113957_cont_9to1_m_186_18_alg».proof.Defs
import proofs.«212309_g71296457113957_cont_9to1_m_186_18_alg».proof.Proof.Gen.Kernel
import proofs.«212309_g71296457113957_cont_9to1_m_186_18_alg».proof.Proof.Gen.KernelIdeal
import proofs.«212309_g71296457113957_cont_9to1_m_186_18_alg».proof.Proof.Gen.ReferenceIdeal
import proofs.«212309_g71296457113957_cont_9to1_m_186_18_alg».proof.Proof.Gen.Pre_finite_inputs
import proofs.«212309_g71296457113957_cont_9to1_m_186_18_alg».proof.Proof.KI.Main
import proofs.«212309_g71296457113957_cont_9to1_m_186_18_alg».proof.Proof.KB.Main
import proofs.«212309_g71296457113957_cont_9to1_m_186_18_alg».proof.Proof.Ref
import Idealize.ShloMosaic.Adequacy
import Idealize.ShloMosaic.Init

noncomputable section

namespace Cert.Proof

open Idealize.ShloMosaic Idealize.SL.Sem

theorem frame_kernel : Cert.frame_Kernel := fun m g _ =>
  (θ_run Cert.Kernel.defs _ _).mono (fun _ h c => ⟨(h c).1, (h c).2.1, (h c).2.2.1⟩) (Cert.Proof.KB.run_main (F := Bits) m g)

theorem frame_kernelIdeal : Cert.frame_KernelIdeal := fun m g _ =>
  (θ_run Cert.KernelIdeal.defs _ _).mono (fun _ h c => ⟨(h c).1, (h c).2.1, (h c).2.2.1⟩) (Cert.Proof.KI.run_main (F := Ideal) m g)

theorem frame_referenceIdeal : Cert.frame_ReferenceIdeal := fun m g _ =>
  (θ_run Cert.ReferenceIdeal.defs _ _).mono
    (fun _ h c => ⟨h c Cert.ReferenceIdeal.main_arg0, h c Cert.ReferenceIdeal.main_arg1, h c Cert.ReferenceIdeal.main_arg2⟩)
    (Cert.Proof.Ref.run (F := Ideal) m g)

/-- Both programs end with `x` in their result, from memories that agree on `x`. -/
theorem algebraic : Cert.algebraic_KernelIdeal_ReferenceIdeal := by
  intro m g m' g' _ hagree
  refine ⟨fun c => m ((c.tc : Thread Cert.KernelIdeal.nD Cert.KernelIdeal.τ).loc Cert.KernelIdeal.main_arg0), ?_, ?_⟩
  · exact (θ_run Cert.KernelIdeal.defs _ _).mono (fun _ h c => ⟨(h c).2.2.2, (h c).1, (h c).2.1, (h c).2.2.1⟩)
      (Cert.Proof.KI.run_main (F := Ideal) m g)
  · exact (θ_run Cert.ReferenceIdeal.defs _ _).mono
      (fun _ h c => ⟨(h c Cert.ReferenceIdeal.main_arg0).trans (hagree c).1, h c Cert.ReferenceIdeal.main_arg0,
        h c Cert.ReferenceIdeal.main_arg1, h c Cert.ReferenceIdeal.main_arg2⟩)
      (Cert.Proof.Ref.run (F := Ideal) m' g')

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
